-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x4096 : Shape := ⟨2, ![8192, 4096]⟩
abbrev S4096 : Shape := ⟨1, ![4096]⟩
abbrev S4096x8192 : Shape := ⟨2, ![4096, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x8192 .f32) (main_arg1 : FVec F S8192x4096 .f32) (main_arg2 : FVec F S4096 .f32) (main_arg3 : FVec F S4096x8192 .f32) (main_arg4 : FVec F S8192 .f32) (main_arg5 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_v13 main_v16
-- ==== Kernel.lean ====
abbrev S8192x8192 : Shape := ⟨2, ![8192, 8192]⟩
abbrev S8192x4096 : Shape := ⟨2, ![8192, 4096]⟩
abbrev S4096 : Shape := ⟨1, ![4096]⟩
abbrev S4096x8192 : Shape := ⟨2, ![4096, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1x4096 : Shape := ⟨2, ![1, 4096]⟩
abbrev S1x8192 : Shape := ⟨2, ![1, 8192]⟩
abbrev S1024x2048 : Shape := ⟨2, ![1024, 2048]⟩
abbrev S2048x1024 : Shape := ⟨2, ![2048, 1024]⟩
abbrev S1024x1 : Shape := ⟨2, ![1024, 1]⟩
abbrev S1x1024 : Shape := ⟨2, ![1, 1024]⟩
abbrev S1024x1024 : Shape := ⟨2, ![1024, 1024]⟩
abbrev S8x8192 : Shape := ⟨2, ![8, 8192]⟩
abbrev S8 : Shape := ⟨1, ![8]⟩
abbrev S8x1 : Shape := ⟨2, ![8, 1]⟩

abbrev nBuf : Space → Nat
  | .hbm => 65
  | .vmem => 44
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S4096, .f32⟩
  | .hbm, ⟨3, _⟩ => ⟨S4096x8192, .f32⟩
  | .hbm, ⟨4, _⟩ => ⟨S8192, .f32⟩
  | .hbm, ⟨5, _⟩ => ⟨S8192, .i32⟩
  | .hbm, ⟨6, _⟩ => ⟨S8192, .i32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S8192x8192, .f32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x1, .i32⟩
  | .hbm, ⟨27, _⟩ => ⟨S8192x2, .i32⟩
  | .hbm, ⟨28, _⟩ => ⟨S_, .f32⟩
  | .hbm, ⟨29, _⟩ => ⟨S8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x8192, .bf16⟩
  | .hbm, ⟨36, _⟩ => ⟨S8192x8192, .bf16⟩
  | .hbm, ⟨37, _⟩ => ⟨S8192x4096, .bf16⟩
  | .hbm, ⟨38, _⟩ => ⟨S4096x8192, .bf16⟩
  | .hbm, ⟨39, _⟩ => ⟨S_, .f32⟩
  | .hbm, ⟨40, _⟩ => ⟨S1x4096, .f32⟩
  | .hbm, ⟨41, _⟩ => ⟨S_, .f32⟩
  | .hbm, ⟨42, _⟩ => ⟨S1x8192, .f32⟩
  | .hbm, ⟨43, _⟩ => ⟨S1x4096, .f32⟩
  | .hbm, ⟨44, _⟩ => ⟨S1x8192, .f32⟩
  | .hbm, ⟨45, _⟩ => ⟨S8192x4096, .bf16⟩
  | .hbm, ⟨46, _⟩ => ⟨S8192x4096, .bf16⟩
  | .hbm, ⟨47, _⟩ => ⟨S8192x8192, .bf16⟩
  | .hbm, ⟨48, _⟩ => ⟨S8192x8192, .f32⟩
  | .hbm, ⟨49, _⟩ => ⟨S_, .f32⟩
  | .hbm, ⟨50, _⟩ => ⟨S8x8192, .f32⟩
  | .hbm, ⟨51, _⟩ => ⟨S8192x1, .i32⟩
  | .hbm, ⟨52, _⟩ => ⟨S8x8192, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8, .f32⟩
  | .hbm, ⟨57, _⟩ => ⟨S8192x1, .i32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8x1, .f32⟩
  | .hbm, ⟨63, _⟩ => ⟨S8x8192, .f32⟩
  | .hbm, ⟨64, _⟩ => ⟨S8x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x2048, .bf16⟩
  | .local _ .vmem, ⟨23, _⟩ => ⟨S1024x2048, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1, .f32⟩
  | .local _ .vmem, ⟨27, _⟩ => ⟨S1024x1, .f32⟩
  | .local _ .vmem, ⟨28, _⟩ => ⟨S1x1024, .f32⟩
  | .local _ .vmem, ⟨29, _⟩ => ⟨S1x1024, .f32⟩
  | .local _ .vmem, ⟨30, _⟩ => ⟨S1024x1024, .bf16⟩
  | .local _ .vmem, ⟨31, _⟩ => ⟨S1024x1024, .bf16⟩
  | .local _ .vmem, ⟨32, _⟩ => ⟨S1024x1024, .f32⟩
  | .local _ .vmem, ⟨33, _⟩ => ⟨S2048x1024, .bf16⟩
  | .local _ .vmem, ⟨34, _⟩ => ⟨S2048x1024, .bf16⟩
  | .local _ .vmem, ⟨35, _⟩ => ⟨S2048x1024, .bf16⟩
  | .local _ .vmem, ⟨36, _⟩ => ⟨S2048x1024, .bf16⟩
  | .local _ .vmem, ⟨37, _⟩ => ⟨S1024x1, .f32⟩
  | .local _ .vmem, ⟨38, _⟩ => ⟨S1024x1, .f32⟩
  | .local _ .vmem, ⟨39, _⟩ => ⟨S1x1024, .f32⟩
  | .local _ .vmem, ⟨40, _⟩ => ⟨S1x1024, .f32⟩
  | .local _ .vmem, ⟨41, _⟩ => ⟨S1024x1024, .f32⟩
  | .local _ .vmem, ⟨42, _⟩ => ⟨S1024x1024, .f32⟩
  | .local _ .vmem, ⟨43, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![8, 8, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨3, ![8, 8, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, false]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

class Facts₀ : Prop where
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d0 : S8192x8192.ReducesTo [0] S8192
  h_S_ : 0 < S_.numel
  shapeCasts_S8192_S8192x1 : S8192.ShapeCasts S8192x1
  bitsLt_bf16_f32 : FTy.bits .bf16 < FTy.bits .f32
  bcast_S_S1x4096 : S_.BroadcastsInDim S1x4096 (![] : Fin 0 → Fin S1x4096.rank)
  bcast_S_S1x8192 : S_.BroadcastsInDim S1x8192 (![] : Fin 0 → Fin S1x8192.rank)
  shapeCasts_S4096_S1x4096 : S4096.ShapeCasts S1x4096
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  bcast_S_S8x8192 : S_.BroadcastsInDim S8x8192 (![] : Fin 0 → Fin S8x8192.rank)
  bcast_S_S8 : S_.BroadcastsInDim S8 (![] : Fin 0 → Fin S8.rank)
  bcast_S8_S8x1_0 : S8.BroadcastsInDim S8x1 (![0] : Fin 1 → Fin S8x1.rank)
  bcast_S8x1_S8x8192_0_1 : S8x1.BroadcastsInDim S8x8192 (![0, 1] : Fin 2 → Fin S8x8192.rank)
  scatter_S8192x8192_S8192x2_S8192_n_01_01_1_wf : ScatterDims.WF S8192x8192 S8192x2 S8192 [] [0, 1] [0, 1] 1
  dot_S1024x2048_S2048x1024_S1024x1024_1_0_0_1_n_n_wf : DotDims.WF S1024x2048 S2048x1024 S1024x1024 [1] [0] [0] [1] [] []
  dot_S2048x1024_S2048x1024_S1024x1024_0_0_1_1_n_n_wf : DotDims.WF S2048x1024 S2048x1024 S1024x1024 [0] [0] [1] [1] [] []
  scatter_S8x8192_S8192x1_S8192x8192_1_0_0_1_wf : ScatterDims.WF S8x8192 S8192x1 S8192x8192 [1] [0] [0] 1
  scatter_S8_S8192x1_S8192_n_0_0_1_wf : ScatterDims.WF S8 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .bf16 = 32 ∨ (Rect.block (s := S8192x8192) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x4096.size a
  hwx0_1 : ∀ i : grid0.Coords, EltTy.bits .bf16 = 32 ∨ (Rect.block (s := S8192x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .bf16 = 32 ∨ (Rect.block (s := S8192x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .bf16 = 32 ∨ (Rect.block (s := S8192x8192) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x4096.size a
  hwx1_1 : ∀ i : grid1.Coords, EltTy.bits .bf16 = 32 ∨ (Rect.block (s := S8192x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .bf16 = 32 ∨ (Rect.block (s := S8192x4096) S1024x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x4096.size a
  hwx2_0 : ∀ i : grid2.Coords, EltTy.bits .bf16 = 32 ∨ (Rect.block (s := S8192x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x8192.size a
  hwx2_1 : ∀ i : grid2.Coords, EltTy.bits .bf16 = 32 ∨ (Rect.block (s := S4096x8192) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x8192.size a
  hwx2_4 : ∀ i : grid2.Coords, EltTy.bits .bf16 = 32 ∨ (Rect.block (s := S8192x8192) S1024x1024.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x8192.size a
  hwx3_0 : ∀ i : grid3.Coords, EltTy.bits .bf16 = 32 ∨ (Rect.block (s := S8192x8192) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S8192x8192.size a
  hwx3_1 : ∀ i : grid3.Coords, EltTy.bits .bf16 = 32 ∨ (Rect.block (s := S8192x8192) S2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x8192.size a
  hwx3_3 : ∀ i : grid3.Coords, EltTy.bits .f32 = 32 ∨ (Rect.block (s := S1x8192) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S8192x8192.size a
  hwx3_4 : ∀ i : grid3.Coords, EltTy.bits .f32 = 32 ∨ (Rect.block (s := S8192x8192) S1024x1024.size (cc3_transform_4 i) (hinb3_4 i)).WholeWords (EltTy.packing .f32)

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S2048x1024_S2048x1024_S1024x1024_0_0_1_1_n_n : DotDims S2048x1024 S2048x1024 S1024x1024 where
  lhsContracting := [0]
  rhsContracting := [0]
  lhsNonContracting := [1]
  rhsNonContracting := [1]
  lhsBatch := []
  rhsBatch := []
  wf := dot_S2048x1024_S2048x1024_S1024x1024_0_0_1_1_n_n_wf
def scatter_S8x8192_S8192x1_S8192x8192_1_0_0_1 : ScatterDims S8x8192 S8192x1 S8192x8192 where
  updateWindowDims := [1]
  insertedWindowDims := [0]
  scatterDimsToOperandDims := [0]
  indexVectorDim := 1
  wf := scatter_S8x8192_S8192x1_S8192x8192_1_0_0_1_wf
def scatter_S8_S8192x1_S8192_n_0_0_1 : ScatterDims S8 S8192x1 S8192 where
  updateWindowDims := []
  insertedWindowDims := [0]
  scatterDimsToOperandDims := [0]
  indexVectorDim := 1
  wf := scatter_S8_S8192x1_S8192_n_0_0_1_wf

abbrev win0_0 : Pipeline.Window sig grid0 :=
  Pipeline.Window.ofSpec (Memref.whole main_v23) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v22) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v31) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v22) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x4096 : Shape := ⟨2, ![8192, 4096]⟩
abbrev S4096 : Shape := ⟨1, ![4096]⟩
abbrev S4096x8192 : Shape := ⟨2, ![4096, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1x8192 : Shape := ⟨2, ![1, 8192]⟩
abbrev S1x4096 : Shape := ⟨2, ![1, 4096]⟩
abbrev S8x8192 : Shape := ⟨2, ![8, 8192]⟩
abbrev S8 : Shape := ⟨1, ![8]⟩
abbrev S8x1 : Shape := ⟨2, ![8, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S4096, .f32⟩
  | .hbm, ⟨3, _⟩ => ⟨S4096x8192, .f32⟩
  | .hbm, ⟨4, _⟩ => ⟨S8192, .f32⟩
  | .hbm, ⟨5, _⟩ => ⟨S8192, .i32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S8192x8192, .f32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x1, .i32⟩
  | .hbm, ⟨27, _⟩ => ⟨S8192x2, .i32⟩
  | .hbm, ⟨28, _⟩ => ⟨S_, .f32⟩
  | .hbm, ⟨29, _⟩ => ⟨S8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x4096, .f32⟩
  | .hbm, ⟨42, _⟩ => ⟨S8192x4096, .f32⟩
  | .hbm, ⟨43, _⟩ => ⟨S1x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S1x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8x8192, .f32⟩
  | .hbm, ⟨57, _⟩ => ⟨S8192x1, .i32⟩
  | .hbm, ⟨58, _⟩ => ⟨S8x8192, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8, .f32⟩
  | .hbm, ⟨63, _⟩ => ⟨S8192x1, .i32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S8x1, .f32⟩
  | .hbm, ⟨69, _⟩ => ⟨S8x8192, .f32⟩
  | .hbm, ⟨70, _⟩ => ⟨S8x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d0 : S8192x8192.ReducesTo [0] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S8192x8192_S8192x8192_1_0 : S8192x8192.Transposes [1, 0] S8192x8192
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S8x8192 : S_.BroadcastsInDim S8x8192 (![] : Fin 0 → Fin S8x8192.rank)
  bcast_S_S8 : S_.BroadcastsInDim S8 (![] : Fin 0 → Fin S8.rank)
  bcast_S8_S8x1_0 : S8.BroadcastsInDim S8x1 (![0] : Fin 1 → Fin S8x1.rank)
  bcast_S8x1_S8x8192_0_1 : S8x1.BroadcastsInDim S8x8192 (![0, 1] : Fin 2 → Fin S8x8192.rank)
  scatter_S8192x8192_S8192x2_S8192_n_01_01_1_wf : ScatterDims.WF S8192x8192 S8192x2 S8192 [] [0, 1] [0, 1] 1
  dot_S8192x8192_S8192x4096_S8192x4096_1_0_0_1_n_n_wf : DotDims.WF S8192x8192 S8192x4096 S8192x4096 [1] [0] [0] [1] [] []
  dot_S8192x4096_S4096x8192_S8192x8192_1_0_0_1_n_n_wf : DotDims.WF S8192x4096 S4096x8192 S8192x8192 [1] [0] [0] [1] [] []
  dot_S8192x8192_S8192x8192_S8192x8192_1_0_0_1_n_n_wf : DotDims.WF S8192x8192 S8192x8192 S8192x8192 [1] [0] [0] [1] [] []
  scatter_S8x8192_S8192x1_S8192x8192_1_0_0_1_wf : ScatterDims.WF S8x8192 S8192x1 S8192x8192 [1] [0] [0] 1
  scatter_S8_S8192x1_S8192_n_0_0_1_wf : ScatterDims.WF S8 S8192x1 S8192 [] [0] [0] 1

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def scatter_S8x8192_S8192x1_S8192x8192_1_0_0_1 : ScatterDims S8x8192 S8192x1 S8192x8192 where
  updateWindowDims := [1]
  insertedWindowDims := [0]
  scatterDimsToOperandDims := [0]
  indexVectorDim := 1
  wf := scatter_S8x8192_S8192x1_S8192x8192_1_0_0_1_wf
def scatter_S8_S8192x1_S8192_n_0_0_1 : ScatterDims S8 S8192x1 S8192 where
  updateWindowDims := []
  insertedWindowDims := [0]
  scatterDimsToOperandDims := [0]
  indexVectorDim := 1
  wf := scatter_S8_S8192x1_S8192_n_0_0_1_wf

class Facts : Prop extends Facts₀ where

variable [Facts]
-- ==== Proof.R0Runs.lean ====
/-
  Call 0 of the tiled product kernel: what its grid points share.

  The grid is three-dimensional; the last coordinate k walks the contraction in blocks and is the point's number
  modulo 4. The body has two branches on k: at k = 0 it clears its accumulator (a 1024×1024 scratch that lives across
  grid points), at k = 3 it scales, adds the bias row and stores the output block. Here: each window's block at a
  point as read off the arrays the call finds; the two branch conditions in closed form over the grid; where the output
  window is idle (every point but k = 3); the memrefs the body is called with; and the call's invariant with the
  accumulator's buffer split off the other scoped buffers.
-/
import proofs.«127015_j27917287424727_2_alg».proof.Proof.Gen.KernelIdeal.Launch
import proofs.«127015_j27917287424727_2_alg».proof.Proof.Gen.KernelIdeal.Skeleton
import proofs.«127015_j27917287424727_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is not
    fetched its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is not
    fetched its block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is not
    fetched its block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branches on the contraction coordinate -/

/-- The first branch is taken when k = 0, -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- the second when k = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- At a point with k = 0 the first branch is taken and the second is not; -/
theorem condA0 (t : Fin cfg0.N) (h0 : t.val % 4 = 0) : cond0_0 (grid0.coords t) ∧ ¬cond0_1 (grid0.coords t) :=
  ⟨(hcond0_0 t).mpr h0, fun h => by have := (hcond0_1 t).mp h; omega⟩
/-- strictly between, neither; -/
theorem condB0 (t : Fin cfg0.N) (h0 : ¬t.val % 4 = 0) (h1 : ¬t.val % 4 = 3) : ¬cond0_0 (grid0.coords t) ∧ ¬cond0_1 (grid0.coords t) :=
  ⟨fun h => h0 ((hcond0_0 t).mp h), fun h => h1 ((hcond0_1 t).mp h)⟩
/-- at k = 3 the second only. -/
theorem condC0 (t : Fin cfg0.N) (h1 : t.val % 4 = 3) : ¬cond0_0 (grid0.coords t) ∧ cond0_1 (grid0.coords t) :=
  ⟨fun h => by have := (hcond0_0 t).mp h; omega, (hcond0_1 t).mpr h1⟩

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off k = 3 the body stores nothing into the output window, and its block is not written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of the output window, through which its contents are stated (the choice does not matter). -/
abbrev VO0 : View sig .tc .vmem S1024x1024 .bf16 := (Memref.whole cc0_stg4_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The accumulator: a whole scoped buffer of the call's own, passed beside the windows. -/
abbrev scM0 : Memref sig .tc .vmem S1024x1024 .f32 := Memref.whole cc0_scratch0
abbrev VS0 : View sig .tc .vmem S1024x1024 .f32 := scM0.view

/-- The call's untouched-state invariant with the accumulator's buffer split off: the accumulator owned at some contents,
    every other scoped buffer no window stages, and the generator register at some state. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Hand

end
-- ==== Proof.R0RunA.lean ====
/-
  Call 0, the body at a point with k = 0 (the accumulator found at anything, cleared, then the first block product added; the output window untouched): the stores it makes into each buffer, last first, with the proof that on whole memrefs the body
  runs to its continuation holding the inputs as they were and each stored buffer with those stores written.
-/
import proofs.«127015_j27917287424727_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x2048 .bf16) (x1 : Vec F S2048x1024 .bf16) (x2 : Vec F S1024x1 .f32) (x3 : Vec F S1x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__fused_matmul_kernel i arg3 harg3 arg4 harg4 arg5 harg5 arg6 harg6 arg7 harg7 arg8 harg8) K } := by
  refine ⟨?_, fun xi4 E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x2048 .bf16) (x1 : Vec F S2048x1024 .bf16) (x2 : Vec F S1024x1 .f32) (x3 : Vec F S1x1024 .f32) (y : S1024x1024.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S1024x1024.size (by sl_kernel_rfl) y

/-- What this case leaves in the accumulator: its stores read back. -/
def sout0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x2048 .bf16) (x1 : Vec F S2048x1024 .bf16) (x2 : Vec F S1024x1 .f32) (x3 : Vec F S1x1024 .f32) : Vec F S1024x1024 .f32 :=
  VS0.read (Elt F) (VS0.writes (Elt F) VS0.junk (kernelRun0_A c i arg3 harg3 arg4 harg4 arg5 harg5 arg6 harg6 arg7 harg7 arg8 harg8 hc0 hc1 x0 x1 x2 x3).1)

end Cert.KernelIdeal.Hand

end
-- ==== Proof.R0RunB.lean ====
/-
  Call 0, the body at a point strictly inside the contraction (the accumulator found at what the point before left, one block product added; the output window untouched): the stores it makes into each buffer, last first, with the proof that on whole memrefs the body
  runs to its continuation holding the inputs as they were and each stored buffer with those stores written.
-/
import proofs.«127015_j27917287424727_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x2048 .bf16) (x1 : Vec F S2048x1024 .bf16) (x2 : Vec F S1024x1 .f32) (x3 : Vec F S1x1024 .f32) (xs : Vec F S1024x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__fused_matmul_kernel i arg3 harg3 arg4 harg4 arg5 harg5 arg6 harg6 arg7 harg7 arg8 harg8) K } := by
  refine ⟨?_, fun xi4 E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun0_B c i arg3 harg3 arg4 harg4 arg5 harg5 arg6 harg6 arg7 harg7 arg8 harg8 hc0 hc1 x0 x1 x2 x3 xs).1, y ∈ pc.1.set :=
  View.cover_of_tiledL (kernelRun0_B c i arg3 harg3 arg4 harg4 arg5 harg5 arg6 harg6 arg7 harg7 arg8 harg8 hc0 hc1 x0 x1 x2 x3 xs).1 S1024x1024.size (by sl_kernel_rfl) y

/-- What this case leaves in the accumulator: its stores read back. -/
def sout0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x2048 .bf16) (x1 : Vec F S2048x1024 .bf16) (x2 : Vec F S1024x1 .f32) (x3 : Vec F S1x1024 .f32) (xs : Vec F S1024x1024 .f32) : Vec F S1024x1024 .f32 :=
  VS0.read (Elt F) (VS0.writes (Elt F) VS0.junk (kernelRun0_B c i arg3 harg3 arg4 harg4 arg5 harg5 arg6 harg6 arg7 harg7 arg8 harg8 hc0 hc1 x0 x1 x2 x3 xs).1)

end Cert.KernelIdeal.Hand

end
-- ==== Proof.R0RunC.lean ====
/-
  Call 0, the body at the contraction's last point (one block product added to what the point before left, then the scaled and biased accumulator stored into the output window): the stores it makes into each buffer, last first, with the proof that on whole memrefs the body
  runs to its continuation holding the inputs as they were and each stored buffer with those stores written.
-/
import proofs.«127015_j27917287424727_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) :
    Σ' (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__fused_matmul_kernel i arg3 harg3 arg4 harg4 arg5 harg5 arg6 harg6 arg7 harg7 arg8 harg8) K } := by
  refine ⟨?_, ?_, fun E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

/-- The accumulator's stores tile it, so they cover it. -/
theorem scover0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S1024x1024.size (by sl_kernel_rfl) y

/-- What this case leaves in the accumulator: its stores read back. -/
def sout0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) : Vec F S1024x1024 .f32 :=
  VS0.read (Elt F) (VS0.writes (Elt F) VS0.junk (kernelRun0_C c i arg3 harg3 arg4 harg4 arg5 harg5 arg6 harg6 arg7 harg7 arg8 harg8 hc0 hc1 x0 x1 x2 x3 xs).2.1)

/-- The output block's one store covers it. -/
theorem cover0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S1024x1024.size (by sl_kernel_rfl) y

/-- What this case leaves in the output window's staging buffer. -/
def out0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) : Vec F S1024x1024 .bf16 :=
  VO0.read (Elt F) (VO0.writes (Elt F) VO0.junk (kernelRun0_C c i arg3 harg3 arg4 harg4 arg5 harg5 arg6 harg6 arg7 harg7 arg8 harg8 hc0 hc1 x0 x1 x2 x3 xs).1)

end Cert.KernelIdeal.Hand

end
-- ==== Proof.R0Frame.lean ====
/-
  Call 0: what the accumulator and the output window hold after each grid point, the call's proof data, and the body's
  obligation at every point.

  After point n the accumulator holds: at k = 0 the first block product over a cleared buffer; otherwise the point's block
  product added to what point n − 1 left. The output window holds at k = 3 the scaled, biased accumulator; elsewhere it is idle
  (its buffer handed back as found, and never written back from there). The call's invariant carries the accumulator's
  contents from one point to the next.
-/
import proofs.«127015_j27917287424727_2_alg».proof.Proof.R0RunA
import proofs.«127015_j27917287424727_2_alg».proof.Proof.R0RunB
import proofs.«127015_j27917287424727_2_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An idle output window's placeholder contents: consulted nowhere. -/
def idleO0 : Vec F S1024x1024 .bf16 := VO0.read (Elt F) (VO0.writes (Elt F) VO0.junk [])

/-- The accumulator after a point with k = 0, -/
def accA0 (c : Dev nD) (t : Fin cfg0.N) (h0 : t.val % 4 = 0) : Vec F S1024x1024 .f32 :=
  sout0_A c (grid0.coords t) (ms0_0 t) (hs0_0 t) (ms0_1 t) (hs0_1 t) (ms0_2 t) (hs0_2 t) (ms0_3 t) (hs0_3 t) (ms0_4 t) (hs0_4 t) scM0 (Memref.isWhole_whole _) (condA0 t h0).1 (condA0 t h0).2 (iblk0 V c 0 t) (iblk0 V c 1 t) (iblk0 V c 2 t) (iblk0 V c 3 t)
/-- after a point strictly inside the contraction, over what the point before left, -/
def accB0 (c : Dev nD) (t : Fin cfg0.N) (h0 : ¬t.val % 4 = 0) (h1 : ¬t.val % 4 = 3) (xs : Vec F S1024x1024 .f32) : Vec F S1024x1024 .f32 :=
  sout0_B c (grid0.coords t) (ms0_0 t) (hs0_0 t) (ms0_1 t) (hs0_1 t) (ms0_2 t) (hs0_2 t) (ms0_3 t) (hs0_3 t) (ms0_4 t) (hs0_4 t) scM0 (Memref.isWhole_whole _) (condB0 t h0 h1).1 (condB0 t h0 h1).2 (iblk0 V c 0 t) (iblk0 V c 1 t) (iblk0 V c 2 t) (iblk0 V c 3 t) xs
/-- and after the contraction's last point; -/
def accC0 (c : Dev nD) (t : Fin cfg0.N) (h1 : t.val % 4 = 3) (xs : Vec F S1024x1024 .f32) : Vec F S1024x1024 .f32 :=
  sout0_C c (grid0.coords t) (ms0_0 t) (hs0_0 t) (ms0_1 t) (hs0_1 t) (ms0_2 t) (hs0_2 t) (ms0_3 t) (hs0_3 t) (ms0_4 t) (hs0_4 t) scM0 (Memref.isWhole_whole _) (condC0 t h1).1 (condC0 t h1).2 (iblk0 V c 0 t) (iblk0 V c 1 t) (iblk0 V c 2 t) (iblk0 V c 3 t) xs
/-- the output block stored there. -/
def outC0 (c : Dev nD) (t : Fin cfg0.N) (h1 : t.val % 4 = 3) (xs : Vec F S1024x1024 .f32) : Vec F S1024x1024 .bf16 :=
  out0_C c (grid0.coords t) (ms0_0 t) (hs0_0 t) (ms0_1 t) (hs0_1 t) (ms0_2 t) (hs0_2 t) (ms0_3 t) (hs0_3 t) (ms0_4 t) (hs0_4 t) scM0 (Memref.isWhole_whole _) (condC0 t h1).1 (condC0 t h1).2 (iblk0 V c 0 t) (iblk0 V c 1 t) (iblk0 V c 2 t) (iblk0 V c 3 t) xs

/-- THE ACCUMULATION: the output window's buffer and the accumulator after the body at position `n`. -/
def outsAt0 (c : Dev nD) : (n : ℕ) → n < cfg0.N → Vec F S1024x1024 .bf16 × Vec F S1024x1024 .f32
  | 0, hn => (idleO0, accA0 V c ⟨0, hn⟩ (Nat.zero_mod _))
  | n + 1, hn =>
    if h0 : (n + 1) % 4 = 0 then (idleO0, accA0 V c ⟨n + 1, hn⟩ h0)
    else if h1 : (n + 1) % 4 = 3 then
      (outC0 V c ⟨n + 1, hn⟩ h1 (outsAt0 c n (Nat.lt_of_succ_lt hn)).2, accC0 V c ⟨n + 1, hn⟩ h1 (outsAt0 c n (Nat.lt_of_succ_lt hn)).2)
    else (idleO0, accB0 V c ⟨n + 1, hn⟩ h0 h1 (outsAt0 c n (Nat.lt_of_succ_lt hn)).2)

theorem outsAt0_A (c : Dev nD) (t : Fin cfg0.N) (h0 : t.val % 4 = 0) :
    outsAt0 V c t.val t.isLt = (idleO0, accA0 V c t h0) := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 V c t.val t.isLt = (idleO0, accB0 V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt0_C (c : Dev nD) (t : Fin cfg0.N) (h1 : t.val % 4 = 3) :
    outsAt0 V c t.val t.isLt = (outC0 V c t h1 (outsAt0 V c (t.val - 1) (Nat.lt_of_le_of_lt (Nat.sub_le _ _) t.isLt)).2, accC0 V c t h1 (outsAt0 V c (t.val - 1) (Nat.lt_of_le_of_lt (Nat.sub_le _ _) t.isLt)).2) := by
  obtain ⟨n, hn⟩ := t
  cases n with
  | zero => exact absurd (show (0 : ℕ) % 4 = 3 from h1) (by decide)
  | succ n =>
    have h1' : (n + 1) % 4 = 3 := h1
    exact (dif_neg (by omega)).trans (dif_pos h1')

/-- The call's invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the call finds them; after the body at point `t` each input's buffer at its block and the output's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which branch pattern the point is in;
    the invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 4 = 0
  · obtain ⟨hc0, hc1⟩ := condA0 t h0
    rw [Dat.leavesExact_idle (dat0 V c) 4 t (idleAt0_4 t hc1) (noFlush0_4 t hc1)]
    rw [outsAt0_A V c t h0]
    unfold accA0 sout0_A; (try dsimp only)
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · obtain ⟨hc0, hc1⟩ := condC0 t h1
      rw [show (dat0 V c).leavesExact 4 t = owns (c : Thread nD τ) (ms0_4 t) fullShare ((dat0 V c).after 4 t) from by
        unfold Dat.leavesExact; rw [liveAt0_4 t hc1], after0_4]
      rw [outsAt0_C V c t h1]
      unfold accC0 outC0 sout0_C out0_C; (try dsimp only)
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ hc0 hc1 (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · obtain ⟨hc0, hc1⟩ := condB0 t h0 h1
      rw [Dat.leavesExact_idle (dat0 V c) 4 t (idleAt0_4 t hc1) (noFlush0_4 t hc1)]
      rw [outsAt0_B V c t h0 h1]
      unfold accB0 sout0_B; (try dsimp only)
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ hc0 hc1 (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the untouched-state invariant back: the accumulator's named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Hand

end
-- ==== Proof.R1Runs.lean ====
/-
  Call 1 of the tiled product kernel: what its grid points share.

  The grid is three-dimensional; the last coordinate k walks the contraction in blocks and is the point's number
  modulo 4. The body has two branches on k: at k = 0 it clears its accumulator (a 1024×1024 scratch that lives across
  grid points), at k = 3 it scales, adds the bias row and stores the output block. Here: each window's block at a
  point as read off the arrays the call finds; the two branch conditions in closed form over the grid; where the output
  window is idle (every point but k = 3); the memrefs the body is called with; and the call's invariant with the
  accumulator's buffer split off the other scoped buffers.
-/
import proofs.«127015_j27917287424727_2_alg».proof.Proof.Gen.KernelIdeal.Launch
import proofs.«127015_j27917287424727_2_alg».proof.Proof.Gen.KernelIdeal.Skeleton
import proofs.«127015_j27917287424727_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branches on the contraction coordinate -/

/-- The first branch is taken when k = 0, -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- the second when k = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- At a point with k = 0 the first branch is taken and the second is not; -/
theorem condA1 (t : Fin cfg1.N) (h0 : t.val % 4 = 0) : cond1_0 (grid1.coords t) ∧ ¬cond1_1 (grid1.coords t) :=
  ⟨(hcond1_0 t).mpr h0, fun h => by have := (hcond1_1 t).mp h; omega⟩
/-- strictly between, neither; -/
theorem condB1 (t : Fin cfg1.N) (h0 : ¬t.val % 4 = 0) (h1 : ¬t.val % 4 = 3) : ¬cond1_0 (grid1.coords t) ∧ ¬cond1_1 (grid1.coords t) :=
  ⟨fun h => h0 ((hcond1_0 t).mp h), fun h => h1 ((hcond1_1 t).mp h)⟩
/-- at k = 3 the second only. -/
theorem condC1 (t : Fin cfg1.N) (h1 : t.val % 4 = 3) : ¬cond1_0 (grid1.coords t) ∧ cond1_1 (grid1.coords t) :=
  ⟨fun h => by have := (hcond1_0 t).mp h; omega, (hcond1_1 t).mpr h1⟩

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off k = 3 the body stores nothing into the output window, and its block is not written back there. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

/-- One staging buffer of the output window, through which its contents are stated (the choice does not matter). -/
abbrev VO1 : View sig .tc .vmem S1024x1024 .bf16 := (Memref.whole cc1_stg4_0 : Memref sig .tc .vmem S1024x1024 .bf16).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
/-- The accumulator: a whole scoped buffer of the call's own, passed beside the windows. -/
abbrev scM1 : Memref sig .tc .vmem S1024x1024 .f32 := Memref.whole cc1_scratch0
abbrev VS1 : View sig .tc .vmem S1024x1024 .f32 := scM1.view

/-- The call's untouched-state invariant with the accumulator's buffer split off: the accumulator owned at some contents,
    every other scoped buffer no window stages, and the generator register at some state. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Hand

end
-- ==== Proof.R1RunA.lean ====
/-
  Call 1, the body at a point with k = 0 (the accumulator found at anything, cleared, then the first block product added; the output window untouched): the stores it makes into each buffer, last first, with the proof that on whole memrefs the body
  runs to its continuation holding the inputs as they were and each stored buffer with those stores written.
-/
import proofs.«127015_j27917287424727_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i)
    (x0 : Vec F S2048x1024 .bf16) (x1 : Vec F S2048x1024 .bf16) (x2 : Vec F S1024x1 .f32) (x3 : Vec F S1x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__fused_matmul_kernel i arg3 harg3 arg4 harg4 arg5 harg5 arg6 harg6 arg7 harg7 arg8 harg8) K } := by
  refine ⟨?_, fun xi4 E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i)
    (x0 : Vec F S2048x1024 .bf16) (x1 : Vec F S2048x1024 .bf16) (x2 : Vec F S1024x1 .f32) (x3 : Vec F S1x1024 .f32) (y : S1024x1024.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S1024x1024.size (by sl_kernel_rfl) y

/-- What this case leaves in the accumulator: its stores read back. -/
def sout1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i)
    (x0 : Vec F S2048x1024 .bf16) (x1 : Vec F S2048x1024 .bf16) (x2 : Vec F S1024x1 .f32) (x3 : Vec F S1x1024 .f32) : Vec F S1024x1024 .f32 :=
  VS1.read (Elt F) (VS1.writes (Elt F) VS1.junk (kernelRun1_A c i arg3 harg3 arg4 harg4 arg5 harg5 arg6 harg6 arg7 harg7 arg8 harg8 hc0 hc1 x0 x1 x2 x3).1)

end Cert.KernelIdeal.Hand

end
-- ==== Proof.R1RunB.lean ====
/-
  Call 1, the body at a point strictly inside the contraction (the accumulator found at what the point before left, one block product added; the output window untouched): the stores it makes into each buffer, last first, with the proof that on whole memrefs the body
  runs to its continuation holding the inputs as they were and each stored buffer with those stores written.
-/
import proofs.«127015_j27917287424727_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i)
    (x0 : Vec F S2048x1024 .bf16) (x1 : Vec F S2048x1024 .bf16) (x2 : Vec F S1024x1 .f32) (x3 : Vec F S1x1024 .f32) (xs : Vec F S1024x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__fused_matmul_kernel i arg3 harg3 arg4 harg4 arg5 harg5 arg6 harg6 arg7 harg7 arg8 harg8) K } := by
  refine ⟨?_, fun xi4 E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun1_B c i arg3 harg3 arg4 harg4 arg5 harg5 arg6 harg6 arg7 harg7 arg8 harg8 hc0 hc1 x0 x1 x2 x3 xs).1, y ∈ pc.1.set :=
  View.cover_of_tiledL (kernelRun1_B c i arg3 harg3 arg4 harg4 arg5 harg5 arg6 harg6 arg7 harg7 arg8 harg8 hc0 hc1 x0 x1 x2 x3 xs).1 S1024x1024.size (by sl_kernel_rfl) y

/-- What this case leaves in the accumulator: its stores read back. -/
def sout1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 hc0 hc1 x0 x1 x2 x3 xs).1)

end Cert.KernelIdeal.Hand

end
-- ==== Proof.R1RunC.lean ====
/-
  Call 1, the body at the contraction's last point (one block product added to what the point before left, then the scaled and biased accumulator stored into the output window): the stores it makes into each buffer, last first, with the proof that on whole memrefs the body
  runs to its continuation holding the inputs as they were and each stored buffer with those stores written.
-/
import proofs.«127015_j27917287424727_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) :
    Σ' (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__fused_matmul_kernel i arg3 harg3 arg4 harg4 arg5 harg5 arg6 harg6 arg7 harg7 arg8 harg8) K } := by
  refine ⟨?_, ?_, fun E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

/-- The accumulator's stores tile it, so they cover it. -/
theorem scover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S1024x1024.size (by sl_kernel_rfl) y

/-- What this case leaves in the accumulator: its stores read back. -/
def sout1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)

/-- The output block's one store covers it. -/
theorem cover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S1024x1024.size (by sl_kernel_rfl) y

/-- What this case leaves in the output window's staging buffer. -/
def out1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) : Vec F S1024x1024 .bf16 :=
  VO1.read (Elt F) (VO1.writes (Elt F) VO1.junk (kernelRun1_C c i arg3 harg3 arg4 harg4 arg5 harg5 arg6 harg6 arg7 harg7 arg8 harg8 hc0 hc1 x0 x1 x2 x3 xs).1)

end Cert.KernelIdeal.Hand

end
-- ==== Proof.R1Frame.lean ====
/-
  Call 1: what the accumulator and the output window hold after each grid point, the call's proof data, and the body's
  obligation at every point.

  After point n the accumulator holds: at k = 0 the first block product over a cleared buffer; otherwise the point's block
  product added to what point n − 1 left. The output window holds at k = 3 the scaled, biased accumulator; elsewhere it is idle
  (its buffer handed back as found, and never written back from there). The call's invariant carries the accumulator's
  contents from one point to the next.
-/
import proofs.«127015_j27917287424727_2_alg».proof.Proof.R1RunA
import proofs.«127015_j27917287424727_2_alg».proof.Proof.R1RunB
import proofs.«127015_j27917287424727_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An idle output window's placeholder contents: consulted nowhere. -/
def idleO1 : Vec F S1024x1024 .bf16 := VO1.read (Elt F) (VO1.writes (Elt F) VO1.junk [])

/-- The accumulator after a point with k = 0, -/
def accA1 (c : Dev nD) (t : Fin cfg1.N) (h0 : t.val % 4 = 0) : Vec F S1024x1024 .f32 :=
  sout1_A c (grid1.coords t) (ms1_0 t) (hs1_0 t) (ms1_1 t) (hs1_1 t) (ms1_2 t) (hs1_2 t) (ms1_3 t) (hs1_3 t) (ms1_4 t) (hs1_4 t) scM1 (Memref.isWhole_whole _) (condA1 t h0).1 (condA1 t h0).2 (iblk1 V c 0 t) (iblk1 V c 1 t) (iblk1 V c 2 t) (iblk1 V c 3 t)
/-- after a point strictly inside the contraction, over what the point before left, -/
def accB1 (c : Dev nD) (t : Fin cfg1.N) (h0 : ¬t.val % 4 = 0) (h1 : ¬t.val % 4 = 3) (xs : Vec F S1024x1024 .f32) : Vec F S1024x1024 .f32 :=
  sout1_B c (grid1.coords t) (ms1_0 t) (hs1_0 t) (ms1_1 t) (hs1_1 t) (ms1_2 t) (hs1_2 t) (ms1_3 t) (hs1_3 t) (ms1_4 t) (hs1_4 t) scM1 (Memref.isWhole_whole _) (condB1 t h0 h1).1 (condB1 t h0 h1).2 (iblk1 V c 0 t) (iblk1 V c 1 t) (iblk1 V c 2 t) (iblk1 V c 3 t) xs
/-- and after the contraction's last point; -/
def accC1 (c : Dev nD) (t : Fin cfg1.N) (h1 : t.val % 4 = 3) (xs : Vec F S1024x1024 .f32) : Vec F S1024x1024 .f32 :=
  sout1_C c (grid1.coords t) (ms1_0 t) (hs1_0 t) (ms1_1 t) (hs1_1 t) (ms1_2 t) (hs1_2 t) (ms1_3 t) (hs1_3 t) (ms1_4 t) (hs1_4 t) scM1 (Memref.isWhole_whole _) (condC1 t h1).1 (condC1 t h1).2 (iblk1 V c 0 t) (iblk1 V c 1 t) (iblk1 V c 2 t) (iblk1 V c 3 t) xs
/-- the output block stored there. -/
def outC1 (c : Dev nD) (t : Fin cfg1.N) (h1 : t.val % 4 = 3) (xs : Vec F S1024x1024 .f32) : Vec F S1024x1024 .bf16 :=
  out1_C c (grid1.coords t) (ms1_0 t) (hs1_0 t) (ms1_1 t) (hs1_1 t) (ms1_2 t) (hs1_2 t) (ms1_3 t) (hs1_3 t) (ms1_4 t) (hs1_4 t) scM1 (Memref.isWhole_whole _) (condC1 t h1).1 (condC1 t h1).2 (iblk1 V c 0 t) (iblk1 V c 1 t) (iblk1 V c 2 t) (iblk1 V c 3 t) xs

/-- THE ACCUMULATION: the output window's buffer and the accumulator after the body at position `n`. -/
def outsAt1 (c : Dev nD) : (n : ℕ) → n < cfg1.N → Vec F S1024x1024 .bf16 × Vec F S1024x1024 .f32
  | 0, hn => (idleO1, accA1 V c ⟨0, hn⟩ (Nat.zero_mod _))
  | n + 1, hn =>
    if h0 : (n + 1) % 4 = 0 then (idleO1, accA1 V c ⟨n + 1, hn⟩ h0)
    else if h1 : (n + 1) % 4 = 3 then
      (outC1 V c ⟨n + 1, hn⟩ h1 (outsAt1 c n (Nat.lt_of_succ_lt hn)).2, accC1 V c ⟨n + 1, hn⟩ h1 (outsAt1 c n (Nat.lt_of_succ_lt hn)).2)
    else (idleO1, accB1 V c ⟨n + 1, hn⟩ h0 h1 (outsAt1 c n (Nat.lt_of_succ_lt hn)).2)

theorem outsAt1_A (c : Dev nD) (t : Fin cfg1.N) (h0 : t.val % 4 = 0) :
    outsAt1 V c t.val t.isLt = (idleO1, accA1 V c t h0) := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 V c t.val t.isLt = (idleO1, accB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt1_C (c : Dev nD) (t : Fin cfg1.N) (h1 : t.val % 4 = 3) :
    outsAt1 V c t.val t.isLt = (outC1 V c t h1 (outsAt1 V c (t.val - 1) (Nat.lt_of_le_of_lt (Nat.sub_le _ _) t.isLt)).2, accC1 V c t h1 (outsAt1 V c (t.val - 1) (Nat.lt_of_le_of_lt (Nat.sub_le _ _) t.isLt)).2) := by
  obtain ⟨n, hn⟩ := t
  cases n with
  | zero => exact absurd (show (0 : ℕ) % 4 = 3 from h1) (by decide)
  | succ n =>
    have h1' : (n + 1) % 4 = 3 := h1
    exact (dif_neg (by omega)).trans (dif_pos h1')

/-- The call's invariant before position `n`: before the first point every scoped buffer at anything; afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the call finds them; after the body at point `t` each input's buffer at its block and the output's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which branch pattern the point is in;
    the invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · obtain ⟨hc0, hc1⟩ := condA1 t h0
    rw [Dat.leavesExact_idle (dat1 V c) 4 t (idleAt1_4 t hc1) (noFlush1_4 t hc1)]
    rw [outsAt1_A V c t h0]
    unfold accA1 sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · obtain ⟨hc0, hc1⟩ := condC1 t h1
      rw [show (dat1 V c).leavesExact 4 t = owns (c : Thread nD τ) (ms1_4 t) fullShare ((dat1 V c).after 4 t) from by
        unfold Dat.leavesExact; rw [liveAt1_4 t hc1], after1_4]
      rw [outsAt1_C V c t h1]
      unfold accC1 outC1 sout1_C out1_C; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · obtain ⟨hc0, hc1⟩ := condB1 t h0 h1
      rw [Dat.leavesExact_idle (dat1 V c) 4 t (idleAt1_4 t hc1) (noFlush1_4 t hc1)]
      rw [outsAt1_B V c t h0 h1]
      unfold accB1 sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the untouched-state invariant back: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.R2Runs.lean ====
/-
  Call 2 of the tiled product kernel: what its grid points share.

  The grid is three-dimensional; the last coordinate k walks the contraction in blocks and is the point's number
  modulo 2. The body has two branches on k: at k = 0 it clears its accumulator (a 1024×1024 scratch that lives across
  grid points), at k = 1 it scales, adds the bias row and stores the output block. Here: each window's block at a
  point as read off the arrays the call finds; the two branch conditions in closed form over the grid; where the output
  window is idle (every point but k = 1); the memrefs the body is called with; and the call's invariant with the
  accumulator's buffer split off the other scoped buffers.
-/
import proofs.«127015_j27917287424727_2_alg».proof.Proof.Gen.KernelIdeal.Launch
import proofs.«127015_j27917287424727_2_alg».proof.Proof.Gen.KernelIdeal.Skeleton
import proofs.«127015_j27917287424727_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (where it is not
    fetched its block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (where it is not
    fetched its block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (where it is not
    fetched its block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branches on the contraction coordinate -/

/-- The first branch is taken when k = 0, -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

/-- the second when k = 1. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-- At a point with k = 0 the first branch is taken and the second is not; -/
theorem condA2 (t : Fin cfg2.N) (h0 : t.val % 2 = 0) : cond2_0 (grid2.coords t) ∧ ¬cond2_1 (grid2.coords t) :=
  ⟨(hcond2_0 t).mpr h0, fun h => by have := (hcond2_1 t).mp h; omega⟩
/-- strictly between, neither; -/
theorem condB2 (t : Fin cfg2.N) (h0 : ¬t.val % 2 = 0) (h1 : ¬t.val % 2 = 1) : ¬cond2_0 (grid2.coords t) ∧ ¬cond2_1 (grid2.coords t) :=
  ⟨fun h => h0 ((hcond2_0 t).mp h), fun h => h1 ((hcond2_1 t).mp h)⟩
/-- at k = 1 the second only. -/
theorem condC2 (t : Fin cfg2.N) (h1 : t.val % 2 = 1) : ¬cond2_0 (grid2.coords t) ∧ cond2_1 (grid2.coords t) :=
  ⟨fun h => by have := (hcond2_0 t).mp h; omega, (hcond2_1 t).mpr h1⟩

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Off k = 1 the body stores nothing into the output window, and its block is not written back there. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

/-- One staging buffer of the output window, through which its contents are stated (the choice does not matter). -/
abbrev VO2 : View sig .tc .vmem S1024x1024 .bf16 := (Memref.whole cc2_stg4_0 : Memref sig .tc .vmem S1024x1024 .bf16).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .bf16 := win2_4.stage (cfg2.slots t 4)
abbrev hs2_4 (t : Fin cfg2.N) : (ms2_4 t).IsWhole := hstage2_4 ((cfg2.slots t 4).cast nbuf2_4)
/-- The accumulator: a whole scoped buffer of the call's own, passed beside the windows. -/
abbrev scM2 : Memref sig .tc .vmem S1024x1024 .f32 := Memref.whole cc2_scratch0
abbrev VS2 : View sig .tc .vmem S1024x1024 .f32 := scM2.view

/-- The call's untouched-state invariant with the accumulator's buffer split off: the accumulator owned at some contents,
    every other scoped buffer no window stages, and the generator register at some state. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Hand

end
-- ==== Proof.R2RunA.lean ====
/-
  Call 2, the body at a point with k = 0 (the accumulator found at anything, cleared, then the first block product added; the output window untouched): the stores it makes into each buffer, last first, with the proof that on whole memrefs the body
  runs to its continuation holding the inputs as they were and each stored buffer with those stores written.
-/
import proofs.«127015_j27917287424727_2_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond2_0 i) (hc1 : ¬cond2_1 i)
    (x0 : Vec F S1024x2048 .bf16) (x1 : Vec F S2048x1024 .bf16) (x2 : Vec F S1024x1 .f32) (x3 : Vec F S1x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__fused_matmul_kernel i arg3 harg3 arg4 harg4 arg5 harg5 arg6 harg6 arg7 harg7 arg8 harg8) K } := by
  refine ⟨?_, fun xi4 E K => ?run⟩
  case run =>
    simp only [cc2__fused_matmul_kernel_eq_skeleton]; unfold cc2__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover2_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond2_0 i) (hc1 : ¬cond2_1 i)
    (x0 : Vec F S1024x2048 .bf16) (x1 : Vec F S2048x1024 .bf16) (x2 : Vec F S1024x1 .f32) (x3 : Vec F S1x1024 .f32) (y : S1024x1024.Idx) :
    ∃ pc ∈ (kernelRun2_A c i arg3 harg3 arg4 harg4 arg5 harg5 arg6 harg6 arg7 harg7 arg8 harg8 hc0 hc1 x0 x1 x2 x3).1, y ∈ pc.1.set :=
  View.cover_of_tiledL (kernelRun2_A c i arg3 harg3 arg4 harg4 arg5 harg5 arg6 harg6 arg7 harg7 arg8 harg8 hc0 hc1 x0 x1 x2 x3).1 S1024x1024.size (by sl_kernel_rfl) y

/-- What this case leaves in the accumulator: its stores read back. -/
def sout2_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond2_0 i) (hc1 : ¬cond2_1 i)
    (x0 : Vec F S1024x2048 .bf16) (x1 : Vec F S2048x1024 .bf16) (x2 : Vec F S1024x1 .f32) (x3 : Vec F S1x1024 .f32) : Vec F S1024x1024 .f32 :=
  VS2.read (Elt F) (VS2.writes (Elt F) VS2.junk (kernelRun2_A c i arg3 harg3 arg4 harg4 arg5 harg5 arg6 harg6 arg7 harg7 arg8 harg8 hc0 hc1 x0 x1 x2 x3).1)

end Cert.KernelIdeal.Hand

end
-- ==== Proof.R2RunB.lean ====
/-
  Call 2, the body at a point strictly inside the contraction (the accumulator found at what the point before left, one block product added; the output window untouched): the stores it makes into each buffer, last first, with the proof that on whole memrefs the body
  runs to its continuation holding the inputs as they were and each stored buffer with those stores written.
-/
import proofs.«127015_j27917287424727_2_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : ¬cond2_1 i)
    (x0 : Vec F S1024x2048 .bf16) (x1 : Vec F S2048x1024 .bf16) (x2 : Vec F S1024x1 .f32) (x3 : Vec F S1x1024 .f32) (xs : Vec F S1024x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__fused_matmul_kernel i arg3 harg3 arg4 harg4 arg5 harg5 arg6 harg6 arg7 harg7 arg8 harg8) K } := by
  refine ⟨?_, fun xi4 E K => ?run⟩
  case run =>
    simp only [cc2__fused_matmul_kernel_eq_skeleton]; unfold cc2__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover2_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : ¬cond2_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun2_B c i arg3 harg3 arg4 harg4 arg5 harg5 arg6 harg6 arg7 harg7 arg8 harg8 hc0 hc1 x0 x1 x2 x3 xs).1, y ∈ pc.1.set :=
  View.cover_of_tiledL (kernelRun2_B c i arg3 harg3 arg4 harg4 arg5 harg5 arg6 harg6 arg7 harg7 arg8 harg8 hc0 hc1 x0 x1 x2 x3 xs).1 S1024x1024.size (by sl_kernel_rfl) y

/-- What this case leaves in the accumulator: its stores read back. -/
def sout2_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : ¬cond2_1 i)
    (x0 : Vec F S1024x2048 .bf16) (x1 : Vec F S2048x1024 .bf16) (x2 : Vec F S1024x1 .f32) (x3 : Vec F S1x1024 .f32) (xs : Vec F S1024x1024 .f32) : Vec F S1024x1024 .f32 :=
  VS2.read (Elt F) (VS2.writes (Elt F) VS2.junk (kernelRun2_B c i arg3 harg3 arg4 harg4 arg5 harg5 arg6 harg6 arg7 harg7 arg8 harg8 hc0 hc1 x0 x1 x2 x3 xs).1)

end Cert.KernelIdeal.Hand

end
-- ==== Proof.R2RunC.lean ====
/-
  Call 2, the body at the contraction's last point (one block product added to what the point before left, then the scaled and biased accumulator stored into the output window): the stores it makes into each buffer, last first, with the proof that on whole memrefs the body
  runs to its continuation holding the inputs as they were and each stored buffer with those stores written.
-/
import proofs.«127015_j27917287424727_2_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) :
    Σ' (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__fused_matmul_kernel i arg3 harg3 arg4 harg4 arg5 harg5 arg6 harg6 arg7 harg7 arg8 harg8) K } := by
  refine ⟨?_, ?_, fun E K => ?run⟩
  case run =>
    simp only [cc2__fused_matmul_kernel_eq_skeleton]; unfold cc2__fused_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

/-- The accumulator's stores tile it, so they cover it. -/
theorem scover2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S1024x1024.size (by sl_kernel_rfl) y

/-- What this case leaves in the accumulator: its stores read back. -/
def sout2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) : Vec F S1024x1024 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)

/-- The output block's one store covers it. -/
theorem cover2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S1024x1024.size (by sl_kernel_rfl) y

/-- What this case leaves in the output window's staging buffer. -/
def out2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) : Vec F S1024x1024 .bf16 :=
  VO2.read (Elt F) (VO2.writes (Elt F) VO2.junk (kernelRun2_C c i arg3 harg3 arg4 harg4 arg5 harg5 arg6 harg6 arg7 harg7 arg8 harg8 hc0 hc1 x0 x1 x2 x3 xs).1)

end Cert.KernelIdeal.Hand

end
-- ==== Proof.R2Frame.lean ====
/-
  Call 2: what the accumulator and the output window hold after each grid point, the call's proof data, and the body's
  obligation at every point.

  After point n the accumulator holds: at k = 0 the first block product over a cleared buffer; otherwise the point's block
  product added to what point n − 1 left. The output window holds at k = 1 the scaled, biased accumulator; elsewhere it is idle
  (its buffer handed back as found, and never written back from there). The call's invariant carries the accumulator's
  contents from one point to the next.
-/
import proofs.«127015_j27917287424727_2_alg».proof.Proof.R2RunA
import proofs.«127015_j27917287424727_2_alg».proof.Proof.R2RunB
import proofs.«127015_j27917287424727_2_alg».proof.Proof.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An idle output window's placeholder contents: consulted nowhere. -/
def idleO2 : Vec F S1024x1024 .bf16 := VO2.read (Elt F) (VO2.writes (Elt F) VO2.junk [])

/-- The accumulator after a point with k = 0, -/
def accA2 (c : Dev nD) (t : Fin cfg2.N) (h0 : t.val % 2 = 0) : Vec F S1024x1024 .f32 :=
  sout2_A c (grid2.coords t) (ms2_0 t) (hs2_0 t) (ms2_1 t) (hs2_1 t) (ms2_2 t) (hs2_2 t) (ms2_3 t) (hs2_3 t) (ms2_4 t) (hs2_4 t) scM2 (Memref.isWhole_whole _) (condA2 t h0).1 (condA2 t h0).2 (iblk2 V c 0 t) (iblk2 V c 1 t) (iblk2 V c 2 t) (iblk2 V c 3 t)
/-- after a point strictly inside the contraction, over what the point before left, -/
def accB2 (c : Dev nD) (t : Fin cfg2.N) (h0 : ¬t.val % 2 = 0) (h1 : ¬t.val % 2 = 1) (xs : Vec F S1024x1024 .f32) : Vec F S1024x1024 .f32 :=
  sout2_B c (grid2.coords t) (ms2_0 t) (hs2_0 t) (ms2_1 t) (hs2_1 t) (ms2_2 t) (hs2_2 t) (ms2_3 t) (hs2_3 t) (ms2_4 t) (hs2_4 t) scM2 (Memref.isWhole_whole _) (condB2 t h0 h1).1 (condB2 t h0 h1).2 (iblk2 V c 0 t) (iblk2 V c 1 t) (iblk2 V c 2 t) (iblk2 V c 3 t) xs
/-- and after the contraction's last point; -/
def accC2 (c : Dev nD) (t : Fin cfg2.N) (h1 : t.val % 2 = 1) (xs : Vec F S1024x1024 .f32) : Vec F S1024x1024 .f32 :=
  sout2_C c (grid2.coords t) (ms2_0 t) (hs2_0 t) (ms2_1 t) (hs2_1 t) (ms2_2 t) (hs2_2 t) (ms2_3 t) (hs2_3 t) (ms2_4 t) (hs2_4 t) scM2 (Memref.isWhole_whole _) (condC2 t h1).1 (condC2 t h1).2 (iblk2 V c 0 t) (iblk2 V c 1 t) (iblk2 V c 2 t) (iblk2 V c 3 t) xs
/-- the output block stored there. -/
def outC2 (c : Dev nD) (t : Fin cfg2.N) (h1 : t.val % 2 = 1) (xs : Vec F S1024x1024 .f32) : Vec F S1024x1024 .bf16 :=
  out2_C c (grid2.coords t) (ms2_0 t) (hs2_0 t) (ms2_1 t) (hs2_1 t) (ms2_2 t) (hs2_2 t) (ms2_3 t) (hs2_3 t) (ms2_4 t) (hs2_4 t) scM2 (Memref.isWhole_whole _) (condC2 t h1).1 (condC2 t h1).2 (iblk2 V c 0 t) (iblk2 V c 1 t) (iblk2 V c 2 t) (iblk2 V c 3 t) xs

/-- THE ACCUMULATION: the output window's buffer and the accumulator after the body at position `n`. -/
def outsAt2 (c : Dev nD) : (n : ℕ) → n < cfg2.N → Vec F S1024x1024 .bf16 × Vec F S1024x1024 .f32
  | 0, hn => (idleO2, accA2 V c ⟨0, hn⟩ (Nat.zero_mod _))
  | n + 1, hn =>
    if h0 : (n + 1) % 2 = 0 then (idleO2, accA2 V c ⟨n + 1, hn⟩ h0)
    else if h1 : (n + 1) % 2 = 1 then
      (outC2 V c ⟨n + 1, hn⟩ h1 (outsAt2 c n (Nat.lt_of_succ_lt hn)).2, accC2 V c ⟨n + 1, hn⟩ h1 (outsAt2 c n (Nat.lt_of_succ_lt hn)).2)
    else (idleO2, accB2 V c ⟨n + 1, hn⟩ h0 h1 (outsAt2 c n (Nat.lt_of_succ_lt hn)).2)

theorem outsAt2_A (c : Dev nD) (t : Fin cfg2.N) (h0 : t.val % 2 = 0) :
    outsAt2 V c t.val t.isLt = (idleO2, accA2 V c t h0) := by
  obtain ⟨n, hn⟩ := t
  cases n with
  | zero => rfl
  | succ n => exact dif_pos h0

theorem outsAt2_B (c : Dev nD) (t : Fin cfg2.N) (h0 : ¬t.val % 2 = 0) (h1 : ¬t.val % 2 = 1) :
    outsAt2 V c t.val t.isLt = (idleO2, accB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt2_C (c : Dev nD) (t : Fin cfg2.N) (h1 : t.val % 2 = 1) :
    outsAt2 V c t.val t.isLt = (outC2 V c t h1 (outsAt2 V c (t.val - 1) (Nat.lt_of_le_of_lt (Nat.sub_le _ _) t.isLt)).2, accC2 V c t h1 (outsAt2 V c (t.val - 1) (Nat.lt_of_le_of_lt (Nat.sub_le _ _) t.isLt)).2) := by
  obtain ⟨n, hn⟩ := t
  cases n with
  | zero => exact absurd (show (0 : ℕ) % 2 = 1 from h1) (by decide)
  | succ n =>
    have h1' : (n + 1) % 2 = 1 := h1
    exact (dif_neg (by omega)).trans (dif_pos h1')

/-- The call's invariant before position `n`: before the first point every scoped buffer at anything; afterwards the
    accumulator at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the call finds them; after the body at point `t` each input's buffer at its block and the output's at
    `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the inputs' memrefs hold their blocks; the closed forms say which branch pattern the point is in;
    the invariant hands the body the accumulator at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 2 = 0
  · obtain ⟨hc0, hc1⟩ := condA2 t h0
    rw [Dat.leavesExact_idle (dat2 V c) 4 t (idleAt2_4 t hc1) (noFlush2_4 t hc1)]
    rw [outsAt2_A V c t h0]
    unfold accA2 sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ hc0 hc1 (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ hc0 hc1 (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 2 = 1
    · obtain ⟨hc0, hc1⟩ := condC2 t h1
      rw [show (dat2 V c).leavesExact 4 t = owns (c : Thread nD τ) (ms2_4 t) fullShare ((dat2 V c).after 4 t) from by
        unfold Dat.leavesExact; rw [liveAt2_4 t hc1], after2_4]
      rw [outsAt2_C V c t h1]
      unfold accC2 outC2 sout2_C out2_C; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ hc0 hc1 (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C c _ _ _ _ _ _ _ _ _ _ _ _ _ _ _ _ _ _ _ _)
    · obtain ⟨hc0, hc1⟩ := condB2 t h0 h1
      rw [Dat.leavesExact_idle (dat2 V c) 4 t (idleAt2_4 t hc1) (noFlush2_4 t hc1)]
      rw [outsAt2_B V c t h0 h1]
      unfold accB2 sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ hc0 hc1 (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the untouched-state invariant back: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

theorem hout2 (c : Dev nD) : (dat2 V c).Φ (Fin.last cfg2.N) ⊢ Pipeline.ΦA spec2 c :=
  Phi_out2 V c _ (by rw [Fin.val_last]; have : cfg2.N = 128 := N_2; omega)

end Cert.KernelIdeal.Hand

end
-- ==== Proof.R3Runs.lean ====
/-
  Call 3 of the tiled product kernel: what its grid points share.

  The grid is three-dimensional; the last coordinate k walks the contraction in blocks and is the point's number
  modulo 4. The body has two branches on k: at k = 0 it clears its accumulator (a 1024×1024 scratch that lives across
  grid points), at k = 3 it scales, adds the bias row and stores the output block. Here: each window's block at a
  point as read off the arrays the call finds; the two branch conditions in closed form over the grid; where the output
  window is idle (every point but k = 3); the memrefs the body is called with; and the call's invariant with the
  accumulator's buffer split off the other scoped buffers.
-/
import proofs.«127015_j27917287424727_2_alg».proof.Proof.Gen.KernelIdeal.Launch
import proofs.«127015_j27917287424727_2_alg».proof.Proof.Gen.KernelIdeal.Skeleton
import proofs.«127015_j27917287424727_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (where it is not
    fetched its block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (where it is not
    fetched its block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (where it is not
    fetched its block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (where it is not
    fetched its block index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

end

/-! ## The two branches on the contraction coordinate -/

/-- The first branch is taken when k = 0, -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- the second when k = 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-- At a point with k = 0 the first branch is taken and the second is not; -/
theorem condA3 (t : Fin cfg3.N) (h0 : t.val % 4 = 0) : cond3_0 (grid3.coords t) ∧ ¬cond3_1 (grid3.coords t) :=
  ⟨(hcond3_0 t).mpr h0, fun h => by have := (hcond3_1 t).mp h; omega⟩
/-- strictly between, neither; -/
theorem condB3 (t : Fin cfg3.N) (h0 : ¬t.val % 4 = 0) (h1 : ¬t.val % 4 = 3) : ¬cond3_0 (grid3.coords t) ∧ ¬cond3_1 (grid3.coords t) :=
  ⟨fun h => h0 ((hcond3_0 t).mp h), fun h => h1 ((hcond3_1 t).mp h)⟩
/-- at k = 3 the second only. -/
theorem condC3 (t : Fin cfg3.N) (h1 : t.val % 4 = 3) : ¬cond3_0 (grid3.coords t) ∧ cond3_1 (grid3.coords t) :=
  ⟨fun h => by have := (hcond3_0 t).mp h; omega, (hcond3_1 t).mpr h1⟩

/-! ## Where the windows are idle -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Off k = 3 the body stores nothing into the output window, and its block is not written back there. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-! ## The memrefs the body is called with -/

/-- One staging buffer of the output window, through which its contents are stated (the choice does not matter). -/
abbrev VO3 : View sig .tc .vmem S1024x1024 .f32 := (Memref.whole cc3_stg4_0 : Memref sig .tc .vmem S1024x1024 .f32).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1024 .f32 := win3_4.stage (cfg3.slots t 4)
abbrev hs3_4 (t : Fin cfg3.N) : (ms3_4 t).IsWhole := hstage3_4 ((cfg3.slots t 4).cast nbuf3_4)
/-- The accumulator: a whole scoped buffer of the call's own, passed beside the windows. -/
abbrev scM3 : Memref sig .tc .vmem S1024x1024 .f32 := Memref.whole cc3_scratch0
abbrev VS3 : View sig .tc .vmem S1024x1024 .f32 := scM3.view

/-- The call's untouched-state invariant with the accumulator's buffer split off: the accumulator owned at some contents,
    every other scoped buffer no window stages, and the generator register at some state. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Hand

end
-- ==== Proof.R3RunA.lean ====
/-
  Call 3, the body at a point with k = 0 (the accumulator found at anything, cleared, then the first block product added; the output window untouched): the stores it makes into each buffer, last first, with the proof that on whole memrefs the body
  runs to its continuation holding the inputs as they were and each stored buffer with those stores written.
-/
import proofs.«127015_j27917287424727_2_alg».proof.Proof.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond3_0 i) (hc1 : ¬cond3_1 i)
    (x0 : Vec F S2048x1024 .bf16) (x1 : Vec F S2048x1024 .bf16) (x2 : Vec F S1024x1 .f32) (x3 : Vec F S1x1024 .f32) :
    { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc3__fused_matmul_kernel i arg3 harg3 arg4 harg4 arg5 harg5 arg6 harg6 arg7 harg7 arg8 harg8) K } := by
  refine ⟨?_, fun xi4 E K => ?run⟩
  case run =>
    simp only [cc3__fused_matmul_kernel_eq_skeleton]; unfold cc3__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond3_0 i) (hc1 : ¬cond3_1 i)
    (x0 : Vec F S2048x1024 .bf16) (x1 : Vec F S2048x1024 .bf16) (x2 : Vec F S1024x1 .f32) (x3 : Vec F S1x1024 .f32) (y : S1024x1024.Idx) :
    ∃ pc ∈ (kernelRun3_A c i arg3 harg3 arg4 harg4 arg5 harg5 arg6 harg6 arg7 harg7 arg8 harg8 hc0 hc1 x0 x1 x2 x3).1, y ∈ pc.1.set :=
  View.cover_of_tiledL (kernelRun3_A c i arg3 harg3 arg4 harg4 arg5 harg5 arg6 harg6 arg7 harg7 arg8 harg8 hc0 hc1 x0 x1 x2 x3).1 S1024x1024.size (by sl_kernel_rfl) y

/-- What this case leaves in the accumulator: its stores read back. -/
def sout3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond3_0 i) (hc1 : ¬cond3_1 i)
    (x0 : Vec F S2048x1024 .bf16) (x1 : Vec F S2048x1024 .bf16) (x2 : Vec F S1024x1 .f32) (x3 : Vec F S1x1024 .f32) : Vec F S1024x1024 .f32 :=
  VS3.read (Elt F) (VS3.writes (Elt F) VS3.junk (kernelRun3_A c i arg3 harg3 arg4 harg4 arg5 harg5 arg6 harg6 arg7 harg7 arg8 harg8 hc0 hc1 x0 x1 x2 x3).1)

end Cert.KernelIdeal.Hand

end
-- ==== Proof.R3RunB.lean ====
/-
  Call 3, the body at a point strictly inside the contraction (the accumulator found at what the point before left, one block product added; the output window untouched): the stores it makes into each buffer, last first, with the proof that on whole memrefs the body
  runs to its continuation holding the inputs as they were and each stored buffer with those stores written.
-/
import proofs.«127015_j27917287424727_2_alg».proof.Proof.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : ¬cond3_1 i)
    (x0 : Vec F S2048x1024 .bf16) (x1 : Vec F S2048x1024 .bf16) (x2 : Vec F S1024x1 .f32) (x3 : Vec F S1x1024 .f32) (xs : Vec F S1024x1024 .f32) :
    { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc3__fused_matmul_kernel i arg3 harg3 arg4 harg4 arg5 harg5 arg6 harg6 arg7 harg7 arg8 harg8) K } := by
  refine ⟨?_, fun xi4 E K => ?run⟩
  case run =>
    simp only [cc3__fused_matmul_kernel_eq_skeleton]; unfold cc3__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : ¬cond3_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun3_B c i arg3 harg3 arg4 harg4 arg5 harg5 arg6 harg6 arg7 harg7 arg8 harg8 hc0 hc1 x0 x1 x2 x3 xs).1, y ∈ pc.1.set :=
  View.cover_of_tiledL (kernelRun3_B c i arg3 harg3 arg4 harg4 arg5 harg5 arg6 harg6 arg7 harg7 arg8 harg8 hc0 hc1 x0 x1 x2 x3 xs).1 S1024x1024.size (by sl_kernel_rfl) y

/-- What this case leaves in the accumulator: its stores read back. -/
def sout3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : ¬cond3_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VS3.read (Elt F) (VS3.writes (Elt F) VS3.junk (kernelRun3_B c i arg3 harg3 arg4 harg4 arg5 harg5 arg6 harg6 arg7 harg7 arg8 harg8 hc0 hc1 x0 x1 x2 x3 xs).1)

end Cert.KernelIdeal.Hand

end
-- ==== Proof.R3RunC.lean ====
/-
  Call 3, the body at the contraction's last point (one block product added to what the point before left, then the scaled and biased accumulator stored into the output window): the stores it makes into each buffer, last first, with the proof that on whole memrefs the body
  runs to its continuation holding the inputs as they were and each stored buffer with those stores written.
-/
import proofs.«127015_j27917287424727_2_alg».proof.Proof.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc3__fused_matmul_kernel i arg3 harg3 arg4 harg4 arg5 harg5 arg6 harg6 arg7 harg7 arg8 harg8) K } := by
  refine ⟨?_, ?_, fun E K => ?run⟩
  case run =>
    simp only [cc3__fused_matmul_kernel_eq_skeleton]; unfold cc3__fused_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

/-- The accumulator's stores tile it, so they cover it. -/
theorem scover3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun3_C c i arg3 harg3 arg4 harg4 arg5 harg5 arg6 harg6 arg7 harg7 arg8 harg8 hc0 hc1 x0 x1 x2 x3 xs).2.1, y ∈ pc.1.set :=
  View.cover_of_tiledL (kernelRun3_C c i arg3 harg3 arg4 harg4 arg5 harg5 arg6 harg6 arg7 harg7 arg8 harg8 hc0 hc1 x0 x1 x2 x3 xs).2.1 S1024x1024.size (by sl_kernel_rfl) y

/-- What this case leaves in the accumulator: its stores read back. -/
def sout3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VS3.read (Elt F) (VS3.writes (Elt F) VS3.junk (kernelRun3_C c i arg3 harg3 arg4 harg4 arg5 harg5 arg6 harg6 arg7 harg7 arg8 harg8 hc0 hc1 x0 x1 x2 x3 xs).2.1)

/-- The output block's one store covers it. -/
theorem cover3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun3_C c i arg3 harg3 arg4 harg4 arg5 harg5 arg6 harg6 arg7 harg7 arg8 harg8 hc0 hc1 x0 x1 x2 x3 xs).1, y ∈ pc.1.set :=
  View.cover_of_tiledL (kernelRun3_C c i arg3 harg3 arg4 harg4 arg5 harg5 arg6 harg6 arg7 harg7 arg8 harg8 hc0 hc1 x0 x1 x2 x3 xs).1 S1024x1024.size (by sl_kernel_rfl) y

/-- What this case leaves in the output window's staging buffer. -/
def out3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VO3.read (Elt F) (VO3.writes (Elt F) VO3.junk (kernelRun3_C c i arg3 harg3 arg4 harg4 arg5 harg5 arg6 harg6 arg7 harg7 arg8 harg8 hc0 hc1 x0 x1 x2 x3 xs).1)

end Cert.KernelIdeal.Hand

end
-- ==== Proof.R3Frame.lean ====
/-
  Call 3: what the accumulator and the output window hold after each grid point, the call's proof data, and the body's
  obligation at every point.

  After point n the accumulator holds: at k = 0 the first block product over a cleared buffer; otherwise the point's block
  product added to what point n − 1 left. The output window holds at k = 3 the scaled, biased accumulator; elsewhere it is idle
  (its buffer handed back as found, and never written back from there). The call's invariant carries the accumulator's
  contents from one point to the next.
-/
import proofs.«127015_j27917287424727_2_alg».proof.Proof.R3RunA
import proofs.«127015_j27917287424727_2_alg».proof.Proof.R3RunB
import proofs.«127015_j27917287424727_2_alg».proof.Proof.R3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An idle output window's placeholder contents: consulted nowhere. -/
def idleO3 : Vec F S1024x1024 .f32 := VO3.read (Elt F) (VO3.writes (Elt F) VO3.junk [])

/-- The accumulator after a point with k = 0, -/
def accA3 (c : Dev nD) (t : Fin cfg3.N) (h0 : t.val % 4 = 0) : Vec F S1024x1024 .f32 :=
  sout3_A c (grid3.coords t) (ms3_0 t) (hs3_0 t) (ms3_1 t) (hs3_1 t) (ms3_2 t) (hs3_2 t) (ms3_3 t) (hs3_3 t) (ms3_4 t) (hs3_4 t) scM3 (Memref.isWhole_whole _) (condA3 t h0).1 (condA3 t h0).2 (iblk3 V c 0 t) (iblk3 V c 1 t) (iblk3 V c 2 t) (iblk3 V c 3 t)
/-- after a point strictly inside the contraction, over what the point before left, -/
def accB3 (c : Dev nD) (t : Fin cfg3.N) (h0 : ¬t.val % 4 = 0) (h1 : ¬t.val % 4 = 3) (xs : Vec F S1024x1024 .f32) : Vec F S1024x1024 .f32 :=
  sout3_B c (grid3.coords t) (ms3_0 t) (hs3_0 t) (ms3_1 t) (hs3_1 t) (ms3_2 t) (hs3_2 t) (ms3_3 t) (hs3_3 t) (ms3_4 t) (hs3_4 t) scM3 (Memref.isWhole_whole _) (condB3 t h0 h1).1 (condB3 t h0 h1).2 (iblk3 V c 0 t) (iblk3 V c 1 t) (iblk3 V c 2 t) (iblk3 V c 3 t) xs
/-- and after the contraction's last point; -/
def accC3 (c : Dev nD) (t : Fin cfg3.N) (h1 : t.val % 4 = 3) (xs : Vec F S1024x1024 .f32) : Vec F S1024x1024 .f32 :=
  sout3_C c (grid3.coords t) (ms3_0 t) (hs3_0 t) (ms3_1 t) (hs3_1 t) (ms3_2 t) (hs3_2 t) (ms3_3 t) (hs3_3 t) (ms3_4 t) (hs3_4 t) scM3 (Memref.isWhole_whole _) (condC3 t h1).1 (condC3 t h1).2 (iblk3 V c 0 t) (iblk3 V c 1 t) (iblk3 V c 2 t) (iblk3 V c 3 t) xs
/-- the output block stored there. -/
def outC3 (c : Dev nD) (t : Fin cfg3.N) (h1 : t.val % 4 = 3) (xs : Vec F S1024x1024 .f32) : Vec F S1024x1024 .f32 :=
  out3_C c (grid3.coords t) (ms3_0 t) (hs3_0 t) (ms3_1 t) (hs3_1 t) (ms3_2 t) (hs3_2 t) (ms3_3 t) (hs3_3 t) (ms3_4 t) (hs3_4 t) scM3 (Memref.isWhole_whole _) (condC3 t h1).1 (condC3 t h1).2 (iblk3 V c 0 t) (iblk3 V c 1 t) (iblk3 V c 2 t) (iblk3 V c 3 t) xs

/-- THE ACCUMULATION: the output window's buffer and the accumulator after the body at position `n`. -/
def outsAt3 (c : Dev nD) : (n : ℕ) → n < cfg3.N → Vec F S1024x1024 .f32 × Vec F S1024x1024 .f32
  | 0, hn => (idleO3, accA3 V c ⟨0, hn⟩ (Nat.zero_mod _))
  | n + 1, hn =>
    if h0 : (n + 1) % 4 = 0 then (idleO3, accA3 V c ⟨n + 1, hn⟩ h0)
    else if h1 : (n + 1) % 4 = 3 then
      (outC3 V c ⟨n + 1, hn⟩ h1 (outsAt3 c n (Nat.lt_of_succ_lt hn)).2, accC3 V c ⟨n + 1, hn⟩ h1 (outsAt3 c n (Nat.lt_of_succ_lt hn)).2)
    else (idleO3, accB3 V c ⟨n + 1, hn⟩ h0 h1 (outsAt3 c n (Nat.lt_of_succ_lt hn)).2)

theorem outsAt3_A (c : Dev nD) (t : Fin cfg3.N) (h0 : t.val % 4 = 0) :
    outsAt3 V c t.val t.isLt = (idleO3, accA3 V c t h0) := by
  obtain ⟨n, hn⟩ := t
  cases n with
  | zero => rfl
  | succ n => exact dif_pos h0

theorem outsAt3_B (c : Dev nD) (t : Fin cfg3.N) (h0 : ¬t.val % 4 = 0) (h1 : ¬t.val % 4 = 3) :
    outsAt3 V c t.val t.isLt = (idleO3, accB3 V c t h0 h1 (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt3_C (c : Dev nD) (t : Fin cfg3.N) (h1 : t.val % 4 = 3) :
    outsAt3 V c t.val t.isLt = (outC3 V c t h1 (outsAt3 V c (t.val - 1) (Nat.lt_of_le_of_lt (Nat.sub_le _ _) t.isLt)).2, accC3 V c t h1 (outsAt3 V c (t.val - 1) (Nat.lt_of_le_of_lt (Nat.sub_le _ _) t.isLt)).2) := by
  obtain ⟨n, hn⟩ := t
  cases n with
  | zero => exact absurd (show (0 : ℕ) % 4 = 3 from h1) (by decide)
  | succ n =>
    have h1' : (n + 1) % 4 = 3 := h1
    exact (dif_neg (by omega)).trans (dif_pos h1')

/-- The call's invariant before position `n`: before the first point every scoped buffer at anything; afterwards the
    accumulator at what the point before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the call finds them; after the body at point `t` each input's buffer at its block and the output's at
    `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the inputs' memrefs hold their blocks; the closed forms say which branch pattern the point is in;
    the invariant hands the body the accumulator at what the point before left (at anything at the first point) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val % 4 = 0
  · obtain ⟨hc0, hc1⟩ := condA3 t h0
    rw [Dat.leavesExact_idle (dat3 V c) 4 t (idleAt3_4 t hc1) (noFlush3_4 t hc1)]
    rw [outsAt3_A V c t h0]
    unfold accA3 sout3_A; (try dsimp only)
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ hc0 hc1 (iblk3 V c 0 t) (iblk3 V c 1 t) (iblk3 V c 2 t) (iblk3 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ hc0 hc1 (iblk3 V c 0 t) (iblk3 V c 1 t) (iblk3 V c 2 t) (iblk3 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · obtain ⟨hc0, hc1⟩ := condC3 t h1
      rw [show (dat3 V c).leavesExact 4 t = owns (c : Thread nD τ) (ms3_4 t) fullShare ((dat3 V c).after 4 t) from by
        unfold Dat.leavesExact; rw [liveAt3_4 t hc1], after3_4]
      rw [outsAt3_C V c t h1]
      unfold accC3 outC3 sout3_C out3_C; (try dsimp only)
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ hc0 hc1 (iblk3 V c 0 t) (iblk3 V c 1 t) (iblk3 V c 2 t) (iblk3 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover3_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C c _ _ _ _ _ _ _ _ _ _ _ _ _ _ _ _ _ _ _ _)
    · obtain ⟨hc0, hc1⟩ := condB3 t h0 h1
      rw [Dat.leavesExact_idle (dat3 V c) 4 t (idleAt3_4 t hc1) (noFlush3_4 t hc1)]
      rw [outsAt3_B V c t h0 h1]
      unfold accB3 sout3_B; (try dsimp only)
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ hc0 hc1 (iblk3 V c 0 t) (iblk3 V c 1 t) (iblk3 V c 2 t) (iblk3 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover3_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the untouched-state invariant back: the accumulator's named contents
    are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

theorem hout3 (c : Dev nD) : (dat3 V c).Φ (Fin.last cfg3.N) ⊢ Pipeline.ΦA spec3 c :=
  Phi_out3 V c _ (by rw [Fin.val_last]; have : cfg3.N = 256 := N_3; omega)

end Cert.KernelIdeal.Hand

end
-- ==== Proof.KFrame.lean ====
/-
  The program's run as six segments: the host operations before the four calls, the four calls, the host operations after.

  Between two segments core c holds every unscoped buffer at a valuation: the launch contents, then the host prefix applied,
  then after call K the same with call K's output array replaced by what its pipeline leaves there (every block written back at
  the point that closes its contraction), then the host suffix applied. Each call is a segment entered at the valuation before it
  and left at the one after; the generated conditional frame chains them, and every argument array ends as launched.
-/
import proofs.«127015_j27917287424727_2_alg».proof.Proof.R0Frame
import proofs.«127015_j27917287424727_2_alg».proof.Proof.R1Frame
import proofs.«127015_j27917287424727_2_alg».proof.Proof.R2Frame
import proofs.«127015_j27917287424727_2_alg».proof.Proof.R3Frame
import proofs.«127015_j27917287424727_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a call's proof data take. -/
abbrev atTc (W : Dev nD → Valuation τ sig (Elt F)) : (c : Dev nD) → (b : Ref sig .tc) → Buf (Elt F) ((c : Thread nD τ).loc b) := fun c b => W c b

/-- After call 0: its output array at what the pipeline leaves, every other buffer as the host prefix left it. -/
def U2 (c : Dev nD) : Valuation τ sig (Elt F) :=
  Function.update (V1 m c) (Proc.devRef .tc main_v30) ((dat0 (atTc (V1 m)) c).arrAt 4 cfg0.N)
/-- After call 1. -/
def U3 (c : Dev nD) : Valuation τ sig (Elt F) :=
  Function.update (U2 m c) (Proc.devRef .tc main_v31) ((dat1 (atTc (U2 m)) c).arrAt 4 cfg1.N)
/-- After call 2. -/
def U4 (c : Dev nD) : Valuation τ sig (Elt F) :=
  Function.update (U3 m c) (Proc.devRef .tc main_v32) ((dat2 (atTc (U3 m)) c).arrAt 4 cfg2.N)
/-- After call 3. -/
def U5 (c : Dev nD) : Valuation τ sig (Elt F) :=
  Function.update (U4 m c) (Proc.devRef .tc main_v33) ((dat3 (atTc (U4 m)) c).arrAt 4 cfg3.N)

/-- What the calls leave in the buffers they may change, as the conditional frame's unknowns. -/
def outs : Outs (F := F) := fun J r c => match J with
  | 2 => U2 m c (Proc.devRef .tc r)
  | 3 => U3 m c (Proc.devRef .tc r)
  | 4 => U4 m c (Proc.devRef .tc r)
  | _ => U5 m c (Proc.devRef .tc r)

theorem V2_eq (c : Dev nD) : V2 m (outs m) c = U2 m c := by
  show Function.update (V1 m c) (Proc.devRef .tc main_v30) (U2 m c (Proc.devRef .tc main_v30)) = U2 m c
  unfold U2; rw [Function.update_self]
theorem V3_eq (c : Dev nD) : V3 m (outs m) c = U3 m c := by
  show Function.update (V2 m (outs m) c) (Proc.devRef .tc main_v31) (U3 m c (Proc.devRef .tc main_v31)) = U3 m c
  rw [V2_eq]; unfold U3; rw [Function.update_self]
theorem V4_eq (c : Dev nD) : V4 m (outs m) c = U4 m c := by
  show Function.update (V3 m (outs m) c) (Proc.devRef .tc main_v32) (U4 m c (Proc.devRef .tc main_v32)) = U4 m c
  rw [V3_eq]; unfold U4; rw [Function.update_self]
theorem V5_eq (c : Dev nD) : V5 m (outs m) c = U5 m c := by
  show Function.update (V4 m (outs m) c) (Proc.devRef .tc main_v33) (U5 m c (Proc.devRef .tc main_v33)) = U5 m c
  rw [V4_eq]; unfold U5; rw [Function.update_self]

/-- Every call's proof data, each at the valuation its call is entered with. -/
def pdats : (p : Fin 4) → (c : Dev nD) → Dat τ (Elt F) Unit ℕ (UR sig nD τ) ℕ (Pipeline.pin (pcfgs (F := F)) adm p) c
  | ⟨0, _⟩ => fun c => dat0 (atTc (V1 m)) c
  | ⟨1, _⟩ => fun c => dat1 (atTc (U2 m)) c
  | ⟨2, _⟩ => fun c => dat2 (atTc (U3 m)) c
  | ⟨3, _⟩ => fun c => dat3 (atTc (U4 m)) c

abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- Each of call 0's arrays after the call is what the next valuation holds there: an input as entered, the output at what the
    pipeline's write-backs leave. -/
theorem hF0 (c : Dev nD) : ∀ w : Fin cfg0.W, (dat0 (atTc (V1 m)) c).arrAt w cfg0.N = atTc (U2 m) c (Pipeline.arrRef spec0 w)
  | ⟨0, _⟩ => ((dat0 (atTc (V1 m)) c).arrAt_in 0 rfl _).trans ((A_eq0 (atTc (V1 m)) c 0).trans
      (by unfold U2 atTc; exact (Function.update_of_ne (StableHlo.devRef_ne_of_ne (by decide : (main_v23 : Ref sig .tc) ≠ main_v30) : (Proc.devRef .tc main_v23 : DevRef τ sig) ≠ Proc.devRef .tc main_v30) _ _).symm))
  | ⟨1, _⟩ => ((dat0 (atTc (V1 m)) c).arrAt_in 1 rfl _).trans ((A_eq0 (atTc (V1 m)) c 1).trans
      (by unfold U2 atTc; exact (Function.update_of_ne (StableHlo.devRef_ne_of_ne (by decide : (main_v24 : Ref sig .tc) ≠ main_v30) : (Proc.devRef .tc main_v24 : DevRef τ sig) ≠ Proc.devRef .tc main_v30) _ _).symm))
  | ⟨2, _⟩ => ((dat0 (atTc (V1 m)) c).arrAt_in 2 rfl _).trans ((A_eq0 (atTc (V1 m)) c 2).trans
      (by unfold U2 atTc; exact (Function.update_of_ne (StableHlo.devRef_ne_of_ne (by decide : (main_v21 : Ref sig .tc) ≠ main_v30) : (Proc.devRef .tc main_v21 : DevRef τ sig) ≠ Proc.devRef .tc main_v30) _ _).symm))
  | ⟨3, _⟩ => ((dat0 (atTc (V1 m)) c).arrAt_in 3 rfl _).trans ((A_eq0 (atTc (V1 m)) c 3).trans
      (by unfold U2 atTc; exact (Function.update_of_ne (StableHlo.devRef_ne_of_ne (by decide : (main_v26 : Ref sig .tc) ≠ main_v30) : (Proc.devRef .tc main_v26 : DevRef τ sig) ≠ Proc.devRef .tc main_v30) _ _).symm))
  | ⟨4, _⟩ => by unfold U2 atTc; exact (Function.update_self (Proc.devRef .tc main_v30 : DevRef τ sig) _ (V1 m c)).symm

/-- Every other buffer is as the call found it. -/
theorem hrest0 (c : Dev nD) : ∀ b, b ∉ Finset.univ.image (Pipeline.arrRef spec0) → atTc (U2 m) c b = atTc (V1 m) c b := by
  intro b hb
  unfold U2 atTc
  exact Function.update_of_ne (StableHlo.devRef_ne_of_ne (fun e => hb (Finset.mem_image.mpr ⟨4, Finset.mem_univ _, e.symm⟩) : b ≠ main_v30) : (Proc.devRef .tc b : DevRef τ sig) ≠ Proc.devRef .tc main_v30) _ _

set_option backward.isDefEq.respectTransparency.types false in
/-- CALL 0 as a segment of the program: entered with every unscoped buffer at the valuation before it, left at the one after
    it; its arrays split out of the unscoped buffers and put back at the exit contents; the generator register into the call's
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ L lv 0 fun _ _ => rfl
  pre c := iprop(StableHlo.held (c : Thread nD τ) (Pipeline.ucRefs τ sig) ((V1 m) c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (atTc (V1 m)) c)
    unfold Pipeline.ΦA
    iintro ⟨Hp, -, Hr⟩
    isplitl [Hr]; · iexact Hr
    iexact Hp
  hout c := by
    rw [Pipeline.ownSems0_none]
    refine BIBase.Entails.trans (hout0 (atTc (V1 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Each of call 1's arrays after the call is what the next valuation holds there: an input as entered, the output at what the
    pipeline's write-backs leave. -/
theorem hF1 (c : Dev nD) : ∀ w : Fin cfg1.W, (dat1 (atTc (U2 m)) c).arrAt w cfg1.N = atTc (U3 m) c (Pipeline.arrRef spec1 w)
  | ⟨0, _⟩ => ((dat1 (atTc (U2 m)) c).arrAt_in 0 rfl _).trans ((A_eq1 (atTc (U2 m)) c 0).trans
      (by unfold U3 atTc; exact (Function.update_of_ne (StableHlo.devRef_ne_of_ne (by decide : (main_v22 : Ref sig .tc) ≠ main_v31) : (Proc.devRef .tc main_v22 : DevRef τ sig) ≠ Proc.devRef .tc main_v31) _ _).symm))
  | ⟨1, _⟩ => ((dat1 (atTc (U2 m)) c).arrAt_in 1 rfl _).trans ((A_eq1 (atTc (U2 m)) c 1).trans
      (by unfold U3 atTc; exact (Function.update_of_ne (StableHlo.devRef_ne_of_ne (by decide : (main_v30 : Ref sig .tc) ≠ main_v31) : (Proc.devRef .tc main_v30 : DevRef τ sig) ≠ Proc.devRef .tc main_v31) _ _).symm))
  | ⟨2, _⟩ => ((dat1 (atTc (U2 m)) c).arrAt_in 2 rfl _).trans ((A_eq1 (atTc (U2 m)) c 2).trans
      (by unfold U3 atTc; exact (Function.update_of_ne (StableHlo.devRef_ne_of_ne (by decide : (main_v21 : Ref sig .tc) ≠ main_v31) : (Proc.devRef .tc main_v21 : DevRef τ sig) ≠ Proc.devRef .tc main_v31) _ _).symm))
  | ⟨3, _⟩ => ((dat1 (atTc (U2 m)) c).arrAt_in 3 rfl _).trans ((A_eq1 (atTc (U2 m)) c 3).trans
      (by unfold U3 atTc; exact (Function.update_of_ne (StableHlo.devRef_ne_of_ne (by decide : (main_v28 : Ref sig .tc) ≠ main_v31) : (Proc.devRef .tc main_v28 : DevRef τ sig) ≠ Proc.devRef .tc main_v31) _ _).symm))
  | ⟨4, _⟩ => by unfold U3 atTc; exact (Function.update_self (Proc.devRef .tc main_v31 : DevRef τ sig) _ (U2 m c)).symm

/-- Every other buffer is as the call found it. -/
theorem hrest1 (c : Dev nD) : ∀ b, b ∉ Finset.univ.image (Pipeline.arrRef spec1) → atTc (U3 m) c b = atTc (U2 m) c b := by
  intro b hb
  unfold U3 atTc
  exact Function.update_of_ne (StableHlo.devRef_ne_of_ne (fun e => hb (Finset.mem_image.mpr ⟨4, Finset.mem_univ _, e.symm⟩) : b ≠ main_v31) : (Proc.devRef .tc b : DevRef τ sig) ≠ Proc.devRef .tc main_v31) _ _

set_option backward.isDefEq.respectTransparency.types false in
/-- CALL 1 as a segment of the program: entered with every unscoped buffer at the valuation before it, left at the one after
    it; its arrays split out of the unscoped buffers and put back at the exit contents; the generator register into the call's
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U2 m)) c).loose
  hwaits := Pipeline.hwaits_of_owed_zero _ _ _ _ L lv 1 fun _ _ => rfl
  pre c := iprop(StableHlo.held (c : Thread nD τ) (Pipeline.ucRefs τ sig) ((U2 m) c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (atTc (U2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atTc (U2 m)) c)
    unfold Pipeline.ΦA
    iintro ⟨Hp, -, Hr⟩
    isplitl [Hr]; · iexact Hr
    iexact Hp
  hout c := by
    rw [Pipeline.ownSems0_none]
    refine BIBase.Entails.trans (hout1 (atTc (U2 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U2 m) c) (atTc (U3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Each of call 2's arrays after the call is what the next valuation holds there: an input as entered, the output at what the
    pipeline's write-backs leave. -/
theorem hF2 (c : Dev nD) : ∀ w : Fin cfg2.W, (dat2 (atTc (U3 m)) c).arrAt w cfg2.N = atTc (U4 m) c (Pipeline.arrRef spec2 w)
  | ⟨0, _⟩ => ((dat2 (atTc (U3 m)) c).arrAt_in 0 rfl _).trans ((A_eq2 (atTc (U3 m)) c 0).trans
      (by unfold U4 atTc; exact (Function.update_of_ne (StableHlo.devRef_ne_of_ne (by decide : (main_v31 : Ref sig .tc) ≠ main_v32) : (Proc.devRef .tc main_v31 : DevRef τ sig) ≠ Proc.devRef .tc main_v32) _ _).symm))
  | ⟨1, _⟩ => ((dat2 (atTc (U3 m)) c).arrAt_in 1 rfl _).trans ((A_eq2 (atTc (U3 m)) c 1).trans
      (by unfold U4 atTc; exact (Function.update_of_ne (StableHlo.devRef_ne_of_ne (by decide : (main_v25 : Ref sig .tc) ≠ main_v32) : (Proc.devRef .tc main_v25 : DevRef τ sig) ≠ Proc.devRef .tc main_v32) _ _).symm))
  | ⟨2, _⟩ => ((dat2 (atTc (U3 m)) c).arrAt_in 2 rfl _).trans ((A_eq2 (atTc (U3 m)) c 2).trans
      (by unfold U4 atTc; exact (Function.update_of_ne (StableHlo.devRef_ne_of_ne (by decide : (main_v21 : Ref sig .tc) ≠ main_v32) : (Proc.devRef .tc main_v21 : DevRef τ sig) ≠ Proc.devRef .tc main_v32) _ _).symm))
  | ⟨3, _⟩ => ((dat2 (atTc (U3 m)) c).arrAt_in 3 rfl _).trans ((A_eq2 (atTc (U3 m)) c 3).trans
      (by unfold U4 atTc; exact (Function.update_of_ne (StableHlo.devRef_ne_of_ne (by decide : (main_v27 : Ref sig .tc) ≠ main_v32) : (Proc.devRef .tc main_v27 : DevRef τ sig) ≠ Proc.devRef .tc main_v32) _ _).symm))
  | ⟨4, _⟩ => by unfold U4 atTc; exact (Function.update_self (Proc.devRef .tc main_v32 : DevRef τ sig) _ (U3 m c)).symm

/-- Every other buffer is as the call found it. -/
theorem hrest2 (c : Dev nD) : ∀ b, b ∉ Finset.univ.image (Pipeline.arrRef spec2) → atTc (U4 m) c b = atTc (U3 m) c b := by
  intro b hb
  unfold U4 atTc
  exact Function.update_of_ne (StableHlo.devRef_ne_of_ne (fun e => hb (Finset.mem_image.mpr ⟨4, Finset.mem_univ _, e.symm⟩) : b ≠ main_v32) : (Proc.devRef .tc b : DevRef τ sig) ≠ Proc.devRef .tc main_v32) _ _

set_option backward.isDefEq.respectTransparency.types false in
/-- CALL 2 as a segment of the program: entered with every unscoped buffer at the valuation before it, left at the one after
    it; its arrays split out of the unscoped buffers and put back at the exit contents; the generator register into the call's
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U3 m)) c).loose
  hwaits := Pipeline.hwaits_of_owed_zero _ _ _ _ L lv 2 fun _ _ => rfl
  pre c := iprop(StableHlo.held (c : Thread nD τ) (Pipeline.ucRefs τ sig) ((U3 m) c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (atTc (U3 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (U3 m)) c)
    unfold Pipeline.ΦA
    iintro ⟨Hp, -, Hr⟩
    isplitl [Hr]; · iexact Hr
    iexact Hp
  hout c := by
    rw [Pipeline.ownSems0_none]
    refine BIBase.Entails.trans (hout2 (atTc (U3 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U3 m) c) (atTc (U4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Each of call 3's arrays after the call is what the next valuation holds there: an input as entered, the output at what the
    pipeline's write-backs leave. -/
theorem hF3 (c : Dev nD) : ∀ w : Fin cfg3.W, (dat3 (atTc (U4 m)) c).arrAt w cfg3.N = atTc (U5 m) c (Pipeline.arrRef spec3 w)
  | ⟨0, _⟩ => ((dat3 (atTc (U4 m)) c).arrAt_in 0 rfl _).trans ((A_eq3 (atTc (U4 m)) c 0).trans
      (by unfold U5 atTc; exact (Function.update_of_ne (StableHlo.devRef_ne_of_ne (by decide : (main_v22 : Ref sig .tc) ≠ main_v33) : (Proc.devRef .tc main_v22 : DevRef τ sig) ≠ Proc.devRef .tc main_v33) _ _).symm))
  | ⟨1, _⟩ => ((dat3 (atTc (U4 m)) c).arrAt_in 1 rfl _).trans ((A_eq3 (atTc (U4 m)) c 1).trans
      (by unfold U5 atTc; exact (Function.update_of_ne (StableHlo.devRef_ne_of_ne (by decide : (main_v32 : Ref sig .tc) ≠ main_v33) : (Proc.devRef .tc main_v32 : DevRef τ sig) ≠ Proc.devRef .tc main_v33) _ _).symm))
  | ⟨2, _⟩ => ((dat3 (atTc (U4 m)) c).arrAt_in 2 rfl _).trans ((A_eq3 (atTc (U4 m)) c 2).trans
      (by unfold U5 atTc; exact (Function.update_of_ne (StableHlo.devRef_ne_of_ne (by decide : (main_v21 : Ref sig .tc) ≠ main_v33) : (Proc.devRef .tc main_v21 : DevRef τ sig) ≠ Proc.devRef .tc main_v33) _ _).symm))
  | ⟨3, _⟩ => ((dat3 (atTc (U4 m)) c).arrAt_in 3 rfl _).trans ((A_eq3 (atTc (U4 m)) c 3).trans
      (by unfold U5 atTc; exact (Function.update_of_ne (StableHlo.devRef_ne_of_ne (by decide : (main_v29 : Ref sig .tc) ≠ main_v33) : (Proc.devRef .tc main_v29 : DevRef τ sig) ≠ Proc.devRef .tc main_v33) _ _).symm))
  | ⟨4, _⟩ => by unfold U5 atTc; exact (Function.update_self (Proc.devRef .tc main_v33 : DevRef τ sig) _ (U4 m c)).symm

/-- Every other buffer is as the call found it. -/
theorem hrest3 (c : Dev nD) : ∀ b, b ∉ Finset.univ.image (Pipeline.arrRef spec3) → atTc (U5 m) c b = atTc (U4 m) c b := by
  intro b hb
  unfold U5 atTc
  exact Function.update_of_ne (StableHlo.devRef_ne_of_ne (fun e => hb (Finset.mem_image.mpr ⟨4, Finset.mem_univ _, e.symm⟩) : b ≠ main_v33) : (Proc.devRef .tc b : DevRef τ sig) ≠ Proc.devRef .tc main_v33) _ _

set_option backward.isDefEq.respectTransparency.types false in
/-- CALL 3 as a segment of the program: entered with every unscoped buffer at the valuation before it, left at the one after
    it; its arrays split out of the unscoped buffers and put back at the exit contents; the generator register into the call's
    invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U4 m)) c).loose
  hwaits := Pipeline.hwaits_of_owed_zero _ _ _ _ L lv 3 fun _ _ => rfl
  pre c := iprop(StableHlo.held (c : Thread nD τ) (Pipeline.ucRefs τ sig) ((U4 m) c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec3 c (atTc (U4 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc (U4 m)) c)
    unfold Pipeline.ΦA
    iintro ⟨Hp, -, Hr⟩
    isplitl [Hr]; · iexact Hr
    iexact Hp
  hout c := by
    rw [Pipeline.ownSems0_none]
    refine BIBase.Entails.trans (hout3 (atTc (U4 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U4 m) c) (atTc (U5 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of the program terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun c => by rw [V2_eq]; exact .rfl)
    (reg1 m) (fun c => by rw [V2_eq]; exact .rfl) (fun c => by rw [V3_eq]; exact .rfl)
    (reg2 m) (fun c => by rw [V3_eq]; exact .rfl) (fun c => by rw [V4_eq]; exact .rfl)
    (reg3 m) (fun c => by rw [V4_eq]; exact .rfl) (fun c => by rw [V5_eq]; exact .rfl)

end Cert.KernelIdeal.Hand

end
-- ==== Proof.BR0Runs.lean ====
/-
  Call 0 of the tiled product kernel: what its grid points share.

  The grid is three-dimensional; the last coordinate k walks the contraction in blocks and is the point's number
  modulo 4. The body has two branches on k: at k = 0 it clears its accumulator (a 1024×1024 scratch that lives across
  grid points), at k = 3 it scales, adds the bias row and stores the output block. Here: each window's block at a
  point as read off the arrays the call finds; the two branch conditions in closed form over the grid; where the output
  window is idle (every point but k = 3); the memrefs the body is called with; and the call's invariant with the
  accumulator's buffer split off the other scoped buffers.
-/
import proofs.«127015_j27917287424727_2_alg».proof.Proof.Gen.Kernel.Launch
import proofs.«127015_j27917287424727_2_alg».proof.Proof.Gen.Kernel.Skeleton
import proofs.«127015_j27917287424727_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is not
    fetched its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is not
    fetched its block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is not
    fetched its block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branches on the contraction coordinate -/

/-- The first branch is taken when k = 0, -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- the second when k = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- At a point with k = 0 the first branch is taken and the second is not; -/
theorem condA0 (t : Fin cfg0.N) (h0 : t.val % 4 = 0) : cond0_0 (grid0.coords t) ∧ ¬cond0_1 (grid0.coords t) :=
  ⟨(hcond0_0 t).mpr h0, fun h => by have := (hcond0_1 t).mp h; omega⟩
/-- strictly between, neither; -/
theorem condB0 (t : Fin cfg0.N) (h0 : ¬t.val % 4 = 0) (h1 : ¬t.val % 4 = 3) : ¬cond0_0 (grid0.coords t) ∧ ¬cond0_1 (grid0.coords t) :=
  ⟨fun h => h0 ((hcond0_0 t).mp h), fun h => h1 ((hcond0_1 t).mp h)⟩
/-- at k = 3 the second only. -/
theorem condC0 (t : Fin cfg0.N) (h1 : t.val % 4 = 3) : ¬cond0_0 (grid0.coords t) ∧ cond0_1 (grid0.coords t) :=
  ⟨fun h => by have := (hcond0_0 t).mp h; omega, (hcond0_1 t).mpr h1⟩

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off k = 3 the body stores nothing into the output window, and its block is not written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of the output window, through which its contents are stated (the choice does not matter). -/
abbrev VO0 : View sig .tc .vmem S1024x1024 .bf16 := (Memref.whole cc0_stg4_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The accumulator: a whole scoped buffer of the call's own, passed beside the windows. -/
abbrev scM0 : Memref sig .tc .vmem S1024x1024 .f32 := Memref.whole cc0_scratch0
abbrev VS0 : View sig .tc .vmem S1024x1024 .f32 := scM0.view

/-- The call's untouched-state invariant with the accumulator's buffer split off: the accumulator owned at some contents,
    every other scoped buffer no window stages, and the generator register at some state. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.Kernel.Hand

end
-- ==== Proof.BR0RunA.lean ====
/-
  Call 0, the body at a point with k = 0 (the accumulator found at anything, cleared, then the first block product added; the output window untouched): the stores it makes into each buffer, last first, with the proof that on whole memrefs the body
  runs to its continuation holding the inputs as they were and each stored buffer with those stores written.
-/
import proofs.«127015_j27917287424727_2_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x2048 .bf16) (x1 : Vec F S2048x1024 .bf16) (x2 : Vec F S1024x1 .f32) (x3 : Vec F S1x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__fused_matmul_kernel i arg3 harg3 arg4 harg4 arg5 harg5 arg6 harg6 arg7 harg7 arg8 harg8) K } := by
  refine ⟨?_, fun xi4 E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x2048 .bf16) (x1 : Vec F S2048x1024 .bf16) (x2 : Vec F S1024x1 .f32) (x3 : Vec F S1x1024 .f32) (y : S1024x1024.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S1024x1024.size (by sl_kernel_rfl) y

/-- What this case leaves in the accumulator: its stores read back. -/
def sout0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x2048 .bf16) (x1 : Vec F S2048x1024 .bf16) (x2 : Vec F S1024x1 .f32) (x3 : Vec F S1x1024 .f32) : Vec F S1024x1024 .f32 :=
  VS0.read (Elt F) (VS0.writes (Elt F) VS0.junk (kernelRun0_A c i arg3 harg3 arg4 harg4 arg5 harg5 arg6 harg6 arg7 harg7 arg8 harg8 hc0 hc1 x0 x1 x2 x3).1)

end Cert.Kernel.Hand

end
-- ==== Proof.BR0RunB.lean ====
/-
  Call 0, the body at a point strictly inside the contraction (the accumulator found at what the point before left, one block product added; the output window untouched): the stores it makes into each buffer, last first, with the proof that on whole memrefs the body
  runs to its continuation holding the inputs as they were and each stored buffer with those stores written.
-/
import proofs.«127015_j27917287424727_2_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x2048 .bf16) (x1 : Vec F S2048x1024 .bf16) (x2 : Vec F S1024x1 .f32) (x3 : Vec F S1x1024 .f32) (xs : Vec F S1024x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__fused_matmul_kernel i arg3 harg3 arg4 harg4 arg5 harg5 arg6 harg6 arg7 harg7 arg8 harg8) K } := by
  refine ⟨?_, fun xi4 E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun0_B c i arg3 harg3 arg4 harg4 arg5 harg5 arg6 harg6 arg7 harg7 arg8 harg8 hc0 hc1 x0 x1 x2 x3 xs).1, y ∈ pc.1.set :=
  View.cover_of_tiledL (kernelRun0_B c i arg3 harg3 arg4 harg4 arg5 harg5 arg6 harg6 arg7 harg7 arg8 harg8 hc0 hc1 x0 x1 x2 x3 xs).1 S1024x1024.size (by sl_kernel_rfl) y

/-- What this case leaves in the accumulator: its stores read back. -/
def sout0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x2048 .bf16) (x1 : Vec F S2048x1024 .bf16) (x2 : Vec F S1024x1 .f32) (x3 : Vec F S1x1024 .f32) (xs : Vec F S1024x1024 .f32) : Vec F S1024x1024 .f32 :=
  VS0.read (Elt F) (VS0.writes (Elt F) VS0.junk (kernelRun0_B c i arg3 harg3 arg4 harg4 arg5 harg5 arg6 harg6 arg7 harg7 arg8 harg8 hc0 hc1 x0 x1 x2 x3 xs).1)

end Cert.Kernel.Hand

end
-- ==== Proof.BR0RunC.lean ====
/-
  Call 0, the body at the contraction's last point (one block product added to what the point before left, then the scaled and biased accumulator stored into the output window): the stores it makes into each buffer, last first, with the proof that on whole memrefs the body
  runs to its continuation holding the inputs as they were and each stored buffer with those stores written.
-/
import proofs.«127015_j27917287424727_2_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) :
    Σ' (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__fused_matmul_kernel i arg3 harg3 arg4 harg4 arg5 harg5 arg6 harg6 arg7 harg7 arg8 harg8) K } := by
  refine ⟨?_, ?_, fun E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

/-- The accumulator's stores tile it, so they cover it. -/
theorem scover0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S1024x1024.size (by sl_kernel_rfl) y

/-- What this case leaves in the accumulator: its stores read back. -/
def sout0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) : Vec F S1024x1024 .f32 :=
  VS0.read (Elt F) (VS0.writes (Elt F) VS0.junk (kernelRun0_C c i arg3 harg3 arg4 harg4 arg5 harg5 arg6 harg6 arg7 harg7 arg8 harg8 hc0 hc1 x0 x1 x2 x3 xs).2.1)

/-- The output block's one store covers it. -/
theorem cover0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S1024x1024.size (by sl_kernel_rfl) y

/-- What this case leaves in the output window's staging buffer. -/
def out0_C (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) : Vec F S1024x1024 .bf16 :=
  VO0.read (Elt F) (VO0.writes (Elt F) VO0.junk (kernelRun0_C c i arg3 harg3 arg4 harg4 arg5 harg5 arg6 harg6 arg7 harg7 arg8 harg8 hc0 hc1 x0 x1 x2 x3 xs).1)

end Cert.Kernel.Hand

end
-- ==== Proof.BR0Frame.lean ====
/-
  Call 0: what the accumulator and the output window hold after each grid point, the call's proof data, and the body's
  obligation at every point.

  After point n the accumulator holds: at k = 0 the first block product over a cleared buffer; otherwise the point's block
  product added to what point n − 1 left. The output window holds at k = 3 the scaled, biased accumulator; elsewhere it is idle
  (its buffer handed back as found, and never written back from there). The call's invariant carries the accumulator's
  contents from one point to the next.
-/
import proofs.«127015_j27917287424727_2_alg».proof.Proof.BR0RunA
import proofs.«127015_j27917287424727_2_alg».proof.Proof.BR0RunB
import proofs.«127015_j27917287424727_2_alg».proof.Proof.BR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An idle output window's placeholder contents: consulted nowhere. -/
def idleO0 : Vec F S1024x1024 .bf16 := VO0.read (Elt F) (VO0.writes (Elt F) VO0.junk [])

/-- The accumulator after a point with k = 0, -/
def accA0 (c : Dev nD) (t : Fin cfg0.N) (h0 : t.val % 4 = 0) : Vec F S1024x1024 .f32 :=
  sout0_A c (grid0.coords t) (ms0_0 t) (hs0_0 t) (ms0_1 t) (hs0_1 t) (ms0_2 t) (hs0_2 t) (ms0_3 t) (hs0_3 t) (ms0_4 t) (hs0_4 t) scM0 (Memref.isWhole_whole _) (condA0 t h0).1 (condA0 t h0).2 (iblk0 V c 0 t) (iblk0 V c 1 t) (iblk0 V c 2 t) (iblk0 V c 3 t)
/-- after a point strictly inside the contraction, over what the point before left, -/
def accB0 (c : Dev nD) (t : Fin cfg0.N) (h0 : ¬t.val % 4 = 0) (h1 : ¬t.val % 4 = 3) (xs : Vec F S1024x1024 .f32) : Vec F S1024x1024 .f32 :=
  sout0_B c (grid0.coords t) (ms0_0 t) (hs0_0 t) (ms0_1 t) (hs0_1 t) (ms0_2 t) (hs0_2 t) (ms0_3 t) (hs0_3 t) (ms0_4 t) (hs0_4 t) scM0 (Memref.isWhole_whole _) (condB0 t h0 h1).1 (condB0 t h0 h1).2 (iblk0 V c 0 t) (iblk0 V c 1 t) (iblk0 V c 2 t) (iblk0 V c 3 t) xs
/-- and after the contraction's last point; -/
def accC0 (c : Dev nD) (t : Fin cfg0.N) (h1 : t.val % 4 = 3) (xs : Vec F S1024x1024 .f32) : Vec F S1024x1024 .f32 :=
  sout0_C c (grid0.coords t) (ms0_0 t) (hs0_0 t) (ms0_1 t) (hs0_1 t) (ms0_2 t) (hs0_2 t) (ms0_3 t) (hs0_3 t) (ms0_4 t) (hs0_4 t) scM0 (Memref.isWhole_whole _) (condC0 t h1).1 (condC0 t h1).2 (iblk0 V c 0 t) (iblk0 V c 1 t) (iblk0 V c 2 t) (iblk0 V c 3 t) xs
/-- the output block stored there. -/
def outC0 (c : Dev nD) (t : Fin cfg0.N) (h1 : t.val % 4 = 3) (xs : Vec F S1024x1024 .f32) : Vec F S1024x1024 .bf16 :=
  out0_C c (grid0.coords t) (ms0_0 t) (hs0_0 t) (ms0_1 t) (hs0_1 t) (ms0_2 t) (hs0_2 t) (ms0_3 t) (hs0_3 t) (ms0_4 t) (hs0_4 t) scM0 (Memref.isWhole_whole _) (condC0 t h1).1 (condC0 t h1).2 (iblk0 V c 0 t) (iblk0 V c 1 t) (iblk0 V c 2 t) (iblk0 V c 3 t) xs

/-- THE ACCUMULATION: the output window's buffer and the accumulator after the body at position `n`. -/
def outsAt0 (c : Dev nD) : (n : ℕ) → n < cfg0.N → Vec F S1024x1024 .bf16 × Vec F S1024x1024 .f32
  | 0, hn => (idleO0, accA0 V c ⟨0, hn⟩ (Nat.zero_mod _))
  | n + 1, hn =>
    if h0 : (n + 1) % 4 = 0 then (idleO0, accA0 V c ⟨n + 1, hn⟩ h0)
    else if h1 : (n + 1) % 4 = 3 then
      (outC0 V c ⟨n + 1, hn⟩ h1 (outsAt0 c n (Nat.lt_of_succ_lt hn)).2, accC0 V c ⟨n + 1, hn⟩ h1 (outsAt0 c n (Nat.lt_of_succ_lt hn)).2)
    else (idleO0, accB0 V c ⟨n + 1, hn⟩ h0 h1 (outsAt0 c n (Nat.lt_of_succ_lt hn)).2)

theorem outsAt0_A (c : Dev nD) (t : Fin cfg0.N) (h0 : t.val % 4 = 0) :
    outsAt0 V c t.val t.isLt = (idleO0, accA0 V c t h0) := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 V c t.val t.isLt = (idleO0, accB0 V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt0_C (c : Dev nD) (t : Fin cfg0.N) (h1 : t.val % 4 = 3) :
    outsAt0 V c t.val t.isLt = (outC0 V c t h1 (outsAt0 V c (t.val - 1) (Nat.lt_of_le_of_lt (Nat.sub_le _ _) t.isLt)).2, accC0 V c t h1 (outsAt0 V c (t.val - 1) (Nat.lt_of_le_of_lt (Nat.sub_le _ _) t.isLt)).2) := by
  obtain ⟨n, hn⟩ := t
  cases n with
  | zero => exact absurd (show (0 : ℕ) % 4 = 3 from h1) (by decide)
  | succ n =>
    have h1' : (n + 1) % 4 = 3 := h1
    exact (dif_neg (by omega)).trans (dif_pos h1')

/-- The call's invariant before position `n`: before the first point every scoped buffer at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the call finds them; after the body at point `t` each input's buffer at its block and the output's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which branch pattern the point is in;
    the invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 4 = 0
  · obtain ⟨hc0, hc1⟩ := condA0 t h0
    rw [Dat.leavesExact_idle (dat0 V c) 4 t (idleAt0_4 t hc1) (noFlush0_4 t hc1)]
    rw [outsAt0_A V c t h0]
    unfold accA0 sout0_A; (try dsimp only)
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · obtain ⟨hc0, hc1⟩ := condC0 t h1
      rw [show (dat0 V c).leavesExact 4 t = owns (c : Thread nD τ) (ms0_4 t) fullShare ((dat0 V c).after 4 t) from by
        unfold Dat.leavesExact; rw [liveAt0_4 t hc1], after0_4]
      rw [outsAt0_C V c t h1]
      unfold accC0 outC0 sout0_C out0_C; (try dsimp only)
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ hc0 hc1 (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · obtain ⟨hc0, hc1⟩ := condB0 t h0 h1
      rw [Dat.leavesExact_idle (dat0 V c) 4 t (idleAt0_4 t hc1) (noFlush0_4 t hc1)]
      rw [outsAt0_B V c t h0 h1]
      unfold accB0 sout0_B; (try dsimp only)
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ hc0 hc1 (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the untouched-state invariant back: the accumulator's named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.Kernel.Hand

end
-- ==== Proof.BR1Runs.lean ====
/-
  Call 1 of the tiled product kernel: what its grid points share.

  The grid is three-dimensional; the last coordinate k walks the contraction in blocks and is the point's number
  modulo 4. The body has two branches on k: at k = 0 it clears its accumulator (a 1024×1024 scratch that lives across
  grid points), at k = 3 it scales, adds the bias row and stores the output block. Here: each window's block at a
  point as read off the arrays the call finds; the two branch conditions in closed form over the grid; where the output
  window is idle (every point but k = 3); the memrefs the body is called with; and the call's invariant with the
  accumulator's buffer split off the other scoped buffers.
-/
import proofs.«127015_j27917287424727_2_alg».proof.Proof.Gen.Kernel.Launch
import proofs.«127015_j27917287424727_2_alg».proof.Proof.Gen.Kernel.Skeleton
import proofs.«127015_j27917287424727_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branches on the contraction coordinate -/

/-- The first branch is taken when k = 0, -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- the second when k = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- At a point with k = 0 the first branch is taken and the second is not; -/
theorem condA1 (t : Fin cfg1.N) (h0 : t.val % 4 = 0) : cond1_0 (grid1.coords t) ∧ ¬cond1_1 (grid1.coords t) :=
  ⟨(hcond1_0 t).mpr h0, fun h => by have := (hcond1_1 t).mp h; omega⟩
/-- strictly between, neither; -/
theorem condB1 (t : Fin cfg1.N) (h0 : ¬t.val % 4 = 0) (h1 : ¬t.val % 4 = 3) : ¬cond1_0 (grid1.coords t) ∧ ¬cond1_1 (grid1.coords t) :=
  ⟨fun h => h0 ((hcond1_0 t).mp h), fun h => h1 ((hcond1_1 t).mp h)⟩
/-- at k = 3 the second only. -/
theorem condC1 (t : Fin cfg1.N) (h1 : t.val % 4 = 3) : ¬cond1_0 (grid1.coords t) ∧ cond1_1 (grid1.coords t) :=
  ⟨fun h => by have := (hcond1_0 t).mp h; omega, (hcond1_1 t).mpr h1⟩

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off k = 3 the body stores nothing into the output window, and its block is not written back there. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

/-- One staging buffer of the output window, through which its contents are stated (the choice does not matter). -/
abbrev VO1 : View sig .tc .vmem S1024x1024 .bf16 := (Memref.whole cc1_stg4_0 : Memref sig .tc .vmem S1024x1024 .bf16).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
/-- The accumulator: a whole scoped buffer of the call's own, passed beside the windows. -/
abbrev scM1 : Memref sig .tc .vmem S1024x1024 .f32 := Memref.whole cc1_scratch0
abbrev VS1 : View sig .tc .vmem S1024x1024 .f32 := scM1.view

/-- The call's untouched-state invariant with the accumulator's buffer split off: the accumulator owned at some contents,
    every other scoped buffer no window stages, and the generator register at some state. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.Kernel.Hand

end
-- ==== Proof.BR1RunA.lean ====
/-
  Call 1, the body at a point with k = 0 (the accumulator found at anything, cleared, then the first block product added; the output window untouched): the stores it makes into each buffer, last first, with the proof that on whole memrefs the body
  runs to its continuation holding the inputs as they were and each stored buffer with those stores written.
-/
import proofs.«127015_j27917287424727_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i)
    (x0 : Vec F S2048x1024 .bf16) (x1 : Vec F S2048x1024 .bf16) (x2 : Vec F S1024x1 .f32) (x3 : Vec F S1x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__fused_matmul_kernel i arg3 harg3 arg4 harg4 arg5 harg5 arg6 harg6 arg7 harg7 arg8 harg8) K } := by
  refine ⟨?_, fun xi4 E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i)
    (x0 : Vec F S2048x1024 .bf16) (x1 : Vec F S2048x1024 .bf16) (x2 : Vec F S1024x1 .f32) (x3 : Vec F S1x1024 .f32) (y : S1024x1024.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S1024x1024.size (by sl_kernel_rfl) y

/-- What this case leaves in the accumulator: its stores read back. -/
def sout1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i)
    (x0 : Vec F S2048x1024 .bf16) (x1 : Vec F S2048x1024 .bf16) (x2 : Vec F S1024x1 .f32) (x3 : Vec F S1x1024 .f32) : Vec F S1024x1024 .f32 :=
  VS1.read (Elt F) (VS1.writes (Elt F) VS1.junk (kernelRun1_A c i arg3 harg3 arg4 harg4 arg5 harg5 arg6 harg6 arg7 harg7 arg8 harg8 hc0 hc1 x0 x1 x2 x3).1)

end Cert.Kernel.Hand

end
-- ==== Proof.BR1RunB.lean ====
/-
  Call 1, the body at a point strictly inside the contraction (the accumulator found at what the point before left, one block product added; the output window untouched): the stores it makes into each buffer, last first, with the proof that on whole memrefs the body
  runs to its continuation holding the inputs as they were and each stored buffer with those stores written.
-/
import proofs.«127015_j27917287424727_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i)
    (x0 : Vec F S2048x1024 .bf16) (x1 : Vec F S2048x1024 .bf16) (x2 : Vec F S1024x1 .f32) (x3 : Vec F S1x1024 .f32) (xs : Vec F S1024x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__fused_matmul_kernel i arg3 harg3 arg4 harg4 arg5 harg5 arg6 harg6 arg7 harg7 arg8 harg8) K } := by
  refine ⟨?_, fun xi4 E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun1_B c i arg3 harg3 arg4 harg4 arg5 harg5 arg6 harg6 arg7 harg7 arg8 harg8 hc0 hc1 x0 x1 x2 x3 xs).1, y ∈ pc.1.set :=
  View.cover_of_tiledL (kernelRun1_B c i arg3 harg3 arg4 harg4 arg5 harg5 arg6 harg6 arg7 harg7 arg8 harg8 hc0 hc1 x0 x1 x2 x3 xs).1 S1024x1024.size (by sl_kernel_rfl) y

/-- What this case leaves in the accumulator: its stores read back. -/
def sout1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 hc0 hc1 x0 x1 x2 x3 xs).1)

end Cert.Kernel.Hand

end
-- ==== Proof.BR1RunC.lean ====
/-
  Call 1, the body at the contraction's last point (one block product added to what the point before left, then the scaled and biased accumulator stored into the output window): the stores it makes into each buffer, last first, with the proof that on whole memrefs the body
  runs to its continuation holding the inputs as they were and each stored buffer with those stores written.
-/
import proofs.«127015_j27917287424727_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) :
    Σ' (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__fused_matmul_kernel i arg3 harg3 arg4 harg4 arg5 harg5 arg6 harg6 arg7 harg7 arg8 harg8) K } := by
  refine ⟨?_, ?_, fun E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

/-- The accumulator's stores tile it, so they cover it. -/
theorem scover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S1024x1024.size (by sl_kernel_rfl) y

/-- What this case leaves in the accumulator: its stores read back. -/
def sout1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)

/-- The output block's one store covers it. -/
theorem cover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S1024x1024.size (by sl_kernel_rfl) y

/-- What this case leaves in the output window's staging buffer. -/
def out1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) : Vec F S1024x1024 .bf16 :=
  VO1.read (Elt F) (VO1.writes (Elt F) VO1.junk (kernelRun1_C c i arg3 harg3 arg4 harg4 arg5 harg5 arg6 harg6 arg7 harg7 arg8 harg8 hc0 hc1 x0 x1 x2 x3 xs).1)

end Cert.Kernel.Hand

end
-- ==== Proof.BR1Frame.lean ====
/-
  Call 1: what the accumulator and the output window hold after each grid point, the call's proof data, and the body's
  obligation at every point.

  After point n the accumulator holds: at k = 0 the first block product over a cleared buffer; otherwise the point's block
  product added to what point n − 1 left. The output window holds at k = 3 the scaled, biased accumulator; elsewhere it is idle
  (its buffer handed back as found, and never written back from there). The call's invariant carries the accumulator's
  contents from one point to the next.
-/
import proofs.«127015_j27917287424727_2_alg».proof.Proof.BR1RunA
import proofs.«127015_j27917287424727_2_alg».proof.Proof.BR1RunB
import proofs.«127015_j27917287424727_2_alg».proof.Proof.BR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An idle output window's placeholder contents: consulted nowhere. -/
def idleO1 : Vec F S1024x1024 .bf16 := VO1.read (Elt F) (VO1.writes (Elt F) VO1.junk [])

/-- The accumulator after a point with k = 0, -/
def accA1 (c : Dev nD) (t : Fin cfg1.N) (h0 : t.val % 4 = 0) : Vec F S1024x1024 .f32 :=
  sout1_A c (grid1.coords t) (ms1_0 t) (hs1_0 t) (ms1_1 t) (hs1_1 t) (ms1_2 t) (hs1_2 t) (ms1_3 t) (hs1_3 t) (ms1_4 t) (hs1_4 t) scM1 (Memref.isWhole_whole _) (condA1 t h0).1 (condA1 t h0).2 (iblk1 V c 0 t) (iblk1 V c 1 t) (iblk1 V c 2 t) (iblk1 V c 3 t)
/-- after a point strictly inside the contraction, over what the point before left, -/
def accB1 (c : Dev nD) (t : Fin cfg1.N) (h0 : ¬t.val % 4 = 0) (h1 : ¬t.val % 4 = 3) (xs : Vec F S1024x1024 .f32) : Vec F S1024x1024 .f32 :=
  sout1_B c (grid1.coords t) (ms1_0 t) (hs1_0 t) (ms1_1 t) (hs1_1 t) (ms1_2 t) (hs1_2 t) (ms1_3 t) (hs1_3 t) (ms1_4 t) (hs1_4 t) scM1 (Memref.isWhole_whole _) (condB1 t h0 h1).1 (condB1 t h0 h1).2 (iblk1 V c 0 t) (iblk1 V c 1 t) (iblk1 V c 2 t) (iblk1 V c 3 t) xs
/-- and after the contraction's last point; -/
def accC1 (c : Dev nD) (t : Fin cfg1.N) (h1 : t.val % 4 = 3) (xs : Vec F S1024x1024 .f32) : Vec F S1024x1024 .f32 :=
  sout1_C c (grid1.coords t) (ms1_0 t) (hs1_0 t) (ms1_1 t) (hs1_1 t) (ms1_2 t) (hs1_2 t) (ms1_3 t) (hs1_3 t) (ms1_4 t) (hs1_4 t) scM1 (Memref.isWhole_whole _) (condC1 t h1).1 (condC1 t h1).2 (iblk1 V c 0 t) (iblk1 V c 1 t) (iblk1 V c 2 t) (iblk1 V c 3 t) xs
/-- the output block stored there. -/
def outC1 (c : Dev nD) (t : Fin cfg1.N) (h1 : t.val % 4 = 3) (xs : Vec F S1024x1024 .f32) : Vec F S1024x1024 .bf16 :=
  out1_C c (grid1.coords t) (ms1_0 t) (hs1_0 t) (ms1_1 t) (hs1_1 t) (ms1_2 t) (hs1_2 t) (ms1_3 t) (hs1_3 t) (ms1_4 t) (hs1_4 t) scM1 (Memref.isWhole_whole _) (condC1 t h1).1 (condC1 t h1).2 (iblk1 V c 0 t) (iblk1 V c 1 t) (iblk1 V c 2 t) (iblk1 V c 3 t) xs

/-- THE ACCUMULATION: the output window's buffer and the accumulator after the body at position `n`. -/
def outsAt1 (c : Dev nD) : (n : ℕ) → n < cfg1.N → Vec F S1024x1024 .bf16 × Vec F S1024x1024 .f32
  | 0, hn => (idleO1, accA1 V c ⟨0, hn⟩ (Nat.zero_mod _))
  | n + 1, hn =>
    if h0 : (n + 1) % 4 = 0 then (idleO1, accA1 V c ⟨n + 1, hn⟩ h0)
    else if h1 : (n + 1) % 4 = 3 then
      (outC1 V c ⟨n + 1, hn⟩ h1 (outsAt1 c n (Nat.lt_of_succ_lt hn)).2, accC1 V c ⟨n + 1, hn⟩ h1 (outsAt1 c n (Nat.lt_of_succ_lt hn)).2)
    else (idleO1, accB1 V c ⟨n + 1, hn⟩ h0 h1 (outsAt1 c n (Nat.lt_of_succ_lt hn)).2)

theorem outsAt1_A (c : Dev nD) (t : Fin cfg1.N) (h0 : t.val % 4 = 0) :
    outsAt1 V c t.val t.isLt = (idleO1, accA1 V c t h0) := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 V c t.val t.isLt = (idleO1, accB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt1_C (c : Dev nD) (t : Fin cfg1.N) (h1 : t.val % 4 = 3) :
    outsAt1 V c t.val t.isLt = (outC1 V c t h1 (outsAt1 V c (t.val - 1) (Nat.lt_of_le_of_lt (Nat.sub_le _ _) t.isLt)).2, accC1 V c t h1 (outsAt1 V c (t.val - 1) (Nat.lt_of_le_of_lt (Nat.sub_le _ _) t.isLt)).2) := by
  obtain ⟨n, hn⟩ := t
  cases n with
  | zero => exact absurd (show (0 : ℕ) % 4 = 3 from h1) (by decide)
  | succ n =>
    have h1' : (n + 1) % 4 = 3 := h1
    exact (dif_neg (by omega)).trans (dif_pos h1')

/-- The call's invariant before position `n`: before the first point every scoped buffer at anything; afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the call finds them; after the body at point `t` each input's buffer at its block and the output's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the closed forms say which branch pattern the point is in;
    the invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · obtain ⟨hc0, hc1⟩ := condA1 t h0
    rw [Dat.leavesExact_idle (dat1 V c) 4 t (idleAt1_4 t hc1) (noFlush1_4 t hc1)]
    rw [outsAt1_A V c t h0]
    unfold accA1 sout1_A; (try dsimp only)
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · obtain ⟨hc0, hc1⟩ := condC1 t h1
      rw [show (dat1 V c).leavesExact 4 t = owns (c : Thread nD τ) (ms1_4 t) fullShare ((dat1 V c).after 4 t) from by
        unfold Dat.leavesExact; rw [liveAt1_4 t hc1], after1_4]
      rw [outsAt1_C V c t h1]
      unfold accC1 outC1 sout1_C out1_C; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · obtain ⟨hc0, hc1⟩ := condB1 t h0 h1
      rw [Dat.leavesExact_idle (dat1 V c) 4 t (idleAt1_4 t hc1) (noFlush1_4 t hc1)]
      rw [outsAt1_B V c t h0 h1]
      unfold accB1 sout1_B; (try dsimp only)
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ hc0 hc1 (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the untouched-state invariant back: the accumulator's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.BR2Runs.lean ====
/-
  Call 2 of the tiled product kernel: what its grid points share.

  The grid is three-dimensional; the last coordinate k walks the contraction in blocks and is the point's number
  modulo 2. The body has two branches on k: at k = 0 it clears its accumulator (a 1024×1024 scratch that lives across
  grid points), at k = 1 it scales, adds the bias row and stores the output block. Here: each window's block at a
  point as read off the arrays the call finds; the two branch conditions in closed form over the grid; where the output
  window is idle (every point but k = 1); the memrefs the body is called with; and the call's invariant with the
  accumulator's buffer split off the other scoped buffers.
-/
import proofs.«127015_j27917287424727_2_alg».proof.Proof.Gen.Kernel.Launch
import proofs.«127015_j27917287424727_2_alg».proof.Proof.Gen.Kernel.Skeleton
import proofs.«127015_j27917287424727_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (where it is not
    fetched its block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (where it is not
    fetched its block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (where it is not
    fetched its block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branches on the contraction coordinate -/

/-- The first branch is taken when k = 0, -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

/-- the second when k = 1. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-- At a point with k = 0 the first branch is taken and the second is not; -/
theorem condA2 (t : Fin cfg2.N) (h0 : t.val % 2 = 0) : cond2_0 (grid2.coords t) ∧ ¬cond2_1 (grid2.coords t) :=
  ⟨(hcond2_0 t).mpr h0, fun h => by have := (hcond2_1 t).mp h; omega⟩
/-- strictly between, neither; -/
theorem condB2 (t : Fin cfg2.N) (h0 : ¬t.val % 2 = 0) (h1 : ¬t.val % 2 = 1) : ¬cond2_0 (grid2.coords t) ∧ ¬cond2_1 (grid2.coords t) :=
  ⟨fun h => h0 ((hcond2_0 t).mp h), fun h => h1 ((hcond2_1 t).mp h)⟩
/-- at k = 1 the second only. -/
theorem condC2 (t : Fin cfg2.N) (h1 : t.val % 2 = 1) : ¬cond2_0 (grid2.coords t) ∧ cond2_1 (grid2.coords t) :=
  ⟨fun h => by have := (hcond2_0 t).mp h; omega, (hcond2_1 t).mpr h1⟩

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Off k = 1 the body stores nothing into the output window, and its block is not written back there. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

/-- One staging buffer of the output window, through which its contents are stated (the choice does not matter). -/
abbrev VO2 : View sig .tc .vmem S1024x1024 .bf16 := (Memref.whole cc2_stg4_0 : Memref sig .tc .vmem S1024x1024 .bf16).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .bf16 := win2_4.stage (cfg2.slots t 4)
abbrev hs2_4 (t : Fin cfg2.N) : (ms2_4 t).IsWhole := hstage2_4 ((cfg2.slots t 4).cast nbuf2_4)
/-- The accumulator: a whole scoped buffer of the call's own, passed beside the windows. -/
abbrev scM2 : Memref sig .tc .vmem S1024x1024 .f32 := Memref.whole cc2_scratch0
abbrev VS2 : View sig .tc .vmem S1024x1024 .f32 := scM2.view

/-- The call's untouched-state invariant with the accumulator's buffer split off: the accumulator owned at some contents,
    every other scoped buffer no window stages, and the generator register at some state. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Hand

end
-- ==== Proof.BR2RunA.lean ====
/-
  Call 2, the body at a point with k = 0 (the accumulator found at anything, cleared, then the first block product added; the output window untouched): the stores it makes into each buffer, last first, with the proof that on whole memrefs the body
  runs to its continuation holding the inputs as they were and each stored buffer with those stores written.
-/
import proofs.«127015_j27917287424727_2_alg».proof.Proof.BR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond2_0 i) (hc1 : ¬cond2_1 i)
    (x0 : Vec F S1024x2048 .bf16) (x1 : Vec F S2048x1024 .bf16) (x2 : Vec F S1024x1 .f32) (x3 : Vec F S1x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__fused_matmul_kernel i arg3 harg3 arg4 harg4 arg5 harg5 arg6 harg6 arg7 harg7 arg8 harg8) K } := by
  refine ⟨?_, fun xi4 E K => ?run⟩
  case run =>
    simp only [cc2__fused_matmul_kernel_eq_skeleton]; unfold cc2__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover2_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond2_0 i) (hc1 : ¬cond2_1 i)
    (x0 : Vec F S1024x2048 .bf16) (x1 : Vec F S2048x1024 .bf16) (x2 : Vec F S1024x1 .f32) (x3 : Vec F S1x1024 .f32) (y : S1024x1024.Idx) :
    ∃ pc ∈ (kernelRun2_A c i arg3 harg3 arg4 harg4 arg5 harg5 arg6 harg6 arg7 harg7 arg8 harg8 hc0 hc1 x0 x1 x2 x3).1, y ∈ pc.1.set :=
  View.cover_of_tiledL (kernelRun2_A c i arg3 harg3 arg4 harg4 arg5 harg5 arg6 harg6 arg7 harg7 arg8 harg8 hc0 hc1 x0 x1 x2 x3).1 S1024x1024.size (by sl_kernel_rfl) y

/-- What this case leaves in the accumulator: its stores read back. -/
def sout2_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond2_0 i) (hc1 : ¬cond2_1 i)
    (x0 : Vec F S1024x2048 .bf16) (x1 : Vec F S2048x1024 .bf16) (x2 : Vec F S1024x1 .f32) (x3 : Vec F S1x1024 .f32) : Vec F S1024x1024 .f32 :=
  VS2.read (Elt F) (VS2.writes (Elt F) VS2.junk (kernelRun2_A c i arg3 harg3 arg4 harg4 arg5 harg5 arg6 harg6 arg7 harg7 arg8 harg8 hc0 hc1 x0 x1 x2 x3).1)

end Cert.Kernel.Hand

end
-- ==== Proof.BR2RunB.lean ====
/-
  Call 2, the body at a point strictly inside the contraction (the accumulator found at what the point before left, one block product added; the output window untouched): the stores it makes into each buffer, last first, with the proof that on whole memrefs the body
  runs to its continuation holding the inputs as they were and each stored buffer with those stores written.
-/
import proofs.«127015_j27917287424727_2_alg».proof.Proof.BR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : ¬cond2_1 i)
    (x0 : Vec F S1024x2048 .bf16) (x1 : Vec F S2048x1024 .bf16) (x2 : Vec F S1024x1 .f32) (x3 : Vec F S1x1024 .f32) (xs : Vec F S1024x1024 .f32) :
    { LS : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__fused_matmul_kernel i arg3 harg3 arg4 harg4 arg5 harg5 arg6 harg6 arg7 harg7 arg8 harg8) K } := by
  refine ⟨?_, fun xi4 E K => ?run⟩
  case run =>
    simp only [cc2__fused_matmul_kernel_eq_skeleton]; unfold cc2__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover2_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : ¬cond2_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun2_B c i arg3 harg3 arg4 harg4 arg5 harg5 arg6 harg6 arg7 harg7 arg8 harg8 hc0 hc1 x0 x1 x2 x3 xs).1, y ∈ pc.1.set :=
  View.cover_of_tiledL (kernelRun2_B c i arg3 harg3 arg4 harg4 arg5 harg5 arg6 harg6 arg7 harg7 arg8 harg8 hc0 hc1 x0 x1 x2 x3 xs).1 S1024x1024.size (by sl_kernel_rfl) y

/-- What this case leaves in the accumulator: its stores read back. -/
def sout2_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : ¬cond2_1 i)
    (x0 : Vec F S1024x2048 .bf16) (x1 : Vec F S2048x1024 .bf16) (x2 : Vec F S1024x1 .f32) (x3 : Vec F S1x1024 .f32) (xs : Vec F S1024x1024 .f32) : Vec F S1024x1024 .f32 :=
  VS2.read (Elt F) (VS2.writes (Elt F) VS2.junk (kernelRun2_B c i arg3 harg3 arg4 harg4 arg5 harg5 arg6 harg6 arg7 harg7 arg8 harg8 hc0 hc1 x0 x1 x2 x3 xs).1)

end Cert.Kernel.Hand

end
-- ==== Proof.BR2RunC.lean ====
/-
  Call 2, the body at the contraction's last point (one block product added to what the point before left, then the scaled and biased accumulator stored into the output window): the stores it makes into each buffer, last first, with the proof that on whole memrefs the body
  runs to its continuation holding the inputs as they were and each stored buffer with those stores written.
-/
import proofs.«127015_j27917287424727_2_alg».proof.Proof.BR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) :
    Σ' (L4 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__fused_matmul_kernel i arg3 harg3 arg4 harg4 arg5 harg5 arg6 harg6 arg7 harg7 arg8 harg8) K } := by
  refine ⟨?_, ?_, fun E K => ?run⟩
  case run =>
    simp only [cc2__fused_matmul_kernel_eq_skeleton]; unfold cc2__fused_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

/-- The accumulator's stores tile it, so they cover it. -/
theorem scover2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S1024x1024.size (by sl_kernel_rfl) y

/-- What this case leaves in the accumulator: its stores read back. -/
def sout2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) : Vec F S1024x1024 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)

/-- The output block's one store covers it. -/
theorem cover2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) (y : S1024x1024.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S1024x1024.size (by sl_kernel_rfl) y

/-- What this case leaves in the output window's staging buffer. -/
def out2_C (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) : Vec F S1024x1024 .bf16 :=
  VO2.read (Elt F) (VO2.writes (Elt F) VO2.junk (kernelRun2_C c i arg3 harg3 arg4 harg4 arg5 harg5 arg6 harg6 arg7 harg7 arg8 harg8 hc0 hc1 x0 x1 x2 x3 xs).1)

end Cert.Kernel.Hand

end
-- ==== Proof.BR2Frame.lean ====
/-
  Call 2: what the accumulator and the output window hold after each grid point, the call's proof data, and the body's
  obligation at every point.

  After point n the accumulator holds: at k = 0 the first block product over a cleared buffer; otherwise the point's block
  product added to what point n − 1 left. The output window holds at k = 1 the scaled, biased accumulator; elsewhere it is idle
  (its buffer handed back as found, and never written back from there). The call's invariant carries the accumulator's
  contents from one point to the next.
-/
import proofs.«127015_j27917287424727_2_alg».proof.Proof.BR2RunA
import proofs.«127015_j27917287424727_2_alg».proof.Proof.BR2RunB
import proofs.«127015_j27917287424727_2_alg».proof.Proof.BR2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An idle output window's placeholder contents: consulted nowhere. -/
def idleO2 : Vec F S1024x1024 .bf16 := VO2.read (Elt F) (VO2.writes (Elt F) VO2.junk [])

/-- The accumulator after a point with k = 0, -/
def accA2 (c : Dev nD) (t : Fin cfg2.N) (h0 : t.val % 2 = 0) : Vec F S1024x1024 .f32 :=
  sout2_A c (grid2.coords t) (ms2_0 t) (hs2_0 t) (ms2_1 t) (hs2_1 t) (ms2_2 t) (hs2_2 t) (ms2_3 t) (hs2_3 t) (ms2_4 t) (hs2_4 t) scM2 (Memref.isWhole_whole _) (condA2 t h0).1 (condA2 t h0).2 (iblk2 V c 0 t) (iblk2 V c 1 t) (iblk2 V c 2 t) (iblk2 V c 3 t)
/-- after a point strictly inside the contraction, over what the point before left, -/
def accB2 (c : Dev nD) (t : Fin cfg2.N) (h0 : ¬t.val % 2 = 0) (h1 : ¬t.val % 2 = 1) (xs : Vec F S1024x1024 .f32) : Vec F S1024x1024 .f32 :=
  sout2_B c (grid2.coords t) (ms2_0 t) (hs2_0 t) (ms2_1 t) (hs2_1 t) (ms2_2 t) (hs2_2 t) (ms2_3 t) (hs2_3 t) (ms2_4 t) (hs2_4 t) scM2 (Memref.isWhole_whole _) (condB2 t h0 h1).1 (condB2 t h0 h1).2 (iblk2 V c 0 t) (iblk2 V c 1 t) (iblk2 V c 2 t) (iblk2 V c 3 t) xs
/-- and after the contraction's last point; -/
def accC2 (c : Dev nD) (t : Fin cfg2.N) (h1 : t.val % 2 = 1) (xs : Vec F S1024x1024 .f32) : Vec F S1024x1024 .f32 :=
  sout2_C c (grid2.coords t) (ms2_0 t) (hs2_0 t) (ms2_1 t) (hs2_1 t) (ms2_2 t) (hs2_2 t) (ms2_3 t) (hs2_3 t) (ms2_4 t) (hs2_4 t) scM2 (Memref.isWhole_whole _) (condC2 t h1).1 (condC2 t h1).2 (iblk2 V c 0 t) (iblk2 V c 1 t) (iblk2 V c 2 t) (iblk2 V c 3 t) xs
/-- the output block stored there. -/
def outC2 (c : Dev nD) (t : Fin cfg2.N) (h1 : t.val % 2 = 1) (xs : Vec F S1024x1024 .f32) : Vec F S1024x1024 .bf16 :=
  out2_C c (grid2.coords t) (ms2_0 t) (hs2_0 t) (ms2_1 t) (hs2_1 t) (ms2_2 t) (hs2_2 t) (ms2_3 t) (hs2_3 t) (ms2_4 t) (hs2_4 t) scM2 (Memref.isWhole_whole _) (condC2 t h1).1 (condC2 t h1).2 (iblk2 V c 0 t) (iblk2 V c 1 t) (iblk2 V c 2 t) (iblk2 V c 3 t) xs

/-- THE ACCUMULATION: the output window's buffer and the accumulator after the body at position `n`. -/
def outsAt2 (c : Dev nD) : (n : ℕ) → n < cfg2.N → Vec F S1024x1024 .bf16 × Vec F S1024x1024 .f32
  | 0, hn => (idleO2, accA2 V c ⟨0, hn⟩ (Nat.zero_mod _))
  | n + 1, hn =>
    if h0 : (n + 1) % 2 = 0 then (idleO2, accA2 V c ⟨n + 1, hn⟩ h0)
    else if h1 : (n + 1) % 2 = 1 then
      (outC2 V c ⟨n + 1, hn⟩ h1 (outsAt2 c n (Nat.lt_of_succ_lt hn)).2, accC2 V c ⟨n + 1, hn⟩ h1 (outsAt2 c n (Nat.lt_of_succ_lt hn)).2)
    else (idleO2, accB2 V c ⟨n + 1, hn⟩ h0 h1 (outsAt2 c n (Nat.lt_of_succ_lt hn)).2)

theorem outsAt2_A (c : Dev nD) (t : Fin cfg2.N) (h0 : t.val % 2 = 0) :
    outsAt2 V c t.val t.isLt = (idleO2, accA2 V c t h0) := by
  obtain ⟨n, hn⟩ := t
  cases n with
  | zero => rfl
  | succ n => exact dif_pos h0

theorem outsAt2_B (c : Dev nD) (t : Fin cfg2.N) (h0 : ¬t.val % 2 = 0) (h1 : ¬t.val % 2 = 1) :
    outsAt2 V c t.val t.isLt = (idleO2, accB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt2_C (c : Dev nD) (t : Fin cfg2.N) (h1 : t.val % 2 = 1) :
    outsAt2 V c t.val t.isLt = (outC2 V c t h1 (outsAt2 V c (t.val - 1) (Nat.lt_of_le_of_lt (Nat.sub_le _ _) t.isLt)).2, accC2 V c t h1 (outsAt2 V c (t.val - 1) (Nat.lt_of_le_of_lt (Nat.sub_le _ _) t.isLt)).2) := by
  obtain ⟨n, hn⟩ := t
  cases n with
  | zero => exact absurd (show (0 : ℕ) % 2 = 1 from h1) (by decide)
  | succ n =>
    have h1' : (n + 1) % 2 = 1 := h1
    exact (dif_neg (by omega)).trans (dif_pos h1')

/-- The call's invariant before position `n`: before the first point every scoped buffer at anything; afterwards the
    accumulator at what the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the call finds them; after the body at point `t` each input's buffer at its block and the output's at
    `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any point: the inputs' memrefs hold their blocks; the closed forms say which branch pattern the point is in;
    the invariant hands the body the accumulator at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 2 = 0
  · obtain ⟨hc0, hc1⟩ := condA2 t h0
    rw [Dat.leavesExact_idle (dat2 V c) 4 t (idleAt2_4 t hc1) (noFlush2_4 t hc1)]
    rw [outsAt2_A V c t h0]
    unfold accA2 sout2_A; (try dsimp only)
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ hc0 hc1 (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ hc0 hc1 (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 2 = 1
    · obtain ⟨hc0, hc1⟩ := condC2 t h1
      rw [show (dat2 V c).leavesExact 4 t = owns (c : Thread nD τ) (ms2_4 t) fullShare ((dat2 V c).after 4 t) from by
        unfold Dat.leavesExact; rw [liveAt2_4 t hc1], after2_4]
      rw [outsAt2_C V c t h1]
      unfold accC2 outC2 sout2_C out2_C; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ hc0 hc1 (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C c _ _ _ _ _ _ _ _ _ _ _ _ _ _ _ _ _ _ _ _)
    · obtain ⟨hc0, hc1⟩ := condB2 t h0 h1
      rw [Dat.leavesExact_idle (dat2 V c) 4 t (idleAt2_4 t hc1) (noFlush2_4 t hc1)]
      rw [outsAt2_B V c t h0 h1]
      unfold accB2 sout2_B; (try dsimp only)
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ hc0 hc1 (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the untouched-state invariant back: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

theorem hout2 (c : Dev nD) : (dat2 V c).Φ (Fin.last cfg2.N) ⊢ Pipeline.ΦA spec2 c :=
  Phi_out2 V c _ (by rw [Fin.val_last]; have : cfg2.N = 128 := N_2; omega)

end Cert.Kernel.Hand

end
-- ==== Proof.BR3Runs.lean ====
/-
  Call 3 of the tiled product kernel: what its grid points share.

  The grid is three-dimensional; the last coordinate k walks the contraction in blocks and is the point's number
  modulo 4. The body has two branches on k: at k = 0 it clears its accumulator (a 1024×1024 scratch that lives across
  grid points), at k = 3 it scales, adds the bias row and stores the output block. Here: each window's block at a
  point as read off the arrays the call finds; the two branch conditions in closed form over the grid; where the output
  window is idle (every point but k = 3); the memrefs the body is called with; and the call's invariant with the
  accumulator's buffer split off the other scoped buffers.
-/
import proofs.«127015_j27917287424727_2_alg».proof.Proof.Gen.Kernel.Launch
import proofs.«127015_j27917287424727_2_alg».proof.Proof.Gen.Kernel.Skeleton
import proofs.«127015_j27917287424727_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (where it is not
    fetched its block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (where it is not
    fetched its block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (where it is not
    fetched its block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (where it is not
    fetched its block index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

end

/-! ## The two branches on the contraction coordinate -/

/-- The first branch is taken when k = 0, -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- the second when k = 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-- At a point with k = 0 the first branch is taken and the second is not; -/
theorem condA3 (t : Fin cfg3.N) (h0 : t.val % 4 = 0) : cond3_0 (grid3.coords t) ∧ ¬cond3_1 (grid3.coords t) :=
  ⟨(hcond3_0 t).mpr h0, fun h => by have := (hcond3_1 t).mp h; omega⟩
/-- strictly between, neither; -/
theorem condB3 (t : Fin cfg3.N) (h0 : ¬t.val % 4 = 0) (h1 : ¬t.val % 4 = 3) : ¬cond3_0 (grid3.coords t) ∧ ¬cond3_1 (grid3.coords t) :=
  ⟨fun h => h0 ((hcond3_0 t).mp h), fun h => h1 ((hcond3_1 t).mp h)⟩
/-- at k = 3 the second only. -/
theorem condC3 (t : Fin cfg3.N) (h1 : t.val % 4 = 3) : ¬cond3_0 (grid3.coords t) ∧ cond3_1 (grid3.coords t) :=
  ⟨fun h => by have := (hcond3_0 t).mp h; omega, (hcond3_1 t).mpr h1⟩

/-! ## Where the windows are idle -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Off k = 3 the body stores nothing into the output window, and its block is not written back there. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-! ## The memrefs the body is called with -/

/-- One staging buffer of the output window, through which its contents are stated (the choice does not matter). -/
abbrev VO3 : View sig .tc .vmem S1024x1024 .f32 := (Memref.whole cc3_stg4_0 : Memref sig .tc .vmem S1024x1024 .f32).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1024 .f32 := win3_4.stage (cfg3.slots t 4)
abbrev hs3_4 (t : Fin cfg3.N) : (ms3_4 t).IsWhole := hstage3_4 ((cfg3.slots t 4).cast nbuf3_4)
/-- The accumulator: a whole scoped buffer of the call's own, passed beside the windows. -/
abbrev scM3 : Memref sig .tc .vmem S1024x1024 .f32 := Memref.whole cc3_scratch0
abbrev VS3 : View sig .tc .vmem S1024x1024 .f32 := scM3.view

/-- The call's untouched-state invariant with the accumulator's buffer split off: the accumulator owned at some contents,
    every other scoped buffer no window stages, and the generator register at some state. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Hand

end
-- ==== Proof.BR3RunA.lean ====
/-
  Call 3, the body at a point with k = 0 (the accumulator found at anything, cleared, then the first block product added; the output window untouched): the stores it makes into each buffer, last first, with the proof that on whole memrefs the body
  runs to its continuation holding the inputs as they were and each stored buffer with those stores written.
-/
import proofs.«127015_j27917287424727_2_alg».proof.Proof.BR3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond3_0 i) (hc1 : ¬cond3_1 i)
    (x0 : Vec F S2048x1024 .bf16) (x1 : Vec F S2048x1024 .bf16) (x2 : Vec F S1024x1 .f32) (x3 : Vec F S1x1024 .f32) :
    { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc3__fused_matmul_kernel i arg3 harg3 arg4 harg4 arg5 harg5 arg6 harg6 arg7 harg7 arg8 harg8) K } := by
  refine ⟨?_, fun xi4 E K => ?run⟩
  case run =>
    simp only [cc3__fused_matmul_kernel_eq_skeleton]; unfold cc3__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond3_0 i) (hc1 : ¬cond3_1 i)
    (x0 : Vec F S2048x1024 .bf16) (x1 : Vec F S2048x1024 .bf16) (x2 : Vec F S1024x1 .f32) (x3 : Vec F S1x1024 .f32) (y : S1024x1024.Idx) :
    ∃ pc ∈ (kernelRun3_A c i arg3 harg3 arg4 harg4 arg5 harg5 arg6 harg6 arg7 harg7 arg8 harg8 hc0 hc1 x0 x1 x2 x3).1, y ∈ pc.1.set :=
  View.cover_of_tiledL (kernelRun3_A c i arg3 harg3 arg4 harg4 arg5 harg5 arg6 harg6 arg7 harg7 arg8 harg8 hc0 hc1 x0 x1 x2 x3).1 S1024x1024.size (by sl_kernel_rfl) y

/-- What this case leaves in the accumulator: its stores read back. -/
def sout3_A (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond3_0 i) (hc1 : ¬cond3_1 i)
    (x0 : Vec F S2048x1024 .bf16) (x1 : Vec F S2048x1024 .bf16) (x2 : Vec F S1024x1 .f32) (x3 : Vec F S1x1024 .f32) : Vec F S1024x1024 .f32 :=
  VS3.read (Elt F) (VS3.writes (Elt F) VS3.junk (kernelRun3_A c i arg3 harg3 arg4 harg4 arg5 harg5 arg6 harg6 arg7 harg7 arg8 harg8 hc0 hc1 x0 x1 x2 x3).1)

end Cert.Kernel.Hand

end
-- ==== Proof.BR3RunB.lean ====
/-
  Call 3, the body at a point strictly inside the contraction (the accumulator found at what the point before left, one block product added; the output window untouched): the stores it makes into each buffer, last first, with the proof that on whole memrefs the body
  runs to its continuation holding the inputs as they were and each stored buffer with those stores written.
-/
import proofs.«127015_j27917287424727_2_alg».proof.Proof.BR3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : ¬cond3_1 i)
    (x0 : Vec F S2048x1024 .bf16) (x1 : Vec F S2048x1024 .bf16) (x2 : Vec F S1024x1 .f32) (x3 : Vec F S1x1024 .f32) (xs : Vec F S1024x1024 .f32) :
    { LS : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc3__fused_matmul_kernel i arg3 harg3 arg4 harg4 arg5 harg5 arg6 harg6 arg7 harg7 arg8 harg8) K } := by
  refine ⟨?_, fun xi4 E K => ?run⟩
  case run =>
    simp only [cc3__fused_matmul_kernel_eq_skeleton]; unfold cc3__fused_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

/-- The accumulator's stores tile it, so they cover it. -/
theorem scover3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : ¬cond3_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun3_B c i arg3 harg3 arg4 harg4 arg5 harg5 arg6 harg6 arg7 harg7 arg8 harg8 hc0 hc1 x0 x1 x2 x3 xs).1, y ∈ pc.1.set :=
  View.cover_of_tiledL (kernelRun3_B c i arg3 harg3 arg4 harg4 arg5 harg5 arg6 harg6 arg7 harg7 arg8 harg8 hc0 hc1 x0 x1 x2 x3 xs).1 S1024x1024.size (by sl_kernel_rfl) y

/-- What this case leaves in the accumulator: its stores read back. -/
def sout3_B (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : ¬cond3_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VS3.read (Elt F) (VS3.writes (Elt F) VS3.junk (kernelRun3_B c i arg3 harg3 arg4 harg4 arg5 harg5 arg6 harg6 arg7 harg7 arg8 harg8 hc0 hc1 x0 x1 x2 x3 xs).1)

end Cert.Kernel.Hand

end
-- ==== Proof.BR3RunC.lean ====
/-
  Call 3, the body at the contraction's last point (one block product added to what the point before left, then the scaled and biased accumulator stored into the output window): the stores it makes into each buffer, last first, with the proof that on whole memrefs the body
  runs to its continuation holding the inputs as they were and each stored buffer with those stores written.
-/
import proofs.«127015_j27917287424727_2_alg».proof.Proof.BR3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc3__fused_matmul_kernel i arg3 harg3 arg4 harg4 arg5 harg5 arg6 harg6 arg7 harg7 arg8 harg8) K } := by
  refine ⟨?_, ?_, fun E K => ?run⟩
  case run =>
    simp only [cc3__fused_matmul_kernel_eq_skeleton]; unfold cc3__fused_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

/-- The accumulator's stores tile it, so they cover it. -/
theorem scover3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun3_C c i arg3 harg3 arg4 harg4 arg5 harg5 arg6 harg6 arg7 harg7 arg8 harg8 hc0 hc1 x0 x1 x2 x3 xs).2.1, y ∈ pc.1.set :=
  View.cover_of_tiledL (kernelRun3_C c i arg3 harg3 arg4 harg4 arg5 harg5 arg6 harg6 arg7 harg7 arg8 harg8 hc0 hc1 x0 x1 x2 x3 xs).2.1 S1024x1024.size (by sl_kernel_rfl) y

/-- What this case leaves in the accumulator: its stores read back. -/
def sout3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VS3.read (Elt F) (VS3.writes (Elt F) VS3.junk (kernelRun3_C c i arg3 harg3 arg4 harg4 arg5 harg5 arg6 harg6 arg7 harg7 arg8 harg8 hc0 hc1 x0 x1 x2 x3 xs).2.1)

/-- The output block's one store covers it. -/
theorem cover3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) (y : S1024x1024.Idx) :
    ∃ pc ∈ (kernelRun3_C c i arg3 harg3 arg4 harg4 arg5 harg5 arg6 harg6 arg7 harg7 arg8 harg8 hc0 hc1 x0 x1 x2 x3 xs).1, y ∈ pc.1.set :=
  View.cover_of_tiledL (kernelRun3_C c i arg3 harg3 arg4 harg4 arg5 harg5 arg6 harg6 arg7 harg7 arg8 harg8 hc0 hc1 x0 x1 x2 x3 xs).1 S1024x1024.size (by sl_kernel_rfl) y

/-- What this case leaves in the output window's staging buffer. -/
def out3_C (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) : Vec F S1024x1024 .f32 :=
  VO3.read (Elt F) (VO3.writes (Elt F) VO3.junk (kernelRun3_C c i arg3 harg3 arg4 harg4 arg5 harg5 arg6 harg6 arg7 harg7 arg8 harg8 hc0 hc1 x0 x1 x2 x3 xs).1)

end Cert.Kernel.Hand

end
-- ==== Proof.BR3Frame.lean ====
/-
  Call 3: what the accumulator and the output window hold after each grid point, the call's proof data, and the body's
  obligation at every point.

  After point n the accumulator holds: at k = 0 the first block product over a cleared buffer; otherwise the point's block
  product added to what point n − 1 left. The output window holds at k = 3 the scaled, biased accumulator; elsewhere it is idle
  (its buffer handed back as found, and never written back from there). The call's invariant carries the accumulator's
  contents from one point to the next.
-/
import proofs.«127015_j27917287424727_2_alg».proof.Proof.BR3RunA
import proofs.«127015_j27917287424727_2_alg».proof.Proof.BR3RunB
import proofs.«127015_j27917287424727_2_alg».proof.Proof.BR3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An idle output window's placeholder contents: consulted nowhere. -/
def idleO3 : Vec F S1024x1024 .f32 := VO3.read (Elt F) (VO3.writes (Elt F) VO3.junk [])

/-- The accumulator after a point with k = 0, -/
def accA3 (c : Dev nD) (t : Fin cfg3.N) (h0 : t.val % 4 = 0) : Vec F S1024x1024 .f32 :=
  sout3_A c (grid3.coords t) (ms3_0 t) (hs3_0 t) (ms3_1 t) (hs3_1 t) (ms3_2 t) (hs3_2 t) (ms3_3 t) (hs3_3 t) (ms3_4 t) (hs3_4 t) scM3 (Memref.isWhole_whole _) (condA3 t h0).1 (condA3 t h0).2 (iblk3 V c 0 t) (iblk3 V c 1 t) (iblk3 V c 2 t) (iblk3 V c 3 t)
/-- after a point strictly inside the contraction, over what the point before left, -/
def accB3 (c : Dev nD) (t : Fin cfg3.N) (h0 : ¬t.val % 4 = 0) (h1 : ¬t.val % 4 = 3) (xs : Vec F S1024x1024 .f32) : Vec F S1024x1024 .f32 :=
  sout3_B c (grid3.coords t) (ms3_0 t) (hs3_0 t) (ms3_1 t) (hs3_1 t) (ms3_2 t) (hs3_2 t) (ms3_3 t) (hs3_3 t) (ms3_4 t) (hs3_4 t) scM3 (Memref.isWhole_whole _) (condB3 t h0 h1).1 (condB3 t h0 h1).2 (iblk3 V c 0 t) (iblk3 V c 1 t) (iblk3 V c 2 t) (iblk3 V c 3 t) xs
/-- and after the contraction's last point; -/
def accC3 (c : Dev nD) (t : Fin cfg3.N) (h1 : t.val % 4 = 3) (xs : Vec F S1024x1024 .f32) : Vec F S1024x1024 .f32 :=
  sout3_C c (grid3.coords t) (ms3_0 t) (hs3_0 t) (ms3_1 t) (hs3_1 t) (ms3_2 t) (hs3_2 t) (ms3_3 t) (hs3_3 t) (ms3_4 t) (hs3_4 t) scM3 (Memref.isWhole_whole _) (condC3 t h1).1 (condC3 t h1).2 (iblk3 V c 0 t) (iblk3 V c 1 t) (iblk3 V c 2 t) (iblk3 V c 3 t) xs
/-- the output block stored there. -/
def outC3 (c : Dev nD) (t : Fin cfg3.N) (h1 : t.val % 4 = 3) (xs : Vec F S1024x1024 .f32) : Vec F S1024x1024 .f32 :=
  out3_C c (grid3.coords t) (ms3_0 t) (hs3_0 t) (ms3_1 t) (hs3_1 t) (ms3_2 t) (hs3_2 t) (ms3_3 t) (hs3_3 t) (ms3_4 t) (hs3_4 t) scM3 (Memref.isWhole_whole _) (condC3 t h1).1 (condC3 t h1).2 (iblk3 V c 0 t) (iblk3 V c 1 t) (iblk3 V c 2 t) (iblk3 V c 3 t) xs

/-- THE ACCUMULATION: the output window's buffer and the accumulator after the body at position `n`. -/
def outsAt3 (c : Dev nD) : (n : ℕ) → n < cfg3.N → Vec F S1024x1024 .f32 × Vec F S1024x1024 .f32
  | 0, hn => (idleO3, accA3 V c ⟨0, hn⟩ (Nat.zero_mod _))
  | n + 1, hn =>
    if h0 : (n + 1) % 4 = 0 then (idleO3, accA3 V c ⟨n + 1, hn⟩ h0)
    else if h1 : (n + 1) % 4 = 3 then
      (outC3 V c ⟨n + 1, hn⟩ h1 (outsAt3 c n (Nat.lt_of_succ_lt hn)).2, accC3 V c ⟨n + 1, hn⟩ h1 (outsAt3 c n (Nat.lt_of_succ_lt hn)).2)
    else (idleO3, accB3 V c ⟨n + 1, hn⟩ h0 h1 (outsAt3 c n (Nat.lt_of_succ_lt hn)).2)

theorem outsAt3_A (c : Dev nD) (t : Fin cfg3.N) (h0 : t.val % 4 = 0) :
    outsAt3 V c t.val t.isLt = (idleO3, accA3 V c t h0) := by
  obtain ⟨n, hn⟩ := t
  cases n with
  | zero => rfl
  | succ n => exact dif_pos h0

theorem outsAt3_B (c : Dev nD) (t : Fin cfg3.N) (h0 : ¬t.val % 4 = 0) (h1 : ¬t.val % 4 = 3) :
    outsAt3 V c t.val t.isLt = (idleO3, accB3 V c t h0 h1 (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt3_C (c : Dev nD) (t : Fin cfg3.N) (h1 : t.val % 4 = 3) :
    outsAt3 V c t.val t.isLt = (outC3 V c t h1 (outsAt3 V c (t.val - 1) (Nat.lt_of_le_of_lt (Nat.sub_le _ _) t.isLt)).2, accC3 V c t h1 (outsAt3 V c (t.val - 1) (Nat.lt_of_le_of_lt (Nat.sub_le _ _) t.isLt)).2) := by
  obtain ⟨n, hn⟩ := t
  cases n with
  | zero => exact absurd (show (0 : ℕ) % 4 = 3 from h1) (by decide)
  | succ n =>
    have h1' : (n + 1) % 4 = 3 := h1
    exact (dif_neg (by omega)).trans (dif_pos h1')

/-- The call's invariant before position `n`: before the first point every scoped buffer at anything; afterwards the
    accumulator at what the point before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the call finds them; after the body at point `t` each input's buffer at its block and the output's at
    `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any point: the inputs' memrefs hold their blocks; the closed forms say which branch pattern the point is in;
    the invariant hands the body the accumulator at what the point before left (at anything at the first point) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val % 4 = 0
  · obtain ⟨hc0, hc1⟩ := condA3 t h0
    rw [Dat.leavesExact_idle (dat3 V c) 4 t (idleAt3_4 t hc1) (noFlush3_4 t hc1)]
    rw [outsAt3_A V c t h0]
    unfold accA3 sout3_A; (try dsimp only)
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ hc0 hc1 (iblk3 V c 0 t) (iblk3 V c 1 t) (iblk3 V c 2 t) (iblk3 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ hc0 hc1 (iblk3 V c 0 t) (iblk3 V c 1 t) (iblk3 V c 2 t) (iblk3 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover3_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · obtain ⟨hc0, hc1⟩ := condC3 t h1
      rw [show (dat3 V c).leavesExact 4 t = owns (c : Thread nD τ) (ms3_4 t) fullShare ((dat3 V c).after 4 t) from by
        unfold Dat.leavesExact; rw [liveAt3_4 t hc1], after3_4]
      rw [outsAt3_C V c t h1]
      unfold accC3 outC3 sout3_C out3_C; (try dsimp only)
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ hc0 hc1 (iblk3 V c 0 t) (iblk3 V c 1 t) (iblk3 V c 2 t) (iblk3 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover3_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C c _ _ _ _ _ _ _ _ _ _ _ _ _ _ _ _ _ _ _ _)
    · obtain ⟨hc0, hc1⟩ := condB3 t h0 h1
      rw [Dat.leavesExact_idle (dat3 V c) 4 t (idleAt3_4 t hc1) (noFlush3_4 t hc1)]
      rw [outsAt3_B V c t h0 h1]
      unfold accB3 sout3_B; (try dsimp only)
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ hc0 hc1 (iblk3 V c 0 t) (iblk3 V c 1 t) (iblk3 V c 2 t) (iblk3 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover3_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the untouched-state invariant back: the accumulator's named contents
    are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

theorem hout3 (c : Dev nD) : (dat3 V c).Φ (Fin.last cfg3.N) ⊢ Pipeline.ΦA spec3 c :=
  Phi_out3 V c _ (by rw [Fin.val_last]; have : cfg3.N = 256 := N_3; omega)

end Cert.Kernel.Hand

end
-- ==== Proof.BKFrame.lean ====
/-
  The program's run as six segments: the host operations before the four calls, the four calls, the host operations after.

  Between two segments core c holds every unscoped buffer at a valuation: the launch contents, then the host prefix applied,
  then after call K the same with call K's output array replaced by what its pipeline leaves there (every block written back at
  the point that closes its contraction), then the host suffix applied. Each call is a segment entered at the valuation before it
  and left at the one after; the generated conditional frame chains them, and every argument array ends as launched.
-/
import proofs.«127015_j27917287424727_2_alg».proof.Proof.BR0Frame
import proofs.«127015_j27917287424727_2_alg».proof.Proof.BR1Frame
import proofs.«127015_j27917287424727_2_alg».proof.Proof.BR2Frame
import proofs.«127015_j27917287424727_2_alg».proof.Proof.BR3Frame
import proofs.«127015_j27917287424727_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a call's proof data take. -/
abbrev atTc (W : Dev nD → Valuation τ sig (Elt F)) : (c : Dev nD) → (b : Ref sig .tc) → Buf (Elt F) ((c : Thread nD τ).loc b) := fun c b => W c b

/-- After call 0: its output array at what the pipeline leaves, every other buffer as the host prefix left it. -/
def U2 (c : Dev nD) : Valuation τ sig (Elt F) :=
  Function.update (V1 m c) (Proc.devRef .tc main_v30) ((dat0 (atTc (V1 m)) c).arrAt 4 cfg0.N)
/-- After call 1. -/
def U3 (c : Dev nD) : Valuation τ sig (Elt F) :=
  Function.update (U2 m c) (Proc.devRef .tc main_v31) ((dat1 (atTc (U2 m)) c).arrAt 4 cfg1.N)
/-- After call 2. -/
def U4 (c : Dev nD) : Valuation τ sig (Elt F) :=
  Function.update (U3 m c) (Proc.devRef .tc main_v32) ((dat2 (atTc (U3 m)) c).arrAt 4 cfg2.N)
/-- After call 3. -/
def U5 (c : Dev nD) : Valuation τ sig (Elt F) :=
  Function.update (U4 m c) (Proc.devRef .tc main_v33) ((dat3 (atTc (U4 m)) c).arrAt 4 cfg3.N)

/-- What the calls leave in the buffers they may change, as the conditional frame's unknowns. -/
def outs : Outs (F := F) := fun J r c => match J with
  | 2 => U2 m c (Proc.devRef .tc r)
  | 3 => U3 m c (Proc.devRef .tc r)
  | 4 => U4 m c (Proc.devRef .tc r)
  | _ => U5 m c (Proc.devRef .tc r)

theorem V2_eq (c : Dev nD) : V2 m (outs m) c = U2 m c := by
  show Function.update (V1 m c) (Proc.devRef .tc main_v30) (U2 m c (Proc.devRef .tc main_v30)) = U2 m c
  unfold U2; rw [Function.update_self]
theorem V3_eq (c : Dev nD) : V3 m (outs m) c = U3 m c := by
  show Function.update (V2 m (outs m) c) (Proc.devRef .tc main_v31) (U3 m c (Proc.devRef .tc main_v31)) = U3 m c
  rw [V2_eq]; unfold U3; rw [Function.update_self]
theorem V4_eq (c : Dev nD) : V4 m (outs m) c = U4 m c := by
  show Function.update (V3 m (outs m) c) (Proc.devRef .tc main_v32) (U4 m c (Proc.devRef .tc main_v32)) = U4 m c
  rw [V3_eq]; unfold U4; rw [Function.update_self]
theorem V5_eq (c : Dev nD) : V5 m (outs m) c = U5 m c := by
  show Function.update (V4 m (outs m) c) (Proc.devRef .tc main_v33) (U5 m c (Proc.devRef .tc main_v33)) = U5 m c
  rw [V4_eq]; unfold U5; rw [Function.update_self]

/-- Every call's proof data, each at the valuation its call is entered with. -/
def pdats : (p : Fin 4) → (c : Dev nD) → Dat τ (Elt F) Unit ℕ (UR sig nD τ) ℕ (Pipeline.pin (pcfgs (F := F)) adm p) c
  | ⟨0, _⟩ => fun c => dat0 (atTc (V1 m)) c
  | ⟨1, _⟩ => fun c => dat1 (atTc (U2 m)) c
  | ⟨2, _⟩ => fun c => dat2 (atTc (U3 m)) c
  | ⟨3, _⟩ => fun c => dat3 (atTc (U4 m)) c

abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- Each of call 0's arrays after the call is what the next valuation holds there: an input as entered, the output at what the
    pipeline's write-backs leave. -/
theorem hF0 (c : Dev nD) : ∀ w : Fin cfg0.W, (dat0 (atTc (V1 m)) c).arrAt w cfg0.N = atTc (U2 m) c (Pipeline.arrRef spec0 w)
  | ⟨0, _⟩ => ((dat0 (atTc (V1 m)) c).arrAt_in 0 rfl _).trans ((A_eq0 (atTc (V1 m)) c 0).trans
      (by unfold U2 atTc; exact (Function.update_of_ne (StableHlo.devRef_ne_of_ne (by decide : (main_v23 : Ref sig .tc) ≠ main_v30) : (Proc.devRef .tc main_v23 : DevRef τ sig) ≠ Proc.devRef .tc main_v30) _ _).symm))
  | ⟨1, _⟩ => ((dat0 (atTc (V1 m)) c).arrAt_in 1 rfl _).trans ((A_eq0 (atTc (V1 m)) c 1).trans
      (by unfold U2 atTc; exact (Function.update_of_ne (StableHlo.devRef_ne_of_ne (by decide : (main_v24 : Ref sig .tc) ≠ main_v30) : (Proc.devRef .tc main_v24 : DevRef τ sig) ≠ Proc.devRef .tc main_v30) _ _).symm))
  | ⟨2, _⟩ => ((dat0 (atTc (V1 m)) c).arrAt_in 2 rfl _).trans ((A_eq0 (atTc (V1 m)) c 2).trans
      (by unfold U2 atTc; exact (Function.update_of_ne (StableHlo.devRef_ne_of_ne (by decide : (main_v21 : Ref sig .tc) ≠ main_v30) : (Proc.devRef .tc main_v21 : DevRef τ sig) ≠ Proc.devRef .tc main_v30) _ _).symm))
  | ⟨3, _⟩ => ((dat0 (atTc (V1 m)) c).arrAt_in 3 rfl _).trans ((A_eq0 (atTc (V1 m)) c 3).trans
      (by unfold U2 atTc; exact (Function.update_of_ne (StableHlo.devRef_ne_of_ne (by decide : (main_v26 : Ref sig .tc) ≠ main_v30) : (Proc.devRef .tc main_v26 : DevRef τ sig) ≠ Proc.devRef .tc main_v30) _ _).symm))
  | ⟨4, _⟩ => by unfold U2 atTc; exact (Function.update_self (Proc.devRef .tc main_v30 : DevRef τ sig) _ (V1 m c)).symm

/-- Every other buffer is as the call found it. -/
theorem hrest0 (c : Dev nD) : ∀ b, b ∉ Finset.univ.image (Pipeline.arrRef spec0) → atTc (U2 m) c b = atTc (V1 m) c b := by
  intro b hb
  unfold U2 atTc
  exact Function.update_of_ne (StableHlo.devRef_ne_of_ne (fun e => hb (Finset.mem_image.mpr ⟨4, Finset.mem_univ _, e.symm⟩) : b ≠ main_v30) : (Proc.devRef .tc b : DevRef τ sig) ≠ Proc.devRef .tc main_v30) _ _

set_option backward.isDefEq.respectTransparency.types false in
/-- CALL 0 as a segment of the program: entered with every unscoped buffer at the valuation before it, left at the one after
    it; its arrays split out of the unscoped buffers and put back at the exit contents; the generator register into the call's
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (V1 m)) c).loose
  hwaits := Pipeline.hwaits_of_owed_zero _ _ _ _ L lv 0 fun _ _ => rfl
  pre c := iprop(StableHlo.held (c : Thread nD τ) (Pipeline.ucRefs τ sig) ((V1 m) c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (atTc (V1 m)) c)
    unfold Pipeline.ΦA
    iintro ⟨Hp, -, Hr⟩
    isplitl [Hr]; · iexact Hr
    iexact Hp
  hout c := by
    rw [Pipeline.ownSems0_none]
    refine BIBase.Entails.trans (hout0 (atTc (V1 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Each of call 1's arrays after the call is what the next valuation holds there: an input as entered, the output at what the
    pipeline's write-backs leave. -/
theorem hF1 (c : Dev nD) : ∀ w : Fin cfg1.W, (dat1 (atTc (U2 m)) c).arrAt w cfg1.N = atTc (U3 m) c (Pipeline.arrRef spec1 w)
  | ⟨0, _⟩ => ((dat1 (atTc (U2 m)) c).arrAt_in 0 rfl _).trans ((A_eq1 (atTc (U2 m)) c 0).trans
      (by unfold U3 atTc; exact (Function.update_of_ne (StableHlo.devRef_ne_of_ne (by decide : (main_v22 : Ref sig .tc) ≠ main_v31) : (Proc.devRef .tc main_v22 : DevRef τ sig) ≠ Proc.devRef .tc main_v31) _ _).symm))
  | ⟨1, _⟩ => ((dat1 (atTc (U2 m)) c).arrAt_in 1 rfl _).trans ((A_eq1 (atTc (U2 m)) c 1).trans
      (by unfold U3 atTc; exact (Function.update_of_ne (StableHlo.devRef_ne_of_ne (by decide : (main_v30 : Ref sig .tc) ≠ main_v31) : (Proc.devRef .tc main_v30 : DevRef τ sig) ≠ Proc.devRef .tc main_v31) _ _).symm))
  | ⟨2, _⟩ => ((dat1 (atTc (U2 m)) c).arrAt_in 2 rfl _).trans ((A_eq1 (atTc (U2 m)) c 2).trans
      (by unfold U3 atTc; exact (Function.update_of_ne (StableHlo.devRef_ne_of_ne (by decide : (main_v21 : Ref sig .tc) ≠ main_v31) : (Proc.devRef .tc main_v21 : DevRef τ sig) ≠ Proc.devRef .tc main_v31) _ _).symm))
  | ⟨3, _⟩ => ((dat1 (atTc (U2 m)) c).arrAt_in 3 rfl _).trans ((A_eq1 (atTc (U2 m)) c 3).trans
      (by unfold U3 atTc; exact (Function.update_of_ne (StableHlo.devRef_ne_of_ne (by decide : (main_v28 : Ref sig .tc) ≠ main_v31) : (Proc.devRef .tc main_v28 : DevRef τ sig) ≠ Proc.devRef .tc main_v31) _ _).symm))
  | ⟨4, _⟩ => by unfold U3 atTc; exact (Function.update_self (Proc.devRef .tc main_v31 : DevRef τ sig) _ (U2 m c)).symm

/-- Every other buffer is as the call found it. -/
theorem hrest1 (c : Dev nD) : ∀ b, b ∉ Finset.univ.image (Pipeline.arrRef spec1) → atTc (U3 m) c b = atTc (U2 m) c b := by
  intro b hb
  unfold U3 atTc
  exact Function.update_of_ne (StableHlo.devRef_ne_of_ne (fun e => hb (Finset.mem_image.mpr ⟨4, Finset.mem_univ _, e.symm⟩) : b ≠ main_v31) : (Proc.devRef .tc b : DevRef τ sig) ≠ Proc.devRef .tc main_v31) _ _

set_option backward.isDefEq.respectTransparency.types false in
/-- CALL 1 as a segment of the program: entered with every unscoped buffer at the valuation before it, left at the one after
    it; its arrays split out of the unscoped buffers and put back at the exit contents; the generator register into the call's
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U2 m)) c).loose
  hwaits := Pipeline.hwaits_of_owed_zero _ _ _ _ L lv 1 fun _ _ => rfl
  pre c := iprop(StableHlo.held (c : Thread nD τ) (Pipeline.ucRefs τ sig) ((U2 m) c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (atTc (U2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atTc (U2 m)) c)
    unfold Pipeline.ΦA
    iintro ⟨Hp, -, Hr⟩
    isplitl [Hr]; · iexact Hr
    iexact Hp
  hout c := by
    rw [Pipeline.ownSems0_none]
    refine BIBase.Entails.trans (hout1 (atTc (U2 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U2 m) c) (atTc (U3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Each of call 2's arrays after the call is what the next valuation holds there: an input as entered, the output at what the
    pipeline's write-backs leave. -/
theorem hF2 (c : Dev nD) : ∀ w : Fin cfg2.W, (dat2 (atTc (U3 m)) c).arrAt w cfg2.N = atTc (U4 m) c (Pipeline.arrRef spec2 w)
  | ⟨0, _⟩ => ((dat2 (atTc (U3 m)) c).arrAt_in 0 rfl _).trans ((A_eq2 (atTc (U3 m)) c 0).trans
      (by unfold U4 atTc; exact (Function.update_of_ne (StableHlo.devRef_ne_of_ne (by decide : (main_v31 : Ref sig .tc) ≠ main_v32) : (Proc.devRef .tc main_v31 : DevRef τ sig) ≠ Proc.devRef .tc main_v32) _ _).symm))
  | ⟨1, _⟩ => ((dat2 (atTc (U3 m)) c).arrAt_in 1 rfl _).trans ((A_eq2 (atTc (U3 m)) c 1).trans
      (by unfold U4 atTc; exact (Function.update_of_ne (StableHlo.devRef_ne_of_ne (by decide : (main_v25 : Ref sig .tc) ≠ main_v32) : (Proc.devRef .tc main_v25 : DevRef τ sig) ≠ Proc.devRef .tc main_v32) _ _).symm))
  | ⟨2, _⟩ => ((dat2 (atTc (U3 m)) c).arrAt_in 2 rfl _).trans ((A_eq2 (atTc (U3 m)) c 2).trans
      (by unfold U4 atTc; exact (Function.update_of_ne (StableHlo.devRef_ne_of_ne (by decide : (main_v21 : Ref sig .tc) ≠ main_v32) : (Proc.devRef .tc main_v21 : DevRef τ sig) ≠ Proc.devRef .tc main_v32) _ _).symm))
  | ⟨3, _⟩ => ((dat2 (atTc (U3 m)) c).arrAt_in 3 rfl _).trans ((A_eq2 (atTc (U3 m)) c 3).trans
      (by unfold U4 atTc; exact (Function.update_of_ne (StableHlo.devRef_ne_of_ne (by decide : (main_v27 : Ref sig .tc) ≠ main_v32) : (Proc.devRef .tc main_v27 : DevRef τ sig) ≠ Proc.devRef .tc main_v32) _ _).symm))
  | ⟨4, _⟩ => by unfold U4 atTc; exact (Function.update_self (Proc.devRef .tc main_v32 : DevRef τ sig) _ (U3 m c)).symm

/-- Every other buffer is as the call found it. -/
theorem hrest2 (c : Dev nD) : ∀ b, b ∉ Finset.univ.image (Pipeline.arrRef spec2) → atTc (U4 m) c b = atTc (U3 m) c b := by
  intro b hb
  unfold U4 atTc
  exact Function.update_of_ne (StableHlo.devRef_ne_of_ne (fun e => hb (Finset.mem_image.mpr ⟨4, Finset.mem_univ _, e.symm⟩) : b ≠ main_v32) : (Proc.devRef .tc b : DevRef τ sig) ≠ Proc.devRef .tc main_v32) _ _

set_option backward.isDefEq.respectTransparency.types false in
/-- CALL 2 as a segment of the program: entered with every unscoped buffer at the valuation before it, left at the one after
    it; its arrays split out of the unscoped buffers and put back at the exit contents; the generator register into the call's
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U3 m)) c).loose
  hwaits := Pipeline.hwaits_of_owed_zero _ _ _ _ L lv 2 fun _ _ => rfl
  pre c := iprop(StableHlo.held (c : Thread nD τ) (Pipeline.ucRefs τ sig) ((U3 m) c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (atTc (U3 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (U3 m)) c)
    unfold Pipeline.ΦA
    iintro ⟨Hp, -, Hr⟩
    isplitl [Hr]; · iexact Hr
    iexact Hp
  hout c := by
    rw [Pipeline.ownSems0_none]
    refine BIBase.Entails.trans (hout2 (atTc (U3 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U3 m) c) (atTc (U4 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Each of call 3's arrays after the call is what the next valuation holds there: an input as entered, the output at what the
    pipeline's write-backs leave. -/
theorem hF3 (c : Dev nD) : ∀ w : Fin cfg3.W, (dat3 (atTc (U4 m)) c).arrAt w cfg3.N = atTc (U5 m) c (Pipeline.arrRef spec3 w)
  | ⟨0, _⟩ => ((dat3 (atTc (U4 m)) c).arrAt_in 0 rfl _).trans ((A_eq3 (atTc (U4 m)) c 0).trans
      (by unfold U5 atTc; exact (Function.update_of_ne (StableHlo.devRef_ne_of_ne (by decide : (main_v22 : Ref sig .tc) ≠ main_v33) : (Proc.devRef .tc main_v22 : DevRef τ sig) ≠ Proc.devRef .tc main_v33) _ _).symm))
  | ⟨1, _⟩ => ((dat3 (atTc (U4 m)) c).arrAt_in 1 rfl _).trans ((A_eq3 (atTc (U4 m)) c 1).trans
      (by unfold U5 atTc; exact (Function.update_of_ne (StableHlo.devRef_ne_of_ne (by decide : (main_v32 : Ref sig .tc) ≠ main_v33) : (Proc.devRef .tc main_v32 : DevRef τ sig) ≠ Proc.devRef .tc main_v33) _ _).symm))
  | ⟨2, _⟩ => ((dat3 (atTc (U4 m)) c).arrAt_in 2 rfl _).trans ((A_eq3 (atTc (U4 m)) c 2).trans
      (by unfold U5 atTc; exact (Function.update_of_ne (StableHlo.devRef_ne_of_ne (by decide : (main_v21 : Ref sig .tc) ≠ main_v33) : (Proc.devRef .tc main_v21 : DevRef τ sig) ≠ Proc.devRef .tc main_v33) _ _).symm))
  | ⟨3, _⟩ => ((dat3 (atTc (U4 m)) c).arrAt_in 3 rfl _).trans ((A_eq3 (atTc (U4 m)) c 3).trans
      (by unfold U5 atTc; exact (Function.update_of_ne (StableHlo.devRef_ne_of_ne (by decide : (main_v29 : Ref sig .tc) ≠ main_v33) : (Proc.devRef .tc main_v29 : DevRef τ sig) ≠ Proc.devRef .tc main_v33) _ _).symm))
  | ⟨4, _⟩ => by unfold U5 atTc; exact (Function.update_self (Proc.devRef .tc main_v33 : DevRef τ sig) _ (U4 m c)).symm

/-- Every other buffer is as the call found it. -/
theorem hrest3 (c : Dev nD) : ∀ b, b ∉ Finset.univ.image (Pipeline.arrRef spec3) → atTc (U5 m) c b = atTc (U4 m) c b := by
  intro b hb
  unfold U5 atTc
  exact Function.update_of_ne (StableHlo.devRef_ne_of_ne (fun e => hb (Finset.mem_image.mpr ⟨4, Finset.mem_univ _, e.symm⟩) : b ≠ main_v33) : (Proc.devRef .tc b : DevRef τ sig) ≠ Proc.devRef .tc main_v33) _ _

set_option backward.isDefEq.respectTransparency.types false in
/-- CALL 3 as a segment of the program: entered with every unscoped buffer at the valuation before it, left at the one after
    it; its arrays split out of the unscoped buffers and put back at the exit contents; the generator register into the call's
    invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U4 m)) c).loose
  hwaits := Pipeline.hwaits_of_owed_zero _ _ _ _ L lv 3 fun _ _ => rfl
  pre c := iprop(StableHlo.held (c : Thread nD τ) (Pipeline.ucRefs τ sig) ((U4 m) c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec3 c (atTc (U4 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc (U4 m)) c)
    unfold Pipeline.ΦA
    iintro ⟨Hp, -, Hr⟩
    isplitl [Hr]; · iexact Hr
    iexact Hp
  hout c := by
    rw [Pipeline.ownSems0_none]
    refine BIBase.Entails.trans (hout3 (atTc (U4 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U4 m) c) (atTc (U5 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of the program terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun c => by rw [V2_eq]; exact .rfl)
    (reg1 m) (fun c => by rw [V2_eq]; exact .rfl) (fun c => by rw [V3_eq]; exact .rfl)
    (reg2 m) (fun c => by rw [V3_eq]; exact .rfl) (fun c => by rw [V4_eq]; exact .rfl)
    (reg3 m) (fun c => by rw [V4_eq]; exact .rfl) (fun c => by rw [V5_eq]; exact .rfl)

end Cert.Kernel.Hand

end
-- ==== Proof.KRunCond.lean ====
/-
  The kernel's program run from its regions' records: every weakly fair execution ends, each argument
  array holding what it was launched with and the result buffer holding what the last host stretch leaves
  in it, read off the valuation after the last item.
-/
import proofs.«127015_j27917287424727_2_alg».proof.Proof.Gen.KernelIdeal.Regions

noncomputable section

namespace Cert.KernelIdeal.KRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

variable (m : (ℓ : Loc nD τ sig) → Buf (Elt F) ℓ)

-- the launch theorem's implicit arguments are found by unifying its conclusion with this one, which takes
-- unfolding plain definitions in a metavariable's type
set_option backward.isDefEq.respectTransparency.types false in
/-- Given, per region, a segment record entered from the thread state before it and left at the one after
    it, every weakly fair execution of the program from memory m with zero counters terminates, and every
    final memory holds in the result buffer the last valuation's contents and in each argument array its
    launch contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c)) :
    θ_run defs (onTc (τ := τ) (main (F := F))) ⟨m, fun _ => 0, ρ⟩ (fun r => ∀ c : Dev nD,
      r.2.mem ((c.tc : Thread nD τ).loc main_v45) = V6 m outs c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, (hpost0 c).trans (hpre1 c), (hpost1 c).trans (hpre2 c), (hpost2 c).trans (hpre3 c), hpost3 c, sep_mono .rfl (hE4 c)⟩)
    (hinit := ?_) (QY := fun c s => s.mem ((c.tc : Thread nD τ).loc main_v45) = V6 m outs c main_v45 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨h (Proc.devRef .tc main_v45) (Finset.mem_filter.mpr ⟨StableHlo.devRef_mem_tcRefs main_v45, by decide⟩),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c),
        (h (Proc.devRef .tc main_arg4) (Finset.mem_filter.mpr ⟨StableHlo.devRef_mem_tcRefs main_arg4, by decide⟩)).trans (V6_main_arg4 m outs c),
        (h (Proc.devRef .tc main_arg5) (Finset.mem_filter.mpr ⟨StableHlo.devRef_mem_tcRefs main_arg5, by decide⟩)).trans (V6_main_arg5 m outs c)⟩
    · iexact HSI

end Cert.KernelIdeal.KRun

end
-- ==== Proof.Fused.lean ====
/-
  The arithmetic of one fused product, as whole-array functions on the extended reals.

  Every kernel call of this program computes, for a left operand read either by rows (`fused`) or by
  columns (`fusedT`, the product with the transposed left operand), the matrix product with the right
  operand, scales row `p` of the product by the `p`-th entry of a column `d`, and adds the `q`-th entry of a
  bias row; `relu` clamps an array below at zero.  Entry `(p, q)` of `fused a b d bias` is
  `(∑ k, a (p, k) * b (k, q)) * d (p, 0) + bias (0, q)`.
-/
import Idealize.ShloMosaic.PureOps.Ideal
import Idealize.ShloMosaic.Lib.ValueIdx

noncomputable section

namespace Gcn

open Idealize.ShloMosaic Idealize.ShloMosaic.ValueIdx

/-- An `m × n` array of extended reals, indexed as the programs' rank-2 buffers are. -/
abbrev Arr (m n : Nat) : Type := (⟨2, ![m, n]⟩ : Shape).Idx → EReal

/-- Entry `(p, q)`: row `p` of `a` against column `q` of `b`, times `d (p, 0)`, plus `bias (0, q)`. -/
def fused {M K N : Nat} (a : Arr M K) (b : Arr K N) (d : Arr M 1) (bias : Arr 1 N) : Arr M N :=
  fun i => (∑ k : Fin K, a (ix2 (i 0) k) * b (ix2 k (i 1))) * d (ix2 (i 0) 0) + bias (ix2 0 (i 1))

/-- Entry `(p, q)`: column `p` of `a` against column `q` of `b` (the product with `a` transposed), times
    `d (p, 0)`, plus `bias (0, q)`. -/
def fusedT {M K N : Nat} (a : Arr K M) (b : Arr K N) (d : Arr M 1) (bias : Arr 1 N) : Arr M N :=
  fun i => (∑ k : Fin K, a (ix2 k (i 0)) * b (ix2 k (i 1))) * d (ix2 (i 0) 0) + bias (ix2 0 (i 1))

/-- An array clamped below at zero, entry by entry. -/
def relu {M N : Nat} (z : Arr M N) : Arr M N := fun i => max (z i) 0

theorem fused_apply {M K N : Nat} (a : Arr M K) (b : Arr K N) (d : Arr M 1) (bias : Arr 1 N) (p : Fin M) (q : Fin N) :
    fused a b d bias (ix2 p q) = (∑ k : Fin K, a (ix2 p k) * b (ix2 k q)) * d (ix2 p 0) + bias (ix2 0 q) := rfl

theorem fusedT_apply {M K N : Nat} (a : Arr K M) (b : Arr K N) (d : Arr M 1) (bias : Arr 1 N) (p : Fin M) (q : Fin N) :
    fusedT a b d bias (ix2 p q) = (∑ k : Fin K, a (ix2 k p) * b (ix2 k q)) * d (ix2 p 0) + bias (ix2 0 q) := rfl

theorem relu_apply {M N : Nat} (z : Arr M N) (i : (⟨2, ![M, N]⟩ : Shape).Idx) : relu z i = max (z i) 0 := rfl

end Gcn

end
-- ==== Proof.KHost.lean ====
/-
  The host side of the kernel's program, as functions of the argument arrays.

  Around its four tiled products the program computes, from the feature matrix x itself read as an
  adjacency: the 0/1 matrix of the nonzero entries of x with the diagonal set to one ("adj"), the
  column of reciprocal square roots of that matrix's column sums ("dinvCol"), two zero bias rows, the two
  bias vectors as rows, and, after the last product, the per-segment mean of the rows of the result
  ("tail"): the rows added into the segment their id names, divided by the segment's size (at least one).
  Each definition below is the composition of the program's own host operations, at the extended reals,
  as a function of the arrays it reads.  "kernelSpec" composes them with the four products.
-/
import proofs.«127015_j27917287424727_2_alg».proof.KernelIdeal
import proofs.«127015_j27917287424727_2_alg».proof.Proof.Fused

noncomputable section

namespace Cert.KernelIdeal.KHost

open Idealize.ShloMosaic

variable [Cert.KernelIdeal.Facts]
open Facts₀ Facts

/-- The contents of a float buffer of shape s, at the extended reals. -/
abbrev FArr (s : Shape) : Type := (⟨s, .f32⟩ : BufTy).Contents (Elt Ideal)
/-- The contents of a buffer of 32-bit integers of shape s. -/
abbrev IArr (s : Shape) : Type := (⟨s, .i32⟩ : BufTy).Contents (Elt Ideal)

/-- The row (and column) number of each diagonal entry: the iota, wrapped as a negative index would be
    (a negative entry has the extent added; no entry of an iota is negative). -/
def diagIdx : IArr S8192 :=
  select
    (cmpi .slt (iotaInDim S8192 32 0 : IArr S8192)
      (broadcastInDim S8192 ![] bcast_S_S8192 (constantI S_ 32 0#32 : IArr S_) : IArr S8192) : (⟨S8192, .i1⟩ : BufTy).Contents (Elt Ideal))
    (addi (iotaInDim S8192 32 0 : IArr S8192)
      (broadcastInDim S8192 ![] bcast_S_S8192 (constantI S_ 32 8192#32 : IArr S_) : IArr S8192) : IArr S8192)
    (iotaInDim S8192 32 0 : IArr S8192)

/-- The index pairs (i, i) of the diagonal, one per row. -/
def diagPairs : IArr S8192x2 :=
  concatenate S8192x2 1
    [⟨S8192x1, (broadcastInDim S8192x1 ![0] bcast_S8192_S8192x1_0 diagIdx : IArr S8192x1)⟩,
     ⟨S8192x1, (broadcastInDim S8192x1 ![0] bcast_S8192_S8192x1_0 diagIdx : IArr S8192x1)⟩]
    concatenates_S8192x1_S8192x1_S8192x2_d1

/-- The 0/1 matrix of the nonzero entries of x. -/
def nonzero (x : FArr S8192x8192) : FArr S8192x8192 :=
  uitofp (F := Ideal) .f32
    (cmpf (F := Ideal) (φ := .f32) .une x
      (broadcastInDim S8192x8192 ![] bcast_S_S8192x8192 (constant (F := Ideal) S_ .f32 0x00000000#32 : FArr S_) : FArr S8192x8192)
      : (⟨S8192x8192, .i1⟩ : BufTy).Contents (Elt Ideal))

/-- The adjacency: the nonzero pattern of x with every diagonal entry set to one. -/
def adj (x : FArr S8192x8192) : FArr S8192x8192 :=
  Host.scatter scatter_S8192x8192_S8192x2_S8192_n_01_01_1 (fun _ b => b) (nonzero x) diagPairs
    (broadcastInDim S8192 ![] bcast_S_S8192 (constant (F := Ideal) S_ .f32 0x3F800000#32 : FArr S_) : FArr S8192)

/-- The column of the reciprocal square roots of the adjacency's column sums. -/
def dinvCol (x : FArr S8192x8192) : FArr S8192x1 :=
  shapeCast S8192x1
    (Host.rsqrt (F := Ideal) (φ := .f32)
      (Host.reduceAdd (F := Ideal) (φ := .f32) (adj x) (constant (F := Ideal) S_ .f32 0x00000000#32 : FArr S_)
        reducesTo_S8192x8192_S8192_d0 h_S_ : FArr S8192) : FArr S8192)
    shapeCasts_S8192_S8192x1

/-- The zero bias row of the two products that add no bias. -/
def zeroRowH : FArr S1x4096 :=
  broadcastInDim S1x4096 ![] bcast_S_S1x4096 (constant (F := Ideal) S_ .f32 0x00000000#32 : FArr S_)
def zeroRowN : FArr S1x8192 :=
  broadcastInDim S1x8192 ![] bcast_S_S1x8192 (constant (F := Ideal) S_ .f32 0x00000000#32 : FArr S_)

/-- A bias vector as a row. -/
def rowH (b : FArr S4096) : FArr S1x4096 := shapeCast S1x4096 b shapeCasts_S4096_S1x4096
def rowN (b : FArr S8192) : FArr S1x8192 := shapeCast S1x8192 b shapeCasts_S8192_S1x8192

/-- The per-segment mean of the rows of out: each row added into the segment its id names, and each
    segment's sum divided by the number of its rows, or by one if it has none. -/
def tail (out : FArr S8192x8192) (batch : IArr S8192) : FArr S8x8192 :=
  Host.divf (F := Ideal) (φ := .f32)
    (Host.scatterAdd (F := Ideal) (φ := .f32) scatter_S8x8192_S8192x1_S8192x8192_1_0_0_1
      (broadcastInDim S8x8192 ![] bcast_S_S8x8192 (constant (F := Ideal) S_ .f32 0x00000000#32 : FArr S_) : FArr S8x8192)
      (broadcastInDim S8192x1 ![0] bcast_S8192_S8192x1_0 batch : IArr S8192x1)
      out : FArr S8x8192)
    (broadcastInDim S8x8192 ![0, 1] bcast_S8x1_S8x8192_0_1
      (broadcastInDim S8x1 ![0] bcast_S8_S8x1_0
        (maximumf (F := Ideal) (φ := .f32)
          (Host.scatterAdd (F := Ideal) (φ := .f32) scatter_S8_S8192x1_S8192_n_0_0_1
            (broadcastInDim S8 ![] bcast_S_S8 (constant (F := Ideal) S_ .f32 0x00000000#32 : FArr S_) : FArr S8)
            (broadcastInDim S8192x1 ![0] bcast_S8192_S8192x1_0 batch : IArr S8192x1)
            (broadcastInDim S8192 ![] bcast_S_S8192 (constant (F := Ideal) S_ .f32 0x3F800000#32 : FArr S_) : FArr S8192) : FArr S8)
          (broadcastInDim S8 ![] bcast_S_S8 (constant (F := Ideal) S_ .f32 0x3F800000#32 : FArr S_) : FArr S8) : FArr S8)
        : FArr S8x1) : FArr S8x8192)

/-- What the kernel's program computes: the two layers, each a product by the weights scaled by dinvCol
    followed by the product with the transposed adjacency scaled by dinvCol plus the bias, a clamp at
    zero between them, and the per-segment mean of the rows at the end. -/
def kernelSpec (x : FArr S8192x8192) (W1 : FArr S8192x4096) (b1 : FArr S4096) (W2 : FArr S4096x8192)
    (b2 : FArr S8192) (batch : IArr S8192) : FArr S8x8192 :=
  tail
    (Gcn.fusedT (adj x)
      (Gcn.fused
        (Gcn.relu (Gcn.fusedT (adj x) (Gcn.fused x W1 (dinvCol x) zeroRowH) (dinvCol x) (rowH b1)))
        W2 (dinvCol x) zeroRowN)
      (dinvCol x) (rowN b2))
    batch

end Cert.KernelIdeal.KHost

end
-- ==== Proof.KReads.lean ====
/-
  What the kernel's host stretches leave in the buffers the four products read, and the program's result
  as a function of the argument arrays.

  After the first host stretch the products' operands hold: the adjacency, the column of reciprocal
  square roots of its column sums, the feature matrix and the two weight matrices (a change of float
  format is the identity on the extended reals), the zero bias rows and the bias vectors as rows.  No
  product writes any of them.  Given that each product leaves in its result buffer the fused product of
  what its operands hold, the last host stretch leaves in the result buffer the segment mean of the
  two-layer convolution of the arguments.
-/
import proofs.«127015_j27917287424727_2_alg».proof.Proof.Gen.KernelIdeal.Regions
import proofs.«127015_j27917287424727_2_alg».proof.Proof.KHost

noncomputable section

namespace Cert.KernelIdeal.KReads

open Idealize.ShloMosaic Idealize.ShloMosaic.TcCoe
open Cert.KernelIdeal.Gen Cert.KernelIdeal.KHost

variable (m : (ℓ : Loc nD τ sig) → Buf (Elt Ideal) ℓ) (outs : Outs (F := Ideal))

/-- On the extended reals the conversion to the shorter float format is the identity. -/
theorem truncf_id {s : Shape} (v : FVec Ideal s .f32) (h : FTy.bits .bf16 < FTy.bits .f32) :
    (truncf (F := Ideal) .bf16 v h : s.Idx → EReal) = v := rfl

/-! ## After the first host stretch -/

theorem V1_v23 (c : Dev nD) :
    (V1 m c main_v23 : FArr S8192x8192) = m ((c.tc : Thread nD τ).loc main_arg0) := by
  show StableHlo.after hostOps0 _ (Proc.devRef .tc main_v23) = _
  after_results
  exact truncf_id _ _

theorem V1_v24 (c : Dev nD) :
    (V1 m c main_v24 : FArr S8192x4096) = m ((c.tc : Thread nD τ).loc main_arg1) := by
  show StableHlo.after hostOps0 _ (Proc.devRef .tc main_v24) = _
  after_results
  exact truncf_id _ _

theorem V1_v25 (c : Dev nD) :
    (V1 m c main_v25 : FArr S4096x8192) = m ((c.tc : Thread nD τ).loc main_arg3) := by
  show StableHlo.after hostOps0 _ (Proc.devRef .tc main_v25) = _
  after_results
  exact truncf_id _ _

theorem V1_v26 (c : Dev nD) : (V1 m c main_v26 : FArr S1x4096) = zeroRowH := by
  show StableHlo.after hostOps0 _ (Proc.devRef .tc main_v26) = _
  after_results
  rfl

theorem V1_v27 (c : Dev nD) : (V1 m c main_v27 : FArr S1x8192) = zeroRowN := by
  show StableHlo.after hostOps0 _ (Proc.devRef .tc main_v27) = _
  after_results
  rfl

theorem V1_v28 (c : Dev nD) :
    (V1 m c main_v28 : FArr S1x4096) = rowH (m ((c.tc : Thread nD τ).loc main_arg2)) := by
  show StableHlo.after hostOps0 _ (Proc.devRef .tc main_v28) = _
  after_results
  rfl

theorem V1_v29 (c : Dev nD) :
    (V1 m c main_v29 : FArr S1x8192) = rowN (m ((c.tc : Thread nD τ).loc main_arg4)) := by
  show StableHlo.after hostOps0 _ (Proc.devRef .tc main_v29) = _
  after_results
  rfl

theorem V1_v22 (c : Dev nD) :
    (V1 m c main_v22 : FArr S8192x8192) = adj (m ((c.tc : Thread nD τ).loc main_arg0)) := by
  show StableHlo.after hostOps0 _ (Proc.devRef .tc main_v22) = _
  after_results_simp
  exact (truncf_id _ _).trans rfl

theorem V1_v21 (c : Dev nD) :
    (V1 m c main_v21 : FArr S8192x1) = dinvCol (m ((c.tc : Thread nD τ).loc main_arg0)) := by
  show StableHlo.after hostOps0 _ (Proc.devRef .tc main_v21) = _
  after_results_simp
  rfl

/-! ## The same reads after each product

No product writes an operand another product reads, except its own result. -/

theorem V2_v30 (c : Dev nD) : V2 m outs c main_v30 = outs 2 main_v30 c := Function.update_self _ _ _
theorem V3_v31 (c : Dev nD) : V3 m outs c main_v31 = outs 3 main_v31 c := Function.update_self _ _ _
theorem V4_v32 (c : Dev nD) : V4 m outs c main_v32 = outs 4 main_v32 c := Function.update_self _ _ _
theorem V5_v33 (c : Dev nD) : V5 m outs c main_v33 = outs 5 main_v33 c := Function.update_self _ _ _

theorem V2_v21 (c : Dev nD) :
    (V2 m outs c main_v21 : FArr S8192x1) = dinvCol (m ((c.tc : Thread nD τ).loc main_arg0)) :=
  (V2_of m outs c main_v21 (by decide)).trans (V1_v21 m c)
theorem V3_v21 (c : Dev nD) :
    (V3 m outs c main_v21 : FArr S8192x1) = dinvCol (m ((c.tc : Thread nD τ).loc main_arg0)) :=
  (V3_of m outs c main_v21 (by decide)).trans (V2_v21 m outs c)
theorem V4_v21 (c : Dev nD) :
    (V4 m outs c main_v21 : FArr S8192x1) = dinvCol (m ((c.tc : Thread nD τ).loc main_arg0)) :=
  (V4_of m outs c main_v21 (by decide)).trans (V3_v21 m outs c)

theorem V2_v22 (c : Dev nD) :
    (V2 m outs c main_v22 : FArr S8192x8192) = adj (m ((c.tc : Thread nD τ).loc main_arg0)) :=
  (V2_of m outs c main_v22 (by decide)).trans (V1_v22 m c)
theorem V4_v22 (c : Dev nD) :
    (V4 m outs c main_v22 : FArr S8192x8192) = adj (m ((c.tc : Thread nD τ).loc main_arg0)) :=
  (V4_of m outs c main_v22 (by decide)).trans <| (V3_of m outs c main_v22 (by decide)).trans (V2_v22 m outs c)

theorem V2_v28 (c : Dev nD) :
    (V2 m outs c main_v28 : FArr S1x4096) = rowH (m ((c.tc : Thread nD τ).loc main_arg2)) :=
  (V2_of m outs c main_v28 (by decide)).trans (V1_v28 m c)

theorem V3_v25 (c : Dev nD) :
    (V3 m outs c main_v25 : FArr S4096x8192) = m ((c.tc : Thread nD τ).loc main_arg3) :=
  (V3_of m outs c main_v25 (by decide)).trans <| (V2_of m outs c main_v25 (by decide)).trans (V1_v25 m c)
theorem V3_v27 (c : Dev nD) : (V3 m outs c main_v27 : FArr S1x8192) = zeroRowN :=
  (V3_of m outs c main_v27 (by decide)).trans <| (V2_of m outs c main_v27 (by decide)).trans (V1_v27 m c)

theorem V4_v29 (c : Dev nD) :
    (V4 m outs c main_v29 : FArr S1x8192) = rowN (m ((c.tc : Thread nD τ).loc main_arg4)) :=
  (V4_of m outs c main_v29 (by decide)).trans <| (V3_of m outs c main_v29 (by decide)).trans <|
    (V2_of m outs c main_v29 (by decide)).trans (V1_v29 m c)

theorem V5_arg5 (c : Dev nD) :
    (V5 m outs c main_arg5 : IArr S8192) = m ((c.tc : Thread nD τ).loc main_arg5) :=
  (V5_of m outs c main_arg5 (by decide)).trans <| (V4_of m outs c main_arg5 (by decide)).trans <|
    (V3_of m outs c main_arg5 (by decide)).trans <| (V2_of m outs c main_arg5 (by decide)).trans <|
    (V1_of m c main_arg5 (by decide)).trans rfl

/-! ## The last host stretch -/

theorem V6_v45 (c : Dev nD) :
    (V6 m outs c main_v45 : FArr S8x8192) = tail (V5 m outs c main_v33) (V5 m outs c main_arg5) := by
  show StableHlo.after hostOps4 _ (Proc.devRef .tc main_v45) = _
  after_results_simp
  rfl

/-! ## The program's result -/

/-- If each product leaves in its result buffer the fused product of what its operands hold, the result
    buffer ends holding the segment mean of the two-layer convolution of the arguments. -/
theorem kout_eq (c : Dev nD)
    (h2 : outs 2 main_v30 c = Gcn.fused (V1 m c main_v23) (V1 m c main_v24) (V1 m c main_v21) (V1 m c main_v26))
    (h3 : outs 3 main_v31 c = Gcn.relu (Gcn.fusedT (V2 m outs c main_v22) (V2 m outs c main_v30) (V2 m outs c main_v21) (V2 m outs c main_v28)))
    (h4 : outs 4 main_v32 c = Gcn.fused (V3 m outs c main_v31) (V3 m outs c main_v25) (V3 m outs c main_v21) (V3 m outs c main_v27))
    (h5 : outs 5 main_v33 c = Gcn.fusedT (V4 m outs c main_v22) (V4 m outs c main_v32) (V4 m outs c main_v21) (V4 m outs c main_v29)) :
    V6 m outs c main_v45 = kernelSpec (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  rw [V6_v45, V5_v33, V5_arg5, h5, V4_v22, V4_v32, V4_v21, V4_v29, h4, V3_v31, V3_v25, V3_v21, V3_v27, h3,
    V2_v22, V2_v30, V2_v21, V2_v28, h2, V1_v23, V1_v24, V1_v21, V1_v26]
  rfl

end Cert.KernelIdeal.KReads

end
-- ==== Proof.Val0Pieces.lean ====
/-
  Call 0: what each case of the body leaves in the accumulator and in the output block, as the arithmetic of the
  blocks it loaded.

  At a point with k = 0 the body clears the accumulator and adds the first block product to the cleared buffer;
  at a later point it adds the point's block product to what it finds; at the last point it also stores the scaled and
  biased accumulator into the output block.  Every load and store goes through the whole buffer at zero offsets, so a
  store leaves exactly its value and a load of a buffer reads exactly its contents.
-/
import proofs.«127015_j27917287424727_2_alg».proof.Proof.R0RunA
import proofs.«127015_j27917287424727_2_alg».proof.Proof.R0RunB
import proofs.«127015_j27917287424727_2_alg».proof.Proof.R0RunC
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

/-- The zero offsets of a whole-buffer access. -/
theorem hz0 : (![0, 0] : Fin 2 → Nat) = fun _ => 0 := funext fun a => by fin_cases a <;> rfl

/-- At k = 0: the first block product added to the cleared accumulator. -/
theorem sout_A_eq0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x2048 .bf16) (x1 : Vec F S2048x1024 .bf16) (x2 : Vec F S1024x1 .f32) (x3 : Vec F S1x1024 .f32) :
    sout0_A c i arg3 harg3 arg4 harg4 arg5 harg5 arg6 harg6 arg7 harg7 arg8 harg8 hc0 hc1 x0 x1 x2 x3 = k0_pay2 k0_pay1 x0 x1 := by
  unfold sout0_A
  rw [View.read_writes_eq_canon _ _ _ (scover0_A c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz0, View.readCov_unit_zero (S := S1024x1024) _ hz0]
  simp only [View.readAt_eq_ld, harg3.read_unread, harg4.read_unread,
    View.ld_unit_zero (S := S1024x2048) hz0, View.ld_unit_zero (S := S2048x1024) hz0]

/-- Strictly inside the contraction: the point's block product added to what the accumulator held. -/
theorem sout_B_eq0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x2048 .bf16) (x1 : Vec F S2048x1024 .bf16) (x2 : Vec F S1024x1 .f32) (x3 : Vec F S1x1024 .f32) (xs : Vec F S1024x1024 .f32) :
    sout0_B c i arg3 harg3 arg4 harg4 arg5 harg5 arg6 harg6 arg7 harg7 arg8 harg8 hc0 hc1 x0 x1 x2 x3 xs = k0_pay2 xs x0 x1 := by
  unfold sout0_B
  rw [View.read_writes_eq_canon _ _ _ (scover0_B c i arg3 harg3 arg4 harg4 arg5 harg5 arg6 harg6 arg7 harg7 arg8 harg8 hc0 hc1 x0 x1 x2 x3 xs)]
  unfold kernelRun0_B
  dsimp only
  sl_unfold_words
  rw [View.canon_unit_zero hz0]
  simp only [View.readAt_eq_ld, harg8.read_unread, harg3.read_unread, harg4.read_unread,
    View.ld_unit_zero (S := S1024x1024) hz0, View.ld_unit_zero (S := S1024x2048) hz0, View.ld_unit_zero (S := S2048x1024) hz0]

/-- At the last point the accumulator is updated the same way, -/
theorem sout_C_eq0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) :
    sout0_C c i arg3 harg3 arg4 harg4 arg5 harg5 arg6 harg6 arg7 harg7 arg8 harg8 hc0 hc1 x0 x1 x2 x3 xs = k0_pay2 xs x0 x1 := by
  unfold sout0_C
  rw [View.read_writes_eq_canon _ _ _ (scover0_C c i arg3 harg3 arg4 harg4 arg5 harg5 arg6 harg6 arg7 harg7 arg8 harg8 hc0 hc1 x0 x1 x2 x3 xs)]
  unfold kernelRun0_C
  dsimp only
  sl_unfold_words
  rw [View.canon_unit_zero hz0]
  simp only [View.readAt_eq_ld, harg8.read_unread, harg3.read_unread, harg4.read_unread,
    View.ld_unit_zero (S := S1024x1024) hz0, View.ld_unit_zero (S := S1024x2048) hz0, View.ld_unit_zero (S := S2048x1024) hz0]

/-- and the output block is the updated accumulator scaled by the column block, plus the bias row block. -/
theorem out_C_eq0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x2048 .bf16) (x1 : Vec F S2048x1024 .bf16) (x2 : Vec F S1024x1 .f32) (x3 : Vec F S1x1024 .f32) (xs : Vec F S1024x1024 .f32) :
    out0_C c i arg3 harg3 arg4 harg4 arg5 harg5 arg6 harg6 arg7 harg7 arg8 harg8 hc0 hc1 x0 x1 x2 x3 xs = k0_pay3 (k0_pay2 xs x0 x1) x2 x3 := by
  unfold out0_C
  rw [View.read_writes_eq_canon _ _ _ (cover0_C c i arg3 harg3 arg4 harg4 arg5 harg5 arg6 harg6 arg7 harg7 arg8 harg8 hc0 hc1 x0 x1 x2 x3 xs)]
  unfold kernelRun0_C
  dsimp only
  sl_unfold_words
  rw [View.canon_unit_zero hz0, View.readCov_unit_zero (S := S1024x1024) _ hz0]
  simp only [View.readAt_eq_ld, harg8.read_unread, harg3.read_unread, harg4.read_unread, harg5.read_unread, harg6.read_unread,
    View.ld_unit_zero (S := S1024x1024) hz0, View.ld_unit_zero (S := S1024x2048) hz0, View.ld_unit_zero (S := S2048x1024) hz0,
    View.ld_unit_zero (S := S1024x1) hz0, View.ld_unit_zero (S := S1x1024) hz0]

end Cert.KernelIdeal.Val

end
-- ==== Proof.LibBlockSum.lean ====
/-
  A finite sum taken block by block.

  A sum over d < N can be accumulated in consecutive blocks: start from nothing, and at each step add the sum of
  the next b terms.  After the blocks that make up the first a terms the accumulator holds the a-th partial sum,
  and once the blocks have exhausted the range it holds the whole sum.  Only that addition is associative and
  commutative is used, so this holds in any commutative monoid — in particular over the extended reals, where no
  finiteness of the terms is needed.

  To speak of the a-th partial sum for every natural a, the summand is extended by zero beyond N.
-/
import Mathlib.Algebra.BigOperators.Fin
import Mathlib.Algebra.BigOperators.Intervals

open scoped BigOperators

namespace Cert.BlockSum

variable {M : Type*} [AddCommMonoid M]

/-- A summand on the indices below N, extended by zero to every natural number. -/
def ext0 {N : ℕ} (f : Fin N → M) (d : ℕ) : M := if h : d < N then f ⟨d, h⟩ else 0

theorem ext0_of_lt {N : ℕ} (f : Fin N → M) (d : ℕ) (h : d < N) : ext0 f d = f ⟨d, h⟩ := dif_pos h

/-- The sum of the first n terms. -/
def partialSum {N : ℕ} (f : Fin N → M) (n : ℕ) : M := ∑ d ∈ Finset.range n, ext0 f d

theorem partialSum_zero {N : ℕ} (f : Fin N → M) : partialSum f 0 = 0 := Finset.sum_range_zero _

/-- The N-th partial sum is the whole sum. -/
theorem partialSum_full {N : ℕ} (f : Fin N → M) : partialSum f N = ∑ d : Fin N, f d := by
  unfold partialSum
  rw [← Fin.sum_univ_eq_sum_range (ext0 f) N]
  exact Finset.sum_congr rfl fun d _ => ext0_of_lt f d.val d.isLt

/-- The block of b terms starting at a, as a sum over k < b. -/
theorem block_eq {N : ℕ} (f : Fin N → M) (a b : ℕ) (h : a + b ≤ N) :
    ∑ k : Fin b, f ⟨a + k.val, Nat.lt_of_lt_of_le (Nat.add_lt_add_left k.isLt a) h⟩
      = ∑ k ∈ Finset.range b, ext0 f (a + k) := by
  rw [← Fin.sum_univ_eq_sum_range (fun k => ext0 f (a + k)) b]
  exact Finset.sum_congr rfl fun k _ => (ext0_of_lt f (a + k.val) _).symm

/-- Adding the next block of b terms to the a-th partial sum gives the (a + b)-th. -/
theorem partialSum_add_block {N : ℕ} (f : Fin N → M) (a b : ℕ) (h : a + b ≤ N) :
    partialSum f a + ∑ k : Fin b, f ⟨a + k.val, Nat.lt_of_lt_of_le (Nat.add_lt_add_left k.isLt a) h⟩
      = partialSum f (a + b) := by
  rw [block_eq f a b h]
  unfold partialSum
  exact (Finset.sum_range_add (ext0 f) a b).symm

end Cert.BlockSum
-- ==== Proof.Acc.lean ====
/-
  An accumulator that is reset at the start of every group of steps.

  A long row of steps n = 0, 1, 2, … is cut into consecutive groups of K steps; step n is the (n mod K)-th step
  of group n / K.  An accumulator is set to nothing at the first step of a group and otherwise kept from the
  step before, and at every step the sum of one block of b consecutive terms of the group's summand is added to it:
  at the r-th step of the group, the terms at positions r·b, …, r·b + b − 1.  After the r-th step of a group the
  accumulator therefore holds the sum of the first (r + 1)·b terms of that group's summand, and after the group's last
  step the whole sum of its K·b terms.  Only associativity and commutativity of the addition are used, so nothing is
  asked of the terms (over the extended reals: no finiteness).
-/
import proofs.«127015_j27917287424727_2_alg».proof.Proof.LibBlockSum

open scoped BigOperators

namespace Cert.Acc

open Cert.BlockSum

variable {M : Type*} [AddCommMonoid M]

/-- The k-th term of the r-th block of b terms lies inside the K·b terms when r < K. -/
theorem block_lt {N K b r : ℕ} (hN : K * b = N) (hr : r < K) (k : Fin b) : r * b + k.val < N := by
  have h1 : r * b + k.val < r * b + b := Nat.add_lt_add_left k.isLt _
  have h2 : (r + 1) * b = r * b + b := by rw [Nat.add_mul, Nat.one_mul]
  have h3 : (r + 1) * b ≤ K * b := Nat.mul_le_mul_right b hr
  omega

/-- The r-th block of b terms ends inside the K·b terms when r < K. -/
theorem block_le {N K b r : ℕ} (hN : K * b = N) (hr : r < K) : r * b + b ≤ N := by
  have h2 : (r + 1) * b = r * b + b := by rw [Nat.add_mul, Nat.one_mul]
  have h3 : (r + 1) * b ≤ K * b := Nat.mul_le_mul_right b hr
  omega

/-- A step that is not the first of its group is in the group of the step before it, one position further. -/
theorem succ_div_mod {K n : ℕ} (hK : 0 < K) (h : (n + 1) % K ≠ 0) :
    (n + 1) / K = n / K ∧ (n + 1) % K = n % K + 1 := by
  have hm : n % K < K := Nat.mod_lt n hK
  have hn : K * (n / K) + n % K = n := Nat.div_add_mod n K
  generalize n / K = d at hn ⊢
  generalize n % K = r at hn hm ⊢
  subst hn
  have hlt : r + 1 < K := by
    rcases Nat.lt_or_ge (r + 1) K with h1 | h1
    · exact h1
    · exfalso
      have hK' : r + 1 = K := by omega
      apply h
      have e : K * d + r + 1 = K * (d + 1) := by rw [Nat.mul_add, Nat.mul_one]; omega
      rw [e]
      exact Nat.mul_mod_right K _
  have e : K * d + r + 1 = K * d + (r + 1) := Nat.add_assoc _ _ _
  rw [e, Nat.mul_add_div hK, Nat.mul_add_mod, Nat.div_eq_of_lt hlt, Nat.mod_eq_of_lt hlt, Nat.add_zero]
  exact ⟨rfl, rfl⟩

/-- After step n the accumulator holds the sum of the first (n mod K + 1)·b terms of the summand of group n / K.
    `f g` is the summand of group g; `blk n` the block sum added at step n; `acc n` the accumulator after step n. -/
theorem acc_eq_partialSum {N : ℕ} (K b : ℕ) (hK : 0 < K) (hN : K * b = N) (f : ℕ → Fin N → M) (blk acc : ℕ → M)
    (hblk : ∀ n, blk n = ∑ k : Fin b, f (n / K) ⟨n % K * b + k.val, block_lt hN (Nat.mod_lt n hK) k⟩)
    (hacc : ∀ n, acc n = (if n % K = 0 then 0 else acc (n - 1)) + blk n) (n : ℕ) :
    acc n = partialSum (f (n / K)) ((n % K + 1) * b) := by
  -- adding the block of step n to the partial sum before it gives the partial sum after it
  have step : ∀ n, partialSum (f (n / K)) (n % K * b) + blk n = partialSum (f (n / K)) ((n % K + 1) * b) := fun n => by
    have e : (n % K + 1) * b = n % K * b + b := by rw [Nat.add_mul, Nat.one_mul]
    rw [hblk n, e]
    exact partialSum_add_block (f (n / K)) (n % K * b) b (block_le hN (Nat.mod_lt n hK))
  -- the first step of a group starts from nothing
  have first : ∀ n, n % K = 0 → acc n = partialSum (f (n / K)) ((n % K + 1) * b) := fun n h0 => by
    have z : partialSum (f (n / K)) (n % K * b) = 0 := by rw [h0, Nat.zero_mul, partialSum_zero]
    rw [← step n, z, hacc n, if_pos h0]
  induction n with
  | zero => exact first 0 (Nat.zero_mod K)
  | succ n ih =>
    by_cases h0 : (n + 1) % K = 0
    · exact first (n + 1) h0
    · obtain ⟨hd, hr⟩ := succ_div_mod hK h0
      have prev : acc n = partialSum (f ((n + 1) / K)) ((n + 1) % K * b) := by rw [ih, hd, hr]
      rw [← step (n + 1), hacc (n + 1), if_neg h0, Nat.add_sub_cancel, prev]

/-- After the last step of a group the accumulator holds the whole sum of the group's summand. -/
theorem acc_last {N : ℕ} (K b : ℕ) (hK : 0 < K) (hN : K * b = N) (f : ℕ → Fin N → M) (blk acc : ℕ → M)
    (hblk : ∀ n, blk n = ∑ k : Fin b, f (n / K) ⟨n % K * b + k.val, block_lt hN (Nat.mod_lt n hK) k⟩)
    (hacc : ∀ n, acc n = (if n % K = 0 then 0 else acc (n - 1)) + blk n) (n : ℕ) (hlast : n % K + 1 = K) :
    acc n = ∑ d : Fin N, f (n / K) d := by
  rw [acc_eq_partialSum K b hK hN f blk acc hblk hacc n, hlast, hN, partialSum_full]

/-- One step back stays among the first T steps. -/
theorem pred_lt {T n : ℕ} (h : n < T) : n - 1 < T := Nat.lt_of_le_of_lt (Nat.sub_le n 1) h

/-- The same for a row of T steps only, with everything given at the steps below T, and the summand given per STEP
    (`f n`: the summand of the group step n is in; `hf`: it does not change inside a group): after step n the
    accumulator holds the sum of the first (n mod K + 1)·b terms of its group's summand. -/
theorem acc_eq_partialSum_below {N : ℕ} (K b T : ℕ) (hK : 0 < K) (hN : K * b = N)
    (f : (n : ℕ) → n < T → Fin N → M) (hf : ∀ n (h : n < T), n % K ≠ 0 → f n h = f (n - 1) (pred_lt h))
    (blk acc : (n : ℕ) → n < T → M)
    (hblk : ∀ n (h : n < T),
      blk n h = ∑ k : Fin b, f n h ⟨n % K * b + k.val, block_lt hN (Nat.mod_lt n hK) k⟩)
    (hacc : ∀ n (h : n < T), acc n h = (if n % K = 0 then 0 else acc (n - 1) (pred_lt h)) + blk n h)
    (n : ℕ) (h : n < T) : acc n h = partialSum (f n h) ((n % K + 1) * b) := by
  have step : ∀ n (h : n < T),
      partialSum (f n h) (n % K * b) + blk n h = partialSum (f n h) ((n % K + 1) * b) := fun n h => by
    have e : (n % K + 1) * b = n % K * b + b := by rw [Nat.add_mul, Nat.one_mul]
    rw [hblk n h, e]
    exact partialSum_add_block (f n h) (n % K * b) b (block_le hN (Nat.mod_lt n hK))
  have first : ∀ n (h : n < T), n % K = 0 → acc n h = partialSum (f n h) ((n % K + 1) * b) := fun n h h0 => by
    have z : partialSum (f n h) (n % K * b) = 0 := by rw [h0, Nat.zero_mul, partialSum_zero]
    rw [← step n h, z, hacc n h, if_pos h0]
  induction n with
  | zero => exact first 0 h (Nat.zero_mod K)
  | succ n ih =>
    by_cases h0 : (n + 1) % K = 0
    · exact first (n + 1) h h0
    · obtain ⟨-, hr⟩ := succ_div_mod hK h0
      have hn : n < T := Nat.lt_of_succ_lt h
      have hfn : f (n + 1) h = f n hn := hf (n + 1) h h0
      have prev : acc n hn = partialSum (f (n + 1) h) ((n + 1) % K * b) := by rw [ih hn, hfn, hr]
      rw [← step (n + 1) h, hacc (n + 1) h, if_neg h0]
      exact congrArg (fun z => z + blk (n + 1) h) prev

/-- After the last step of a group, among T steps, the accumulator holds the whole sum of the group's summand. -/
theorem acc_last_below {N : ℕ} (K b T : ℕ) (hK : 0 < K) (hN : K * b = N)
    (f : (n : ℕ) → n < T → Fin N → M) (hf : ∀ n (h : n < T), n % K ≠ 0 → f n h = f (n - 1) (pred_lt h))
    (blk acc : (n : ℕ) → n < T → M)
    (hblk : ∀ n (h : n < T),
      blk n h = ∑ k : Fin b, f n h ⟨n % K * b + k.val, block_lt hN (Nat.mod_lt n hK) k⟩)
    (hacc : ∀ n (h : n < T), acc n h = (if n % K = 0 then 0 else acc (n - 1) (pred_lt h)) + blk n h)
    (n : ℕ) (h : n < T) (hlast : n % K + 1 = K) : acc n h = ∑ d : Fin N, f n h d := by
  rw [acc_eq_partialSum_below K b T hK hN f hf blk acc hblk hacc n h, hlast, hN, partialSum_full]

end Cert.Acc
-- ==== Proof.Val0Blocks.lean ====
/-
  Call 0: where each window's block at a grid point sits in its array.

  Grid point t (in row-major order over an 8×4×4 grid) has row-block i = t / 16, column-block j = t / 4 mod 4 and
  contraction step k = t mod 4.  Its left block is rows 1024·i …, columns 2048·k … of the left array, its right block
  rows 2048·k …, columns 1024·j … of the right array, its column block rows 1024·i … of the scaling column and its bias
  block columns 1024·j … of the bias row (an element of a block sits at block index × block size + its coordinate).
-/
import proofs.«127015_j27917287424727_2_alg».proof.Proof.R0Runs
import proofs.«127015_j27917287424727_2_alg».proof.Proof.Acc
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx

/-- The printed index maps in closed form, decided once over the grid. -/
theorem idx0 : ∀ t : Fin cfg0.N,
    win0_0.index t (0 : Fin 2) = t.val / 16 ∧ win0_0.index t (1 : Fin 2) = t.val % 4
  ∧ win0_1.index t (0 : Fin 2) = t.val % 4 ∧ win0_1.index t (1 : Fin 2) = t.val / 4 % 4
  ∧ win0_2.index t (0 : Fin 2) = t.val / 16 ∧ win0_2.index t (1 : Fin 2) = 0
  ∧ win0_3.index t (0 : Fin 2) = 0 ∧ win0_3.index t (1 : Fin 2) = t.val / 4 % 4
  ∧ win0_4.index t (0 : Fin 2) = t.val / 16 ∧ win0_4.index t (1 : Fin 2) = t.val / 4 % 4 :=
  (by decide +kernel : ∀ t : Fin grid0.N, _)

/-- The grid has 128 points. -/
theorem lt0 (t : Fin cfg0.N) : t.val < 128 := by
  have := t.isLt; have e : cfg0.N = 128 := N_0; omega

/-- Row p of point t's row-block, as a row of the whole array. -/
def row0 (t : Fin cfg0.N) (p : Fin 1024) : Fin 8192 := ⟨t.val / 16 * 1024 + p.val, by have := lt0 t; have := p.isLt; omega⟩
/-- Column q of point t's column-block, as a column of the whole array. -/
def col0 (t : Fin cfg0.N) (q : Fin 1024) : Fin 4096 := ⟨t.val / 4 % 4 * 1024 + q.val, by have := q.isLt; omega⟩
/-- Position k of point t's contraction block, as a position of the whole contraction. -/
abbrev con0 (t : Fin cfg0.N) (k : Fin 2048) : Fin 8192 := ⟨t.val % 4 * 2048 + k.val, by have := k.isLt; omega⟩

theorem row0_val (t : Fin cfg0.N) (p : Fin 1024) : (row0 t p).val = t.val / 16 * 1024 + p.val := rfl
theorem col0_val (t : Fin cfg0.N) (q : Fin 1024) : (col0 t q).val = t.val / 4 % 4 * 1024 + q.val := rfl

/-- Inside a contraction the row-block does not move, -/
theorem row0_pred (n : ℕ) (h : n < cfg0.N) (h0 : n % 4 ≠ 0) (p : Fin 1024) :
    row0 ⟨n, h⟩ p = row0 ⟨n - 1, Cert.Acc.pred_lt h⟩ p := Fin.ext (by
  show n / 16 * 1024 + p.val = (n - 1) / 16 * 1024 + p.val
  omega)
/-- nor the column-block. -/
theorem col0_pred (n : ℕ) (h : n < cfg0.N) (h0 : n % 4 ≠ 0) (q : Fin 1024) :
    col0 ⟨n, h⟩ q = col0 ⟨n - 1, Cert.Acc.pred_lt h⟩ q := Fin.ext (by
  show n / 4 % 4 * 1024 + q.val = (n - 1) / 4 % 4 * 1024 + q.val
  omega)

section
variable (V : (c : Dev nD) → (b : Ref sig .tc) → Buf (Elt F) ((c : Thread nD τ).loc b))

/-- The left block at point t reads the left array at (row-block row, contraction-block position). -/
theorem iblk0_0_apply (c : Dev nD) (t : Fin cfg0.N) (p : Fin 1024) (k : Fin 2048) :
    (iblk0 V c 0 t : Vec F S1024x2048 .bf16) (ix2 p k)
      = (V c main_v23 : S8192x8192.Idx → Elt F .bf16) (ix2 (row0 t p) (con0 t k)) := by
  obtain ⟨e0, e1, -⟩ := idx0 t
  unfold iblk0
  rw [View.read_apply]
  show V c main_v23 _ = V c main_v23 _
  congr 1
  funext a
  apply Fin.ext
  match a with
  | ⟨0, _⟩ => show win0_0.index t (0 : Fin 2) * 1024 + 1 * p.val = t.val / 16 * 1024 + p.val; rw [e0]; omega
  | ⟨1, _⟩ => show win0_0.index t (1 : Fin 2) * 2048 + 1 * k.val = t.val % 4 * 2048 + k.val; rw [e1]; omega

/-- The right block at point t reads the right array at (contraction-block position, column-block column). -/
theorem iblk0_1_apply (c : Dev nD) (t : Fin cfg0.N) (k : Fin 2048) (q : Fin 1024) :
    (iblk0 V c 1 t : Vec F S2048x1024 .bf16) (ix2 k q)
      = (V c main_v24 : S8192x4096.Idx → Elt F .bf16) (ix2 (con0 t k) (col0 t q)) := by
  obtain ⟨-, -, e0, e1, -⟩ := idx0 t
  unfold iblk0
  rw [View.read_apply]
  show V c main_v24 _ = V c main_v24 _
  congr 1
  funext a
  apply Fin.ext
  match a with
  | ⟨0, _⟩ => show win0_1.index t (0 : Fin 2) * 2048 + 1 * k.val = t.val % 4 * 2048 + k.val; rw [e0]; omega
  | ⟨1, _⟩ => show win0_1.index t (1 : Fin 2) * 1024 + 1 * q.val = t.val / 4 % 4 * 1024 + q.val; rw [e1]; omega

/-- The column block at point t reads the scaling column at the row-block's row. -/
theorem iblk0_2_apply (c : Dev nD) (t : Fin cfg0.N) (p : Fin 1024) :
    (iblk0 V c 2 t : Vec F S1024x1 .f32) (ix2 p 0)
      = (V c main_v21 : S8192x1.Idx → Elt F .f32) (ix2 (row0 t p) 0) := by
  obtain ⟨-, -, -, -, e0, e1, -⟩ := idx0 t
  unfold iblk0
  rw [View.read_apply]
  show V c main_v21 _ = V c main_v21 _
  congr 1
  funext a
  apply Fin.ext
  match a with
  | ⟨0, _⟩ => show win0_2.index t (0 : Fin 2) * 1024 + 1 * p.val = t.val / 16 * 1024 + p.val; rw [e0]; omega
  | ⟨1, _⟩ => show win0_2.index t (1 : Fin 2) * 1 + 1 * 0 = 0; rw [e1]

/-- The bias block at point t reads the bias row at the column-block's column. -/
theorem iblk0_3_apply (c : Dev nD) (t : Fin cfg0.N) (q : Fin 1024) :
    (iblk0 V c 3 t : Vec F S1x1024 .f32) (ix2 0 q)
      = (V c main_v26 : S1x4096.Idx → Elt F .f32) (ix2 0 (col0 t q)) := by
  obtain ⟨-, -, -, -, -, -, e0, e1, -⟩ := idx0 t
  unfold iblk0
  rw [View.read_apply]
  show V c main_v26 _ = V c main_v26 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * q.val = t.val / 4 % 4 * 1024 + q.val; rw [e1]; omega

end

end Cert.KernelIdeal.Val

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.Pay0.lean ====
/-
  The three values the first kernel call stores, read one entry at a time at the exact (extended-real) values.

  The body of the call keeps a 1024×1024 accumulator.  It stores zeros into it (first value); it adds to it
  the product of a 1024×2048 left block with a 2048×1024 right block: entry (p, q) is the sum over k of
  left(p, k) · right(k, q)
  (second value); and at the end it writes out the accumulator with row p scaled by the p-th entry of a
  1024×1 column and the q-th entry of a 1×1024 row added (third value).  Recasting a block to its own
  shape, and the final change of number format, change no entry.
-/
import proofs.«127015_j27917287424727_2_alg».proof.Proof.Gen.KernelIdeal.Skeleton
import proofs.«127015_j27917287424727_2_alg».proof.Proof.LibRowDot
import proofs.«127015_j27917287424727_2_alg».proof.Proof.LibColumn
import proofs.«127015_j27917287424727_2_alg».proof.Proof.LibRowBias

noncomputable section

open scoped BigOperators

namespace Cert.KernelIdeal.Pay

open Cert.KernelIdeal Cert.KernelIdeal.Gen Idealize.ShloMosaic Idealize.ShloMosaic.ValueIdx

/-- The first stored value is zero at every entry. -/
theorem pay1_apply_0 (p q : Fin 1024) : k0_pay1 (F := Ideal) (ix2 p q) = 0 := by
  unfold k0_pay1
  rw [shapeCast_self, broadcast_apply]
  exact Ideal.ofBits_zero_f32

/-- The printed dimension numbers are those of a plain M×K by K×N product. -/
theorem dot_eq_plain_0 : dot_S1024x2048_S2048x1024_S1024x1024_1_0_0_1_n_n = DotDims.plain 1024 2048 1024 := rfl

/-- The block product into a zero accumulator, at an entry: row p of the left block against column q of the right. -/
theorem matmul_apply_0 (v4 : FVec Ideal S1024x2048 .bf16) (v6 : FVec Ideal S2048x1024 .bf16) (p q : Fin 1024) :
    matmul dot_S1024x2048_S2048x1024_S1024x1024_1_0_0_1_n_n none v4 v6
        (constant (F := Ideal) S1024x1024 .f32 0x00000000#32) (ix2 p q)
      = ∑ k : Fin 2048, v4 (ix2 p k) * v6 (ix2 k q) := by
  rw [dot_eq_plain_0]
  exact Cert.RowDot.matmul_plain_zero_apply none v4 v6 (ix2 p q)

/-- The second stored value: the accumulator as loaded plus the block product, at an entry. -/
theorem pay2_apply_0 (v3 : Vec Ideal S1024x1024 .f32) (v4 : Vec Ideal S1024x2048 .bf16) (v6 : Vec Ideal S2048x1024 .bf16)
    (p q : Fin 1024) :
    k0_pay2 (F := Ideal) v3 v4 v6 (ix2 p q) = v3 (ix2 p q) + ∑ k : Fin 2048, v4 (ix2 p k) * v6 (ix2 k q) := by
  unfold k0_pay2
  rw [shapeCast_self, shapeCast_self, shapeCast_self, addf_apply]
  exact congrArg (fun z : EReal => v3 (ix2 p q) + z) (matmul_apply_0 v4 v6 p q)

/-- The third stored value: the accumulator's row p scaled by the column's entry p, plus the row's entry q. -/
theorem pay3_apply_0 (v16 : Vec Ideal S1024x1024 .f32) (v17 : Vec Ideal S1024x1 .f32) (v21 : Vec Ideal S1x1024 .f32)
    (p q : Fin 1024) :
    k0_pay3 (F := Ideal) v16 v17 v21 (ix2 p q) = v16 (ix2 p q) * v17 (ix2 p 0) + v21 (ix2 0 q) := by
  unfold k0_pay3
  rw [shapeCast_self, shapeCast_self, truncf_apply, addf_apply, mulf_apply,
    Cert.Column.broadcastTo_a1_ab_apply, Cert.RowBias.spreadRow_apply]

end Cert.KernelIdeal.Pay

end
-- ==== Proof.Val0Acc.lean ====
/-
  Call 0: the accumulator after every grid point, and its entries after the contraction's last point.

  The accumulator after point t is the point's block product added to the cleared buffer (k = 0) or to what point
  t − 1 left; so after the last step of a contraction its entry (p, q) is the whole sum over the 8192 positions of
  row 1024·i + p of the left array against column 1024·j + q of the right array.
-/
import proofs.«127015_j27917287424727_2_alg».proof.Proof.R0Frame
import proofs.«127015_j27917287424727_2_alg».proof.Proof.Val0Pieces
import proofs.«127015_j27917287424727_2_alg».proof.Proof.Val0Blocks
import proofs.«127015_j27917287424727_2_alg».proof.Proof.Pay0

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx Cert.KernelIdeal.Pay

open scoped BigOperators

section
variable (V : (c : Dev nD) → (b : Ref sig .tc) → Buf (Elt F) ((c : Thread nD τ).loc b))

/-- The accumulator after point n. -/
def accAt0 (c : Dev nD) (n : ℕ) (hn : n < cfg0.N) : Vec F S1024x1024 .f32 := (outsAt0 V c n hn).2

/-- After a point with k = 0 it is the first block product added to the cleared buffer; -/
theorem accAt0_A (c : Dev nD) (t : Fin cfg0.N) (h0 : t.val % 4 = 0) :
    accAt0 V c t.val t.isLt = k0_pay2 k0_pay1 (iblk0 V c 0 t) (iblk0 V c 1 t) := by
  unfold accAt0
  rw [outsAt0_A V c t h0]
  dsimp only
  unfold accA0
  exact sout_A_eq0 c (grid0.coords t) (ms0_0 t) (hs0_0 t) (ms0_1 t) (hs0_1 t) (ms0_2 t) (hs0_2 t) (ms0_3 t) (hs0_3 t) (ms0_4 t) (hs0_4 t) scM0 (Memref.isWhole_whole _) (condA0 t h0).1 (condA0 t h0).2 (iblk0 V c 0 t) (iblk0 V c 1 t) (iblk0 V c 2 t) (iblk0 V c 3 t)

/-- strictly inside the contraction, the point's block product added to what the point before left; -/
theorem accAt0_B (c : Dev nD) (t : Fin cfg0.N) (h0 : ¬t.val % 4 = 0) (h1 : ¬t.val % 4 = 3) :
    accAt0 V c t.val t.isLt
      = k0_pay2 (accAt0 V c (t.val - 1) (Cert.Acc.pred_lt t.isLt)) (iblk0 V c 0 t) (iblk0 V c 1 t) := by
  unfold accAt0
  rw [outsAt0_B V c t h0 h1]
  dsimp only
  unfold accB0
  exact sout_B_eq0 c (grid0.coords t) (ms0_0 t) (hs0_0 t) (ms0_1 t) (hs0_1 t) (ms0_2 t) (hs0_2 t) (ms0_3 t) (hs0_3 t) (ms0_4 t) (hs0_4 t) scM0 (Memref.isWhole_whole _) (condB0 t h0 h1).1 (condB0 t h0 h1).2 (iblk0 V c 0 t) (iblk0 V c 1 t) (iblk0 V c 2 t) (iblk0 V c 3 t) (outsAt0 V c (t.val - 1) (Cert.Acc.pred_lt t.isLt)).2

/-- at the last point the same, -/
theorem accAt0_C (c : Dev nD) (t : Fin cfg0.N) (h1 : t.val % 4 = 3) :
    accAt0 V c t.val t.isLt
      = k0_pay2 (accAt0 V c (t.val - 1) (Cert.Acc.pred_lt t.isLt)) (iblk0 V c 0 t) (iblk0 V c 1 t) := by
  unfold accAt0
  rw [outsAt0_C V c t h1]
  dsimp only
  unfold accC0
  exact sout_C_eq0 c (grid0.coords t) (ms0_0 t) (hs0_0 t) (ms0_1 t) (hs0_1 t) (ms0_2 t) (hs0_2 t) (ms0_3 t) (hs0_3 t) (ms0_4 t) (hs0_4 t) scM0 (Memref.isWhole_whole _) (condC0 t h1).1 (condC0 t h1).2 (iblk0 V c 0 t) (iblk0 V c 1 t) (iblk0 V c 2 t) (iblk0 V c 3 t) (outsAt0 V c (t.val - 1) (Cert.Acc.pred_lt t.isLt)).2

/-- and the output block stored there is the updated accumulator scaled and biased. -/
theorem outAt0_C (c : Dev nD) (t : Fin cfg0.N) (h1 : t.val % 4 = 3) :
    (outsAt0 V c t.val t.isLt).1
      = k0_pay3 (k0_pay2 (accAt0 V c (t.val - 1) (Cert.Acc.pred_lt t.isLt)) (iblk0 V c 0 t) (iblk0 V c 1 t))
          (iblk0 V c 2 t) (iblk0 V c 3 t) := by
  unfold accAt0
  rw [outsAt0_C V c t h1]
  dsimp only
  unfold outC0
  exact out_C_eq0 c (grid0.coords t) (ms0_0 t) (hs0_0 t) (ms0_1 t) (hs0_1 t) (ms0_2 t) (hs0_2 t) (ms0_3 t) (hs0_3 t) (ms0_4 t) (hs0_4 t) scM0 (Memref.isWhole_whole _) (condC0 t h1).1 (condC0 t h1).2 (iblk0 V c 0 t) (iblk0 V c 1 t) (iblk0 V c 2 t) (iblk0 V c 3 t) (outsAt0 V c (t.val - 1) (Cert.Acc.pred_lt t.isLt)).2

/-- In one formula: the point's block product added to the cleared buffer at k = 0, to what the point before left
    otherwise. -/
theorem accAt0_step (c : Dev nD) (t : Fin cfg0.N) :
    accAt0 V c t.val t.isLt
      = k0_pay2 (if t.val % 4 = 0 then (k0_pay1 : Vec F S1024x1024 .f32) else accAt0 V c (t.val - 1) (Cert.Acc.pred_lt t.isLt))
          (iblk0 V c 0 t) (iblk0 V c 1 t) := by
  by_cases h0 : t.val % 4 = 0
  · rw [if_pos h0]; exact accAt0_A V c t h0
  · rw [if_neg h0]
    by_cases h1 : t.val % 4 = 3
    · exact accAt0_C V c t h1
    · exact accAt0_B V c t h0 h1

/-- The output block stored at a last point is the updated accumulator scaled and biased. -/
theorem outAt0_last (c : Dev nD) (t : Fin cfg0.N) (h1 : t.val % 4 = 3) :
    (outsAt0 V c t.val t.isLt).1 = k0_pay3 (accAt0 V c t.val t.isLt) (iblk0 V c 2 t) (iblk0 V c 3 t) := by
  rw [accAt0_C V c t h1]
  exact outAt0_C V c t h1

end

/-! ## At the exact values -/

/-- Entry (p, q) of a block product. -/
def dot0 (x0 : Vec Ideal S1024x2048 .bf16) (x1 : Vec Ideal S2048x1024 .bf16) (p q : Fin 1024) : EReal :=
  ∑ k : Fin 2048, x0 (ix2 p k) * x1 (ix2 k q)

/-- One step of the accumulation, at an entry. -/
theorem entry_step0 (cnd : Prop) [Decidable cnd] (z : Vec Ideal S1024x1024 .f32) (x0 : Vec Ideal S1024x2048 .bf16)
    (x1 : Vec Ideal S2048x1024 .bf16) (p q : Fin 1024) :
    k0_pay2 (F := Ideal) (if cnd then (k0_pay1 (F := Ideal) : Vec Ideal S1024x1024 .f32) else z) x0 x1 (ix2 p q)
      = (if cnd then 0 else z (ix2 p q)) + dot0 x0 x1 p q := by
  unfold dot0
  rw [pay2_apply_0]
  by_cases h : cnd
  · rw [if_pos h, if_pos h, pay1_apply_0]
  · rw [if_neg h, if_neg h]

/-- After the last step of a contraction, entry (p, q) of the accumulator is the whole sum: row 1024·i + p of the
    left array against column 1024·j + q of the right array. -/
theorem acc_entry0 (V : (c : Dev nD) → (b : Ref sig .tc) → Buf (Elt Ideal) ((c : Thread nD τ).loc b))
    (c : Dev nD) (A : S8192x8192.Idx → EReal) (B : S8192x4096.Idx → EReal) (hA : V c main_v23 = A) (hB : V c main_v24 = B)
    (n : ℕ) (hn : n < cfg0.N) (hlast : n % 4 + 1 = 4) (p q : Fin 1024) :
    accAt0 V c n hn (ix2 p q) = ∑ d : Fin 8192, A (ix2 (row0 ⟨n, hn⟩ p) d) * B (ix2 d (col0 ⟨n, hn⟩ q)) := by
  refine Cert.Acc.acc_last_below (M := EReal) (N := 8192) 4 2048 cfg0.N (by decide) rfl
    (fun n hn d => A (ix2 (row0 ⟨n, hn⟩ p) d) * B (ix2 d (col0 ⟨n, hn⟩ q)))
    (fun n h h0 => funext fun d => by rw [row0_pred n h h0, col0_pred n h h0])
    (fun n hn => dot0 (iblk0 V c 0 ⟨n, hn⟩) (iblk0 V c 1 ⟨n, hn⟩) p q)
    (fun n hn => accAt0 V c n hn (ix2 p q))
    (fun n h => ?hblk)
    (fun n h => (congrFun (accAt0_step V c ⟨n, h⟩) (ix2 p q)).trans
      (entry_step0 (n % 4 = 0) (accAt0 V c (n - 1) (Cert.Acc.pred_lt h)) (iblk0 V c 0 ⟨n, h⟩) (iblk0 V c 1 ⟨n, h⟩) p q))
    n hn hlast
  unfold dot0
  refine Finset.sum_congr rfl fun k _ => ?_
  rw [iblk0_0_apply, iblk0_1_apply, hA, hB]

end Cert.KernelIdeal.Val

end
-- ==== Proof.Val0.lean ====
/-
  Call 0: the array its output window ends holding is the scaled, biased product of its four input arrays.

  The output block is written back at the last point of each contraction only.  There the block's entry (p, q) is the
  accumulator's entry — the whole sum of row 1024·i + p of the left array against column 1024·j + q of the right
  array — times the scaling column's entry at row 1024·i + p, plus the bias row's entry at column 1024·j + q: entry
  (1024·i + p, 1024·j + q) of the product array.  The 8 × 4 blocks written back tile the 8192×4096 output.
-/
import proofs.«127015_j27917287424727_2_alg».proof.Proof.Val0Acc
import proofs.«127015_j27917287424727_2_alg».proof.Proof.Fused

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx Cert.KernelIdeal.Pay

open scoped BigOperators

variable (V : (c : Dev nD) → (b : Ref sig .tc) → Buf (Elt Ideal) ((c : Thread nD τ).loc b))

/-- Entry (p, q) of the output block of point t sits at (row-block row, column-block column) of the output array. -/
theorem emb0_4 (t : Fin cfg0.N) (p q : Fin 1024) :
    (((cfg0.win 4).blk t).view.emb (ix2 p q) : S8192x4096.Idx) = ix2 (row0 t p) (col0 t q) := by
  obtain ⟨-, -, -, -, -, -, -, -, e0, e1⟩ := idx0 t
  funext a
  apply Fin.ext
  match a with
  | ⟨0, _⟩ => show win0_4.index t (0 : Fin 2) * 1024 + 1 * p.val = t.val / 16 * 1024 + p.val; rw [e0]; omega
  | ⟨1, _⟩ => show win0_4.index t (1 : Fin 2) * 1024 + 1 * q.val = t.val / 4 % 4 * 1024 + q.val; rw [e1]; omega

/-- The output block stored at a last point, at an entry: the product array's entry. -/
theorem out_entry0 (c : Dev nD) (t : Fin cfg0.N) (h1 : t.val % 4 = 3) (p q : Fin 1024) :
    k0_pay3 (F := Ideal) (accAt0 V c t.val t.isLt) (iblk0 V c 2 t) (iblk0 V c 3 t) (ix2 p q)
      = Gcn.fused (V c main_v23) (V c main_v24) (V c main_v21) (V c main_v26) (ix2 (row0 t p) (col0 t q)) := by
  rw [pay3_apply_0 (accAt0 V c t.val t.isLt) (iblk0 V c 2 t) (iblk0 V c 3 t) p q,
    acc_entry0 V c (V c main_v23) (V c main_v24) rfl rfl t.val t.isLt (by omega) p q,
    iblk0_2_apply, iblk0_3_apply, Gcn.fused_apply]

/-- What a last point writes back is its block of the product array. -/
theorem flushed_eq0 (c : Dev nD) (t : Fin cfg0.N) (hf : (cfg0.win 4).flush t = true) :
    (dat0 V c).flushed 4 t
      = ((cfg0.win 4).blk t).view.read (Elt Ideal) (Gcn.fused (V c main_v23) (V c main_v24) (V c main_v21) (V c main_v26)) := by
  have h1 : t.val % 4 = 3 := (flush0_4 t).mp hf
  show (cfg0.win 4).cut (grid0.coords t) ((dat0 V c).after 4 t) = _
  rw [after0_4, outAt0_last V c t h1]
  refine funext fun (j : S1024x1024.Idx) => ?_
  obtain ⟨p, q, rfl⟩ : ∃ (p q : Fin 1024), j = ix2 p q := ⟨j 0, j 1, eq_ix2 j⟩
  rw [View.read_apply, emb0_4]
  exact out_entry0 V c t h1 p q

/-- An index of the output array is in point t's block iff each coordinate is in the block's range on its axis. -/
theorem mem_blk0 (t : Fin cfg0.N) (i : S8192x4096.Idx) :
    i ∈ ((cfg0.win 4).blk t).view.set
      ↔ ∀ a : Fin 2, win0_4.index t a * S1024x1024.size a ≤ (i a).val ∧ (i a).val < win0_4.index t a * S1024x1024.size a + S1024x1024.size a := by
  show i ∈ ((View.whole main_v30).slice (win0_4.rect t)).set ↔ _
  rw [View.set_slice_whole, Rect.mem_set_unit]
  exact Iff.rfl

/-- Every index of the output array is in the block some last point writes back. -/
theorem cover0 (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  refine ⟨⟨(i 0).val / 1024 * 16 + (i 1).val / 1024 * 4 + 3, by omega⟩, (flush0_4 _).mpr (by show ((i 0).val / 1024 * 16 + (i 1).val / 1024 * 4 + 3) % 4 = 3; omega), ?_⟩
  rw [mem_blk0]
  obtain ⟨-, -, -, -, -, -, -, -, e0, e1⟩ := idx0 ⟨(i 0).val / 1024 * 16 + (i 1).val / 1024 * 4 + 3, by omega⟩
  intro a
  match a with
  | ⟨0, _⟩ =>
    show win0_4.index _ (0 : Fin 2) * 1024 ≤ (i 0).val ∧ (i 0).val < win0_4.index _ (0 : Fin 2) * 1024 + 1024
    rw [e0]; show ((i 0).val / 1024 * 16 + (i 1).val / 1024 * 4 + 3) / 16 * 1024 ≤ (i 0).val ∧ (i 0).val < ((i 0).val / 1024 * 16 + (i 1).val / 1024 * 4 + 3) / 16 * 1024 + 1024
    omega
  | ⟨1, _⟩ =>
    show win0_4.index _ (1 : Fin 2) * 1024 ≤ (i 1).val ∧ (i 1).val < win0_4.index _ (1 : Fin 2) * 1024 + 1024
    rw [e1]; show ((i 0).val / 1024 * 16 + (i 1).val / 1024 * 4 + 3) / 4 % 4 * 1024 ≤ (i 1).val ∧ (i 1).val < ((i 0).val / 1024 * 16 + (i 1).val / 1024 * 4 + 3) / 4 % 4 * 1024 + 1024
    omega

/-- The output array after the call is the product array. -/
theorem final0 (c : Dev nD) :
    (dat0 (F := Ideal) V c).arrAt 4 cfg0.N = Gcn.fused (V c main_v23) (V c main_v24) (V c main_v21) (V c main_v26) :=
  (dat0 V c).arrAt_eq_of_cover 4 (Gcn.fused (V c main_v23) (V c main_v24) (V c main_v21) (V c main_v26))
    (flushed_eq0 V c) cover0

end Cert.KernelIdeal.Val

end
-- ==== Proof.Val1Pieces.lean ====
/-
  Call 1: what each case of the body leaves in the accumulator and in the output block, as the arithmetic of the
  blocks it loaded.

  At a point with k = 0 the body clears the accumulator and adds the first block product to the cleared buffer;
  at a later point it adds the point's block product to what it finds; at the last point it also stores the scaled and
  biased accumulator into the output block.  Every load and store goes through the whole buffer at zero offsets, so a
  store leaves exactly its value and a load of a buffer reads exactly its contents.
-/
import proofs.«127015_j27917287424727_2_alg».proof.Proof.R1RunA
import proofs.«127015_j27917287424727_2_alg».proof.Proof.R1RunB
import proofs.«127015_j27917287424727_2_alg».proof.Proof.R1RunC
import proofs.«127015_j27917287424727_2_alg».proof.Proof.Val0Pieces
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

/-- At k = 0: the first block product added to the cleared accumulator. -/
theorem sout_A_eq1 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond1_0 i) (hc1 : ¬cond1_1 i)
    (x0 : Vec F S2048x1024 .bf16) (x1 : Vec F S2048x1024 .bf16) (x2 : Vec F S1024x1 .f32) (x3 : Vec F S1x1024 .f32) :
    sout1_A c i arg3 harg3 arg4 harg4 arg5 harg5 arg6 harg6 arg7 harg7 arg8 harg8 hc0 hc1 x0 x1 x2 x3 = k1_pay2 k1_pay1 x0 x1 := by
  unfold sout1_A
  rw [View.read_writes_eq_canon _ _ _ (scover1_A c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x1024) hz0, View.readCov_unit_zero (S := S1024x1024) _ hz0]
  simp only [View.readAt_eq_ld, harg3.read_unread, harg4.read_unread,
    View.ld_unit_zero (S := S2048x1024) hz0, View.ld_unit_zero (S := S2048x1024) hz0]

/-- Strictly inside the contraction: the point's block product added to what the accumulator held. -/
theorem sout_B_eq1 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : ¬cond1_1 i)
    (x0 : Vec F S2048x1024 .bf16) (x1 : Vec F S2048x1024 .bf16) (x2 : Vec F S1024x1 .f32) (x3 : Vec F S1x1024 .f32) (xs : Vec F S1024x1024 .f32) :
    sout1_B c i arg3 harg3 arg4 harg4 arg5 harg5 arg6 harg6 arg7 harg7 arg8 harg8 hc0 hc1 x0 x1 x2 x3 xs = k1_pay2 xs x0 x1 := by
  unfold sout1_B
  rw [View.read_writes_eq_canon _ _ _ (scover1_B c i arg3 harg3 arg4 harg4 arg5 harg5 arg6 harg6 arg7 harg7 arg8 harg8 hc0 hc1 x0 x1 x2 x3 xs)]
  unfold kernelRun1_B
  dsimp only
  sl_unfold_words
  rw [View.canon_unit_zero hz0]
  simp only [View.readAt_eq_ld, harg8.read_unread, harg3.read_unread, harg4.read_unread,
    View.ld_unit_zero (S := S1024x1024) hz0, View.ld_unit_zero (S := S2048x1024) hz0, View.ld_unit_zero (S := S2048x1024) hz0]

/-- At the last point the accumulator is updated the same way, -/
theorem sout_C_eq1 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) :
    sout1_C c i arg3 harg3 arg4 harg4 arg5 harg5 arg6 harg6 arg7 harg7 arg8 harg8 hc0 hc1 x0 x1 x2 x3 xs = k1_pay2 xs x0 x1 := by
  unfold sout1_C
  rw [View.read_writes_eq_canon _ _ _ (scover1_C c i arg3 harg3 arg4 harg4 arg5 harg5 arg6 harg6 arg7 harg7 arg8 harg8 hc0 hc1 x0 x1 x2 x3 xs)]
  unfold kernelRun1_C
  dsimp only
  sl_unfold_words
  rw [View.canon_unit_zero hz0]
  simp only [View.readAt_eq_ld, harg8.read_unread, harg3.read_unread, harg4.read_unread,
    View.ld_unit_zero (S := S1024x1024) hz0, View.ld_unit_zero (S := S2048x1024) hz0, View.ld_unit_zero (S := S2048x1024) hz0]

/-- and the output block is the updated accumulator scaled by the column block, plus the bias row block. -/
theorem out_C_eq1 (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond1_0 i) (hc1 : cond1_1 i)
    (x0 : Vec F S2048x1024 .bf16) (x1 : Vec F S2048x1024 .bf16) (x2 : Vec F S1024x1 .f32) (x3 : Vec F S1x1024 .f32) (xs : Vec F S1024x1024 .f32) :
    out1_C c i arg3 harg3 arg4 harg4 arg5 harg5 arg6 harg6 arg7 harg7 arg8 harg8 hc0 hc1 x0 x1 x2 x3 xs = k1_pay3 (k1_pay2 xs x0 x1) x2 x3 := by
  unfold out1_C
  rw [View.read_writes_eq_canon _ _ _ (cover1_C c i arg3 harg3 arg4 harg4 arg5 harg5 arg6 harg6 arg7 harg7 arg8 harg8 hc0 hc1 x0 x1 x2 x3 xs)]
  unfold kernelRun1_C
  dsimp only
  sl_unfold_words
  rw [View.canon_unit_zero hz0, View.readCov_unit_zero (S := S1024x1024) _ hz0]
  simp only [View.readAt_eq_ld, harg8.read_unread, harg3.read_unread, harg4.read_unread, harg5.read_unread, harg6.read_unread,
    View.ld_unit_zero (S := S1024x1024) hz0, View.ld_unit_zero (S := S2048x1024) hz0, View.ld_unit_zero (S := S2048x1024) hz0,
    View.ld_unit_zero (S := S1024x1) hz0, View.ld_unit_zero (S := S1x1024) hz0]

end Cert.KernelIdeal.Val

end
-- ==== Proof.Val1Blocks.lean ====
/-
  Call 1: where each window's block at a grid point sits in its array.

  Grid point t (in row-major order over an 8×4×4 grid) has row-block i = t / 16, column-block j = t / 4 mod 4 and
  contraction step k = t mod 4.  Its left block is rows 2048·k …, columns 1024·i … of the left array (the call multiplies by the left array
  transposed), its right block rows 2048·k …, columns 1024·j … of the right array, its column block rows 1024·i … of the scaling column and its bias
  block columns 1024·j … of the bias row (an element of a block sits at block index × block size + its coordinate).
-/
import proofs.«127015_j27917287424727_2_alg».proof.Proof.R1Runs
import proofs.«127015_j27917287424727_2_alg».proof.Proof.Acc
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx

/-- The printed index maps in closed form, decided once over the grid. -/
theorem idx1 : ∀ t : Fin cfg1.N,
    win1_0.index t (0 : Fin 2) = t.val % 4 ∧ win1_0.index t (1 : Fin 2) = t.val / 16
  ∧ win1_1.index t (0 : Fin 2) = t.val % 4 ∧ win1_1.index t (1 : Fin 2) = t.val / 4 % 4
  ∧ win1_2.index t (0 : Fin 2) = t.val / 16 ∧ win1_2.index t (1 : Fin 2) = 0
  ∧ win1_3.index t (0 : Fin 2) = 0 ∧ win1_3.index t (1 : Fin 2) = t.val / 4 % 4
  ∧ win1_4.index t (0 : Fin 2) = t.val / 16 ∧ win1_4.index t (1 : Fin 2) = t.val / 4 % 4 :=
  (by decide +kernel : ∀ t : Fin grid1.N, _)

/-- The grid has 128 points. -/
theorem lt1 (t : Fin cfg1.N) : t.val < 128 := by
  have := t.isLt; have e : cfg1.N = 128 := N_1; omega

/-- Row p of point t's row-block, as a row of the whole array. -/
def row1 (t : Fin cfg1.N) (p : Fin 1024) : Fin 8192 := ⟨t.val / 16 * 1024 + p.val, by have := lt1 t; have := p.isLt; omega⟩
/-- Column q of point t's column-block, as a column of the whole array. -/
def col1 (t : Fin cfg1.N) (q : Fin 1024) : Fin 4096 := ⟨t.val / 4 % 4 * 1024 + q.val, by have := q.isLt; omega⟩
/-- Position k of point t's contraction block, as a position of the whole contraction. -/
abbrev con1 (t : Fin cfg1.N) (k : Fin 2048) : Fin 8192 := ⟨t.val % 4 * 2048 + k.val, by have := k.isLt; omega⟩

theorem row1_val (t : Fin cfg1.N) (p : Fin 1024) : (row1 t p).val = t.val / 16 * 1024 + p.val := rfl
theorem col1_val (t : Fin cfg1.N) (q : Fin 1024) : (col1 t q).val = t.val / 4 % 4 * 1024 + q.val := rfl

/-- Inside a contraction the row-block does not move, -/
theorem row1_pred (n : ℕ) (h : n < cfg1.N) (h0 : n % 4 ≠ 0) (p : Fin 1024) :
    row1 ⟨n, h⟩ p = row1 ⟨n - 1, Cert.Acc.pred_lt h⟩ p := Fin.ext (by
  show n / 16 * 1024 + p.val = (n - 1) / 16 * 1024 + p.val
  omega)
/-- nor the column-block. -/
theorem col1_pred (n : ℕ) (h : n < cfg1.N) (h0 : n % 4 ≠ 0) (q : Fin 1024) :
    col1 ⟨n, h⟩ q = col1 ⟨n - 1, Cert.Acc.pred_lt h⟩ q := Fin.ext (by
  show n / 4 % 4 * 1024 + q.val = (n - 1) / 4 % 4 * 1024 + q.val
  omega)

section
variable (V : (c : Dev nD) → (b : Ref sig .tc) → Buf (Elt F) ((c : Thread nD τ).loc b))

/-- The left block at point t reads the left array at (contraction-block position, row-block row): the output's row
    index runs along the left array's columns. -/
theorem iblk1_0_apply (c : Dev nD) (t : Fin cfg1.N) (k : Fin 2048) (p : Fin 1024) :
    (iblk1 V c 0 t : Vec F S2048x1024 .bf16) (ix2 k p)
      = (V c main_v22 : S8192x8192.Idx → Elt F .bf16) (ix2 (con1 t k) (row1 t p)) := by
  obtain ⟨e0, e1, -⟩ := idx1 t
  unfold iblk1
  rw [View.read_apply]
  show V c main_v22 _ = V c main_v22 _
  congr 1
  funext a
  apply Fin.ext
  match a with
  | ⟨0, _⟩ => show win1_0.index t (0 : Fin 2) * 2048 + 1 * k.val = t.val % 4 * 2048 + k.val; rw [e0]; omega
  | ⟨1, _⟩ => show win1_0.index t (1 : Fin 2) * 1024 + 1 * p.val = t.val / 16 * 1024 + p.val; rw [e1]; omega

/-- The right block at point t reads the right array at (contraction-block position, column-block column). -/
theorem iblk1_1_apply (c : Dev nD) (t : Fin cfg1.N) (k : Fin 2048) (q : Fin 1024) :
    (iblk1 V c 1 t : Vec F S2048x1024 .bf16) (ix2 k q)
      = (V c main_v30 : S8192x4096.Idx → Elt F .bf16) (ix2 (con1 t k) (col1 t q)) := by
  obtain ⟨-, -, e0, e1, -⟩ := idx1 t
  unfold iblk1
  rw [View.read_apply]
  show V c main_v30 _ = V c main_v30 _
  congr 1
  funext a
  apply Fin.ext
  match a with
  | ⟨0, _⟩ => show win1_1.index t (0 : Fin 2) * 2048 + 1 * k.val = t.val % 4 * 2048 + k.val; rw [e0]; omega
  | ⟨1, _⟩ => show win1_1.index t (1 : Fin 2) * 1024 + 1 * q.val = t.val / 4 % 4 * 1024 + q.val; rw [e1]; omega

/-- The column block at point t reads the scaling column at the row-block's row. -/
theorem iblk1_2_apply (c : Dev nD) (t : Fin cfg1.N) (p : Fin 1024) :
    (iblk1 V c 2 t : Vec F S1024x1 .f32) (ix2 p 0)
      = (V c main_v21 : S8192x1.Idx → Elt F .f32) (ix2 (row1 t p) 0) := by
  obtain ⟨-, -, -, -, e0, e1, -⟩ := idx1 t
  unfold iblk1
  rw [View.read_apply]
  show V c main_v21 _ = V c main_v21 _
  congr 1
  funext a
  apply Fin.ext
  match a with
  | ⟨0, _⟩ => show win1_2.index t (0 : Fin 2) * 1024 + 1 * p.val = t.val / 16 * 1024 + p.val; rw [e0]; omega
  | ⟨1, _⟩ => show win1_2.index t (1 : Fin 2) * 1 + 1 * 0 = 0; rw [e1]

/-- The bias block at point t reads the bias row at the column-block's column. -/
theorem iblk1_3_apply (c : Dev nD) (t : Fin cfg1.N) (q : Fin 1024) :
    (iblk1 V c 3 t : Vec F S1x1024 .f32) (ix2 0 q)
      = (V c main_v28 : S1x4096.Idx → Elt F .f32) (ix2 0 (col1 t q)) := by
  obtain ⟨-, -, -, -, -, -, e0, e1, -⟩ := idx1 t
  unfold iblk1
  rw [View.read_apply]
  show V c main_v28 _ = V c main_v28 _
  congr 1
  funext a
  apply Fin.ext
  match a with
  | ⟨0, _⟩ => show win1_3.index t (0 : Fin 2) * 1 + 1 * 0 = 0; rw [e0]
  | ⟨1, _⟩ => show win1_3.index t (1 : Fin 2) * 1024 + 1 * q.val = t.val / 4 % 4 * 1024 + q.val; rw [e1]; omega

end

end Cert.KernelIdeal.Val

end
-- ==== Proof.Pay1.lean ====
/-
  The three values the second kernel call stores, read one entry at a time at the exact (extended-real) values.

  The body of the call keeps a 1024×1024 accumulator.  It stores zeros into it (first value); it adds to it
  the product of the TRANSPOSE of a 2048×1024 left block with a 2048×1024 right block (both operands are
  contracted on their first axis): entry (p, q) is the sum over k of left(k, p) · right(k, q)
  (second value); and at the end it writes out the accumulator with row p scaled by the p-th entry of a
  1024×1 column and the q-th entry of a 1×1024 row added, clamped below at zero (third value).  Recasting a
  block to its own shape, and the final change of number format, change no entry.
-/
import proofs.«127015_j27917287424727_2_alg».proof.Proof.Gen.KernelIdeal.Skeleton
import proofs.«127015_j27917287424727_2_alg».proof.Proof.LibColumn
import proofs.«127015_j27917287424727_2_alg».proof.Proof.LibRowBias
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The first stored value is zero at every entry. -/
theorem pay1_apply_1 (p q : Fin 1024) : k1_pay1 (F := Ideal) (ix2 p q) = 0 := by
  unfold k1_pay1
  rw [shapeCast_self, broadcast_apply]
  exact Ideal.ofBits_zero_f32

/-- The left operand's row is the contraction position. -/
theorem lhs0_1 (j : S1024x1024.Idx) (u : dot_S2048x1024_S2048x1024_S1024x1024_0_0_1_1_n_n.contr.Idx) :
    (dot_S2048x1024_S2048x1024_S1024x1024_0_0_1_1_n_n.lhsIdx j u 0).val = (u ⟨0, by decide⟩).val :=
  dot_S2048x1024_S2048x1024_S1024x1024_0_0_1_1_n_n.lhsIdx_val_of_single rfl j u

/-- The left operand's column is the output's row. -/
theorem lhs1_1 (j : S1024x1024.Idx) (u : dot_S2048x1024_S2048x1024_S1024x1024_0_0_1_1_n_n.contr.Idx) :
    (dot_S2048x1024_S2048x1024_S1024x1024_0_0_1_1_n_n.lhsIdx j u 1).val = (j 0).val := by
  unfold DotDims.lhsIdx
  rw [dif_neg (show ¬(1 : Fin S2048x1024.rank) ∈ dot_S2048x1024_S2048x1024_S1024x1024_0_0_1_1_n_n.lhsBatch by decide),
    dif_pos (show (1 : Fin S2048x1024.rank) ∈ dot_S2048x1024_S2048x1024_S1024x1024_0_0_1_1_n_n.lhsNonContracting by decide)]
  rfl

/-- The right operand's row is the contraction position. -/
theorem rhs0_1 (j : S1024x1024.Idx) (u : dot_S2048x1024_S2048x1024_S1024x1024_0_0_1_1_n_n.contr.Idx) :
    (dot_S2048x1024_S2048x1024_S1024x1024_0_0_1_1_n_n.rhsIdx j u 0).val = (u ⟨0, by decide⟩).val :=
  dot_S2048x1024_S2048x1024_S1024x1024_0_0_1_1_n_n.rhsIdx_val_of_single rfl j u

/-- The right operand's column is the output's column. -/
theorem rhs1_1 (j : S1024x1024.Idx) (u : dot_S2048x1024_S2048x1024_S1024x1024_0_0_1_1_n_n.contr.Idx) :
    (dot_S2048x1024_S2048x1024_S1024x1024_0_0_1_1_n_n.rhsIdx j u 1).val = (j 1).val := by
  unfold DotDims.rhsIdx
  rw [dif_neg (show ¬(1 : Fin S2048x1024.rank) ∈ dot_S2048x1024_S2048x1024_S1024x1024_0_0_1_1_n_n.rhsBatch by decide),
    dif_pos (show (1 : Fin S2048x1024.rank) ∈ dot_S2048x1024_S2048x1024_S1024x1024_0_0_1_1_n_n.rhsNonContracting by decide)]
  rfl

/-- The block product into a zero accumulator, at an entry: column p of the left block against column q of the
    right (the contraction runs over the first axis of both). -/
theorem matmul_apply_1 (v4 : FVec Ideal S2048x1024 .bf16) (v6 : FVec Ideal S2048x1024 .bf16) (p q : Fin 1024) :
    matmul dot_S2048x1024_S2048x1024_S1024x1024_0_0_1_1_n_n none v4 v6
        (constant (F := Ideal) S1024x1024 .f32 0x00000000#32) (ix2 p q)
      = ∑ k : Fin 2048, v4 (ix2 k p) * v6 (ix2 k q) := by
  show FloatOps.matmul dot_S2048x1024_S2048x1024_S1024x1024_0_0_1_1_n_n none v4 v6
    (constant (F := Ideal) S1024x1024 .f32 0x00000000#32) (ix2 p q) = _
  rw [Ideal.matmul_constant_zero_apply,
    ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 p q)
      ((contrEquiv1 dot_S2048x1024_S2048x1024_S1024x1024_0_0_1_1_n_n 2048 rfl rfl).symm k) = ix2 k p :=
    funext fun a => Fin.ext (by
      match a with
      | ⟨0, _⟩ => exact (lhs0_1 _ _).trans hk
      | ⟨1, _⟩ => exact lhs1_1 _ _)
  have er : dot_S2048x1024_S2048x1024_S1024x1024_0_0_1_1_n_n.rhsIdx (ix2 p q)
      ((contrEquiv1 dot_S2048x1024_S2048x1024_S1024x1024_0_0_1_1_n_n 2048 rfl rfl).symm k) = ix2 k q :=
    funext fun a => Fin.ext (by
      match a with
      | ⟨0, _⟩ => exact (rhs0_1 _ _).trans hk
      | ⟨1, _⟩ => exact rhs1_1 _ _)
  rw [el, er]

/-- The second stored value: the accumulator as loaded plus the block product, at an entry. -/
theorem pay2_apply_1 (v3 : Vec Ideal S1024x1024 .f32) (v4 : Vec Ideal S2048x1024 .bf16) (v6 : Vec Ideal S2048x1024 .bf16)
    (p q : Fin 1024) :
    k1_pay2 (F := Ideal) v3 v4 v6 (ix2 p q) = v3 (ix2 p q) + ∑ k : Fin 2048, v4 (ix2 k p) * v6 (ix2 k q) := by
  unfold k1_pay2
  rw [shapeCast_self, shapeCast_self, shapeCast_self, addf_apply]
  exact congrArg (fun z : EReal => v3 (ix2 p q) + z) (matmul_apply_1 v4 v6 p q)

/-- The third stored value: the accumulator's row p scaled by the column's entry p, plus the row's entry q,
    clamped below at zero. -/
theorem pay3_apply_1 (v16 : Vec Ideal S1024x1024 .f32) (v17 : Vec Ideal S1024x1 .f32) (v21 : Vec Ideal S1x1024 .f32)
    (p q : Fin 1024) :
    k1_pay3 (F := Ideal) v16 v17 v21 (ix2 p q) = max (v16 (ix2 p q) * v17 (ix2 p 0) + v21 (ix2 0 q)) 0 := by
  unfold k1_pay3
  rw [shapeCast_self, shapeCast_self, truncf_apply, maximumf_apply, broadcast_apply, addf_apply, mulf_apply,
    Cert.Column.broadcastTo_a1_ab_apply, Cert.RowBias.spreadRow_apply]
  exact congrArg (fun z : EReal => max (v16 (ix2 p q) * v17 (ix2 p 0) + v21 (ix2 0 q)) z) Ideal.ofBits_zero_f32

end Cert.KernelIdeal.Pay

end
-- ==== Proof.Val1Acc.lean ====
/-
  Call 1: the accumulator after every grid point, and its entries after the contraction's last point.

  The accumulator after point t is the point's block product added to the cleared buffer (k = 0) or to what point
  t − 1 left; so after the last step of a contraction its entry (p, q) is the whole sum over the 8192 positions of
  COLUMN 1024·i + p of the left array against column 1024·j + q of the right array (the call contracts the first axes
  of both: the product with the left array transposed).
-/
import proofs.«127015_j27917287424727_2_alg».proof.Proof.R1Frame
import proofs.«127015_j27917287424727_2_alg».proof.Proof.Val1Pieces
import proofs.«127015_j27917287424727_2_alg».proof.Proof.Val1Blocks
import proofs.«127015_j27917287424727_2_alg».proof.Proof.Pay1

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx Cert.KernelIdeal.Pay

open scoped BigOperators

section
variable (V : (c : Dev nD) → (b : Ref sig .tc) → Buf (Elt F) ((c : Thread nD τ).loc b))

/-- The accumulator after point n. -/
def accAt1 (c : Dev nD) (n : ℕ) (hn : n < cfg1.N) : Vec F S1024x1024 .f32 := (outsAt1 V c n hn).2

/-- After a point with k = 0 it is the first block product added to the cleared buffer; -/
theorem accAt1_A (c : Dev nD) (t : Fin cfg1.N) (h0 : t.val % 4 = 0) :
    accAt1 V c t.val t.isLt = k1_pay2 k1_pay1 (iblk1 V c 0 t) (iblk1 V c 1 t) := by
  unfold accAt1
  rw [outsAt1_A V c t h0]
  dsimp only
  unfold accA1
  exact sout_A_eq1 c (grid1.coords t) (ms1_0 t) (hs1_0 t) (ms1_1 t) (hs1_1 t) (ms1_2 t) (hs1_2 t) (ms1_3 t) (hs1_3 t) (ms1_4 t) (hs1_4 t) scM1 (Memref.isWhole_whole _) (condA1 t h0).1 (condA1 t h0).2 (iblk1 V c 0 t) (iblk1 V c 1 t) (iblk1 V c 2 t) (iblk1 V c 3 t)

/-- strictly inside the contraction, the point's block product added to what the point before left; -/
theorem accAt1_B (c : Dev nD) (t : Fin cfg1.N) (h0 : ¬t.val % 4 = 0) (h1 : ¬t.val % 4 = 3) :
    accAt1 V c t.val t.isLt
      = k1_pay2 (accAt1 V c (t.val - 1) (Cert.Acc.pred_lt t.isLt)) (iblk1 V c 0 t) (iblk1 V c 1 t) := by
  unfold accAt1
  rw [outsAt1_B V c t h0 h1]
  dsimp only
  unfold accB1
  exact sout_B_eq1 c (grid1.coords t) (ms1_0 t) (hs1_0 t) (ms1_1 t) (hs1_1 t) (ms1_2 t) (hs1_2 t) (ms1_3 t) (hs1_3 t) (ms1_4 t) (hs1_4 t) scM1 (Memref.isWhole_whole _) (condB1 t h0 h1).1 (condB1 t h0 h1).2 (iblk1 V c 0 t) (iblk1 V c 1 t) (iblk1 V c 2 t) (iblk1 V c 3 t) (outsAt1 V c (t.val - 1) (Cert.Acc.pred_lt t.isLt)).2

/-- at the last point the same, -/
theorem accAt1_C (c : Dev nD) (t : Fin cfg1.N) (h1 : t.val % 4 = 3) :
    accAt1 V c t.val t.isLt
      = k1_pay2 (accAt1 V c (t.val - 1) (Cert.Acc.pred_lt t.isLt)) (iblk1 V c 0 t) (iblk1 V c 1 t) := by
  unfold accAt1
  rw [outsAt1_C V c t h1]
  dsimp only
  unfold accC1
  exact sout_C_eq1 c (grid1.coords t) (ms1_0 t) (hs1_0 t) (ms1_1 t) (hs1_1 t) (ms1_2 t) (hs1_2 t) (ms1_3 t) (hs1_3 t) (ms1_4 t) (hs1_4 t) scM1 (Memref.isWhole_whole _) (condC1 t h1).1 (condC1 t h1).2 (iblk1 V c 0 t) (iblk1 V c 1 t) (iblk1 V c 2 t) (iblk1 V c 3 t) (outsAt1 V c (t.val - 1) (Cert.Acc.pred_lt t.isLt)).2

/-- and the output block stored there is the updated accumulator scaled and biased. -/
theorem outAt1_C (c : Dev nD) (t : Fin cfg1.N) (h1 : t.val % 4 = 3) :
    (outsAt1 V c t.val t.isLt).1
      = k1_pay3 (k1_pay2 (accAt1 V c (t.val - 1) (Cert.Acc.pred_lt t.isLt)) (iblk1 V c 0 t) (iblk1 V c 1 t))
          (iblk1 V c 2 t) (iblk1 V c 3 t) := by
  unfold accAt1
  rw [outsAt1_C V c t h1]
  dsimp only
  unfold outC1
  exact out_C_eq1 c (grid1.coords t) (ms1_0 t) (hs1_0 t) (ms1_1 t) (hs1_1 t) (ms1_2 t) (hs1_2 t) (ms1_3 t) (hs1_3 t) (ms1_4 t) (hs1_4 t) scM1 (Memref.isWhole_whole _) (condC1 t h1).1 (condC1 t h1).2 (iblk1 V c 0 t) (iblk1 V c 1 t) (iblk1 V c 2 t) (iblk1 V c 3 t) (outsAt1 V c (t.val - 1) (Cert.Acc.pred_lt t.isLt)).2

/-- In one formula: the point's block product added to the cleared buffer at k = 0, to what the point before left
    otherwise. -/
theorem accAt1_step (c : Dev nD) (t : Fin cfg1.N) :
    accAt1 V c t.val t.isLt
      = k1_pay2 (if t.val % 4 = 0 then (k1_pay1 : Vec F S1024x1024 .f32) else accAt1 V c (t.val - 1) (Cert.Acc.pred_lt t.isLt))
          (iblk1 V c 0 t) (iblk1 V c 1 t) := by
  by_cases h0 : t.val % 4 = 0
  · rw [if_pos h0]; exact accAt1_A V c t h0
  · rw [if_neg h0]
    by_cases h1 : t.val % 4 = 3
    · exact accAt1_C V c t h1
    · exact accAt1_B V c t h0 h1

/-- The output block stored at a last point is the updated accumulator scaled and biased. -/
theorem outAt1_last (c : Dev nD) (t : Fin cfg1.N) (h1 : t.val % 4 = 3) :
    (outsAt1 V c t.val t.isLt).1 = k1_pay3 (accAt1 V c t.val t.isLt) (iblk1 V c 2 t) (iblk1 V c 3 t) := by
  rw [accAt1_C V c t h1]
  exact outAt1_C V c t h1

end

/-! ## At the exact values -/

/-- Entry (p, q) of a block product on the first axes: column p of the left block against column q of the right. -/
def dot1 (x0 : Vec Ideal S2048x1024 .bf16) (x1 : Vec Ideal S2048x1024 .bf16) (p q : Fin 1024) : EReal :=
  ∑ k : Fin 2048, x0 (ix2 k p) * x1 (ix2 k q)

/-- One step of the accumulation, at an entry. -/
theorem entry_step1 (cnd : Prop) [Decidable cnd] (z : Vec Ideal S1024x1024 .f32) (x0 : Vec Ideal S2048x1024 .bf16)
    (x1 : Vec Ideal S2048x1024 .bf16) (p q : Fin 1024) :
    k1_pay2 (F := Ideal) (if cnd then (k1_pay1 (F := Ideal) : Vec Ideal S1024x1024 .f32) else z) x0 x1 (ix2 p q)
      = (if cnd then 0 else z (ix2 p q)) + dot1 x0 x1 p q := by
  unfold dot1
  rw [pay2_apply_1]
  by_cases h : cnd
  · rw [if_pos h, if_pos h, pay1_apply_1]
  · rw [if_neg h, if_neg h]

/-- After the last step of a contraction, entry (p, q) of the accumulator is the whole sum: column 1024·i + p of the
    left array against column 1024·j + q of the right array. -/
theorem acc_entry1 (V : (c : Dev nD) → (b : Ref sig .tc) → Buf (Elt Ideal) ((c : Thread nD τ).loc b))
    (c : Dev nD) (A : S8192x8192.Idx → EReal) (B : S8192x4096.Idx → EReal) (hA : V c main_v22 = A) (hB : V c main_v30 = B)
    (n : ℕ) (hn : n < cfg1.N) (hlast : n % 4 + 1 = 4) (p q : Fin 1024) :
    accAt1 V c n hn (ix2 p q) = ∑ d : Fin 8192, A (ix2 d (row1 ⟨n, hn⟩ p)) * B (ix2 d (col1 ⟨n, hn⟩ q)) := by
  refine Cert.Acc.acc_last_below (M := EReal) (N := 8192) 4 2048 cfg1.N (by decide) rfl
    (fun n hn d => A (ix2 d (row1 ⟨n, hn⟩ p)) * B (ix2 d (col1 ⟨n, hn⟩ q)))
    (fun n h h0 => funext fun d => by rw [row1_pred n h h0, col1_pred n h h0])
    (fun n hn => dot1 (iblk1 V c 0 ⟨n, hn⟩) (iblk1 V c 1 ⟨n, hn⟩) p q)
    (fun n hn => accAt1 V c n hn (ix2 p q))
    (fun n h => ?hblk)
    (fun n h => (congrFun (accAt1_step V c ⟨n, h⟩) (ix2 p q)).trans
      (entry_step1 (n % 4 = 0) (accAt1 V c (n - 1) (Cert.Acc.pred_lt h)) (iblk1 V c 0 ⟨n, h⟩) (iblk1 V c 1 ⟨n, h⟩) p q))
    n hn hlast
  unfold dot1
  refine Finset.sum_congr rfl fun k _ => ?_
  rw [iblk1_0_apply, iblk1_1_apply, hA, hB]

end Cert.KernelIdeal.Val

end
-- ==== Proof.Val1.lean ====
/-
  Call 1: the array its output window ends holding is the scaled, biased product of its left array transposed with its
  right array, clamped below at zero.

  The output block is written back at the last point of each contraction only.  There the block's entry (p, q) is the
  accumulator's entry — the whole sum of column 1024·i + p of the left array against column 1024·j + q of the right
  array — times the scaling column's entry at row 1024·i + p, plus the bias row's entry at column 1024·j + q, clamped
  below at zero: entry (1024·i + p, 1024·j + q) of the clamped product array.  The 8 × 4 blocks written back tile the 8192×4096 output.
-/
import proofs.«127015_j27917287424727_2_alg».proof.Proof.Val1Acc
import proofs.«127015_j27917287424727_2_alg».proof.Proof.Fused

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx Cert.KernelIdeal.Pay

open scoped BigOperators

variable (V : (c : Dev nD) → (b : Ref sig .tc) → Buf (Elt Ideal) ((c : Thread nD τ).loc b))

/-- Entry (p, q) of the output block of point t sits at (row-block row, column-block column) of the output array. -/
theorem emb1_4 (t : Fin cfg1.N) (p q : Fin 1024) :
    (((cfg1.win 4).blk t).view.emb (ix2 p q) : S8192x4096.Idx) = ix2 (row1 t p) (col1 t q) := by
  obtain ⟨-, -, -, -, -, -, -, -, e0, e1⟩ := idx1 t
  funext a
  apply Fin.ext
  match a with
  | ⟨0, _⟩ => show win1_4.index t (0 : Fin 2) * 1024 + 1 * p.val = t.val / 16 * 1024 + p.val; rw [e0]; omega
  | ⟨1, _⟩ => show win1_4.index t (1 : Fin 2) * 1024 + 1 * q.val = t.val / 4 % 4 * 1024 + q.val; rw [e1]; omega

/-- The output block stored at a last point, at an entry: the clamped product array's entry. -/
theorem out_entry1 (c : Dev nD) (t : Fin cfg1.N) (h1 : t.val % 4 = 3) (p q : Fin 1024) :
    k1_pay3 (F := Ideal) (accAt1 V c t.val t.isLt) (iblk1 V c 2 t) (iblk1 V c 3 t) (ix2 p q)
      = Gcn.relu (Gcn.fusedT (V c main_v22) (V c main_v30) (V c main_v21) (V c main_v28)) (ix2 (row1 t p) (col1 t q)) := by
  rw [pay3_apply_1 (accAt1 V c t.val t.isLt) (iblk1 V c 2 t) (iblk1 V c 3 t) p q,
    acc_entry1 V c (V c main_v22) (V c main_v30) rfl rfl t.val t.isLt (by omega) p q,
    iblk1_2_apply, iblk1_3_apply, Gcn.relu_apply, Gcn.fusedT_apply]

/-- What a last point writes back is its block of the clamped product array. -/
theorem flushed_eq1 (c : Dev nD) (t : Fin cfg1.N) (hf : (cfg1.win 4).flush t = true) :
    (dat1 V c).flushed 4 t
      = ((cfg1.win 4).blk t).view.read (Elt Ideal) (Gcn.relu (Gcn.fusedT (V c main_v22) (V c main_v30) (V c main_v21) (V c main_v28))) := by
  have h1 : t.val % 4 = 3 := (flush1_4 t).mp hf
  show (cfg1.win 4).cut (grid1.coords t) ((dat1 V c).after 4 t) = _
  rw [after1_4, outAt1_last V c t h1]
  refine funext fun (j : S1024x1024.Idx) => ?_
  obtain ⟨p, q, rfl⟩ : ∃ (p q : Fin 1024), j = ix2 p q := ⟨j 0, j 1, eq_ix2 j⟩
  rw [View.read_apply, emb1_4]
  exact out_entry1 V c t h1 p q

/-- An index of the output array is in point t's block iff each coordinate is in the block's range on its axis. -/
theorem mem_blk1 (t : Fin cfg1.N) (i : S8192x4096.Idx) :
    i ∈ ((cfg1.win 4).blk t).view.set
      ↔ ∀ a : Fin 2, win1_4.index t a * S1024x1024.size a ≤ (i a).val ∧ (i a).val < win1_4.index t a * S1024x1024.size a + S1024x1024.size a := by
  show i ∈ ((View.whole main_v31).slice (win1_4.rect t)).set ↔ _
  rw [View.set_slice_whole, Rect.mem_set_unit]
  exact Iff.rfl

/-- Every index of the output array is in the block some last point writes back. -/
theorem cover1 (i : S8192x4096.Idx) :
    ∃ t : Fin cfg1.N, (cfg1.win 4).flush t = true ∧ i ∈ ((cfg1.win 4).blk t).view.set := by
  have hi0 : (i 0).val < 8192 := (i 0).isLt
  have hi1 : (i 1).val < 4096 := (i 1).isLt
  have hN : cfg1.N = 128 := N_1
  refine ⟨⟨(i 0).val / 1024 * 16 + (i 1).val / 1024 * 4 + 3, by omega⟩, (flush1_4 _).mpr (by show ((i 0).val / 1024 * 16 + (i 1).val / 1024 * 4 + 3) % 4 = 3; omega), ?_⟩
  rw [mem_blk1]
  obtain ⟨-, -, -, -, -, -, -, -, e0, e1⟩ := idx1 ⟨(i 0).val / 1024 * 16 + (i 1).val / 1024 * 4 + 3, by omega⟩
  intro a
  match a with
  | ⟨0, _⟩ =>
    show win1_4.index _ (0 : Fin 2) * 1024 ≤ (i 0).val ∧ (i 0).val < win1_4.index _ (0 : Fin 2) * 1024 + 1024
    rw [e0]; show ((i 0).val / 1024 * 16 + (i 1).val / 1024 * 4 + 3) / 16 * 1024 ≤ (i 0).val ∧ (i 0).val < ((i 0).val / 1024 * 16 + (i 1).val / 1024 * 4 + 3) / 16 * 1024 + 1024
    omega
  | ⟨1, _⟩ =>
    show win1_4.index _ (1 : Fin 2) * 1024 ≤ (i 1).val ∧ (i 1).val < win1_4.index _ (1 : Fin 2) * 1024 + 1024
    rw [e1]; show ((i 0).val / 1024 * 16 + (i 1).val / 1024 * 4 + 3) / 4 % 4 * 1024 ≤ (i 1).val ∧ (i 1).val < ((i 0).val / 1024 * 16 + (i 1).val / 1024 * 4 + 3) / 4 % 4 * 1024 + 1024
    omega

/-- The output array after the call is the clamped product array. -/
theorem final1 (c : Dev nD) :
    (dat1 (F := Ideal) V c).arrAt 4 cfg1.N = Gcn.relu (Gcn.fusedT (V c main_v22) (V c main_v30) (V c main_v21) (V c main_v28)) :=
  (dat1 V c).arrAt_eq_of_cover 4 (Gcn.relu (Gcn.fusedT (V c main_v22) (V c main_v30) (V c main_v21) (V c main_v28)))
    (flushed_eq1 V c) cover1

end Cert.KernelIdeal.Val

end
-- ==== Proof.Val2Pieces.lean ====
/-
  Call 2: what each case of the body leaves in the accumulator and in the output block, as the arithmetic of the
  blocks it loaded.

  At a point with k = 0 the body clears the accumulator and adds the first block product to the cleared buffer;
  at a later point it adds the point's block product to what it finds; at the last point it also stores the scaled and
  biased accumulator into the output block.  Every load and store goes through the whole buffer at zero offsets, so a
  store leaves exactly its value and a load of a buffer reads exactly its contents.
-/
import proofs.«127015_j27917287424727_2_alg».proof.Proof.R2RunA
import proofs.«127015_j27917287424727_2_alg».proof.Proof.R2RunB
import proofs.«127015_j27917287424727_2_alg».proof.Proof.R2RunC
import proofs.«127015_j27917287424727_2_alg».proof.Proof.Val0Pieces
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

/-- At k = 0: the first block product added to the cleared accumulator. -/
theorem sout_A_eq2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond2_0 i) (hc1 : ¬cond2_1 i)
    (x0 : Vec F S1024x2048 .bf16) (x1 : Vec F S2048x1024 .bf16) (x2 : Vec F S1024x1 .f32) (x3 : Vec F S1x1024 .f32) :
    sout2_A c i arg3 harg3 arg4 harg4 arg5 harg5 arg6 harg6 arg7 harg7 arg8 harg8 hc0 hc1 x0 x1 x2 x3 = k2_pay2 k2_pay1 x0 x1 := by
  unfold sout2_A
  rw [View.read_writes_eq_canon _ _ _ (scover2_A c i arg3 harg3 arg4 harg4 arg5 harg5 arg6 harg6 arg7 harg7 arg8 harg8 hc0 hc1 x0 x1 x2 x3)]
  unfold kernelRun2_A
  dsimp only
  sl_unfold_words
  rw [View.canon_cons_unit_zero (S := S1024x1024) hz0, View.readCov_unit_zero (S := S1024x1024) _ hz0]
  simp only [View.readAt_eq_ld, harg3.read_unread, harg4.read_unread,
    View.ld_unit_zero (S := S1024x2048) hz0, View.ld_unit_zero (S := S2048x1024) hz0]

/-- Strictly inside the contraction: the point's block product added to what the accumulator held. -/
theorem sout_B_eq2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : ¬cond2_1 i)
    (x0 : Vec F S1024x2048 .bf16) (x1 : Vec F S2048x1024 .bf16) (x2 : Vec F S1024x1 .f32) (x3 : Vec F S1x1024 .f32) (xs : Vec F S1024x1024 .f32) :
    sout2_B c i arg3 harg3 arg4 harg4 arg5 harg5 arg6 harg6 arg7 harg7 arg8 harg8 hc0 hc1 x0 x1 x2 x3 xs = k2_pay2 xs x0 x1 := by
  unfold sout2_B
  rw [View.read_writes_eq_canon _ _ _ (scover2_B c i arg3 harg3 arg4 harg4 arg5 harg5 arg6 harg6 arg7 harg7 arg8 harg8 hc0 hc1 x0 x1 x2 x3 xs)]
  unfold kernelRun2_B
  dsimp only
  sl_unfold_words
  rw [View.canon_unit_zero hz0]
  simp only [View.readAt_eq_ld, harg8.read_unread, harg3.read_unread, harg4.read_unread,
    View.ld_unit_zero (S := S1024x1024) hz0, View.ld_unit_zero (S := S1024x2048) hz0, View.ld_unit_zero (S := S2048x1024) hz0]

/-- At the last point the accumulator is updated the same way, -/
theorem sout_C_eq2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) :
    sout2_C c i arg3 harg3 arg4 harg4 arg5 harg5 arg6 harg6 arg7 harg7 arg8 harg8 hc0 hc1 x0 x1 x2 x3 xs = k2_pay2 xs x0 x1 := by
  unfold sout2_C
  rw [View.read_writes_eq_canon _ _ _ (scover2_C c i arg3 harg3 arg4 harg4 arg5 harg5 arg6 harg6 arg7 harg7 arg8 harg8 hc0 hc1 x0 x1 x2 x3 xs)]
  unfold kernelRun2_C
  dsimp only
  sl_unfold_words
  rw [View.canon_unit_zero hz0]
  simp only [View.readAt_eq_ld, harg8.read_unread, harg3.read_unread, harg4.read_unread,
    View.ld_unit_zero (S := S1024x1024) hz0, View.ld_unit_zero (S := S1024x2048) hz0, View.ld_unit_zero (S := S2048x1024) hz0]

/-- and the output block is the updated accumulator scaled by the column block, plus the bias row block. -/
theorem out_C_eq2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond2_0 i) (hc1 : cond2_1 i)
    (x0 : Vec F S1024x2048 .bf16) (x1 : Vec F S2048x1024 .bf16) (x2 : Vec F S1024x1 .f32) (x3 : Vec F S1x1024 .f32) (xs : Vec F S1024x1024 .f32) :
    out2_C c i arg3 harg3 arg4 harg4 arg5 harg5 arg6 harg6 arg7 harg7 arg8 harg8 hc0 hc1 x0 x1 x2 x3 xs = k2_pay3 (k2_pay2 xs x0 x1) x2 x3 := by
  unfold out2_C
  rw [View.read_writes_eq_canon _ _ _ (cover2_C c i arg3 harg3 arg4 harg4 arg5 harg5 arg6 harg6 arg7 harg7 arg8 harg8 hc0 hc1 x0 x1 x2 x3 xs)]
  unfold kernelRun2_C
  dsimp only
  sl_unfold_words
  rw [View.canon_unit_zero hz0, View.readCov_unit_zero (S := S1024x1024) _ hz0]
  simp only [View.readAt_eq_ld, harg8.read_unread, harg3.read_unread, harg4.read_unread, harg5.read_unread, harg6.read_unread,
    View.ld_unit_zero (S := S1024x1024) hz0, View.ld_unit_zero (S := S1024x2048) hz0, View.ld_unit_zero (S := S2048x1024) hz0,
    View.ld_unit_zero (S := S1024x1) hz0, View.ld_unit_zero (S := S1x1024) hz0]

end Cert.KernelIdeal.Val

end
-- ==== Proof.Val2Blocks.lean ====
/-
  Call 2: where each window's block at a grid point sits in its array.

  Grid point t (in row-major order over an 8×8×2 grid) has row-block i = t / 16, column-block j = t / 2 mod 8 and
  contraction step k = t mod 2.  Its left block is rows 1024·i …, columns 2048·k … of the left array, its right block
  rows 2048·k …, columns 1024·j … of the right array, its column block rows 1024·i … of the scaling column and its bias
  block columns 1024·j … of the bias row (an element of a block sits at block index × block size + its coordinate).
-/
import proofs.«127015_j27917287424727_2_alg».proof.Proof.R2Runs
import proofs.«127015_j27917287424727_2_alg».proof.Proof.Acc
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx

/-- The printed index maps in closed form, decided once over the grid. -/
theorem idx2 : ∀ t : Fin cfg2.N,
    win2_0.index t (0 : Fin 2) = t.val / 16 ∧ win2_0.index t (1 : Fin 2) = t.val % 2
  ∧ win2_1.index t (0 : Fin 2) = t.val % 2 ∧ win2_1.index t (1 : Fin 2) = t.val / 2 % 8
  ∧ win2_2.index t (0 : Fin 2) = t.val / 16 ∧ win2_2.index t (1 : Fin 2) = 0
  ∧ win2_3.index t (0 : Fin 2) = 0 ∧ win2_3.index t (1 : Fin 2) = t.val / 2 % 8
  ∧ win2_4.index t (0 : Fin 2) = t.val / 16 ∧ win2_4.index t (1 : Fin 2) = t.val / 2 % 8 :=
  (by decide +kernel : ∀ t : Fin grid2.N, _)

/-- The grid has 128 points. -/
theorem lt2 (t : Fin cfg2.N) : t.val < 128 := by
  have := t.isLt; have e : cfg2.N = 128 := N_2; omega

/-- Row p of point t's row-block, as a row of the whole array. -/
def row2 (t : Fin cfg2.N) (p : Fin 1024) : Fin 8192 := ⟨t.val / 16 * 1024 + p.val, by have := lt2 t; have := p.isLt; omega⟩
/-- Column q of point t's column-block, as a column of the whole array. -/
def col2 (t : Fin cfg2.N) (q : Fin 1024) : Fin 8192 := ⟨t.val / 2 % 8 * 1024 + q.val, by have := q.isLt; omega⟩
/-- Position k of point t's contraction block, as a position of the whole contraction. -/
abbrev con2 (t : Fin cfg2.N) (k : Fin 2048) : Fin 4096 := ⟨t.val % 2 * 2048 + k.val, by have := k.isLt; omega⟩

theorem row2_val (t : Fin cfg2.N) (p : Fin 1024) : (row2 t p).val = t.val / 16 * 1024 + p.val := rfl
theorem col2_val (t : Fin cfg2.N) (q : Fin 1024) : (col2 t q).val = t.val / 2 % 8 * 1024 + q.val := rfl

/-- Inside a contraction the row-block does not move, -/
theorem row2_pred (n : ℕ) (h : n < cfg2.N) (h0 : n % 2 ≠ 0) (p : Fin 1024) :
    row2 ⟨n, h⟩ p = row2 ⟨n - 1, Cert.Acc.pred_lt h⟩ p := Fin.ext (by
  show n / 16 * 1024 + p.val = (n - 1) / 16 * 1024 + p.val
  omega)
/-- nor the column-block. -/
theorem col2_pred (n : ℕ) (h : n < cfg2.N) (h0 : n % 2 ≠ 0) (q : Fin 1024) :
    col2 ⟨n, h⟩ q = col2 ⟨n - 1, Cert.Acc.pred_lt h⟩ q := Fin.ext (by
  show n / 2 % 8 * 1024 + q.val = (n - 1) / 2 % 8 * 1024 + q.val
  omega)

section
variable (V : (c : Dev nD) → (b : Ref sig .tc) → Buf (Elt F) ((c : Thread nD τ).loc b))

/-- The left block at point t reads the left array at (row-block row, contraction-block position). -/
theorem iblk2_0_apply (c : Dev nD) (t : Fin cfg2.N) (p : Fin 1024) (k : Fin 2048) :
    (iblk2 V c 0 t : Vec F S1024x2048 .bf16) (ix2 p k)
      = (V c main_v31 : S8192x4096.Idx → Elt F .bf16) (ix2 (row2 t p) (con2 t k)) := by
  obtain ⟨e0, e1, -⟩ := idx2 t
  unfold iblk2
  rw [View.read_apply]
  show V c main_v31 _ = V c main_v31 _
  congr 1
  funext a
  apply Fin.ext
  match a with
  | ⟨0, _⟩ => show win2_0.index t (0 : Fin 2) * 1024 + 1 * p.val = t.val / 16 * 1024 + p.val; rw [e0]; omega
  | ⟨1, _⟩ => show win2_0.index t (1 : Fin 2) * 2048 + 1 * k.val = t.val % 2 * 2048 + k.val; rw [e1]; omega

/-- The right block at point t reads the right array at (contraction-block position, column-block column). -/
theorem iblk2_1_apply (c : Dev nD) (t : Fin cfg2.N) (k : Fin 2048) (q : Fin 1024) :
    (iblk2 V c 1 t : Vec F S2048x1024 .bf16) (ix2 k q)
      = (V c main_v25 : S4096x8192.Idx → Elt F .bf16) (ix2 (con2 t k) (col2 t q)) := by
  obtain ⟨-, -, e0, e1, -⟩ := idx2 t
  unfold iblk2
  rw [View.read_apply]
  show V c main_v25 _ = V c main_v25 _
  congr 1
  funext a
  apply Fin.ext
  match a with
  | ⟨0, _⟩ => show win2_1.index t (0 : Fin 2) * 2048 + 1 * k.val = t.val % 2 * 2048 + k.val; rw [e0]; omega
  | ⟨1, _⟩ => show win2_1.index t (1 : Fin 2) * 1024 + 1 * q.val = t.val / 2 % 8 * 1024 + q.val; rw [e1]; omega

/-- The column block at point t reads the scaling column at the row-block's row. -/
theorem iblk2_2_apply (c : Dev nD) (t : Fin cfg2.N) (p : Fin 1024) :
    (iblk2 V c 2 t : Vec F S1024x1 .f32) (ix2 p 0)
      = (V c main_v21 : S8192x1.Idx → Elt F .f32) (ix2 (row2 t p) 0) := by
  obtain ⟨-, -, -, -, e0, e1, -⟩ := idx2 t
  unfold iblk2
  rw [View.read_apply]
  show V c main_v21 _ = V c main_v21 _
  congr 1
  funext a
  apply Fin.ext
  match a with
  | ⟨0, _⟩ => show win2_2.index t (0 : Fin 2) * 1024 + 1 * p.val = t.val / 16 * 1024 + p.val; rw [e0]; omega
  | ⟨1, _⟩ => show win2_2.index t (1 : Fin 2) * 1 + 1 * 0 = 0; rw [e1]

/-- The bias block at point t reads the bias row at the column-block's column. -/
theorem iblk2_3_apply (c : Dev nD) (t : Fin cfg2.N) (q : Fin 1024) :
    (iblk2 V c 3 t : Vec F S1x1024 .f32) (ix2 0 q)
      = (V c main_v27 : S1x8192.Idx → Elt F .f32) (ix2 0 (col2 t q)) := by
  obtain ⟨-, -, -, -, -, -, e0, e1, -⟩ := idx2 t
  unfold iblk2
  rw [View.read_apply]
  show V c main_v27 _ = V c main_v27 _
  congr 1
  funext a
  apply Fin.ext
  match a with
  | ⟨0, _⟩ => show win2_3.index t (0 : Fin 2) * 1 + 1 * 0 = 0; rw [e0]
  | ⟨1, _⟩ => show win2_3.index t (1 : Fin 2) * 1024 + 1 * q.val = t.val / 2 % 8 * 1024 + q.val; rw [e1]; omega

end

end Cert.KernelIdeal.Val

end
-- ==== Proof.Pay2.lean ====
/-
  The three values the third kernel call stores, read one entry at a time at the exact (extended-real) values.

  The body of the call keeps a 1024×1024 accumulator.  It stores zeros into it (first value); it adds to it
  the product of a 1024×2048 left block with a 2048×1024 right block: entry (p, q) is the sum over k of
  left(p, k) · right(k, q)
  (second value); and at the end it writes out the accumulator with row p scaled by the p-th entry of a
  1024×1 column and the q-th entry of a 1×1024 row added (third value).  Recasting a block to its own
  shape, and the final change of number format, change no entry.
-/
import proofs.«127015_j27917287424727_2_alg».proof.Proof.Gen.KernelIdeal.Skeleton
import proofs.«127015_j27917287424727_2_alg».proof.Proof.LibRowDot
import proofs.«127015_j27917287424727_2_alg».proof.Proof.LibColumn
import proofs.«127015_j27917287424727_2_alg».proof.Proof.LibRowBias

noncomputable section

open scoped BigOperators

namespace Cert.KernelIdeal.Pay

open Cert.KernelIdeal Cert.KernelIdeal.Gen Idealize.ShloMosaic Idealize.ShloMosaic.ValueIdx

/-- The first stored value is zero at every entry. -/
theorem pay1_apply_2 (p q : Fin 1024) : k2_pay1 (F := Ideal) (ix2 p q) = 0 := by
  unfold k2_pay1
  rw [shapeCast_self, broadcast_apply]
  exact Ideal.ofBits_zero_f32

/-- The printed dimension numbers are those of a plain M×K by K×N product. -/
theorem dot_eq_plain_2 : dot_S1024x2048_S2048x1024_S1024x1024_1_0_0_1_n_n = DotDims.plain 1024 2048 1024 := rfl

/-- The block product into a zero accumulator, at an entry: row p of the left block against column q of the right. -/
theorem matmul_apply_2 (v4 : FVec Ideal S1024x2048 .bf16) (v6 : FVec Ideal S2048x1024 .bf16) (p q : Fin 1024) :
    matmul dot_S1024x2048_S2048x1024_S1024x1024_1_0_0_1_n_n none v4 v6
        (constant (F := Ideal) S1024x1024 .f32 0x00000000#32) (ix2 p q)
      = ∑ k : Fin 2048, v4 (ix2 p k) * v6 (ix2 k q) := by
  rw [dot_eq_plain_2]
  exact Cert.RowDot.matmul_plain_zero_apply none v4 v6 (ix2 p q)

/-- The second stored value: the accumulator as loaded plus the block product, at an entry. -/
theorem pay2_apply_2 (v3 : Vec Ideal S1024x1024 .f32) (v4 : Vec Ideal S1024x2048 .bf16) (v6 : Vec Ideal S2048x1024 .bf16)
    (p q : Fin 1024) :
    k2_pay2 (F := Ideal) v3 v4 v6 (ix2 p q) = v3 (ix2 p q) + ∑ k : Fin 2048, v4 (ix2 p k) * v6 (ix2 k q) := by
  unfold k2_pay2
  rw [shapeCast_self, shapeCast_self, shapeCast_self, addf_apply]
  exact congrArg (fun z : EReal => v3 (ix2 p q) + z) (matmul_apply_2 v4 v6 p q)

/-- The third stored value: the accumulator's row p scaled by the column's entry p, plus the row's entry q. -/
theorem pay3_apply_2 (v16 : Vec Ideal S1024x1024 .f32) (v17 : Vec Ideal S1024x1 .f32) (v21 : Vec Ideal S1x1024 .f32)
    (p q : Fin 1024) :
    k2_pay3 (F := Ideal) v16 v17 v21 (ix2 p q) = v16 (ix2 p q) * v17 (ix2 p 0) + v21 (ix2 0 q) := by
  unfold k2_pay3
  rw [shapeCast_self, shapeCast_self, truncf_apply, addf_apply, mulf_apply,
    Cert.Column.broadcastTo_a1_ab_apply, Cert.RowBias.spreadRow_apply]

end Cert.KernelIdeal.Pay

end
-- ==== Proof.Val2Acc.lean ====
/-
  Call 2: the accumulator after every grid point, and its entries after the contraction's last point.

  The accumulator after point t is the point's block product added to the cleared buffer (k = 0) or to what point
  t − 1 left; so after the last step of a contraction its entry (p, q) is the whole sum over the 4096 positions of
  row 1024·i + p of the left array against column 1024·j + q of the right array.
-/
import proofs.«127015_j27917287424727_2_alg».proof.Proof.R2Frame
import proofs.«127015_j27917287424727_2_alg».proof.Proof.Val2Pieces
import proofs.«127015_j27917287424727_2_alg».proof.Proof.Val2Blocks
import proofs.«127015_j27917287424727_2_alg».proof.Proof.Pay2

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx Cert.KernelIdeal.Pay

open scoped BigOperators

section
variable (V : (c : Dev nD) → (b : Ref sig .tc) → Buf (Elt F) ((c : Thread nD τ).loc b))

/-- The accumulator after point n. -/
def accAt2 (c : Dev nD) (n : ℕ) (hn : n < cfg2.N) : Vec F S1024x1024 .f32 := (outsAt2 V c n hn).2

/-- After a point with k = 0 it is the first block product added to the cleared buffer; -/
theorem accAt2_A (c : Dev nD) (t : Fin cfg2.N) (h0 : t.val % 2 = 0) :
    accAt2 V c t.val t.isLt = k2_pay2 k2_pay1 (iblk2 V c 0 t) (iblk2 V c 1 t) := by
  unfold accAt2
  rw [outsAt2_A V c t h0]
  dsimp only
  unfold accA2
  exact sout_A_eq2 c (grid2.coords t) (ms2_0 t) (hs2_0 t) (ms2_1 t) (hs2_1 t) (ms2_2 t) (hs2_2 t) (ms2_3 t) (hs2_3 t) (ms2_4 t) (hs2_4 t) scM2 (Memref.isWhole_whole _) (condA2 t h0).1 (condA2 t h0).2 (iblk2 V c 0 t) (iblk2 V c 1 t) (iblk2 V c 2 t) (iblk2 V c 3 t)

/-- strictly inside the contraction, the point's block product added to what the point before left; -/
theorem accAt2_B (c : Dev nD) (t : Fin cfg2.N) (h0 : ¬t.val % 2 = 0) (h1 : ¬t.val % 2 = 1) :
    accAt2 V c t.val t.isLt
      = k2_pay2 (accAt2 V c (t.val - 1) (Cert.Acc.pred_lt t.isLt)) (iblk2 V c 0 t) (iblk2 V c 1 t) := by
  unfold accAt2
  rw [outsAt2_B V c t h0 h1]
  dsimp only
  unfold accB2
  exact sout_B_eq2 c (grid2.coords t) (ms2_0 t) (hs2_0 t) (ms2_1 t) (hs2_1 t) (ms2_2 t) (hs2_2 t) (ms2_3 t) (hs2_3 t) (ms2_4 t) (hs2_4 t) scM2 (Memref.isWhole_whole _) (condB2 t h0 h1).1 (condB2 t h0 h1).2 (iblk2 V c 0 t) (iblk2 V c 1 t) (iblk2 V c 2 t) (iblk2 V c 3 t) (outsAt2 V c (t.val - 1) (Cert.Acc.pred_lt t.isLt)).2

/-- at the last point the same, -/
theorem accAt2_C (c : Dev nD) (t : Fin cfg2.N) (h1 : t.val % 2 = 1) :
    accAt2 V c t.val t.isLt
      = k2_pay2 (accAt2 V c (t.val - 1) (Cert.Acc.pred_lt t.isLt)) (iblk2 V c 0 t) (iblk2 V c 1 t) := by
  unfold accAt2
  rw [outsAt2_C V c t h1]
  dsimp only
  unfold accC2
  exact sout_C_eq2 c (grid2.coords t) (ms2_0 t) (hs2_0 t) (ms2_1 t) (hs2_1 t) (ms2_2 t) (hs2_2 t) (ms2_3 t) (hs2_3 t) (ms2_4 t) (hs2_4 t) scM2 (Memref.isWhole_whole _) (condC2 t h1).1 (condC2 t h1).2 (iblk2 V c 0 t) (iblk2 V c 1 t) (iblk2 V c 2 t) (iblk2 V c 3 t) (outsAt2 V c (t.val - 1) (Cert.Acc.pred_lt t.isLt)).2

/-- and the output block stored there is the updated accumulator scaled and biased. -/
theorem outAt2_C (c : Dev nD) (t : Fin cfg2.N) (h1 : t.val % 2 = 1) :
    (outsAt2 V c t.val t.isLt).1
      = k2_pay3 (k2_pay2 (accAt2 V c (t.val - 1) (Cert.Acc.pred_lt t.isLt)) (iblk2 V c 0 t) (iblk2 V c 1 t))
          (iblk2 V c 2 t) (iblk2 V c 3 t) := by
  unfold accAt2
  rw [outsAt2_C V c t h1]
  dsimp only
  unfold outC2
  exact out_C_eq2 c (grid2.coords t) (ms2_0 t) (hs2_0 t) (ms2_1 t) (hs2_1 t) (ms2_2 t) (hs2_2 t) (ms2_3 t) (hs2_3 t) (ms2_4 t) (hs2_4 t) scM2 (Memref.isWhole_whole _) (condC2 t h1).1 (condC2 t h1).2 (iblk2 V c 0 t) (iblk2 V c 1 t) (iblk2 V c 2 t) (iblk2 V c 3 t) (outsAt2 V c (t.val - 1) (Cert.Acc.pred_lt t.isLt)).2

/-- In one formula: the point's block product added to the cleared buffer at k = 0, to what the point before left
    otherwise. -/
theorem accAt2_step (c : Dev nD) (t : Fin cfg2.N) :
    accAt2 V c t.val t.isLt
      = k2_pay2 (if t.val % 2 = 0 then (k2_pay1 : Vec F S1024x1024 .f32) else accAt2 V c (t.val - 1) (Cert.Acc.pred_lt t.isLt))
          (iblk2 V c 0 t) (iblk2 V c 1 t) := by
  by_cases h0 : t.val % 2 = 0
  · rw [if_pos h0]; exact accAt2_A V c t h0
  · rw [if_neg h0]
    by_cases h1 : t.val % 2 = 1
    · exact accAt2_C V c t h1
    · exact accAt2_B V c t h0 h1

/-- The output block stored at a last point is the updated accumulator scaled and biased. -/
theorem outAt2_last (c : Dev nD) (t : Fin cfg2.N) (h1 : t.val % 2 = 1) :
    (outsAt2 V c t.val t.isLt).1 = k2_pay3 (accAt2 V c t.val t.isLt) (iblk2 V c 2 t) (iblk2 V c 3 t) := by
  rw [accAt2_C V c t h1]
  exact outAt2_C V c t h1

end

/-! ## At the exact values -/

/-- Entry (p, q) of a block product. -/
def dot2 (x0 : Vec Ideal S1024x2048 .bf16) (x1 : Vec Ideal S2048x1024 .bf16) (p q : Fin 1024) : EReal :=
  ∑ k : Fin 2048, x0 (ix2 p k) * x1 (ix2 k q)

/-- One step of the accumulation, at an entry. -/
theorem entry_step2 (cnd : Prop) [Decidable cnd] (z : Vec Ideal S1024x1024 .f32) (x0 : Vec Ideal S1024x2048 .bf16)
    (x1 : Vec Ideal S2048x1024 .bf16) (p q : Fin 1024) :
    k2_pay2 (F := Ideal) (if cnd then (k2_pay1 (F := Ideal) : Vec Ideal S1024x1024 .f32) else z) x0 x1 (ix2 p q)
      = (if cnd then 0 else z (ix2 p q)) + dot2 x0 x1 p q := by
  unfold dot2
  rw [pay2_apply_2]
  by_cases h : cnd
  · rw [if_pos h, if_pos h, pay1_apply_2]
  · rw [if_neg h, if_neg h]

/-- After the last step of a contraction, entry (p, q) of the accumulator is the whole sum: row 1024·i + p of the
    left array against column 1024·j + q of the right array. -/
theorem acc_entry2 (V : (c : Dev nD) → (b : Ref sig .tc) → Buf (Elt Ideal) ((c : Thread nD τ).loc b))
    (c : Dev nD) (A : S8192x4096.Idx → EReal) (B : S4096x8192.Idx → EReal) (hA : V c main_v31 = A) (hB : V c main_v25 = B)
    (n : ℕ) (hn : n < cfg2.N) (hlast : n % 2 + 1 = 2) (p q : Fin 1024) :
    accAt2 V c n hn (ix2 p q) = ∑ d : Fin 4096, A (ix2 (row2 ⟨n, hn⟩ p) d) * B (ix2 d (col2 ⟨n, hn⟩ q)) := by
  refine Cert.Acc.acc_last_below (M := EReal) (N := 4096) 2 2048 cfg2.N (by decide) rfl
    (fun n hn d => A (ix2 (row2 ⟨n, hn⟩ p) d) * B (ix2 d (col2 ⟨n, hn⟩ q)))
    (fun n h h0 => funext fun d => by rw [row2_pred n h h0, col2_pred n h h0])
    (fun n hn => dot2 (iblk2 V c 0 ⟨n, hn⟩) (iblk2 V c 1 ⟨n, hn⟩) p q)
    (fun n hn => accAt2 V c n hn (ix2 p q))
    (fun n h => ?hblk)
    (fun n h => (congrFun (accAt2_step V c ⟨n, h⟩) (ix2 p q)).trans
      (entry_step2 (n % 2 = 0) (accAt2 V c (n - 1) (Cert.Acc.pred_lt h)) (iblk2 V c 0 ⟨n, h⟩) (iblk2 V c 1 ⟨n, h⟩) p q))
    n hn hlast
  unfold dot2
  refine Finset.sum_congr rfl fun k _ => ?_
  rw [iblk2_0_apply, iblk2_1_apply, hA, hB]

end Cert.KernelIdeal.Val

end
-- ==== Proof.Val2.lean ====
/-
  Call 2: the array its output window ends holding is the scaled, biased product of its four input arrays.

  The output block is written back at the last point of each contraction only.  There the block's entry (p, q) is the
  accumulator's entry — the whole sum of row 1024·i + p of the left array against column 1024·j + q of the right
  array — times the scaling column's entry at row 1024·i + p, plus the bias row's entry at column 1024·j + q: entry
  (1024·i + p, 1024·j + q) of the product array.  The 8 × 8 blocks written back tile the 8192×8192 output.
-/
import proofs.«127015_j27917287424727_2_alg».proof.Proof.Val2Acc
import proofs.«127015_j27917287424727_2_alg».proof.Proof.Fused

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx Cert.KernelIdeal.Pay

open scoped BigOperators

variable (V : (c : Dev nD) → (b : Ref sig .tc) → Buf (Elt Ideal) ((c : Thread nD τ).loc b))

/-- Entry (p, q) of the output block of point t sits at (row-block row, column-block column) of the output array. -/
theorem emb2_4 (t : Fin cfg2.N) (p q : Fin 1024) :
    (((cfg2.win 4).blk t).view.emb (ix2 p q) : S8192x8192.Idx) = ix2 (row2 t p) (col2 t q) := by
  obtain ⟨-, -, -, -, -, -, -, -, e0, e1⟩ := idx2 t
  funext a
  apply Fin.ext
  match a with
  | ⟨0, _⟩ => show win2_4.index t (0 : Fin 2) * 1024 + 1 * p.val = t.val / 16 * 1024 + p.val; rw [e0]; omega
  | ⟨1, _⟩ => show win2_4.index t (1 : Fin 2) * 1024 + 1 * q.val = t.val / 2 % 8 * 1024 + q.val; rw [e1]; omega

/-- The output block stored at a last point, at an entry: the product array's entry. -/
theorem out_entry2 (c : Dev nD) (t : Fin cfg2.N) (h1 : t.val % 2 = 1) (p q : Fin 1024) :
    k2_pay3 (F := Ideal) (accAt2 V c t.val t.isLt) (iblk2 V c 2 t) (iblk2 V c 3 t) (ix2 p q)
      = Gcn.fused (V c main_v31) (V c main_v25) (V c main_v21) (V c main_v27) (ix2 (row2 t p) (col2 t q)) := by
  rw [pay3_apply_2 (accAt2 V c t.val t.isLt) (iblk2 V c 2 t) (iblk2 V c 3 t) p q,
    acc_entry2 V c (V c main_v31) (V c main_v25) rfl rfl t.val t.isLt (by omega) p q,
    iblk2_2_apply, iblk2_3_apply, Gcn.fused_apply]

/-- What a last point writes back is its block of the product array. -/
theorem flushed_eq2 (c : Dev nD) (t : Fin cfg2.N) (hf : (cfg2.win 4).flush t = true) :
    (dat2 V c).flushed 4 t
      = ((cfg2.win 4).blk t).view.read (Elt Ideal) (Gcn.fused (V c main_v31) (V c main_v25) (V c main_v21) (V c main_v27)) := by
  have h1 : t.val % 2 = 1 := (flush2_4 t).mp hf
  show (cfg2.win 4).cut (grid2.coords t) ((dat2 V c).after 4 t) = _
  rw [after2_4, outAt2_last V c t h1]
  refine funext fun (j : S1024x1024.Idx) => ?_
  obtain ⟨p, q, rfl⟩ : ∃ (p q : Fin 1024), j = ix2 p q := ⟨j 0, j 1, eq_ix2 j⟩
  rw [View.read_apply, emb2_4]
  exact out_entry2 V c t h1 p q

/-- An index of the output array is in point t's block iff each coordinate is in the block's range on its axis. -/
theorem mem_blk2 (t : Fin cfg2.N) (i : S8192x8192.Idx) :
    i ∈ ((cfg2.win 4).blk t).view.set
      ↔ ∀ a : Fin 2, win2_4.index t a * S1024x1024.size a ≤ (i a).val ∧ (i a).val < win2_4.index t a * S1024x1024.size a + S1024x1024.size a := by
  show i ∈ ((View.whole main_v32).slice (win2_4.rect t)).set ↔ _
  rw [View.set_slice_whole, Rect.mem_set_unit]
  exact Iff.rfl

/-- Every index of the output array is in the block some last point writes back. -/
theorem cover2 (i : S8192x8192.Idx) :
    ∃ t : Fin cfg2.N, (cfg2.win 4).flush t = true ∧ i ∈ ((cfg2.win 4).blk t).view.set := by
  have hi0 : (i 0).val < 8192 := (i 0).isLt
  have hi1 : (i 1).val < 8192 := (i 1).isLt
  have hN : cfg2.N = 128 := N_2
  refine ⟨⟨(i 0).val / 1024 * 16 + (i 1).val / 1024 * 2 + 1, by omega⟩, (flush2_4 _).mpr (by show ((i 0).val / 1024 * 16 + (i 1).val / 1024 * 2 + 1) % 2 = 1; omega), ?_⟩
  rw [mem_blk2]
  obtain ⟨-, -, -, -, -, -, -, -, e0, e1⟩ := idx2 ⟨(i 0).val / 1024 * 16 + (i 1).val / 1024 * 2 + 1, by omega⟩
  intro a
  match a with
  | ⟨0, _⟩ =>
    show win2_4.index _ (0 : Fin 2) * 1024 ≤ (i 0).val ∧ (i 0).val < win2_4.index _ (0 : Fin 2) * 1024 + 1024
    rw [e0]; show ((i 0).val / 1024 * 16 + (i 1).val / 1024 * 2 + 1) / 16 * 1024 ≤ (i 0).val ∧ (i 0).val < ((i 0).val / 1024 * 16 + (i 1).val / 1024 * 2 + 1) / 16 * 1024 + 1024
    omega
  | ⟨1, _⟩ =>
    show win2_4.index _ (1 : Fin 2) * 1024 ≤ (i 1).val ∧ (i 1).val < win2_4.index _ (1 : Fin 2) * 1024 + 1024
    rw [e1]; show ((i 0).val / 1024 * 16 + (i 1).val / 1024 * 2 + 1) / 2 % 8 * 1024 ≤ (i 1).val ∧ (i 1).val < ((i 0).val / 1024 * 16 + (i 1).val / 1024 * 2 + 1) / 2 % 8 * 1024 + 1024
    omega

/-- The output array after the call is the product array. -/
theorem final2 (c : Dev nD) :
    (dat2 (F := Ideal) V c).arrAt 4 cfg2.N = Gcn.fused (V c main_v31) (V c main_v25) (V c main_v21) (V c main_v27) :=
  (dat2 V c).arrAt_eq_of_cover 4 (Gcn.fused (V c main_v31) (V c main_v25) (V c main_v21) (V c main_v27))
    (flushed_eq2 V c) cover2

end Cert.KernelIdeal.Val

end
-- ==== Proof.Val3Pieces.lean ====
/-
  Call 3: what each case of the body leaves in the accumulator and in the output block, as the arithmetic of the
  blocks it loaded.

  At a point with k = 0 the body clears the accumulator and adds the first block product to the cleared buffer;
  at a later point it adds the point's block product to what it finds; at the last point it also stores the scaled and
  biased accumulator into the output block.  Every load and store goes through the whole buffer at zero offsets, so a
  store leaves exactly its value and a load of a buffer reads exactly its contents.
-/
import proofs.«127015_j27917287424727_2_alg».proof.Proof.R3RunA
import proofs.«127015_j27917287424727_2_alg».proof.Proof.R3RunB
import proofs.«127015_j27917287424727_2_alg».proof.Proof.R3RunC
import proofs.«127015_j27917287424727_2_alg».proof.Proof.Val0Pieces
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

/-- At k = 0: the first block product added to the cleared accumulator. -/
theorem sout_A_eq3 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond3_0 i) (hc1 : ¬cond3_1 i)
    (x0 : Vec F S2048x1024 .bf16) (x1 : Vec F S2048x1024 .bf16) (x2 : Vec F S1024x1 .f32) (x3 : Vec F S1x1024 .f32) :
    sout3_A c i arg3 harg3 arg4 harg4 arg5 harg5 arg6 harg6 arg7 harg7 arg8 harg8 hc0 hc1 x0 x1 x2 x3 = k3_pay2 k3_pay1 x0 x1 := by
  unfold sout3_A
  rw [View.read_writes_eq_canon _ _ _ (scover3_A c i arg3 harg3 arg4 harg4 arg5 harg5 arg6 harg6 arg7 harg7 arg8 harg8 hc0 hc1 x0 x1 x2 x3)]
  unfold kernelRun3_A
  dsimp only
  sl_unfold_words
  rw [View.canon_cons_unit_zero (S := S1024x1024) hz0, View.readCov_unit_zero (S := S1024x1024) _ hz0]
  simp only [View.readAt_eq_ld, harg3.read_unread, harg4.read_unread,
    View.ld_unit_zero (S := S2048x1024) hz0, View.ld_unit_zero (S := S2048x1024) hz0]

/-- Strictly inside the contraction: the point's block product added to what the accumulator held. -/
theorem sout_B_eq3 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : ¬cond3_1 i)
    (x0 : Vec F S2048x1024 .bf16) (x1 : Vec F S2048x1024 .bf16) (x2 : Vec F S1024x1 .f32) (x3 : Vec F S1x1024 .f32) (xs : Vec F S1024x1024 .f32) :
    sout3_B c i arg3 harg3 arg4 harg4 arg5 harg5 arg6 harg6 arg7 harg7 arg8 harg8 hc0 hc1 x0 x1 x2 x3 xs = k3_pay2 xs x0 x1 := by
  unfold sout3_B
  rw [View.read_writes_eq_canon _ _ _ (scover3_B c i arg3 harg3 arg4 harg4 arg5 harg5 arg6 harg6 arg7 harg7 arg8 harg8 hc0 hc1 x0 x1 x2 x3 xs)]
  unfold kernelRun3_B
  dsimp only
  sl_unfold_words
  rw [View.canon_unit_zero hz0]
  simp only [View.readAt_eq_ld, harg8.read_unread, harg3.read_unread, harg4.read_unread,
    View.ld_unit_zero (S := S1024x1024) hz0, View.ld_unit_zero (S := S2048x1024) hz0, View.ld_unit_zero (S := S2048x1024) hz0]

/-- At the last point the accumulator is updated the same way, -/
theorem sout_C_eq3 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) :
    sout3_C c i arg3 harg3 arg4 harg4 arg5 harg5 arg6 harg6 arg7 harg7 arg8 harg8 hc0 hc1 x0 x1 x2 x3 xs = k3_pay2 xs x0 x1 := by
  unfold sout3_C
  rw [View.read_writes_eq_canon _ _ _ (scover3_C c i arg3 harg3 arg4 harg4 arg5 harg5 arg6 harg6 arg7 harg7 arg8 harg8 hc0 hc1 x0 x1 x2 x3 xs)]
  unfold kernelRun3_C
  dsimp only
  sl_unfold_words
  rw [View.canon_unit_zero hz0]
  simp only [View.readAt_eq_ld, harg8.read_unread, harg3.read_unread, harg4.read_unread,
    View.ld_unit_zero (S := S1024x1024) hz0, View.ld_unit_zero (S := S2048x1024) hz0, View.ld_unit_zero (S := S2048x1024) hz0]

/-- and the output block is the updated accumulator scaled by the column block, plus the bias row block. -/
theorem out_C_eq3 (c : Dev nD) (i : grid3.Coords) (arg3 : Memref sig .tc .vmem S2048x1024 .bf16) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond3_0 i) (hc1 : cond3_1 i)
    (x0 : Vec F S2048x1024 .bf16) (x1 : Vec F S2048x1024 .bf16) (x2 : Vec F S1024x1 .f32) (x3 : Vec F S1x1024 .f32) (xs : Vec F S1024x1024 .f32) :
    out3_C c i arg3 harg3 arg4 harg4 arg5 harg5 arg6 harg6 arg7 harg7 arg8 harg8 hc0 hc1 x0 x1 x2 x3 xs = k3_pay3 (k3_pay2 xs x0 x1) x2 x3 := by
  unfold out3_C
  rw [View.read_writes_eq_canon _ _ _ (cover3_C c i arg3 harg3 arg4 harg4 arg5 harg5 arg6 harg6 arg7 harg7 arg8 harg8 hc0 hc1 x0 x1 x2 x3 xs)]
  unfold kernelRun3_C
  dsimp only
  sl_unfold_words
  rw [View.canon_unit_zero hz0, View.readCov_unit_zero (S := S1024x1024) _ hz0]
  simp only [View.readAt_eq_ld, harg8.read_unread, harg3.read_unread, harg4.read_unread, harg5.read_unread, harg6.read_unread,
    View.ld_unit_zero (S := S1024x1024) hz0, View.ld_unit_zero (S := S2048x1024) hz0, View.ld_unit_zero (S := S2048x1024) hz0,
    View.ld_unit_zero (S := S1024x1) hz0, View.ld_unit_zero (S := S1x1024) hz0]

end Cert.KernelIdeal.Val

end
-- ==== Proof.Val3Blocks.lean ====
/-
  Call 3: where each window's block at a grid point sits in its array.

  Grid point t (in row-major order over an 8×8×4 grid) has row-block i = t / 32, column-block j = t / 4 mod 8 and
  contraction step k = t mod 4.  Its left block is rows 2048·k …, columns 1024·i … of the left array (the call multiplies by the left array
  transposed), its right block rows 2048·k …, columns 1024·j … of the right array, its column block rows 1024·i … of the scaling column and its bias
  block columns 1024·j … of the bias row (an element of a block sits at block index × block size + its coordinate).
-/
import proofs.«127015_j27917287424727_2_alg».proof.Proof.R3Runs
import proofs.«127015_j27917287424727_2_alg».proof.Proof.Acc
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx

/-- The printed index maps in closed form, decided once over the grid. -/
theorem idx3 : ∀ t : Fin cfg3.N,
    win3_0.index t (0 : Fin 2) = t.val % 4 ∧ win3_0.index t (1 : Fin 2) = t.val / 32
  ∧ win3_1.index t (0 : Fin 2) = t.val % 4 ∧ win3_1.index t (1 : Fin 2) = t.val / 4 % 8
  ∧ win3_2.index t (0 : Fin 2) = t.val / 32 ∧ win3_2.index t (1 : Fin 2) = 0
  ∧ win3_3.index t (0 : Fin 2) = 0 ∧ win3_3.index t (1 : Fin 2) = t.val / 4 % 8
  ∧ win3_4.index t (0 : Fin 2) = t.val / 32 ∧ win3_4.index t (1 : Fin 2) = t.val / 4 % 8 :=
  (by decide +kernel : ∀ t : Fin grid3.N, _)

/-- The grid has 256 points. -/
theorem lt3 (t : Fin cfg3.N) : t.val < 256 := by
  have := t.isLt; have e : cfg3.N = 256 := N_3; omega

/-- Row p of point t's row-block, as a row of the whole array. -/
def row3 (t : Fin cfg3.N) (p : Fin 1024) : Fin 8192 := ⟨t.val / 32 * 1024 + p.val, by have := lt3 t; have := p.isLt; omega⟩
/-- Column q of point t's column-block, as a column of the whole array. -/
def col3 (t : Fin cfg3.N) (q : Fin 1024) : Fin 8192 := ⟨t.val / 4 % 8 * 1024 + q.val, by have := q.isLt; omega⟩
/-- Position k of point t's contraction block, as a position of the whole contraction. -/
abbrev con3 (t : Fin cfg3.N) (k : Fin 2048) : Fin 8192 := ⟨t.val % 4 * 2048 + k.val, by have := k.isLt; omega⟩

theorem row3_val (t : Fin cfg3.N) (p : Fin 1024) : (row3 t p).val = t.val / 32 * 1024 + p.val := rfl
theorem col3_val (t : Fin cfg3.N) (q : Fin 1024) : (col3 t q).val = t.val / 4 % 8 * 1024 + q.val := rfl

/-- Inside a contraction the row-block does not move, -/
theorem row3_pred (n : ℕ) (h : n < cfg3.N) (h0 : n % 4 ≠ 0) (p : Fin 1024) :
    row3 ⟨n, h⟩ p = row3 ⟨n - 1, Cert.Acc.pred_lt h⟩ p := Fin.ext (by
  show n / 32 * 1024 + p.val = (n - 1) / 32 * 1024 + p.val
  omega)
/-- nor the column-block. -/
theorem col3_pred (n : ℕ) (h : n < cfg3.N) (h0 : n % 4 ≠ 0) (q : Fin 1024) :
    col3 ⟨n, h⟩ q = col3 ⟨n - 1, Cert.Acc.pred_lt h⟩ q := Fin.ext (by
  show n / 4 % 8 * 1024 + q.val = (n - 1) / 4 % 8 * 1024 + q.val
  omega)

section
variable (V : (c : Dev nD) → (b : Ref sig .tc) → Buf (Elt F) ((c : Thread nD τ).loc b))

/-- The left block at point t reads the left array at (contraction-block position, row-block row): the output's row
    index runs along the left array's columns. -/
theorem iblk3_0_apply (c : Dev nD) (t : Fin cfg3.N) (k : Fin 2048) (p : Fin 1024) :
    (iblk3 V c 0 t : Vec F S2048x1024 .bf16) (ix2 k p)
      = (V c main_v22 : S8192x8192.Idx → Elt F .bf16) (ix2 (con3 t k) (row3 t p)) := by
  obtain ⟨e0, e1, -⟩ := idx3 t
  unfold iblk3
  rw [View.read_apply]
  show V c main_v22 _ = V c main_v22 _
  congr 1
  funext a
  apply Fin.ext
  match a with
  | ⟨0, _⟩ => show win3_0.index t (0 : Fin 2) * 2048 + 1 * k.val = t.val % 4 * 2048 + k.val; rw [e0]; omega
  | ⟨1, _⟩ => show win3_0.index t (1 : Fin 2) * 1024 + 1 * p.val = t.val / 32 * 1024 + p.val; rw [e1]; omega

/-- The right block at point t reads the right array at (contraction-block position, column-block column). -/
theorem iblk3_1_apply (c : Dev nD) (t : Fin cfg3.N) (k : Fin 2048) (q : Fin 1024) :
    (iblk3 V c 1 t : Vec F S2048x1024 .bf16) (ix2 k q)
      = (V c main_v32 : S8192x8192.Idx → Elt F .bf16) (ix2 (con3 t k) (col3 t q)) := by
  obtain ⟨-, -, e0, e1, -⟩ := idx3 t
  unfold iblk3
  rw [View.read_apply]
  show V c main_v32 _ = V c main_v32 _
  congr 1
  funext a
  apply Fin.ext
  match a with
  | ⟨0, _⟩ => show win3_1.index t (0 : Fin 2) * 2048 + 1 * k.val = t.val % 4 * 2048 + k.val; rw [e0]; omega
  | ⟨1, _⟩ => show win3_1.index t (1 : Fin 2) * 1024 + 1 * q.val = t.val / 4 % 8 * 1024 + q.val; rw [e1]; omega

/-- The column block at point t reads the scaling column at the row-block's row. -/
theorem iblk3_2_apply (c : Dev nD) (t : Fin cfg3.N) (p : Fin 1024) :
    (iblk3 V c 2 t : Vec F S1024x1 .f32) (ix2 p 0)
      = (V c main_v21 : S8192x1.Idx → Elt F .f32) (ix2 (row3 t p) 0) := by
  obtain ⟨-, -, -, -, e0, e1, -⟩ := idx3 t
  unfold iblk3
  rw [View.read_apply]
  show V c main_v21 _ = V c main_v21 _
  congr 1
  funext a
  apply Fin.ext
  match a with
  | ⟨0, _⟩ => show win3_2.index t (0 : Fin 2) * 1024 + 1 * p.val = t.val / 32 * 1024 + p.val; rw [e0]; omega
  | ⟨1, _⟩ => show win3_2.index t (1 : Fin 2) * 1 + 1 * 0 = 0; rw [e1]

/-- The bias block at point t reads the bias row at the column-block's column. -/
theorem iblk3_3_apply (c : Dev nD) (t : Fin cfg3.N) (q : Fin 1024) :
    (iblk3 V c 3 t : Vec F S1x1024 .f32) (ix2 0 q)
      = (V c main_v29 : S1x8192.Idx → Elt F .f32) (ix2 0 (col3 t q)) := by
  obtain ⟨-, -, -, -, -, -, e0, e1, -⟩ := idx3 t
  unfold iblk3
  rw [View.read_apply]
  show V c main_v29 _ = V c main_v29 _
  congr 1
  funext a
  apply Fin.ext
  match a with
  | ⟨0, _⟩ => show win3_3.index t (0 : Fin 2) * 1 + 1 * 0 = 0; rw [e0]
  | ⟨1, _⟩ => show win3_3.index t (1 : Fin 2) * 1024 + 1 * q.val = t.val / 4 % 8 * 1024 + q.val; rw [e1]; omega

end

end Cert.KernelIdeal.Val

end
-- ==== Proof.Pay3.lean ====
/-
  The three values the fourth kernel call stores, read one entry at a time at the exact (extended-real) values.

  The body of the call keeps a 1024×1024 accumulator.  It stores zeros into it (first value); it adds to it
  the product of the TRANSPOSE of a 2048×1024 left block with a 2048×1024 right block (both operands are
  contracted on their first axis): entry (p, q) is the sum over k of left(k, p) · right(k, q)
  (second value); and at the end it writes out the accumulator with row p scaled by the p-th entry of a
  1024×1 column and the q-th entry of a 1×1024 row added (third value).  Recasting a block to its own
  shape changes no entry.
-/
import proofs.«127015_j27917287424727_2_alg».proof.Proof.Gen.KernelIdeal.Skeleton
import proofs.«127015_j27917287424727_2_alg».proof.Proof.LibColumn
import proofs.«127015_j27917287424727_2_alg».proof.Proof.LibRowBias
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The first stored value is zero at every entry. -/
theorem pay1_apply_3 (p q : Fin 1024) : k3_pay1 (F := Ideal) (ix2 p q) = 0 := by
  unfold k3_pay1
  rw [shapeCast_self, broadcast_apply]
  exact Ideal.ofBits_zero_f32

/-- The left operand's row is the contraction position. -/
theorem lhs0_3 (j : S1024x1024.Idx) (u : dot_S2048x1024_S2048x1024_S1024x1024_0_0_1_1_n_n.contr.Idx) :
    (dot_S2048x1024_S2048x1024_S1024x1024_0_0_1_1_n_n.lhsIdx j u 0).val = (u ⟨0, by decide⟩).val :=
  dot_S2048x1024_S2048x1024_S1024x1024_0_0_1_1_n_n.lhsIdx_val_of_single rfl j u

/-- The left operand's column is the output's row. -/
theorem lhs1_3 (j : S1024x1024.Idx) (u : dot_S2048x1024_S2048x1024_S1024x1024_0_0_1_1_n_n.contr.Idx) :
    (dot_S2048x1024_S2048x1024_S1024x1024_0_0_1_1_n_n.lhsIdx j u 1).val = (j 0).val := by
  unfold DotDims.lhsIdx
  rw [dif_neg (show ¬(1 : Fin S2048x1024.rank) ∈ dot_S2048x1024_S2048x1024_S1024x1024_0_0_1_1_n_n.lhsBatch by decide),
    dif_pos (show (1 : Fin S2048x1024.rank) ∈ dot_S2048x1024_S2048x1024_S1024x1024_0_0_1_1_n_n.lhsNonContracting by decide)]
  rfl

/-- The right operand's row is the contraction position. -/
theorem rhs0_3 (j : S1024x1024.Idx) (u : dot_S2048x1024_S2048x1024_S1024x1024_0_0_1_1_n_n.contr.Idx) :
    (dot_S2048x1024_S2048x1024_S1024x1024_0_0_1_1_n_n.rhsIdx j u 0).val = (u ⟨0, by decide⟩).val :=
  dot_S2048x1024_S2048x1024_S1024x1024_0_0_1_1_n_n.rhsIdx_val_of_single rfl j u

/-- The right operand's column is the output's column. -/
theorem rhs1_3 (j : S1024x1024.Idx) (u : dot_S2048x1024_S2048x1024_S1024x1024_0_0_1_1_n_n.contr.Idx) :
    (dot_S2048x1024_S2048x1024_S1024x1024_0_0_1_1_n_n.rhsIdx j u 1).val = (j 1).val := by
  unfold DotDims.rhsIdx
  rw [dif_neg (show ¬(1 : Fin S2048x1024.rank) ∈ dot_S2048x1024_S2048x1024_S1024x1024_0_0_1_1_n_n.rhsBatch by decide),
    dif_pos (show (1 : Fin S2048x1024.rank) ∈ dot_S2048x1024_S2048x1024_S1024x1024_0_0_1_1_n_n.rhsNonContracting by decide)]
  rfl

/-- The block product into a zero accumulator, at an entry: column p of the left block against column q of the
    right (the contraction runs over the first axis of both). -/
theorem matmul_apply_3 (v4 : FVec Ideal S2048x1024 .bf16) (v6 : FVec Ideal S2048x1024 .bf16) (p q : Fin 1024) :
    matmul dot_S2048x1024_S2048x1024_S1024x1024_0_0_1_1_n_n none v4 v6
        (constant (F := Ideal) S1024x1024 .f32 0x00000000#32) (ix2 p q)
      = ∑ k : Fin 2048, v4 (ix2 k p) * v6 (ix2 k q) := by
  show FloatOps.matmul dot_S2048x1024_S2048x1024_S1024x1024_0_0_1_1_n_n none v4 v6
    (constant (F := Ideal) S1024x1024 .f32 0x00000000#32) (ix2 p q) = _
  rw [Ideal.matmul_constant_zero_apply,
    ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 p q)
      ((contrEquiv1 dot_S2048x1024_S2048x1024_S1024x1024_0_0_1_1_n_n 2048 rfl rfl).symm k) = ix2 k p :=
    funext fun a => Fin.ext (by
      match a with
      | ⟨0, _⟩ => exact (lhs0_3 _ _).trans hk
      | ⟨1, _⟩ => exact lhs1_3 _ _)
  have er : dot_S2048x1024_S2048x1024_S1024x1024_0_0_1_1_n_n.rhsIdx (ix2 p q)
      ((contrEquiv1 dot_S2048x1024_S2048x1024_S1024x1024_0_0_1_1_n_n 2048 rfl rfl).symm k) = ix2 k q :=
    funext fun a => Fin.ext (by
      match a with
      | ⟨0, _⟩ => exact (rhs0_3 _ _).trans hk
      | ⟨1, _⟩ => exact rhs1_3 _ _)
  rw [el, er]

/-- The second stored value: the accumulator as loaded plus the block product, at an entry. -/
theorem pay2_apply_3 (v3 : Vec Ideal S1024x1024 .f32) (v4 : Vec Ideal S2048x1024 .bf16) (v6 : Vec Ideal S2048x1024 .bf16)
    (p q : Fin 1024) :
    k3_pay2 (F := Ideal) v3 v4 v6 (ix2 p q) = v3 (ix2 p q) + ∑ k : Fin 2048, v4 (ix2 k p) * v6 (ix2 k q) := by
  unfold k3_pay2
  rw [shapeCast_self, shapeCast_self, shapeCast_self, addf_apply]
  exact congrArg (fun z : EReal => v3 (ix2 p q) + z) (matmul_apply_3 v4 v6 p q)

/-- The third stored value: the accumulator's row p scaled by the column's entry p, plus the row's entry q. -/
theorem pay3_apply_3 (v16 : Vec Ideal S1024x1024 .f32) (v17 : Vec Ideal S1024x1 .f32) (v21 : Vec Ideal S1x1024 .f32)
    (p q : Fin 1024) :
    k3_pay3 (F := Ideal) v16 v17 v21 (ix2 p q) = v16 (ix2 p q) * v17 (ix2 p 0) + v21 (ix2 0 q) := by
  unfold k3_pay3
  rw [shapeCast_self, shapeCast_self, addf_apply, mulf_apply,
    Cert.Column.broadcastTo_a1_ab_apply, Cert.RowBias.spreadRow_apply]

end Cert.KernelIdeal.Pay

end
-- ==== Proof.Val3Acc.lean ====
/-
  Call 3: the accumulator after every grid point, and its entries after the contraction's last point.

  The accumulator after point t is the point's block product added to the cleared buffer (k = 0) or to what point
  t − 1 left; so after the last step of a contraction its entry (p, q) is the whole sum over the 8192 positions of
  COLUMN 1024·i + p of the left array against column 1024·j + q of the right array (the call contracts the first axes
  of both: the product with the left array transposed).
-/
import proofs.«127015_j27917287424727_2_alg».proof.Proof.R3Frame
import proofs.«127015_j27917287424727_2_alg».proof.Proof.Val3Pieces
import proofs.«127015_j27917287424727_2_alg».proof.Proof.Val3Blocks
import proofs.«127015_j27917287424727_2_alg».proof.Proof.Pay3

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx Cert.KernelIdeal.Pay

open scoped BigOperators

section
variable (V : (c : Dev nD) → (b : Ref sig .tc) → Buf (Elt F) ((c : Thread nD τ).loc b))

/-- The accumulator after point n. -/
def accAt3 (c : Dev nD) (n : ℕ) (hn : n < cfg3.N) : Vec F S1024x1024 .f32 := (outsAt3 V c n hn).2

/-- After a point with k = 0 it is the first block product added to the cleared buffer; -/
theorem accAt3_A (c : Dev nD) (t : Fin cfg3.N) (h0 : t.val % 4 = 0) :
    accAt3 V c t.val t.isLt = k3_pay2 k3_pay1 (iblk3 V c 0 t) (iblk3 V c 1 t) := by
  unfold accAt3
  rw [outsAt3_A V c t h0]
  dsimp only
  unfold accA3
  exact sout_A_eq3 c (grid3.coords t) (ms3_0 t) (hs3_0 t) (ms3_1 t) (hs3_1 t) (ms3_2 t) (hs3_2 t) (ms3_3 t) (hs3_3 t) (ms3_4 t) (hs3_4 t) scM3 (Memref.isWhole_whole _) (condA3 t h0).1 (condA3 t h0).2 (iblk3 V c 0 t) (iblk3 V c 1 t) (iblk3 V c 2 t) (iblk3 V c 3 t)

/-- strictly inside the contraction, the point's block product added to what the point before left; -/
theorem accAt3_B (c : Dev nD) (t : Fin cfg3.N) (h0 : ¬t.val % 4 = 0) (h1 : ¬t.val % 4 = 3) :
    accAt3 V c t.val t.isLt
      = k3_pay2 (accAt3 V c (t.val - 1) (Cert.Acc.pred_lt t.isLt)) (iblk3 V c 0 t) (iblk3 V c 1 t) := by
  unfold accAt3
  rw [outsAt3_B V c t h0 h1]
  dsimp only
  unfold accB3
  exact sout_B_eq3 c (grid3.coords t) (ms3_0 t) (hs3_0 t) (ms3_1 t) (hs3_1 t) (ms3_2 t) (hs3_2 t) (ms3_3 t) (hs3_3 t) (ms3_4 t) (hs3_4 t) scM3 (Memref.isWhole_whole _) (condB3 t h0 h1).1 (condB3 t h0 h1).2 (iblk3 V c 0 t) (iblk3 V c 1 t) (iblk3 V c 2 t) (iblk3 V c 3 t) (outsAt3 V c (t.val - 1) (Cert.Acc.pred_lt t.isLt)).2

/-- at the last point the same, -/
theorem accAt3_C (c : Dev nD) (t : Fin cfg3.N) (h1 : t.val % 4 = 3) :
    accAt3 V c t.val t.isLt
      = k3_pay2 (accAt3 V c (t.val - 1) (Cert.Acc.pred_lt t.isLt)) (iblk3 V c 0 t) (iblk3 V c 1 t) := by
  unfold accAt3
  rw [outsAt3_C V c t h1]
  dsimp only
  unfold accC3
  exact sout_C_eq3 c (grid3.coords t) (ms3_0 t) (hs3_0 t) (ms3_1 t) (hs3_1 t) (ms3_2 t) (hs3_2 t) (ms3_3 t) (hs3_3 t) (ms3_4 t) (hs3_4 t) scM3 (Memref.isWhole_whole _) (condC3 t h1).1 (condC3 t h1).2 (iblk3 V c 0 t) (iblk3 V c 1 t) (iblk3 V c 2 t) (iblk3 V c 3 t) (outsAt3 V c (t.val - 1) (Cert.Acc.pred_lt t.isLt)).2

/-- and the output block stored there is the updated accumulator scaled and biased. -/
theorem outAt3_C (c : Dev nD) (t : Fin cfg3.N) (h1 : t.val % 4 = 3) :
    (outsAt3 V c t.val t.isLt).1
      = k3_pay3 (k3_pay2 (accAt3 V c (t.val - 1) (Cert.Acc.pred_lt t.isLt)) (iblk3 V c 0 t) (iblk3 V c 1 t))
          (iblk3 V c 2 t) (iblk3 V c 3 t) := by
  unfold accAt3
  rw [outsAt3_C V c t h1]
  dsimp only
  unfold outC3
  exact out_C_eq3 c (grid3.coords t) (ms3_0 t) (hs3_0 t) (ms3_1 t) (hs3_1 t) (ms3_2 t) (hs3_2 t) (ms3_3 t) (hs3_3 t) (ms3_4 t) (hs3_4 t) scM3 (Memref.isWhole_whole _) (condC3 t h1).1 (condC3 t h1).2 (iblk3 V c 0 t) (iblk3 V c 1 t) (iblk3 V c 2 t) (iblk3 V c 3 t) (outsAt3 V c (t.val - 1) (Cert.Acc.pred_lt t.isLt)).2

/-- In one formula: the point's block product added to the cleared buffer at k = 0, to what the point before left
    otherwise. -/
theorem accAt3_step (c : Dev nD) (t : Fin cfg3.N) :
    accAt3 V c t.val t.isLt
      = k3_pay2 (if t.val % 4 = 0 then (k3_pay1 : Vec F S1024x1024 .f32) else accAt3 V c (t.val - 1) (Cert.Acc.pred_lt t.isLt))
          (iblk3 V c 0 t) (iblk3 V c 1 t) := by
  by_cases h0 : t.val % 4 = 0
  · rw [if_pos h0]; exact accAt3_A V c t h0
  · rw [if_neg h0]
    by_cases h1 : t.val % 4 = 3
    · exact accAt3_C V c t h1
    · exact accAt3_B V c t h0 h1

/-- The output block stored at a last point is the updated accumulator scaled and biased. -/
theorem outAt3_last (c : Dev nD) (t : Fin cfg3.N) (h1 : t.val % 4 = 3) :
    (outsAt3 V c t.val t.isLt).1 = k3_pay3 (accAt3 V c t.val t.isLt) (iblk3 V c 2 t) (iblk3 V c 3 t) := by
  rw [accAt3_C V c t h1]
  exact outAt3_C V c t h1

end

/-! ## At the exact values -/

/-- Entry (p, q) of a block product on the first axes: column p of the left block against column q of the right. -/
def dot3 (x0 : Vec Ideal S2048x1024 .bf16) (x1 : Vec Ideal S2048x1024 .bf16) (p q : Fin 1024) : EReal :=
  ∑ k : Fin 2048, x0 (ix2 k p) * x1 (ix2 k q)

/-- One step of the accumulation, at an entry. -/
theorem entry_step3 (cnd : Prop) [Decidable cnd] (z : Vec Ideal S1024x1024 .f32) (x0 : Vec Ideal S2048x1024 .bf16)
    (x1 : Vec Ideal S2048x1024 .bf16) (p q : Fin 1024) :
    k3_pay2 (F := Ideal) (if cnd then (k3_pay1 (F := Ideal) : Vec Ideal S1024x1024 .f32) else z) x0 x1 (ix2 p q)
      = (if cnd then 0 else z (ix2 p q)) + dot3 x0 x1 p q := by
  unfold dot3
  rw [pay2_apply_3]
  by_cases h : cnd
  · rw [if_pos h, if_pos h, pay1_apply_3]
  · rw [if_neg h, if_neg h]

/-- After the last step of a contraction, entry (p, q) of the accumulator is the whole sum: column 1024·i + p of the
    left array against column 1024·j + q of the right array. -/
theorem acc_entry3 (V : (c : Dev nD) → (b : Ref sig .tc) → Buf (Elt Ideal) ((c : Thread nD τ).loc b))
    (c : Dev nD) (A : S8192x8192.Idx → EReal) (B : S8192x8192.Idx → EReal) (hA : V c main_v22 = A) (hB : V c main_v32 = B)
    (n : ℕ) (hn : n < cfg3.N) (hlast : n % 4 + 1 = 4) (p q : Fin 1024) :
    accAt3 V c n hn (ix2 p q) = ∑ d : Fin 8192, A (ix2 d (row3 ⟨n, hn⟩ p)) * B (ix2 d (col3 ⟨n, hn⟩ q)) := by
  refine Cert.Acc.acc_last_below (M := EReal) (N := 8192) 4 2048 cfg3.N (by decide) rfl
    (fun n hn d => A (ix2 d (row3 ⟨n, hn⟩ p)) * B (ix2 d (col3 ⟨n, hn⟩ q)))
    (fun n h h0 => funext fun d => by rw [row3_pred n h h0, col3_pred n h h0])
    (fun n hn => dot3 (iblk3 V c 0 ⟨n, hn⟩) (iblk3 V c 1 ⟨n, hn⟩) p q)
    (fun n hn => accAt3 V c n hn (ix2 p q))
    (fun n h => ?hblk)
    (fun n h => (congrFun (accAt3_step V c ⟨n, h⟩) (ix2 p q)).trans
      (entry_step3 (n % 4 = 0) (accAt3 V c (n - 1) (Cert.Acc.pred_lt h)) (iblk3 V c 0 ⟨n, h⟩) (iblk3 V c 1 ⟨n, h⟩) p q))
    n hn hlast
  unfold dot3
  refine Finset.sum_congr rfl fun k _ => ?_
  rw [iblk3_0_apply, iblk3_1_apply, hA, hB]

end Cert.KernelIdeal.Val

end
-- ==== Proof.Val3.lean ====
/-
  Call 3: the array its output window ends holding is the scaled, biased product of its left array transposed with its
  right array.

  The output block is written back at the last point of each contraction only.  There the block's entry (p, q) is the
  accumulator's entry — the whole sum of column 1024·i + p of the left array against column 1024·j + q of the right
  array — times the scaling column's entry at row 1024·i + p, plus the bias row's entry at column 1024·j + q: entry
  (1024·i + p, 1024·j + q) of the product array.  The 8 × 8 blocks written back tile the 8192×8192 output.
-/
import proofs.«127015_j27917287424727_2_alg».proof.Proof.Val3Acc
import proofs.«127015_j27917287424727_2_alg».proof.Proof.Fused

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat)

variable {F : FTy → Type} [FloatOps F]

open Idealize.ShloMosaic.ValueIdx Cert.KernelIdeal.Pay

open scoped BigOperators

variable (V : (c : Dev nD) → (b : Ref sig .tc) → Buf (Elt Ideal) ((c : Thread nD τ).loc b))

/-- Entry (p, q) of the output block of point t sits at (row-block row, column-block column) of the output array. -/
theorem emb3_4 (t : Fin cfg3.N) (p q : Fin 1024) :
    (((cfg3.win 4).blk t).view.emb (ix2 p q) : S8192x8192.Idx) = ix2 (row3 t p) (col3 t q) := by
  obtain ⟨-, -, -, -, -, -, -, -, e0, e1⟩ := idx3 t
  funext a
  apply Fin.ext
  match a with
  | ⟨0, _⟩ => show win3_4.index t (0 : Fin 2) * 1024 + 1 * p.val = t.val / 32 * 1024 + p.val; rw [e0]; omega
  | ⟨1, _⟩ => show win3_4.index t (1 : Fin 2) * 1024 + 1 * q.val = t.val / 4 % 8 * 1024 + q.val; rw [e1]; omega

/-- The output block stored at a last point, at an entry: the product array's entry. -/
theorem out_entry3 (c : Dev nD) (t : Fin cfg3.N) (h1 : t.val % 4 = 3) (p q : Fin 1024) :
    k3_pay3 (F := Ideal) (accAt3 V c t.val t.isLt) (iblk3 V c 2 t) (iblk3 V c 3 t) (ix2 p q)
      = Gcn.fusedT (V c main_v22) (V c main_v32) (V c main_v21) (V c main_v29) (ix2 (row3 t p) (col3 t q)) := by
  rw [pay3_apply_3 (accAt3 V c t.val t.isLt) (iblk3 V c 2 t) (iblk3 V c 3 t) p q,
    acc_entry3 V c (V c main_v22) (V c main_v32) rfl rfl t.val t.isLt (by omega) p q,
    iblk3_2_apply, iblk3_3_apply, Gcn.fusedT_apply]

/-- What a last point writes back is its block of the product array. -/
theorem flushed_eq3 (c : Dev nD) (t : Fin cfg3.N) (hf : (cfg3.win 4).flush t = true) :
    (dat3 V c).flushed 4 t
      = ((cfg3.win 4).blk t).view.read (Elt Ideal) (Gcn.fusedT (V c main_v22) (V c main_v32) (V c main_v21) (V c main_v29)) := by
  have h1 : t.val % 4 = 3 := (flush3_4 t).mp hf
  show (cfg3.win 4).cut (grid3.coords t) ((dat3 V c).after 4 t) = _
  rw [after3_4, outAt3_last V c t h1]
  refine funext fun (j : S1024x1024.Idx) => ?_
  obtain ⟨p, q, rfl⟩ : ∃ (p q : Fin 1024), j = ix2 p q := ⟨j 0, j 1, eq_ix2 j⟩
  rw [View.read_apply, emb3_4]
  exact out_entry3 V c t h1 p q

/-- An index of the output array is in point t's block iff each coordinate is in the block's range on its axis. -/
theorem mem_blk3 (t : Fin cfg3.N) (i : S8192x8192.Idx) :
    i ∈ ((cfg3.win 4).blk t).view.set
      ↔ ∀ a : Fin 2, win3_4.index t a * S1024x1024.size a ≤ (i a).val ∧ (i a).val < win3_4.index t a * S1024x1024.size a + S1024x1024.size a := by
  show i ∈ ((View.whole main_v33).slice (win3_4.rect t)).set ↔ _
  rw [View.set_slice_whole, Rect.mem_set_unit]
  exact Iff.rfl

/-- Every index of the output array is in the block some last point writes back. -/
theorem cover3 (i : S8192x8192.Idx) :
    ∃ t : Fin cfg3.N, (cfg3.win 4).flush t = true ∧ i ∈ ((cfg3.win 4).blk t).view.set := by
  have hi0 : (i 0).val < 8192 := (i 0).isLt
  have hi1 : (i 1).val < 8192 := (i 1).isLt
  have hN : cfg3.N = 256 := N_3
  refine ⟨⟨(i 0).val / 1024 * 32 + (i 1).val / 1024 * 4 + 3, by omega⟩, (flush3_4 _).mpr (by show ((i 0).val / 1024 * 32 + (i 1).val / 1024 * 4 + 3) % 4 = 3; omega), ?_⟩
  rw [mem_blk3]
  obtain ⟨-, -, -, -, -, -, -, -, e0, e1⟩ := idx3 ⟨(i 0).val / 1024 * 32 + (i 1).val / 1024 * 4 + 3, by omega⟩
  intro a
  match a with
  | ⟨0, _⟩ =>
    show win3_4.index _ (0 : Fin 2) * 1024 ≤ (i 0).val ∧ (i 0).val < win3_4.index _ (0 : Fin 2) * 1024 + 1024
    rw [e0]; show ((i 0).val / 1024 * 32 + (i 1).val / 1024 * 4 + 3) / 32 * 1024 ≤ (i 0).val ∧ (i 0).val < ((i 0).val / 1024 * 32 + (i 1).val / 1024 * 4 + 3) / 32 * 1024 + 1024
    omega
  | ⟨1, _⟩ =>
    show win3_4.index _ (1 : Fin 2) * 1024 ≤ (i 1).val ∧ (i 1).val < win3_4.index _ (1 : Fin 2) * 1024 + 1024
    rw [e1]; show ((i 0).val / 1024 * 32 + (i 1).val / 1024 * 4 + 3) / 4 % 8 * 1024 ≤ (i 1).val ∧ (i 1).val < ((i 0).val / 1024 * 32 + (i 1).val / 1024 * 4 + 3) / 4 % 8 * 1024 + 1024
    omega

/-- The output array after the call is the product array. -/
theorem final3 (c : Dev nD) :
    (dat3 (F := Ideal) V c).arrAt 4 cfg3.N = Gcn.fusedT (V c main_v22) (V c main_v32) (V c main_v21) (V c main_v29) :=
  (dat3 V c).arrAt_eq_of_cover 4 (Gcn.fusedT (V c main_v22) (V c main_v32) (V c main_v21) (V c main_v29))
    (flushed_eq3 V c) cover3

end Cert.KernelIdeal.Val

end
-- ==== Proof.KRun.lean ====
/-
  The idealized kernel's run with its result named.

  The conditional run gives the result buffer as the host suffix applied to what call 3 leaves; what each call leaves in its
  output array is one fused product of the arrays it is entered with (the block sums over the contraction's grid axis are the
  whole sum); the arrays a call is entered with are the host prefix's adjacency, inverse-root-degree column, converted
  arguments and bias rows, or an earlier call's output. Chained, the result is the specification's function of the arguments.
-/
import proofs.«127015_j27917287424727_2_alg».proof.Proof.KFrame
import proofs.«127015_j27917287424727_2_alg».proof.Proof.KRunCond
import proofs.«127015_j27917287424727_2_alg».proof.Proof.KReads
import proofs.«127015_j27917287424727_2_alg».proof.Proof.Val0
import proofs.«127015_j27917287424727_2_alg».proof.Proof.Val1
import proofs.«127015_j27917287424727_2_alg».proof.Proof.Val2
import proofs.«127015_j27917287424727_2_alg».proof.Proof.Val3

set_option maxRecDepth 16384

noncomputable section

namespace Cert.KernelIdeal.KVal

open Cert.KernelIdeal Cert.KernelIdeal.Gen Cert.KernelIdeal.Hand Cert.KernelIdeal.KHost
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- Call 0 leaves rows of x against columns of W1, each row scaled by the inverse root degree. -/
theorem outs2 (c : Dev nD) : outs m 2 main_v30 c = Gcn.fused (V1 m c main_v23) (V1 m c main_v24) (V1 m c main_v21) (V1 m c main_v26) := by
  show U2 m c (Proc.devRef .tc main_v30) = _
  unfold U2
  rw [Function.update_self]
  exact Cert.KernelIdeal.Val.final0 (atTc (V1 m)) c

/-- Call 1 leaves the adjacency's columns against call 0's output, scaled, biased and clamped at zero. -/
theorem outs3 (c : Dev nD) : outs m 3 main_v31 c = Gcn.relu (Gcn.fusedT (V2 m (outs m) c main_v22) (V2 m (outs m) c main_v30) (V2 m (outs m) c main_v21) (V2 m (outs m) c main_v28)) := by
  rw [V2_eq]
  show U3 m c (Proc.devRef .tc main_v31) = _
  unfold U3
  rw [Function.update_self]
  exact Cert.KernelIdeal.Val.final1 (atTc (U2 m)) c

/-- Call 2 leaves rows of the hidden layer against columns of W2, scaled. -/
theorem outs4 (c : Dev nD) : outs m 4 main_v32 c = Gcn.fused (V3 m (outs m) c main_v31) (V3 m (outs m) c main_v25) (V3 m (outs m) c main_v21) (V3 m (outs m) c main_v27) := by
  rw [V3_eq]
  show U4 m c (Proc.devRef .tc main_v32) = _
  unfold U4
  rw [Function.update_self]
  exact Cert.KernelIdeal.Val.final2 (atTc (U3 m)) c

/-- Call 3 leaves the adjacency's columns against call 2's output, scaled and biased. -/
theorem outs5 (c : Dev nD) : outs m 5 main_v33 c = Gcn.fusedT (V4 m (outs m) c main_v22) (V4 m (outs m) c main_v32) (V4 m (outs m) c main_v21) (V4 m (outs m) c main_v29) := by
  rw [V4_eq]
  show U5 m c (Proc.devRef .tc main_v33) = _
  unfold U5
  rw [Function.update_self]
  exact Cert.KernelIdeal.Val.final3 (atTc (U4 m)) c

set_option backward.isDefEq.respectTransparency.types false in
/-- Every weakly fair execution of the idealized kernel terminates with its result at the specification's function of the
    argument arrays, and the arguments unchanged. -/
theorem krun (ρ : Dev nD → PrngReg) : θ_run defs (onTc (τ := τ) (main (F := Ideal))) ⟨m, fun _ => 0, ρ⟩ (fun r => ∀ c : Dev nD,
      r.2.mem ((c.tc : Thread nD τ).loc main_v45) = kernelSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (Cert.KernelIdeal.KReads.kout_eq m (outs m) c (outs2 m c) (outs3 m c) (outs4 m c) (outs5 m c)), (h c).2⟩)
    (Cert.KernelIdeal.KRun.run_cond m emb₁ () 𝒱₀ L lv (fun _ _ => rfl) ρ (outs m) (pdats m) 0 (fun _ => iprop(emp))
      (initOf (Pipeline.cells cfgs cellOf_inj) (Pipeline.launchToks cfgs cellOf_inj))
      (by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (fun _ => R)
      (by
        refine Pipeline.initEach L lv fun c => ?_
        iintro ⟨⟨-, HO, -, Hp, -⟩, -⟩
        imodintro
        isplitl [Hp]; · iexists _; iexact Hp
        iexists ∅; iexact HO)
      (fun c => by iintro ⟨-, HO⟩; iexact HO)
      (reg0 m) (fun _ => .rfl) (fun c => by rw [V2_eq]; exact .rfl)
      (reg1 m) (fun c => by rw [V2_eq]; exact .rfl) (fun c => by rw [V3_eq]; exact .rfl)
      (reg2 m) (fun c => by rw [V3_eq]; exact .rfl) (fun c => by rw [V4_eq]; exact .rfl)
      (reg3 m) (fun c => by rw [V4_eq]; exact .rfl) (fun c => by rw [V5_eq]; exact .rfl))

end Cert.KernelIdeal.KVal

end
-- ==== Proof.RefRead.lean ====
/-
  The reference's stages read at an entry, down to its own formula.

  The reference normalises the adjacency `A` (its stage `val_main_v18`) by the column `dinv` (its stage
  `val_main_v20`, the inverse square roots of `A`'s column sums): `B (r, c) = (dinv r * A (r, c)) * dinv c`, transposes
  `B`, and computes two layers, each the product of the transposed `B` with a feature product, plus a bias row; the
  first layer is clamped below at zero.  Here each layer is read at an entry `(c, q)` as that formula over `A`, `dinv` and
  the arguments; `A` and `dinv` stay the stages they are (they are never opened here).
-/
import proofs.«127015_j27917287424727_2_alg».proof.Proof.Gen.ReferenceIdeal.Read

noncomputable section

open scoped BigOperators

namespace Cert.ReferenceIdeal.RefRead

open Cert.ReferenceIdeal Cert.ReferenceIdeal.Read Idealize.ShloMosaic Idealize.ShloMosaic.ValueIdx

variable [Cert.ReferenceIdeal.Facts]

/-! ### The index maps of the layout operations and products, at an entry given by its coordinates -/

theorem idx21_22 (r c : Fin 8192) : idx_main_v21 (idx_main_v22 (ix2 r c)) = ix1 r :=
  funext fun a => Fin.ext (by match a with | ⟨0, _⟩ => rfl)
theorem idx24_25 (r c : Fin 8192) : idx_main_v24 (idx_main_v25 (ix2 r c)) = ix1 c :=
  funext fun a => Fin.ext (by match a with | ⟨0, _⟩ => rfl)
theorem idx27 (c r : Fin 8192) : idx_main_v27 (ix2 c r) = ix2 r c :=
  funext fun a => Fin.ext (by match a with | ⟨0, _⟩ => rfl | ⟨1, _⟩ => rfl)
theorem idx34 (c r : Fin 8192) : idx_main_v34 (ix2 c r) = ix2 r c :=
  funext fun a => Fin.ext (by match a with | ⟨0, _⟩ => rfl | ⟨1, _⟩ => rfl)
theorem lidx28 (r : Fin 8192) (q : Fin 4096) (s : Fin 8192) : lidx_main_v28 (ix2 r q) s = ix2 r s :=
  funext fun a => Fin.ext (by match a with | ⟨0, _⟩ => rfl | ⟨1, _⟩ => rfl)
theorem ridx28 (r : Fin 8192) (q : Fin 4096) (s : Fin 8192) : ridx_main_v28 (ix2 r q) s = ix2 s q :=
  funext fun a => Fin.ext (by match a with | ⟨0, _⟩ => rfl | ⟨1, _⟩ => rfl)
theorem lidx29 (c : Fin 8192) (q : Fin 4096) (r : Fin 8192) : lidx_main_v29 (ix2 c q) r = ix2 c r :=
  funext fun a => Fin.ext (by match a with | ⟨0, _⟩ => rfl | ⟨1, _⟩ => rfl)
theorem ridx29 (c : Fin 8192) (q : Fin 4096) (r : Fin 8192) : ridx_main_v29 (ix2 c q) r = ix2 r q :=
  funext fun a => Fin.ext (by match a with | ⟨0, _⟩ => rfl | ⟨1, _⟩ => rfl)
theorem idx30_31 (c : Fin 8192) (q : Fin 4096) : idx_main_v30 (idx_main_v31 (ix2 c q)) = ix1 q :=
  funext fun a => Fin.ext (by match a with | ⟨0, _⟩ => rfl)
theorem lidx35 (r j : Fin 8192) (k : Fin 4096) : lidx_main_v35 (ix2 r j) k = ix2 r k :=
  funext fun a => Fin.ext (by match a with | ⟨0, _⟩ => rfl | ⟨1, _⟩ => rfl)
theorem ridx35 (r j : Fin 8192) (k : Fin 4096) : ridx_main_v35 (ix2 r j) k = ix2 k j :=
  funext fun a => Fin.ext (by match a with | ⟨0, _⟩ => rfl | ⟨1, _⟩ => rfl)
theorem lidx36 (c j r : Fin 8192) : lidx_main_v36 (ix2 c j) r = ix2 c r :=
  funext fun a => Fin.ext (by match a with | ⟨0, _⟩ => rfl | ⟨1, _⟩ => rfl)
theorem ridx36 (c j r : Fin 8192) : ridx_main_v36 (ix2 c j) r = ix2 r j :=
  funext fun a => Fin.ext (by match a with | ⟨0, _⟩ => rfl | ⟨1, _⟩ => rfl)
theorem idx37_38 (c j : Fin 8192) : idx_main_v37 (idx_main_v38 (ix2 c j)) = ix1 j :=
  funext fun a => Fin.ext (by match a with | ⟨0, _⟩ => rfl)

/-! ### The normalised adjacency -/

/-- `B (r, c) = (dinv r * A (r, c)) * dinv c`. -/
theorem normAdj_apply (x0 : (⟨S8192x8192, .f32⟩ : BufTy).Contents (Elt Ideal)) (r c : Fin 8192) :
    val_main_v26 (F := Ideal) x0 (ix2 r c)
      = (val_main_v20 (F := Ideal) x0 (ix1 r) * val_main_v18 (F := Ideal) x0 (ix2 r c)) * val_main_v20 (F := Ideal) x0 (ix1 c) := by
  rw [val_main_v26_apply, val_main_v23_apply, val_main_v22_apply, val_main_v21_apply, val_main_v25_apply,
    val_main_v24_apply, idx21_22, idx24_25]
  rfl

/-- The first transposed copy: entry `(c, r)` is `B (r, c)`. -/
theorem normAdjT1_apply (x0 : (⟨S8192x8192, .f32⟩ : BufTy).Contents (Elt Ideal)) (c r : Fin 8192) :
    val_main_v27 (F := Ideal) x0 (ix2 c r)
      = (val_main_v20 (F := Ideal) x0 (ix1 r) * val_main_v18 (F := Ideal) x0 (ix2 r c)) * val_main_v20 (F := Ideal) x0 (ix1 c) := by
  rw [val_main_v27_apply, idx27, normAdj_apply]

/-- The second transposed copy: entry `(c, r)` is `B (r, c)`. -/
theorem normAdjT2_apply (x0 : (⟨S8192x8192, .f32⟩ : BufTy).Contents (Elt Ideal)) (c r : Fin 8192) :
    val_main_v34 (F := Ideal) x0 (ix2 c r)
      = (val_main_v20 (F := Ideal) x0 (ix1 r) * val_main_v18 (F := Ideal) x0 (ix2 r c)) * val_main_v20 (F := Ideal) x0 (ix1 c) := by
  rw [val_main_v34_apply, idx34, normAdj_apply]

/-! ### The first layer -/

/-- The first feature product: `(x · W1) (r, q) = ∑ s, x (r, s) * W1 (s, q)`. -/
theorem feat1_apply (x0 : (⟨S8192x8192, .f32⟩ : BufTy).Contents (Elt Ideal)) (x1 : (⟨S8192x4096, .f32⟩ : BufTy).Contents (Elt Ideal))
    (r : Fin 8192) (q : Fin 4096) :
    val_main_v28 (F := Ideal) x0 x1 (ix2 r q) = ∑ s : Fin 8192, x0 (ix2 r s) * x1 (ix2 s q) := by
  rw [val_main_v28_apply]
  exact Finset.sum_congr rfl fun s _ => by rw [lidx28, ridx28]

/-- The hidden layer at `(c, q)`: the aggregation of the first feature product, plus the bias, clamped at zero. -/
theorem hidden_apply (x0 : (⟨S8192x8192, .f32⟩ : BufTy).Contents (Elt Ideal)) (x1 : (⟨S8192x4096, .f32⟩ : BufTy).Contents (Elt Ideal))
    (x2 : (⟨S4096, .f32⟩ : BufTy).Contents (Elt Ideal)) (c : Fin 8192) (q : Fin 4096) :
    val_main_v33 (F := Ideal) x0 x1 x2 (ix2 c q)
      = max ((∑ r : Fin 8192, ((val_main_v20 (F := Ideal) x0 (ix1 r) * val_main_v18 (F := Ideal) x0 (ix2 r c))
                * val_main_v20 (F := Ideal) x0 (ix1 c)) * (∑ s : Fin 8192, x0 (ix2 r s) * x1 (ix2 s q))) + x2 (ix1 q)) 0 := by
  rw [val_main_v33_apply, val_main_v32_apply, val_main_v29_apply, val_main_v31_apply, val_main_v30_apply, idx30_31,
    val_main_call0_v0_apply, val_main_call0_cst_apply, Ideal.ofBits_def, Ideal.ofBits_zero_f32,
    Finset.sum_congr rfl fun r _ => by rw [lidx29, ridx29, normAdjT1_apply, feat1_apply]]
  rfl

/-! ### The second layer -/

/-- The second feature product: `(h · W2) (r, j) = ∑ k, h (r, k) * W2 (k, j)`. -/
theorem feat2_apply (x0 : (⟨S8192x8192, .f32⟩ : BufTy).Contents (Elt Ideal)) (x1 : (⟨S8192x4096, .f32⟩ : BufTy).Contents (Elt Ideal))
    (x2 : (⟨S4096, .f32⟩ : BufTy).Contents (Elt Ideal)) (x3 : (⟨S4096x8192, .f32⟩ : BufTy).Contents (Elt Ideal)) (r j : Fin 8192) :
    val_main_v35 (F := Ideal) x0 x1 x2 x3 (ix2 r j) = ∑ k : Fin 4096, val_main_v33 (F := Ideal) x0 x1 x2 (ix2 r k) * x3 (ix2 k j) := by
  rw [val_main_v35_apply]
  exact Finset.sum_congr rfl fun k _ => by rw [lidx35, ridx35]

/-- The array before the segment mean at `(c, j)`: the aggregation of the second feature product, plus the bias. -/
theorem out_apply (x0 : (⟨S8192x8192, .f32⟩ : BufTy).Contents (Elt Ideal)) (x1 : (⟨S8192x4096, .f32⟩ : BufTy).Contents (Elt Ideal))
    (x2 : (⟨S4096, .f32⟩ : BufTy).Contents (Elt Ideal)) (x3 : (⟨S4096x8192, .f32⟩ : BufTy).Contents (Elt Ideal))
    (x4 : (⟨S8192, .f32⟩ : BufTy).Contents (Elt Ideal)) (c j : Fin 8192) :
    val_main_v39 (F := Ideal) x0 x1 x2 x3 x4 (ix2 c j)
      = (∑ r : Fin 8192, ((val_main_v20 (F := Ideal) x0 (ix1 r) * val_main_v18 (F := Ideal) x0 (ix2 r c))
            * val_main_v20 (F := Ideal) x0 (ix1 c))
          * (∑ k : Fin 4096, val_main_v33 (F := Ideal) x0 x1 x2 (ix2 r k) * x3 (ix2 k j))) + x4 (ix1 j) := by
  rw [val_main_v39_apply, val_main_v36_apply, val_main_v38_apply, val_main_v37_apply, idx37_38,
    Finset.sum_congr rfl fun r _ => by rw [lidx36, ridx36, normAdjT2_apply, feat2_apply]]
  rfl

end Cert.ReferenceIdeal.RefRead

end
-- ==== Proof.LibScatterSet.lean ====
/-
  Reading a "set" scatter at one index.

  `Host.scatter d (fun _ b => b) x idx upd` is a left fold over all update positions in row-major
  order; each step overwrites the element at the position's result index (when it has one) by the
  update's element. Two facts about the value it leaves at a given result index `i`:
  it is the update's element at `k` when `k` is the ONLY update position landing at `i`,
  and it is the operand's element when no update position lands at `i`.
-/
import Idealize.ShloMosaic.PureOps.ShapeOps

namespace Cert.ScatterSet

open Idealize.ShloMosaic

variable {s si u : Shape} {α : Type} {w : Nat}

/-- One step of the fold behind `Host.scatter` with the body that returns the update: at update
    position `n` (in row-major numbering) the element at that position's result index, if it has
    one, is replaced by the update's element; every other element is kept. -/
def step (d : ScatterDims s si u) (idx : IVec si w) (upd : u.Idx → α) (r : s.Idx → α) (n : Fin u.numel) :
    s.Idx → α :=
  match d.resultIdx? (u.rowMajor.symm n) idx with
  | some i => fun i' => if i' = i then (fun (_ b : α) => b) (r i) (upd (u.rowMajor.symm n)) else r i'
  | none => r

/-- `Host.scatter` with the body that returns the update is the left fold of `step` over all
    update positions. -/
theorem scatter_eq_foldl (d : ScatterDims s si u) (x : s.Idx → α) (idx : IVec si w) (upd : u.Idx → α) :
    Host.scatter d (fun _ b => b) x idx upd = (List.finRange u.numel).foldl (step d idx upd) x := rfl

/-- A step at a position whose result index is not `i` leaves the element at `i` unchanged. -/
theorem step_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  generalize d.resultIdx? (u.rowMajor.symm n) idx = o at h
  cases o with
  | none => rfl
  | some i0 =>
    have hne : i ≠ i0 := fun e => h (by rw [e])
    simp [hne]

/-- A step at a position whose result index is `i` leaves the update's element at `i`. -/
theorem step_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  simp

/-- When no update position lands at `i`, folding the steps over any list of positions leaves the
    element at `i` as it was. -/
theorem foldl_miss (d : ScatterDims s si u) (idx : IVec si w) (upd : u.Idx → α) (i : s.Idx)
    (hno : ∀ k, d.resultIdx? k idx ≠ some i) (l : List (Fin u.numel)) (r : s.Idx → α) :
    l.foldl (step d idx upd) r i = r i := by
  induction l generalizing r with
  | nil => rfl
  | cons n l ih =>
    rw [List.foldl_cons, ih, step_of_ne d idx upd r n i (hno _)]

/-- When `k` is the only update position landing at `i`, folding the steps over a list of
    positions leaves at `i` the update's element at `k` if `k`'s row-major number is in the list,
    and the starting element otherwise. -/
theorem foldl_hit (d : ScatterDims s si u) (idx : IVec si w) (upd : u.Idx → α) (i : s.Idx) (k : u.Idx)
    (hk : d.resultIdx? k idx = some i) (huniq : ∀ k', d.resultIdx? k' idx = some i → k' = k)
    (l : List (Fin u.numel)) (r : s.Idx → α) :
    l.foldl (step d idx upd) r i = if u.rowMajor k ∈ l then upd k else r i := by
  induction l generalizing r with
  | nil => simp
  | cons n l ih =>
    rw [List.foldl_cons, ih]
    by_cases hn : n = u.rowMajor k
    · have hs : u.rowMajor.symm n = k := by rw [hn]; exact Equiv.symm_apply_apply _ _
      have h1 : step d idx upd r n i = upd k := by
        rw [step_of_eq d idx upd r n i (by rw [hs]; exact hk), hs]
      rw [h1]
      have hmem : u.rowMajor k ∈ n :: l := by rw [hn]; exact List.mem_cons_self ..
      rw [if_pos hmem]
      split <;> rfl
    · have hne : d.resultIdx? (u.rowMajor.symm n) idx ≠ some i := by
        intro e
        apply hn
        have := huniq _ e
        rw [← this]; exact (Equiv.apply_symm_apply _ _).symm
      rw [step_of_ne d idx upd r n i hne]
      have hiff : u.rowMajor k ∈ n :: l ↔ u.rowMajor k ∈ l := by
        rw [List.mem_cons]
        constructor
        · rintro (e | e)
          · exact absurd e.symm hn
          · exact e
        · exact Or.inr
      by_cases hm : u.rowMajor k ∈ l
      · rw [if_pos hm, if_pos (hiff.2 hm)]
      · rw [if_neg hm, if_neg (fun e => hm (hiff.1 e))]

/-- A "set" scatter read at a result index `i` that exactly one update position `k` lands at:
    the value is the update's element at `k`. -/
theorem scatter_set_hit (d : ScatterDims s si u) (x : s.Idx → α) (idx : IVec si w) (upd : u.Idx → α)
    (i : s.Idx) (k : u.Idx) (hk : d.resultIdx? k idx = some i)
    (huniq : ∀ k', d.resultIdx? k' idx = some i → k' = k) :
    Host.scatter d (fun _ b => b) x idx upd i = upd k := by
  rw [scatter_eq_foldl, foldl_hit d idx upd i k hk huniq, if_pos (List.mem_finRange _)]

/-- A "set" scatter read at a result index `i` that no update position lands at: the value is the
    operand's element at `i`. -/
theorem scatter_set_miss (d : ScatterDims s si u) (x : s.Idx → α) (idx : IVec si w) (upd : u.Idx → α)
    (i : s.Idx) (hno : ∀ k, d.resultIdx? k idx ≠ some i) :
    Host.scatter d (fun _ b => b) x idx upd i = x i := by
  rw [scatter_eq_foldl, foldl_miss d idx upd i hno]

end Cert.ScatterSet
-- ==== Proof.Algebra.lean ====
/-
  The algebra of one graph-convolution layer on the extended reals.

  With a 0/1 adjacency `A`, a column `d` of inverse square roots of the in-degrees, and a feature matrix `Z`, one
  layer aggregates, into node `c`, the messages `d r * A (r, c) * d c * Z (r, j)` over all nodes `r`, and adds a
  bias.  One arrangement normalises the adjacency first and then multiplies,
      `∑ r, ((d r * A (r, c)) * d c) * Z (r, j) + b j`,
  the other scales the rows of `Z` by `d`, multiplies by the bare adjacency and scales the result,
      `(∑ r, A (r, c) * (Z (r, j) * d r + 0)) * d c + b j`.
  On the extended reals multiplication does not distribute over addition at the infinities, so the two are
  equal only when every factor is a real number; that is the hypothesis here (`IsReal`), and each layer's result is
  again real (so a second layer may follow the first), also after clamping below at zero.
-/
import Idealize.ShloMosaic.PureOps.Ideal

noncomputable section

open scoped BigOperators

namespace Gcn.Algebra

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- Clamping a real below at zero gives a real. -/
theorem IsReal.max_zero {x : EReal} (hx : IsReal x) : IsReal (max x 0) := by
  obtain ⟨a, rfl⟩ := hx
  rcases le_total (a : EReal) 0 with h | h
  · rw [max_eq_right h]; exact isReal_zero
  · rw [max_eq_left h]; exact ⟨a, rfl⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem isReal_sum {ι : Type*} (s : Finset ι) (f : ι → EReal) (hf : ∀ i, IsReal (f i)) :
    IsReal (∑ i ∈ s, f i) := by
  choose g hg using hf
  exact ⟨∑ i ∈ s, g i, by rw [coe_sum]; exact Finset.sum_congr rfl fun i _ => hg i⟩

/-- A row against a column, scaled, plus a bias: real when every entry is. -/
theorem isReal_fused {ι : Type*} [Fintype ι] (a z : ι → EReal) (d b : EReal)
    (ha : ∀ k, IsReal (a k)) (hz : ∀ k, IsReal (z k)) (hd : IsReal d) (hb : IsReal b) :
    IsReal ((∑ k, a k * z k) * d + b) :=
  ((isReal_sum _ _ fun k => (ha k).mul (hz k)).mul hd).add hb

/-- The layer identity at one entry: `a r` is the adjacency's column, `d r` the scaling column, `z r` the feature
    column, `dc` the scaling of the target node. -/
theorem layer {ι : Type*} [Fintype ι] (a d z : ι → EReal) (dc b : EReal)
    (ha : ∀ r, IsReal (a r)) (hd : ∀ r, IsReal (d r)) (hz : ∀ r, IsReal (z r)) (hdc : IsReal dc) :
    ∑ r, ((d r * a r) * dc) * z r + b = (∑ r, a r * (z r * d r + 0)) * dc + b := by
  choose a' ha' using ha
  choose d' hd' using hd
  choose z' hz' using hz
  obtain ⟨dc', rfl⟩ := hdc
  congr 1
  have e1 : ∀ r, ((d r * a r) * (dc' : EReal)) * z r = ((d' r * a' r * dc' * z' r : ℝ) : EReal) := fun r => by
    rw [ha', hd', hz', EReal.coe_mul, EReal.coe_mul, EReal.coe_mul]
  have e2 : ∀ r, a r * (z r * d r + 0) = ((a' r * (z' r * d' r) : ℝ) : EReal) := fun r => by
    rw [ha', hd', hz', add_zero, EReal.coe_mul, EReal.coe_mul]
  rw [Finset.sum_congr rfl fun r _ => e1 r, Finset.sum_congr rfl fun r _ => e2 r, ← coe_sum, ← coe_sum,
    ← EReal.coe_mul, Finset.sum_mul]
  exact congrArg _ (Finset.sum_congr rfl fun r _ => by ring)

end Gcn.Algebra

end
-- ==== Proof.AdjFacts.lean ====
/-
  Facts about the adjacency and its scaling column, on the reference's own stages.

  The adjacency `A` (the stage `val_main_v18`) is the 0/1 pattern of the nonzero entries of `x` into which a "set"
  scatter writes a one at each pair `(i, i)`: the pairs are the rows of an index array whose two columns are the
  iota (wrapped as a negative index would be; no entry of an iota is negative).  So every entry of `A` is zero or one,
  and every diagonal entry is one.  A column sum of `A` is then a real number at least one, and its inverse square
  root (the stage `val_main_v20`) is a real number.
-/
import proofs.«127015_j27917287424727_2_alg».proof.Proof.Gen.ReferenceIdeal.Read
import proofs.«127015_j27917287424727_2_alg».proof.Proof.LibScatterSet
import proofs.«127015_j27917287424727_2_alg».proof.Proof.Algebra
import Idealize.ShloMosaic.Lib.DynamicIndex
import Idealize.ShloMosaic.Lib.Affine

noncomputable section

open scoped BigOperators

namespace Cert.ReferenceIdeal.AdjFacts

open Cert.ReferenceIdeal Cert.ReferenceIdeal.Read Idealize.ShloMosaic Idealize.ShloMosaic.ValueIdx Gcn.Algebra

/-! ### A "set" scatter keeps a property that the operand and the update both have -/

/-- Every entry of a "set" scatter's result is an entry of the operand or of the update: a property of all of
    those is a property of every entry of the result. -/
theorem scatter_set_all {s si u : Shape} {α : Type} {w : Nat} (d : ScatterDims s si u) (x : s.Idx → α) (idx : IVec si w)
    (upd : u.Idx → α) (P : α → Prop) (hx : ∀ i, P (x i)) (hu : ∀ k, P (upd k)) (i : s.Idx) :
    P (Host.scatter d (fun _ b => b) x idx upd i) := by
  rw [Cert.ScatterSet.scatter_eq_foldl]
  have key : ∀ (l : List (Fin u.numel)) (r : s.Idx → α), (∀ i, P (r i)) →
      ∀ i, P (l.foldl (Cert.ScatterSet.step d idx upd) r i) := by
    intro l
    induction l with
    | nil => intro r hr i; exact hr i
    | cons n l ih =>
      intro r hr i
      rw [List.foldl_cons]
      refine ih _ (fun i' => ?_) i
      by_cases h : d.resultIdx? (u.rowMajor.symm n) idx = some i'
      · rw [Cert.ScatterSet.step_of_eq d idx upd r n i' h]; exact hu _
      · rw [Cert.ScatterSet.step_of_ne d idx upd r n i' h]; exact hr i'
  exact key _ x hx i

variable [Cert.ReferenceIdeal.Facts]

/-! ### Where the scatter's updates land: update `p` at the index pair in row `p` of the index array -/

local notation "dd" => scatter_S8192x8192_S8192x2_S8192_n_01_01_1

/-- Both operand axes are inserted: no operand axis is a window axis. -/
theorem sKept_nil : (dd).sKept = [] := by decide

theorem window_zero (j : S8192.Idx) (a : Fin 2) : (dd).window j a = 0 := by
  unfold ScatterDims.window
  rw [dif_neg (by rw [sKept_nil]; exact List.not_mem_nil)]

/-- Update `p` reads component `c` of its start index at `(p, c)` of the index array. -/
theorem siIdx_eq (p : Fin 8192) (c : Fin (dd).scatterDimsToOperandDims.length) :
    (dd).siIdx (ix1 p) c = ix2 p (⟨c.val, c.isLt⟩ : Fin 2) := by
  funext b
  apply Fin.ext
  match b with
  | ⟨0, hb⟩ =>
    have h : ¬ ((⟨0, hb⟩ : Fin S8192x2.rank).val = (dd).indexVectorDim) := by show ¬ ((0 : Nat) = 1); decide
    unfold ScatterDims.siIdx
    rw [dif_neg h]
    rfl
  | ⟨1, hb⟩ =>
    have h : (⟨1, hb⟩ : Fin S8192x2.rank).val = (dd).indexVectorDim := rfl
    unfold ScatterDims.siIdx
    rw [dif_pos h]

theorem start_eq (p : Fin 8192) (idx : IVec S8192x2 32) (a : Fin 2) :
    (dd).start (ix1 p) idx a = (idx (ix2 p a)).toInt := by
  unfold ScatterDims.start
  match a with
  | ⟨0, _⟩ =>
    rw [dif_pos (show (⟨0, by decide⟩ : Fin S8192x8192.rank) ∈ (dd).scatterDimsToOperandDims by decide), siIdx_eq]
    rfl
  | ⟨1, _⟩ =>
    rw [dif_pos (show (⟨1, by decide⟩ : Fin S8192x8192.rank) ∈ (dd).scatterDimsToOperandDims by decide), siIdx_eq]
    rfl

/-- With an index array whose row `p` is `(p, p)`, update `p` lands at `(p, p)`. -/
theorem resultIdx_diag (idx : IVec S8192x2 32) (hidx : ∀ (p : Fin 8192) (a : Fin 2), (idx (ix2 p a)).toInt = (p.val : Int))
    (p : Fin 8192) : (dd).resultIdx? (ix1 p) idx = some (ix2 p p) := by
  have hs : ∀ a : Fin 2, (dd).start (ix1 p) idx a + (dd).window (ix1 p) a = (p.val : Int) := fun a => by
    rw [start_eq, window_zero, hidx]; simp
  have hp := p.isLt
  unfold ScatterDims.resultIdx?
  rw [dif_pos (fun a => by
    rw [hs a]
    match a with
    | ⟨0, _⟩ => exact ⟨by omega, by show (p.val : Int) < 8192; omega⟩
    | ⟨1, _⟩ => exact ⟨by omega, by show (p.val : Int) < 8192; omega⟩)]
  refine congrArg some (funext fun a => Fin.ext ?_)
  show ((dd).start (ix1 p) idx a + (dd).window (ix1 p) a).toNat = _
  rw [hs a]
  match a with
  | ⟨0, _⟩ => rfl
  | ⟨1, _⟩ => rfl

/-! ### The index array: row `p` is `(p, p)` -/

/-- A select on "negative, read signed" of a number below `2 ^ 31` is the number. -/
theorem wrap_small (p : Nat) (hp : p < 2 ^ 31) (y : BitVec 32) :
    Scalar.select (IntOp.cmpi .slt (BitVec.ofNat 32 p) 0#32) y (BitVec.ofNat 32 p) = BitVec.ofNat 32 p := by
  have h0 : IntOp.cmpi .slt (BitVec.ofNat 32 p) 0#32 = 0#1 := eq_zero_of_ne_one fun h => by
    have := IntOp.cmpi_slt.1 h
    rw [toInt_ofNat_of_lt hp] at this
    simp at this
    omega
  rw [h0, select_zero]

theorem v8_apply (p : Fin 8192) : val_main_v8 (F := Ideal) (ix1 p) = BitVec.ofNat 32 p.val := by
  rw [val_main_v8_apply, val_main_v5_apply, val_main_v3_apply, val_main_v4_apply, val_main_c_apply]
  exact wrap_small p.val (by have := p.isLt; omega) _

theorem v13_apply (p : Fin 8192) : val_main_v13 (F := Ideal) (ix1 p) = BitVec.ofNat 32 p.val := by
  rw [val_main_v13_apply, val_main_v10_apply, val_main_v3_apply, val_main_v9_apply, val_main_c_1_apply]
  exact wrap_small p.val (by have := p.isLt; omega) _

theorem v16_apply0 (p : Fin 8192) : val_main_v16 (F := Ideal) (ix2 p (0 : Fin 2)) = BitVec.ofNat 32 p.val := by
  unfold val_main_v16
  refine (concatenate_pair_apply_left (t := S8192x2) (s₁ := S8192x1) (s₂ := S8192x1) (1 : Fin 2) _ _ _
    (ix2 p (0 : Fin 2)) rfl (ix2 p (0 : Fin 1)) (fun b => ?_)).trans ?_
  · match b with | ⟨0, _⟩ => rfl | ⟨1, _⟩ => rfl
  · rw [val_main_v14_apply]
    exact v8_apply p

theorem v16_apply1 (p : Fin 8192) : val_main_v16 (F := Ideal) (ix2 p (1 : Fin 2)) = BitVec.ofNat 32 p.val := by
  unfold val_main_v16
  refine (concatenate_pair_apply_right (t := S8192x2) (s₁ := S8192x1) (s₂ := S8192x1) (1 : Fin 2) _ _ _
    (ix2 p (1 : Fin 2)) rfl rfl (ix2 p (0 : Fin 1)) (fun b hb => ?_) rfl).trans ?_
  · match b with | ⟨0, _⟩ => rfl | ⟨1, _⟩ => exact absurd rfl hb
  · rw [val_main_v15_apply]
    exact v13_apply p

theorem v16_toInt (p : Fin 8192) (a : Fin 2) : (val_main_v16 (F := Ideal) (ix2 p a)).toInt = (p.val : Int) := by
  have hp : p.val < 2 ^ 31 := by have := p.isLt; omega
  match a with
  | ⟨0, _⟩ => exact (congrArg BitVec.toInt (v16_apply0 p)).trans (toInt_ofNat_of_lt hp)
  | ⟨1, _⟩ => exact (congrArg BitVec.toInt (v16_apply1 p)).trans (toInt_ofNat_of_lt hp)

/-! ### The adjacency -/

/-- The word `0x3F800000` is one. -/
theorem one_word : Ideal.ofBits .f32 0x3F800000#32 = 1 := by
  simp [Ideal.ofBits, Ideal.ieee, -EReal.coe_mul]; norm_num

/-- Every update is one. -/
theorem ones_apply (k : S8192.Idx) : val_main_v17 (F := Ideal) k = 1 := by
  rw [val_main_v17_apply, val_main_cst_3_apply, Ideal.ofBits_def, one_word]

/-- The nonzero pattern of `x`: every entry is zero or one. -/
theorem pattern_entry (x0 : (⟨S8192x8192, .f32⟩ : BufTy).Contents (Elt Ideal)) (i : S8192x8192.Idx) :
    val_main_v2 (F := Ideal) x0 i = 0 ∨ val_main_v2 (F := Ideal) x0 i = 1 := by
  rw [val_main_v2_apply]
  generalize val_main_v1 (F := Ideal) x0 i = b
  show (((b.toNat : ℝ) : EReal) = 0) ∨ (((b.toNat : ℝ) : EReal) = 1)
  rcases BitVec.eq_zero_or_eq_one b with h | h
  · left; subst h; simp
  · right; subst h; simp

/-- Every entry of the adjacency is zero or one. -/
theorem adj_entry (x0 : (⟨S8192x8192, .f32⟩ : BufTy).Contents (Elt Ideal)) (i : S8192x8192.Idx) :
    val_main_v18 (F := Ideal) x0 i = 0 ∨ val_main_v18 (F := Ideal) x0 i = 1 := by
  unfold val_main_v18
  exact scatter_set_all _ _ _ _ (fun v => v = 0 ∨ v = 1) (pattern_entry x0) (fun k => Or.inr (ones_apply k)) i

/-- Every diagonal entry of the adjacency is one. -/
theorem adj_diag (x0 : (⟨S8192x8192, .f32⟩ : BufTy).Contents (Elt Ideal)) (p : Fin 8192) :
    val_main_v18 (F := Ideal) x0 (ix2 p p) = 1 := by
  unfold val_main_v18
  rw [Cert.ScatterSet.scatter_set_hit _ _ _ _ (ix2 p p) (ix1 p) (resultIdx_diag _ v16_toInt p) (fun k' hk' => by
    obtain ⟨q, rfl⟩ : ∃ q : Fin 8192, k' = ix1 q := ⟨k' 0, eq_ix1 k'⟩
    rw [resultIdx_diag _ v16_toInt q] at hk'
    have e : q = p := congrFun (Option.some.inj hk') 0
    rw [e])]
  exact ones_apply _

/-- Every entry of the adjacency is a real number. -/
theorem adj_real (x0 : (⟨S8192x8192, .f32⟩ : BufTy).Contents (Elt Ideal)) (i : S8192x8192.Idx) :
    IsReal (val_main_v18 (F := Ideal) x0 i) := by
  rcases adj_entry x0 i with h | h <;> rw [h]
  exacts [isReal_zero, isReal_one]

/-! ### The column sums and the scaling column -/

theorem idx19 (c k : Fin 8192) : idx_main_v19 (ix1 c) k = ix2 k c :=
  funext fun a => Fin.ext (by match a with | ⟨0, _⟩ => rfl | ⟨1, _⟩ => rfl)

/-- A column sum of the adjacency is a real number at least one. -/
theorem colsum_real (x0 : (⟨S8192x8192, .f32⟩ : BufTy).Contents (Elt Ideal)) (c : Fin 8192) :
    ∃ S : ℝ, 1 ≤ S ∧ val_main_v19 (F := Ideal) x0 (ix1 c) = (S : EReal) := by
  have hA : ∀ k : Fin 8192, ∃ a : ℝ, 0 ≤ a ∧ val_main_v18 (F := Ideal) x0 (ix2 k c) = (a : EReal) := fun k =>
    (adj_entry x0 (ix2 k c)).elim (fun h => ⟨0, le_refl _, by rw [h]; rfl⟩) (fun h => ⟨1, zero_le_one, by rw [h]; rfl⟩)
  choose a ha0 ha using hA
  refine ⟨∑ k, a k, ?_, ?_⟩
  · have h1 : a c = 1 := by
      have := ha c
      rw [adj_diag] at this
      exact EReal.coe_eq_one.1 this.symm
    calc (1 : ℝ) = a c := h1.symm
      _ ≤ ∑ k, a k := Finset.single_le_sum (fun k _ => ha0 k) (Finset.mem_univ c)
  · rw [val_main_v19_apply, val_main_cst_4_apply, Ideal.ofBits_def, Ideal.ofBits_zero_f32, zero_add, coe_sum]
    exact Finset.sum_congr rfl fun k _ => by rw [idx19]; exact ha k

/-- Every entry of the scaling column is a real number. -/
theorem dinv_real (x0 : (⟨S8192x8192, .f32⟩ : BufTy).Contents (Elt Ideal)) (c : Fin 8192) :
    IsReal (val_main_v20 (F := Ideal) x0 (ix1 c)) := by
  obtain ⟨S, hS, e⟩ := colsum_real x0 c
  rw [val_main_v20_apply, e, Ideal.hostUnary_rsqrt_def, Ideal.rsqrt_coe, if_neg (by linarith), if_neg (by linarith)]
  exact ⟨_, rfl⟩

end Cert.ReferenceIdeal.AdjFacts

end
-- ==== Proof.RefBridge.lean ====
/-
  The reference computes the kernel's specification.

  Both programs form the same adjacency `A`, the same scaling column `dinv` and the same segment mean by the same host
  operations; they differ in how a layer is arranged.  The reference normalises first,
  `out (c, j) = ∑ r, ((dinv r * A (r, c)) * dinv c) * Z (r, j) + b j`, the kernel's specification scales the rows of
  `Z`, multiplies by the bare adjacency and scales the result, `(∑ r, A (r, c) * (Z (r, j) * dinv r + 0)) * dinv c + b j`.
  With every entry of the arguments a real number, `A` is a 0/1 matrix and `dinv` is real, so the two arrangements
  agree (the layer identity), the first layer's result is again real, and the second layer agrees too.
-/
import proofs.«127015_j27917287424727_2_alg».proof.Proof.RefRead
import proofs.«127015_j27917287424727_2_alg».proof.Proof.AdjFacts
import proofs.«127015_j27917287424727_2_alg».proof.Proof.Algebra
import proofs.«127015_j27917287424727_2_alg».proof.Proof.KHost
import proofs.«127015_j27917287424727_2_alg».proof.Proof.LibColumn
import proofs.«127015_j27917287424727_2_alg».proof.Proof.LibRowBias

noncomputable section

open scoped BigOperators

namespace Cert.ReferenceIdeal.RefBridge

open Idealize.ShloMosaic Idealize.ShloMosaic.ValueIdx Gcn Gcn.Algebra Cert.KernelIdeal.KHost

/-! ### One layer, in the two arrangements -/

/-- The layer identity at the entry `(c, j)`: the normalised aggregation of the product `Zin · W` plus the bias is the
    fused transposed product of `A` with the fused product of `Zin` and `W`.  The scaling is given both as a vector
    (`dvec`) and as a column (`dcol`), the bias both as a vector and as a row. -/
theorem layer_eq {n K N : Nat} (A : Arr n n) (dvec : (⟨1, ![n]⟩ : Shape).Idx → EReal) (dcol : Arr n 1) (Zin : Arr n K)
    (W : Arr K N) (zero : Arr 1 N) (bvec : (⟨1, ![N]⟩ : Shape).Idx → EReal) (brow : Arr 1 N)
    (hdc : ∀ r : Fin n, dcol (ix2 r (0 : Fin 1)) = dvec (ix1 r)) (hzero : ∀ q : Fin N, zero (ix2 (0 : Fin 1) q) = 0)
    (hb : ∀ q : Fin N, brow (ix2 (0 : Fin 1) q) = bvec (ix1 q))
    (hA : ∀ i, IsReal (A i)) (hd : ∀ r : Fin n, IsReal (dvec (ix1 r))) (hZ : ∀ i, IsReal (Zin i)) (hW : ∀ i, IsReal (W i))
    (c : Fin n) (j : Fin N) :
    (∑ r : Fin n, ((dvec (ix1 r) * A (ix2 r c)) * dvec (ix1 c)) * (∑ k : Fin K, Zin (ix2 r k) * W (ix2 k j))) + bvec (ix1 j)
      = fusedT A (fused Zin W dcol zero) dcol brow (ix2 c j) := by
  rw [fusedT_apply, hdc, hb]
  simp only [fused_apply, hdc, hzero]
  exact layer (fun r => A (ix2 r c)) (fun r => dvec (ix1 r)) (fun r => ∑ k : Fin K, Zin (ix2 r k) * W (ix2 k j))
    (dvec (ix1 c)) (bvec (ix1 j)) (fun r => hA _) hd (fun r => isReal_sum _ _ fun k => (hZ _).mul (hW _)) (hd c)

/-- Every entry of a fused product of real arrays is real. -/
theorem isReal_fused_entry {M K N : Nat} (a : Arr M K) (b : Arr K N) (d : Arr M 1) (bias : Arr 1 N)
    (ha : ∀ i, IsReal (a i)) (hb : ∀ i, IsReal (b i)) (hd : ∀ i, IsReal (d i)) (hbias : ∀ i, IsReal (bias i))
    (i : (⟨2, ![M, N]⟩ : Shape).Idx) : IsReal (fused a b d bias i) :=
  isReal_fused _ _ _ _ (fun _ => ha _) (fun _ => hb _) (hd _) (hbias _)

/-- Every entry of a fused transposed product of real arrays is real. -/
theorem isReal_fusedT_entry {M K N : Nat} (a : Arr K M) (b : Arr K N) (d : Arr M 1) (bias : Arr 1 N)
    (ha : ∀ i, IsReal (a i)) (hb : ∀ i, IsReal (b i)) (hd : ∀ i, IsReal (d i)) (hbias : ∀ i, IsReal (bias i))
    (i : (⟨2, ![M, N]⟩ : Shape).Idx) : IsReal (fusedT a b d bias i) :=
  isReal_fused _ _ _ _ (fun _ => ha _) (fun _ => hb _) (hd _) (hbias _)

variable [Cert.ReferenceIdeal.Facts] [Cert.KernelIdeal.Facts]

/-! ### The shared host chains: the two programs' terms are the same terms -/

/-- The reference's adjacency stage is the kernel's adjacency. -/
theorem adj_eq (x : FArr Cert.KernelIdeal.S8192x8192) :
    Cert.ReferenceIdeal.Read.val_main_v18 (F := Ideal) x = adj x := rfl

/-- The kernel's scaling column is the reference's scaling vector recast as a column. -/
theorem dinv_eq (x : FArr Cert.KernelIdeal.S8192x8192) :
    dinvCol x = shapeCast Cert.KernelIdeal.S8192x1 (Cert.ReferenceIdeal.Read.val_main_v20 (F := Ideal) x)
      Cert.KernelIdeal.Facts₀.shapeCasts_S8192_S8192x1 := rfl

/-- The reference's result is the kernel's segment mean of the reference's array before it. -/
theorem tail_eq (x0 : FArr Cert.KernelIdeal.S8192x8192) (x1 : FArr Cert.KernelIdeal.S8192x4096)
    (x2 : FArr Cert.KernelIdeal.S4096) (x3 : FArr Cert.KernelIdeal.S4096x8192) (x4 : FArr Cert.KernelIdeal.S8192)
    (x5 : IArr Cert.KernelIdeal.S8192) :
    Cert.ReferenceIdeal.Read.val_main_v51 (F := Ideal) x0 x1 x2 x3 x4 x5
      = tail (Cert.ReferenceIdeal.Read.val_main_v39 (F := Ideal) x0 x1 x2 x3 x4) x5 := rfl

/-! ### The kernel's host values at an entry -/

/-- The scaling column at `(p, u)` is the scaling vector at `p`. -/
theorem dinvCol_apply (x : FArr Cert.KernelIdeal.S8192x8192) (p : Fin 8192) (u : Fin 1) :
    dinvCol x (ix2 p u) = Cert.ReferenceIdeal.Read.val_main_v20 (F := Ideal) x (ix1 p) := by
  rw [dinv_eq]
  exact Cert.Column.shapeCast_a_a1_apply _ _ p u

theorem zeroRowH_apply (i : Cert.KernelIdeal.S1x4096.Idx) : zeroRowH i = 0 := Ideal.ofBits_zero_f32
theorem zeroRowN_apply (i : Cert.KernelIdeal.S1x8192.Idx) : zeroRowN i = 0 := Ideal.ofBits_zero_f32

theorem rowH_apply (b : FArr Cert.KernelIdeal.S4096) (q : Fin 4096) : rowH b (ix2 (0 : Fin 1) q) = b (ix1 q) :=
  Cert.RowBias.asRow_apply b _ q
theorem rowN_apply (b : FArr Cert.KernelIdeal.S8192) (q : Fin 8192) : rowN b (ix2 (0 : Fin 1) q) = b (ix1 q) :=
  Cert.RowBias.asRow_apply b _ q

/-! ### The kernel's host values are real -/

/-- Every entry of the kernel's adjacency is zero or one. -/
theorem adj_entry (x : FArr Cert.KernelIdeal.S8192x8192) (i : Cert.KernelIdeal.S8192x8192.Idx) : adj x i = 0 ∨ adj x i = 1 := by
  rw [← adj_eq]; exact Cert.ReferenceIdeal.AdjFacts.adj_entry x i

/-- Every diagonal entry of the kernel's adjacency is one. -/
theorem adj_diag (x : FArr Cert.KernelIdeal.S8192x8192) (p : Fin 8192) : adj x (ix2 p p) = 1 := by
  rw [← adj_eq]; exact Cert.ReferenceIdeal.AdjFacts.adj_diag x p

theorem adj_real (x : FArr Cert.KernelIdeal.S8192x8192) (i : Cert.KernelIdeal.S8192x8192.Idx) : IsReal (adj x i) := by
  rw [← adj_eq]; exact Cert.ReferenceIdeal.AdjFacts.adj_real x i

/-- Every entry of the kernel's scaling column is a real number. -/
theorem dinvCol_real (x : FArr Cert.KernelIdeal.S8192x8192) (i : Cert.KernelIdeal.S8192x1.Idx) : IsReal (dinvCol x i) := by
  obtain ⟨p, u, rfl⟩ : ∃ (p : Fin 8192) (u : Fin 1), i = ix2 p u := ⟨i 0, i 1, eq_ix2 i⟩
  rw [dinvCol_apply]; exact Cert.ReferenceIdeal.AdjFacts.dinv_real x p

theorem rowH_real (b : FArr Cert.KernelIdeal.S4096) (hb : ∀ i, IsReal (b i)) (i : Cert.KernelIdeal.S1x4096.Idx) :
    IsReal (rowH b i) := by
  obtain ⟨u, q, rfl⟩ : ∃ (u : Fin 1) (q : Fin 4096), i = ix2 u q := ⟨i 0, i 1, eq_ix2 i⟩
  obtain rfl : u = 0 := Subsingleton.elim _ _
  rw [rowH_apply]; exact hb _

/-! ### The reference is the specification -/

/-- With every entry of the five float arguments a real number, the reference's result is the kernel's specification. -/
theorem ref_eq_kernelSpec (x : FArr Cert.KernelIdeal.S8192x8192) (W1 : FArr Cert.KernelIdeal.S8192x4096)
    (b1 : FArr Cert.KernelIdeal.S4096) (W2 : FArr Cert.KernelIdeal.S4096x8192) (b2 : FArr Cert.KernelIdeal.S8192)
    (batch : IArr Cert.KernelIdeal.S8192)
    (hx : ∀ i, ∃ r : ℝ, x i = (r : EReal)) (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) :
    Cert.ReferenceIdeal.Read.val_main_v51 (F := Ideal) x W1 b1 W2 b2 batch = kernelSpec x W1 b1 W2 b2 batch := by
  have hd : ∀ r : Fin 8192, IsReal (Cert.ReferenceIdeal.Read.val_main_v20 (F := Ideal) x (ix1 r)) :=
    Cert.ReferenceIdeal.AdjFacts.dinv_real x
  -- the first layer, entry by entry
  have hidden_eq : ∀ (r : Fin 8192) (k : Fin 4096), Cert.ReferenceIdeal.Read.val_main_v33 (F := Ideal) x W1 b1 (ix2 r k)
      = relu (fusedT (adj x) (fused x W1 (dinvCol x) zeroRowH) (dinvCol x) (rowH b1)) (ix2 r k) := fun r k => by
    rw [Cert.ReferenceIdeal.RefRead.hidden_apply, relu_apply, adj_eq]
    exact congrArg (max · 0) (layer_eq (adj x) (Cert.ReferenceIdeal.Read.val_main_v20 (F := Ideal) x) (dinvCol x) x W1 zeroRowH
      b1 (rowH b1) (fun p => dinvCol_apply x p 0) (fun q => zeroRowH_apply _) (rowH_apply b1) (adj_real x) hd hx hW1 r k)
  -- the first layer's result is real
  have hh : ∀ i, IsReal (relu (fusedT (adj x) (fused x W1 (dinvCol x) zeroRowH) (dinvCol x) (rowH b1)) i) := fun i =>
    (isReal_fusedT_entry _ _ _ _ (adj_real x)
      (isReal_fused_entry _ _ _ _ hx hW1 (dinvCol_real x) (fun i => by rw [zeroRowH_apply]; exact isReal_zero))
      (dinvCol_real x) (rowH_real b1 hb1) i).max_zero
  rw [tail_eq]
  unfold kernelSpec
  refine congrArg (fun o => tail o batch) (funext fun i => ?_)
  obtain ⟨c, j, rfl⟩ : ∃ (c j : Fin 8192), i = ix2 c j := ⟨i 0, i 1, eq_ix2 i⟩
  rw [Cert.ReferenceIdeal.RefRead.out_apply, adj_eq]
  simp only [hidden_eq]
  exact layer_eq (adj x) (Cert.ReferenceIdeal.Read.val_main_v20 (F := Ideal) x) (dinvCol x) _ W2 zeroRowN
    b2 (rowN b2) (fun p => dinvCol_apply x p 0) (fun q => zeroRowN_apply _) (rowN_apply b2) (adj_real x) hd hh hW2 c j

end Cert.ReferenceIdeal.RefBridge

end
-- ==== Proof.Finite.lean ====
/-
  Finiteness of the inputs, read back from the precondition.

  The precondition says of each of the five float arguments that `|x| < +∞` holds at every entry (one comparison per
  entry, all of them folded by `and` into one bit, the five bits folded again).  On the extended reals `|x| < +∞` says
  exactly that `x` is a real number: `|⊥| = |⊤| = ⊤`.  So under the precondition every entry of every float argument is
  a real.
-/
import proofs.«127015_j27917287424727_2_alg».proof.Defs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The word `0x7F800000` is `+∞`. -/
theorem inf_word : Ideal.ofBits .f32 0x7F800000#32 = ⊤ := by simp [Ideal.ofBits, Ideal.ieee]

/-- `|x| < +∞` on the extended reals: `x` is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => exact absurd hlt (by simp)
  | coe r => exact ⟨r, rfl⟩
  | top => exact absurd hlt (by simp)

/-- One argument's test, at an entry: the comparison of `|x|` with a broadcast `+∞` being one says the entry is real. -/
theorem entry_real {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) :=
  real_of_abs_lt_inf (x i) h

variable [Cert.Pre_finite_inputs.Facts]

/-- The precondition's function being all ones: every entry of each float argument is a real number. -/
theorem finite_of_fn (a0 : FVec Ideal S8192x8192 .f32) (a1 : FVec Ideal S8192x4096 .f32) (a2 : FVec Ideal S4096 .f32)
    (a3 : FVec Ideal S4096x8192 .f32) (a4 : FVec Ideal S8192 .f32) (a5 : IVec S8192 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => entry_real _ a0 i (Host.reduce_andi_all _ _ _ _ _ h0' i),
    fun i => entry_real _ a1 i (Host.reduce_andi_all _ _ _ _ _ h1 i),
    fun i => entry_real _ a2 i (Host.reduce_andi_all _ _ _ _ _ h2 i),
    fun i => entry_real _ a3 i (Host.reduce_andi_all _ _ _ _ _ h3 i),
    fun i => entry_real _ a4 i (Host.reduce_andi_all _ _ _ _ _ h4 i)⟩

/-- Under the kernel's precondition every entry of each of its five float arguments is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  finite_of_fn _ _ _ _ _ _ (h c)

end Cert.Finite

end
-- ==== Proof.lean ====
/-
  A two-layer graph convolution with a segment mean: the tiled kernel against its plain reference.

  With A the 0/1 adjacency of x with ones forced onto its diagonal, deg c = ∑ r, A (r, c) and d = deg ^ (-1/2), the reference
  forms B (r, c) = (d r · A (r, c)) · d c and computes out = Bᵀ · (relu (Bᵀ · (x · W1) + b1) · W2) + b2, then the mean of out's
  rows over the segments `batch` names. The kernel never forms B: four calls of one tiled kernel compute
  Y1 = (x · W1) scaled by d on its rows, h = relu ((Aᵀ · Y1) scaled by d, plus b1), Y2 = (h · W2) scaled, out = (Aᵀ · Y2) scaled,
  plus b2, each call accumulating its product over blocks of the contraction in a scratch that lives across grid points, and the
  same segment mean follows. On the extended reals the two arrangements agree because every factor is a real number: the
  arguments by the precondition, the adjacency's entries being 0 or 1, and each degree at least one; then
  (∑ r, A (r, c) · (Z (r, j) · d r)) · d c = ∑ r, ((d r · A (r, c)) · d c) · Z (r, j) by distributivity, and a sum taken block by block is the
  whole sum.

  The three frames: each kernel program runs as host operations, the four calls, host operations; a call's body is run in its
  three branch patterns (first, inner and last point of a contraction) with the accumulator carried by the call's invariant.
  The ideal pass rewrote nothing, so `preserves` is trivial.
-/
import proofs.«127015_j27917287424727_2_alg».proof.Defs
import proofs.«127015_j27917287424727_2_alg».proof.Proof.Gen.Kernel
import proofs.«127015_j27917287424727_2_alg».proof.Proof.Gen.KernelIdeal
import proofs.«127015_j27917287424727_2_alg».proof.Proof.Gen.ReferenceIdeal
import proofs.«127015_j27917287424727_2_alg».proof.Proof.Gen.Pre_finite_inputs
import proofs.«127015_j27917287424727_2_alg».proof.Proof.Gen.ReferenceIdeal.Read
import proofs.«127015_j27917287424727_2_alg».proof.Proof.KFrame
import proofs.«127015_j27917287424727_2_alg».proof.Proof.BKFrame
import proofs.«127015_j27917287424727_2_alg».proof.Proof.KRun
import proofs.«127015_j27917287424727_2_alg».proof.Proof.RefBridge
import proofs.«127015_j27917287424727_2_alg».proof.Proof.Finite
import Idealize.ShloMosaic.Adequacy
import Idealize.ShloMosaic.Init

noncomputable section

namespace Cert.Proof

open Idealize.ShloMosaic Idealize.SL.Sem

/-- The kernel as printed runs to the end, faults nowhere, and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, both idealized programs end with the specification's function of the
    arguments: the kernel by its four calls' block sums, the reference by distributing the normalized adjacency's two factors
    over finite sums of real numbers. -/
theorem algebraic : Cert.algebraic_KernelIdeal_ReferenceIdeal := by
  intro m ρ m' ρ' hpre hagree
  refine ⟨fun c => Cert.KernelIdeal.KHost.kernelSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KVal.krun m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Cert.Finite.finite_of_pre m hpre c
  rw [Cert.ReferenceIdeal.Read.val_main_v51_eq, (hagree c).1, (hagree c).2.1, (hagree c).2.2.1, (hagree c).2.2.2.1, (hagree c).2.2.2.2.1,
    (hagree c).2.2.2.2.2]
  exact Cert.ReferenceIdeal.RefBridge.ref_eq_kernelSpec _ _ _ _ _ _ h0 h1 h2 h3 h4

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
